-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x256x32 : Shape := ⟨4, ![1, 128, 256, 32]⟩
abbrev S1x4x128x256 : Shape := ⟨4, ![1, 4, 128, 256]⟩
abbrev S1x4x128x256x32 : Shape := ⟨5, ![1, 4, 128, 256, 32]⟩
abbrev S2x128x256x32x32 : Shape := ⟨5, ![2, 128, 256, 32, 32]⟩
abbrev S_ : Shape := ⟨0, ![]⟩

class Facts : Prop where
  bcast_S_S1x128x256x32 : S_.BroadcastsInDim S1x128x256x32 (![] : Fin 0 → Fin S1x128x256x32.rank)
  reducesTo_S1x128x256x32_S_d0_1_2_3 : S1x128x256x32.ReducesTo [0, 1, 2, 3] S_
  h_S_ : 0 < S_.numel
  bcast_S_S1x4x128x256 : S_.BroadcastsInDim S1x4x128x256 (![] : Fin 0 → Fin S1x4x128x256.rank)
  reducesTo_S1x4x128x256_S_d0_1_2_3 : S1x4x128x256.ReducesTo [0, 1, 2, 3] S_
  bcast_S_S1x4x128x256x32 : S_.BroadcastsInDim S1x4x128x256x32 (![] : Fin 0 → Fin S1x4x128x256x32.rank)
  reducesTo_S1x4x128x256x32_S_d0_1_2_3_4 : S1x4x128x256x32.ReducesTo [0, 1, 2, 3, 4] S_
  bcast_S_S2x128x256x32x32 : S_.BroadcastsInDim S2x128x256x32x32 (![] : Fin 0 → Fin S2x128x256x32x32.rank)
  reducesTo_S2x128x256x32x32_S_d0_1_2_3_4 : S2x128x256x32x32.ReducesTo [0, 1, 2, 3, 4] S_

variable [Facts]

def fn_part1 {F : FTy → Type} [FloatOps F] (main_v13 : IVec S_ 1) (main_v16 : IVec S2x128x256x32x32 1) : IVec S_ 1 :=
  let main_c_5 : IVec S_ 1 := constantI S_ 1 1#1
  let main_v17 : IVec S_ 1 := (fun x v => Host.reduce IntOp.andi x v reducesTo_S2x128x256x32x32_S_d0_1_2_3_4 h_S_) main_v16 main_c_5
  let main_v18 : IVec S_ 1 := andi main_v13 main_v17
  main_v18

def fn {F : FTy → Type} [FloatOps F] (main_arg0 : FVec F S1x128x256x32 .f32) (main_arg1 : FVec F S1x4x128x256 .f32) (main_arg2 : FVec F S1x4x128x256x32 .f32) (main_arg3 : FVec F S2x128x256x32x32 .f32) : IVec S_ 1 :=
  let main_v0 : FVec F S1x128x256x32 .f32 := Host.absf main_arg0
  let main_cst : FVec F S_ .f32 := constant S_ .f32 0x7F800000#32
  let main_v1 : FVec F S1x128x256x32 .f32 := broadcastInDim S1x128x256x32 ![] bcast_S_S1x128x256x32 main_cst
  let main_v2 : IVec S1x128x256x32 1 := cmpf .olt main_v0 main_v1
  let main_c : IVec S_ 1 := constantI S_ 1 1#1
  let main_v3 : IVec S_ 1 := (fun x v => Host.reduce IntOp.andi x v reducesTo_S1x128x256x32_S_d0_1_2_3 h_S_) main_v2 main_c
  let main_v4 : FVec F S1x4x128x256 .f32 := Host.absf main_arg1
  let main_cst_0 : FVec F S_ .f32 := constant S_ .f32 0x7F800000#32
  let main_v5 : FVec F S1x4x128x256 .f32 := broadcastInDim S1x4x128x256 ![] bcast_S_S1x4x128x256 main_cst_0
  let main_v6 : IVec S1x4x128x256 1 := cmpf .olt main_v4 main_v5
  let main_c_1 : IVec S_ 1 := constantI S_ 1 1#1
  let main_v7 : IVec S_ 1 := (fun x v => Host.reduce IntOp.andi x v reducesTo_S1x4x128x256_S_d0_1_2_3 h_S_) main_v6 main_c_1
  let main_v8 : IVec S_ 1 := andi main_v3 main_v7
  let main_v9 : FVec F S1x4x128x256x32 .f32 := Host.absf main_arg2
  let main_cst_2 : FVec F S_ .f32 := constant S_ .f32 0x7F800000#32
  let main_v10 : FVec F S1x4x128x256x32 .f32 := broadcastInDim S1x4x128x256x32 ![] bcast_S_S1x4x128x256x32 main_cst_2
  let main_v11 : IVec S1x4x128x256x32 1 := cmpf .olt main_v9 main_v10
  let main_c_3 : IVec S_ 1 := constantI S_ 1 1#1
  let main_v12 : IVec S_ 1 := (fun x v => Host.reduce IntOp.andi x v reducesTo_S1x4x128x256x32_S_d0_1_2_3_4 h_S_) main_v11 main_c_3
  let main_v13 : IVec S_ 1 := andi main_v8 main_v12
  let main_v14 : FVec F S2x128x256x32x32 .f32 := Host.absf main_arg3
  let main_cst_4 : FVec F S_ .f32 := constant S_ .f32 0x7F800000#32
  let main_v15 : FVec F S2x128x256x32x32 .f32 := broadcastInDim S2x128x256x32x32 ![] bcast_S_S2x128x256x32x32 main_cst_4
  let main_v16 : IVec S2x128x256x32x32 1 := cmpf .olt main_v14 main_v15
  fn_part1 (F := F) main_v13 main_v16
-- ==== Kernel.lean ====
abbrev S1x128x256x32 : Shape := ⟨4, ![1, 128, 256, 32]⟩
abbrev S1x4x128x256 : Shape := ⟨4, ![1, 4, 128, 256]⟩
abbrev S1x4x128x256x32 : Shape := ⟨5, ![1, 4, 128, 256, 32]⟩
abbrev S2x128x256x32x32 : Shape := ⟨5, ![2, 128, 256, 32, 32]⟩
abbrev S1x128x256x32x32 : Shape := ⟨5, ![1, 128, 256, 32, 32]⟩
abbrev S128x256x32x32 : Shape := ⟨4, ![128, 256, 32, 32]⟩
abbrev S128x255x32x32 : Shape := ⟨4, ![128, 255, 32, 32]⟩
abbrev S_ : Shape := ⟨0, ![]⟩
abbrev S127x256x32x32 : Shape := ⟨4, ![127, 256, 32, 32]⟩
abbrev S4x128x256x32x32 : Shape := ⟨5, ![4, 128, 256, 32, 32]⟩
abbrev S1x128x4x256 : Shape := ⟨4, ![1, 128, 4, 256]⟩
abbrev S1x1x256x32 : Shape := ⟨4, ![1, 1, 256, 32]⟩
abbrev S1x1x4x256 : Shape := ⟨4, ![1, 1, 4, 256]⟩
abbrev S1x4x1x256x32 : Shape := ⟨5, ![1, 4, 1, 256, 32]⟩
abbrev S4x1x256x32x32 : Shape := ⟨5, ![4, 1, 256, 32, 32]⟩
abbrev S1x1x1x256x32 : Shape := ⟨5, ![1, 1, 1, 256, 32]⟩
abbrev S1x1x256x32x32 : Shape := ⟨5, ![1, 1, 256, 32, 32]⟩
abbrev S1x256x32x32 : Shape := ⟨4, ![1, 256, 32, 32]⟩
abbrev S1x1x1x256 : Shape := ⟨4, ![1, 1, 1, 256]⟩
abbrev S1x1x256 : Shape := ⟨3, ![1, 1, 256]⟩
abbrev S1x1x256x32x1 : Shape := ⟨5, ![1, 1, 256, 32, 1]⟩
abbrev S1x1x256x1x1 : Shape := ⟨5, ![1, 1, 256, 1, 1]⟩
abbrev S1x1x256x1 : Shape := ⟨4, ![1, 1, 256, 1]⟩
abbrev S1x1x128x255x32 : Shape := ⟨5, ![1, 1, 128, 255, 32]⟩
abbrev S1x128x255x32 : Shape := ⟨4, ![1, 128, 255, 32]⟩
abbrev S1x1x127x256x32 : Shape := ⟨5, ![1, 1, 127, 256, 32]⟩
abbrev S1x127x256x32 : Shape := ⟨4, ![1, 127, 256, 32]⟩
abbrev S1x1x128x256x32 : Shape := ⟨5, ![1, 1, 128, 256, 32]⟩
abbrev S1x128x256 : Shape := ⟨3, ![1, 128, 256]⟩
abbrev S1x128x256x1 : Shape := ⟨4, ![1, 128, 256, 1]⟩

abbrev nBuf : Space → Nat
  | .hbm => 125
  | .vmem => 30
  | .smem => 0
  | _ => 0

abbrev bufTy : (tb : Table) → Fin (tcTables nBuf tb) → BufTy
  | .hbm, ⟨0, _⟩ => ⟨S1x128x256x32, .f32⟩
  | .hbm, ⟨1, _⟩ => ⟨S1x4x128x256, .f32⟩
  | .hbm, ⟨2, _⟩ => ⟨S1x4x128x256x32, .f32⟩
  | .hbm, ⟨3, _⟩ => ⟨S2x128x256x32x32, .f32⟩
  | .hbm, ⟨4, _⟩ => ⟨S1x128x256x32, .f32⟩
  | .hbm, ⟨5, _⟩ => ⟨S1x128x256x32x32, .f32⟩
  | .hbm, ⟨6, _⟩ => ⟨S128x256x32x32, .f32⟩
  | .hbm, ⟨7, _⟩ => ⟨S1x128x256x32x32, .f32⟩
  | .hbm, ⟨8, _⟩ => ⟨S128x256x32x32, .f32⟩
  | .hbm, ⟨9, _⟩ => ⟨S128x255x32x32, .f32⟩
  | .hbm, ⟨10, _⟩ => ⟨S128x255x32x32, .f32⟩
  | .hbm, ⟨11, _⟩ => ⟨S_, .i32⟩
  | .hbm, ⟨12, _⟩ => ⟨S_, .f32⟩
  | .hbm, ⟨13, _⟩ => ⟨S128x256x32x32, .f32⟩
  | .hbm, ⟨14, _⟩ => ⟨S1x128x256x32x32, .f32⟩
  | .hbm, ⟨15, _⟩ => ⟨S128x256x32x32, .f32⟩
  | .hbm, ⟨16, _⟩ => ⟨S1x128x256x32x32, .f32⟩
  | .hbm, ⟨17, _⟩ => ⟨S128x256x32x32, .f32⟩
  | .hbm, ⟨18, _⟩ => ⟨S127x256x32x32, .f32⟩
  | .hbm, ⟨19, _⟩ => ⟨S127x256x32x32, .f32⟩
  | .hbm, ⟨20, _⟩ => ⟨S_, .i32⟩
  | .hbm, ⟨21, _⟩ => ⟨S_, .f32⟩
  | .hbm, ⟨22, _⟩ => ⟨S128x256x32x32, .f32⟩
  | .hbm, ⟨23, _⟩ => ⟨S1x128x256x32x32, .f32⟩
  | .hbm, ⟨24, _⟩ => ⟨S1x128x256x32x32, .f32⟩
  | .hbm, ⟨25, _⟩ => ⟨S1x128x256x32x32, .f32⟩
  | .hbm, ⟨26, _⟩ => ⟨S1x128x256x32x32, .f32⟩
  | .hbm, ⟨27, _⟩ => ⟨S4x128x256x32x32, .f32⟩
  | .hbm, ⟨28, _⟩ => ⟨S1x128x4x256, .f32⟩
  | .hbm, ⟨29, _⟩ => ⟨S1x4x128x256x32, .f32⟩
  | .hbm, ⟨30, _⟩ => ⟨S1x1x128x255x32, .f32⟩
  | .hbm, ⟨31, _⟩ => ⟨S1x128x255x32, .f32⟩
  | .hbm, ⟨32, _⟩ => ⟨S_, .i32⟩
  | .hbm, ⟨33, _⟩ => ⟨S_, .f32⟩
  | .hbm, ⟨34, _⟩ => ⟨S1x128x256x32, .f32⟩
  | .hbm, ⟨35, _⟩ => ⟨S1x1x128x255x32, .f32⟩
  | .hbm, ⟨36, _⟩ => ⟨S1x128x255x32, .f32⟩
  | .hbm, ⟨37, _⟩ => ⟨S_, .i32⟩
  | .hbm, ⟨38, _⟩ => ⟨S_, .f32⟩
  | .hbm, ⟨39, _⟩ => ⟨S1x128x256x32, .f32⟩
  | .hbm, ⟨40, _⟩ => ⟨S1x1x127x256x32, .f32⟩
  | .hbm, ⟨41, _⟩ => ⟨S1x127x256x32, .f32⟩
  | .hbm, ⟨42, _⟩ => ⟨S_, .i32⟩
  | .hbm, ⟨43, _⟩ => ⟨S_, .f32⟩
  | .hbm, ⟨44, _⟩ => ⟨S1x128x256x32, .f32⟩
  | .hbm, ⟨45, _⟩ => ⟨S1x1x127x256x32, .f32⟩
  | .hbm, ⟨46, _⟩ => ⟨S1x127x256x32, .f32⟩
  | .hbm, ⟨47, _⟩ => ⟨S_, .i32⟩
  | .hbm, ⟨48, _⟩ => ⟨S_, .f32⟩
  | .hbm, ⟨49, _⟩ => ⟨S1x128x256x32, .f32⟩
  | .hbm, ⟨50, _⟩ => ⟨S1x1x128x256x32, .f32⟩
  | .hbm, ⟨51, _⟩ => ⟨S1x1x128x256x32, .f32⟩
  | .hbm, ⟨52, _⟩ => ⟨S1x1x128x256x32, .f32⟩
  | .hbm, ⟨53, _⟩ => ⟨S1x1x128x256x32, .f32⟩
  | .hbm, ⟨54, _⟩ => ⟨S1x4x128x256x32, .f32⟩
  | .hbm, ⟨55, _⟩ => ⟨S1x4x128x256x32, .f32⟩
  | .hbm, ⟨56, _⟩ => ⟨S1x1x128x255x32, .f32⟩
  | .hbm, ⟨57, _⟩ => ⟨S1x128x255x32, .f32⟩
  | .hbm, ⟨58, _⟩ => ⟨S_, .i32⟩
  | .hbm, ⟨59, _⟩ => ⟨S_, .f32⟩
  | .hbm, ⟨60, _⟩ => ⟨S1x128x256x32, .f32⟩
  | .hbm, ⟨61, _⟩ => ⟨S1x1x128x255x32, .f32⟩
  | .hbm, ⟨62, _⟩ => ⟨S1x128x255x32, .f32⟩
  | .hbm, ⟨63, _⟩ => ⟨S_, .i32⟩
  | .hbm, ⟨64, _⟩ => ⟨S_, .f32⟩
  | .hbm, ⟨65, _⟩ => ⟨S1x128x256x32, .f32⟩
  | .hbm, ⟨66, _⟩ => ⟨S1x1x127x256x32, .f32⟩
  | .hbm, ⟨67, _⟩ => ⟨S1x127x256x32, .f32⟩
  | .hbm, ⟨68, _⟩ => ⟨S_, .i32⟩
  | .hbm, ⟨69, _⟩ => ⟨S_, .f32⟩
  | .hbm, ⟨70, _⟩ => ⟨S1x128x256x32, .f32⟩
  | .hbm, ⟨71, _⟩ => ⟨S1x1x127x256x32, .f32⟩
  | .hbm, ⟨72, _⟩ => ⟨S1x127x256x32, .f32⟩
  | .hbm, ⟨73, _⟩ => ⟨S_, .i32⟩
  | .hbm, ⟨74, _⟩ => ⟨S_, .f32⟩
  | .hbm, ⟨75, _⟩ => ⟨S1x128x256x32, .f32⟩
  | .hbm, ⟨76, _⟩ => ⟨S1x1x128x256x32, .f32⟩
  | .hbm, ⟨77, _⟩ => ⟨S1x1x128x256x32, .f32⟩
  | .hbm, ⟨78, _⟩ => ⟨S1x1x128x256x32, .f32⟩
  | .hbm, ⟨79, _⟩ => ⟨S1x1x128x256x32, .f32⟩
  | .hbm, ⟨80, _⟩ => ⟨S1x4x128x256x32, .f32⟩
  | .hbm, ⟨81, _⟩ => ⟨S1x4x128x256x32, .f32⟩
  | .hbm, ⟨82, _⟩ => ⟨S1x1x128x255x32, .f32⟩
  | .hbm, ⟨83, _⟩ => ⟨S1x128x255x32, .f32⟩
  | .hbm, ⟨84, _⟩ => ⟨S_, .i32⟩
  | .hbm, ⟨85, _⟩ => ⟨S_, .f32⟩
  | .hbm, ⟨86, _⟩ => ⟨S1x128x256x32, .f32⟩
  | .hbm, ⟨87, _⟩ => ⟨S1x1x128x255x32, .f32⟩
  | .hbm, ⟨88, _⟩ => ⟨S1x128x255x32, .f32⟩
  | .hbm, ⟨89, _⟩ => ⟨S_, .i32⟩
  | .hbm, ⟨90, _⟩ => ⟨S_, .f32⟩
  | .hbm, ⟨91, _⟩ => ⟨S1x128x256x32, .f32⟩
  | .hbm, ⟨92, _⟩ => ⟨S1x1x127x256x32, .f32⟩
  | .hbm, ⟨93, _⟩ => ⟨S1x127x256x32, .f32⟩
  | .hbm, ⟨94, _⟩ => ⟨S_, .i32⟩
  | .hbm, ⟨95, _⟩ => ⟨S_, .f32⟩
  | .hbm, ⟨96, _⟩ => ⟨S1x128x256x32, .f32⟩
  | .hbm, ⟨97, _⟩ => ⟨S1x1x127x256x32, .f32⟩
  | .hbm, ⟨98, _⟩ => ⟨S1x127x256x32, .f32⟩
  | .hbm, ⟨99, _⟩ => ⟨S_, .i32⟩
  | .hbm, ⟨100, _⟩ => ⟨S_, .f32⟩
  | .hbm, ⟨101, _⟩ => ⟨S1x128x256x32, .f32⟩
  | .hbm, ⟨102, _⟩ => ⟨S1x1x128x256x32, .f32⟩
  | .hbm, ⟨103, _⟩ => ⟨S1x1x128x256x32, .f32⟩
  | .hbm, ⟨104, _⟩ => ⟨S1x1x128x256x32, .f32⟩
  | .hbm, ⟨105, _⟩ => ⟨S1x1x128x256x32, .f32⟩
  | .hbm, ⟨106, _⟩ => ⟨S1x4x128x256x32, .f32⟩
  | .hbm, ⟨107, _⟩ => ⟨S_, .f32⟩
  | .hbm, ⟨108, _⟩ => ⟨S1x128x256x32, .f32⟩
  | .hbm, ⟨109, _⟩ => ⟨S1x128x256x32, .f32⟩
  | .hbm, ⟨110, _⟩ => ⟨S1x128x256x32, .f32⟩
  | .hbm, ⟨111, _⟩ => ⟨S_, .f32⟩
  | .hbm, ⟨112, _⟩ => ⟨S1x128x256, .f32⟩
  | .hbm, ⟨113, _⟩ => ⟨S_, .f32⟩
  | .hbm, ⟨114, _⟩ => ⟨S1x128x256, .f32⟩
  | .hbm, ⟨115, _⟩ => ⟨S1x128x256, .f32⟩
  | .hbm, ⟨116, _⟩ => ⟨S1x128x256x1, .f32⟩
  | .hbm, ⟨117, _⟩ => ⟨S1x128x256x32, .f32⟩
  | .hbm, ⟨118, _⟩ => ⟨S1x128x256x32, .f32⟩
  | .hbm, ⟨119, _⟩ => ⟨S1x128x256x32, .f32⟩
  | .hbm, ⟨120, _⟩ => ⟨S_, .f32⟩
  | .hbm, ⟨121, _⟩ => ⟨S1x128x256, .f32⟩
  | .hbm, ⟨122, _⟩ => ⟨S1x128x256x1, .f32⟩
  | .hbm, ⟨123, _⟩ => ⟨S1x128x256x32, .f32⟩
  | .hbm, ⟨124, _⟩ => ⟨S1x128x256x32, .f32⟩
  | .local _ .vmem, ⟨0, _⟩ => ⟨S1x1x256x32, .f32⟩
  | .local _ .vmem, ⟨1, _⟩ => ⟨S1x1x256x32, .f32⟩
  | .local _ .vmem, ⟨2, _⟩ => ⟨S1x1x4x256, .f32⟩
  | .local _ .vmem, ⟨3, _⟩ => ⟨S1x1x4x256, .f32⟩
  | .local _ .vmem, ⟨4, _⟩ => ⟨S1x4x1x256x32, .f32⟩
  | .local _ .vmem, ⟨5, _⟩ => ⟨S1x4x1x256x32, .f32⟩
  | .local _ .vmem, ⟨6, _⟩ => ⟨S4x1x256x32x32, .f32⟩
  | .local _ .vmem, ⟨7, _⟩ => ⟨S4x1x256x32x32, .f32⟩
  | .local _ .vmem, ⟨8, _⟩ => ⟨S1x4x1x256x32, .f32⟩
  | .local _ .vmem, ⟨9, _⟩ => ⟨S1x4x1x256x32, .f32⟩
  | .local _ .vmem, ⟨10, _⟩ => ⟨S1x1x256x32, .f32⟩
  | .local _ .vmem, ⟨11, _⟩ => ⟨S1x1x256x32, .f32⟩
  | .local _ .vmem, ⟨12, _⟩ => ⟨S1x1x4x256, .f32⟩
  | .local _ .vmem, ⟨13, _⟩ => ⟨S1x1x4x256, .f32⟩
  | .local _ .vmem, ⟨14, _⟩ => ⟨S1x4x1x256x32, .f32⟩
  | .local _ .vmem, ⟨15, _⟩ => ⟨S1x4x1x256x32, .f32⟩
  | .local _ .vmem, ⟨16, _⟩ => ⟨S4x1x256x32x32, .f32⟩
  | .local _ .vmem, ⟨17, _⟩ => ⟨S4x1x256x32x32, .f32⟩
  | .local _ .vmem, ⟨18, _⟩ => ⟨S1x4x1x256x32, .f32⟩
  | .local _ .vmem, ⟨19, _⟩ => ⟨S1x4x1x256x32, .f32⟩
  | .local _ .vmem, ⟨20, _⟩ => ⟨S1x1x256x32, .f32⟩
  | .local _ .vmem, ⟨21, _⟩ => ⟨S1x1x256x32, .f32⟩
  | .local _ .vmem, ⟨22, _⟩ => ⟨S1x1x4x256, .f32⟩
  | .local _ .vmem, ⟨23, _⟩ => ⟨S1x1x4x256, .f32⟩
  | .local _ .vmem, ⟨24, _⟩ => ⟨S1x4x1x256x32, .f32⟩
  | .local _ .vmem, ⟨25, _⟩ => ⟨S1x4x1x256x32, .f32⟩
  | .local _ .vmem, ⟨26, _⟩ => ⟨S4x1x256x32x32, .f32⟩
  | .local _ .vmem, ⟨27, _⟩ => ⟨S4x1x256x32x32, .f32⟩
  | .local _ .vmem, ⟨28, _⟩ => ⟨S1x4x1x256x32, .f32⟩
  | .local _ .vmem, ⟨29, _⟩ => ⟨S1x4x1x256x32, .f32⟩
  | _, _ => ⟨S1x128x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_call2_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_call3_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_call4_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call5_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_call6_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_call7_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_call8_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_call9_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_call10_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_call11_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_call12_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_call13_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S1x1x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x256x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_3 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_4 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage1_0 : Fin 2 → Memref sig .tc .vmem S1x1x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x1x256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x1x256x32x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4x1x256x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc2_transform_3 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc2_transform_4 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage2_0 : Fin 2 → Memref sig .tc .vmem S1x1x256x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4x1x256x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x1x256x32x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4x1x256x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x128x256x32x32_S1x128x256x32x32_0_0_0_0_0 : S2x128x256x32x32.Slices ![0, 0, 0, 0, 0] S1x128x256x32x32
  shapeCasts_S1x128x256x32x32_S128x256x32x32 : S1x128x256x32x32.ShapeCasts S128x256x32x32
  slices_S128x256x32x32_S128x255x32x32_0_0_0_0 : S128x256x32x32.Slices ![0, 0, 0, 0] S128x255x32x32
  transposes_S128x255x32x32_S128x255x32x32_0_1_3_2 : S128x255x32x32.Transposes [0, 1, 3, 2] S128x255x32x32
  pads_S128x255x32x32_S128x256x32x32_000_100_000_000 : S128x255x32x32.Pads (![0, 1, 0, 0] : Fin 4 → Nat) ![0, 0, 0, 0] ![0, 0, 0, 0] S128x256x32x32
  h_S_ : 0 < S_.numel
  slices_S2x128x256x32x32_S1x128x256x32x32_1_0_0_0_0 : S2x128x256x32x32.Slices ![1, 0, 0, 0, 0] S1x128x256x32x32
  slices_S128x256x32x32_S127x256x32x32_0_0_0_0 : S128x256x32x32.Slices ![0, 0, 0, 0] S127x256x32x32
  transposes_S127x256x32x32_S127x256x32x32_0_1_3_2 : S127x256x32x32.Transposes [0, 1, 3, 2] S127x256x32x32
  pads_S127x256x32x32_S128x256x32x32_100_000_000_000 : S127x256x32x32.Pads (![1, 0, 0, 0] : Fin 4 → Nat) ![0, 0, 0, 0] ![0, 0, 0, 0] S128x256x32x32
  bcast_S128x256x32x32_S1x128x256x32x32_1_2_3_4 : S128x256x32x32.BroadcastsInDim S1x128x256x32x32 (![1, 2, 3, 4] : Fin 4 → Fin S1x128x256x32x32.rank)
  concatenates_S1x128x256x32x32_S1x128x256x32x32_S1x128x256x32x32_S1x128x256x32x32_S4x128x256x32x32_d0 : Shape.Concatenates [S1x128x256x32x32, S1x128x256x32x32, S1x128x256x32x32, S1x128x256x32x32] S4x128x256x32x32 0
  transposes_S1x4x128x256_S1x128x4x256_0_2_1_3 : S1x4x128x256.Transposes [0, 2, 1, 3] S1x128x4x256
  inb_S1x1x256x32_S1x1x256x32_0_0_0_0 : ∀ a, (![0, 0, 0, 0] : Fin 4 → Nat) a + S1x1x256x32.size a ≤ S1x1x256x32.size a
  h_S1x1x256x32 : 0 < S1x1x256x32.numel
  shapeCasts_S1x1x256x32_S1x1x256x32 : S1x1x256x32.ShapeCasts S1x1x256x32
  inb_S1x1x4x256_S1x1x4x256_0_0_0_0 : ∀ a, (![0, 0, 0, 0] : Fin 4 → Nat) a + S1x1x4x256.size a ≤ S1x1x4x256.size a
  h_S1x1x4x256 : 0 < S1x1x4x256.numel
  shapeCasts_S1x1x4x256_S1x1x4x256 : S1x1x4x256.ShapeCasts S1x1x4x256
  inb_S1x4x1x256x32_S1x4x1x256x32_0_0_0_0_0 : ∀ a, (![0, 0, 0, 0, 0] : Fin 5 → Nat) a + S1x4x1x256x32.size a ≤ S1x4x1x256x32.size a
  h_S1x4x1x256x32 : 0 < S1x4x1x256x32.numel
  reduces_S1x4x1x256x32_S1x1x256x32 : S1x4x1x256x32.Reduces [1] S1x1x256x32
  slices_S1x4x1x256x32_o0_1_0_0_0_S1x1x1x256x32 : S1x4x1x256x32.Slices ![0, 1, 0, 0, 0] S1x1x1x256x32
  shapeCasts_S1x1x1x256x32_S1x1x256x32 : S1x1x1x256x32.ShapeCasts S1x1x256x32
  inb_S4x1x256x32x32_S1x1x256x32x32_0_0_0_0_0 : ∀ a, (![0, 0, 0, 0, 0] : Fin 5 → Nat) a + S1x1x256x32x32.size a ≤ S4x1x256x32x32.size a
  h_S1x1x256x32x32 : 0 < S1x1x256x32x32.numel
  shapeCasts_S1x1x256x32x32_S1x256x32x32 : S1x1x256x32x32.ShapeCasts S1x256x32x32
  slices_S1x1x4x256_o0_0_0_0_S1x1x1x256 : S1x1x4x256.Slices ![0, 0, 0, 0] S1x1x1x256
  shapeCasts_S1x1x1x256_S1x1x256 : S1x1x1x256.ShapeCasts S1x1x256
  shapeCasts_S1x1x256x32_S1x1x256x32x1 : S1x1x256x32.ShapeCasts S1x1x256x32x1
  shapeCasts_S1x1x256_S1x1x256x1x1 : S1x1x256.ShapeCasts S1x1x256x1x1
  shapeCasts_S1x256x32x32_S1x1x256x32x32 : S1x256x32x32.ShapeCasts S1x1x256x32x32
  broadcasts_S1x1x256x1x1_S1x1x256x32x32 : S1x1x256x1x1.Broadcasts S1x1x256x32x32
  broadcasts_S1x1x256x32x1_S1x1x256x32x32 : S1x1x256x32x1.Broadcasts S1x1x256x32x32
  reduces_S1x1x256x32x32_S1x1x256x32 : S1x1x256x32x32.Reduces [3] S1x1x256x32
  reduces_S1x1x256x32_S1x1x256 : S1x1x256x32.Reduces [3] S1x1x256
  shapeCasts_S1x1x256_S1x1x256x1 : S1x1x256.ShapeCasts S1x1x256x1
  broadcasts_S1x1x256x1_S1x1x256x32 : S1x1x256x1.Broadcasts S1x1x256x32
  inb_S1x4x1x256x32_S1x1x1x256x32_0_0_0_0_0 : ∀ a, (![0, 0, 0, 0, 0] : Fin 5 → Nat) a + S1x1x1x256x32.size a ≤ S1x4x1x256x32.size a
  h_S1x1x1x256x32 : 0 < S1x1x1x256x32.numel
  shapeCasts_S1x1x256x32_S1x1x1x256x32 : S1x1x256x32.ShapeCasts S1x1x1x256x32
  slices_S1x4x1x256x32_o0_0_0_0_0_S1x1x1x256x32 : S1x4x1x256x32.Slices ![0, 0, 0, 0, 0] S1x1x1x256x32
  inb_S4x1x256x32x32_S1x1x256x32x32_1_0_0_0_0 : ∀ a, (![1, 0, 0, 0, 0] : Fin 5 → Nat) a + S1x1x256x32x32.size a ≤ S4x1x256x32x32.size a
  slices_S1x1x4x256_o0_0_1_0_S1x1x1x256 : S1x1x4x256.Slices ![0, 0, 1, 0] S1x1x1x256
  inb_S1x4x1x256x32_S1x1x1x256x32_0_1_0_0_0 : ∀ a, (![0, 1, 0, 0, 0] : Fin 5 → Nat) a + S1x1x1x256x32.size a ≤ S1x4x1x256x32.size a
  slices_S1x4x1x256x32_o0_3_0_0_0_S1x1x1x256x32 : S1x4x1x256x32.Slices ![0, 3, 0, 0, 0] S1x1x1x256x32
  inb_S4x1x256x32x32_S1x1x256x32x32_2_0_0_0_0 : ∀ a, (![2, 0, 0, 0, 0] : Fin 5 → Nat) a + S1x1x256x32x32.size a ≤ S4x1x256x32x32.size a
  slices_S1x1x4x256_o0_0_2_0_S1x1x1x256 : S1x1x4x256.Slices ![0, 0, 2, 0] S1x1x1x256
  inb_S1x4x1x256x32_S1x1x1x256x32_0_2_0_0_0 : ∀ a, (![0, 2, 0, 0, 0] : Fin 5 → Nat) a + S1x1x1x256x32.size a ≤ S1x4x1x256x32.size a
  slices_S1x4x1x256x32_o0_2_0_0_0_S1x1x1x256x32 : S1x4x1x256x32.Slices ![0, 2, 0, 0, 0] S1x1x1x256x32
  inb_S4x1x256x32x32_S1x1x256x32x32_3_0_0_0_0 : ∀ a, (![3, 0, 0, 0, 0] : Fin 5 → Nat) a + S1x1x256x32x32.size a ≤ S4x1x256x32x32.size a
  slices_S1x1x4x256_o0_0_3_0_S1x1x1x256 : S1x1x4x256.Slices ![0, 0, 3, 0] S1x1x1x256
  inb_S1x4x1x256x32_S1x1x1x256x32_0_3_0_0_0 : ∀ a, (![0, 3, 0, 0, 0] : Fin 5 → Nat) a + S1x1x1x256x32.size a ≤ S1x4x1x256x32.size a
  slices_S1x4x128x256x32_S1x1x128x255x32_0_0_0_0_0 : S1x4x128x256x32.Slices ![0, 0, 0, 0, 0] S1x1x128x255x32
  shapeCasts_S1x1x128x255x32_S1x128x255x32 : S1x1x128x255x32.ShapeCasts S1x128x255x32
  pads_S1x128x255x32_S1x128x256x32_000_000_100_000 : S1x128x255x32.Pads (![0, 0, 1, 0] : Fin 4 → Nat) ![0, 0, 0, 0] ![0, 0, 0, 0] S1x128x256x32
  slices_S1x4x128x256x32_S1x1x128x255x32_0_1_0_1_0 : S1x4x128x256x32.Slices ![0, 1, 0, 1, 0] S1x1x128x255x32
  pads_S1x128x255x32_S1x128x256x32_000_000_010_000 : S1x128x255x32.Pads (![0, 0, 0, 0] : Fin 4 → Nat) ![0, 0, 1, 0] ![0, 0, 0, 0] S1x128x256x32
  slices_S1x4x128x256x32_S1x1x127x256x32_0_2_0_0_0 : S1x4x128x256x32.Slices ![0, 2, 0, 0, 0] S1x1x127x256x32
  shapeCasts_S1x1x127x256x32_S1x127x256x32 : S1x1x127x256x32.ShapeCasts S1x127x256x32
  pads_S1x127x256x32_S1x128x256x32_000_100_000_000 : S1x127x256x32.Pads (![0, 1, 0, 0] : Fin 4 → Nat) ![0, 0, 0, 0] ![0, 0, 0, 0] S1x128x256x32
  slices_S1x4x128x256x32_S1x1x127x256x32_0_3_1_0_0 : S1x4x128x256x32.Slices ![0, 3, 1, 0, 0] S1x1x127x256x32
  pads_S1x127x256x32_S1x128x256x32_000_010_000_000 : S1x127x256x32.Pads (![0, 0, 0, 0] : Fin 4 → Nat) ![0, 1, 0, 0] ![0, 0, 0, 0] S1x128x256x32
  bcast_S1x128x256x32_S1x1x128x256x32_0_2_3_4 : S1x128x256x32.BroadcastsInDim S1x1x128x256x32 (![0, 2, 3, 4] : Fin 4 → Fin S1x1x128x256x32.rank)
  concatenates_S1x1x128x256x32_S1x1x128x256x32_S1x1x128x256x32_S1x1x128x256x32_S1x4x128x256x32_d1 : Shape.Concatenates [S1x1x128x256x32, S1x1x128x256x32, S1x1x128x256x32, S1x1x128x256x32] S1x4x128x256x32 1
  shapeCasts_S1x4x1x256x32_S1x4x1x256x32 : S1x4x1x256x32.ShapeCasts S1x4x1x256x32
  reducesTo_S1x4x128x256x32_S1x128x256x32_d1 : S1x4x128x256x32.ReducesTo [1] S1x128x256x32
  reducesTo_S1x128x256x32_S1x128x256_d3 : S1x128x256x32.ReducesTo [3] S1x128x256
  bcast_S_S1x128x256 : S_.BroadcastsInDim S1x128x256 (![] : Fin 0 → Fin S1x128x256.rank)
  bcast_S1x128x256_S1x128x256x1_0_1_2 : S1x128x256.BroadcastsInDim S1x128x256x1 (![0, 1, 2] : Fin 3 → Fin S1x128x256x1.rank)
  bcast_S1x128x256x1_S1x128x256x32_0_1_2_3 : S1x128x256x1.BroadcastsInDim S1x128x256x32 (![0, 1, 2, 3] : Fin 4 → Fin S1x128x256x32.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x32.size a ≤ S1x128x256x32.size a
  hwx0_0 : ∀ i : grid0.Coords, EltTy.bits .f32 = 32 ∨ (Rect.block (s := S1x128x256x32) S1x1x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4x256.size a ≤ S1x128x4x256.size a
  hwx0_1 : ∀ i : grid0.Coords, EltTy.bits .f32 = 32 ∨ (Rect.block (s := S1x128x4x256) S1x1x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1x256x32.size a ≤ S1x4x128x256x32.size a
  hwx0_2 : ∀ i : grid0.Coords, EltTy.bits .f32 = 32 ∨ (Rect.block (s := S1x4x128x256x32) S1x4x1x256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256x32x32.size a ≤ S4x128x256x32x32.size a
  hwx0_3 : ∀ i : grid0.Coords, EltTy.bits .f32 = 32 ∨ (Rect.block (s := S4x128x256x32x32) S4x1x256x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1x256x32.size a ≤ S1x4x128x256x32.size a
  hwx0_4 : ∀ i : grid0.Coords, EltTy.bits .f32 = 32 ∨ (Rect.block (s := S1x4x128x256x32) S1x4x1x256x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x32.size a ≤ S1x128x256x32.size a
  hwx1_0 : ∀ i : grid1.Coords, EltTy.bits .f32 = 32 ∨ (Rect.block (s := S1x128x256x32) S1x1x256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4x256.size a ≤ S1x128x4x256.size a
  hwx1_1 : ∀ i : grid1.Coords, EltTy.bits .f32 = 32 ∨ (Rect.block (s := S1x128x4x256) S1x1x4x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x1x256x32.size a ≤ S1x4x128x256x32.size a
  hwx1_2 : ∀ i : grid1.Coords, EltTy.bits .f32 = 32 ∨ (Rect.block (s := S1x4x128x256x32) S1x4x1x256x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1x256x32x32.size a ≤ S4x128x256x32x32.size a
  hwx1_3 : ∀ i : grid1.Coords, EltTy.bits .f32 = 32 ∨ (Rect.block (s := S4x128x256x32x32) S4x1x256x32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4x1x256x32.size a ≤ S1x4x128x256x32.size a
  hwx1_4 : ∀ i : grid1.Coords, EltTy.bits .f32 = 32 ∨ (Rect.block (s := S1x4x128x256x32) S1x4x1x256x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x256x32.size a ≤ S1x128x256x32.size a
  hwx2_0 : ∀ i : grid2.Coords, EltTy.bits .f32 = 32 ∨ (Rect.block (s := S1x128x256x32) S1x1x256x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x4x256.size a ≤ S1x128x4x256.size a
  hwx2_1 : ∀ i : grid2.Coords, EltTy.bits .f32 = 32 ∨ (Rect.block (s := S1x128x4x256) S1x1x4x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4x1x256x32.size a ≤ S1x4x128x256x32.size a
  hwx2_2 : ∀ i : grid2.Coords, EltTy.bits .f32 = 32 ∨ (Rect.block (s := S1x4x128x256x32) S1x4x1x256x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x1x256x32x32.size a ≤ S4x128x256x32x32.size a
  hwx2_3 : ∀ i : grid2.Coords, EltTy.bits .f32 = 32 ∨ (Rect.block (s := S4x128x256x32x32) S4x1x256x32x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4x1x256x32.size a ≤ S1x4x128x256x32.size a
  hwx2_4 : ∀ i : grid2.Coords, EltTy.bits .f32 = 32 ∨ (Rect.block (s := S1x4x128x256x32) S1x4x1x256x32.size (cc2_transform_4 i) (hinb2_4 i)).WholeWords (EltTy.packing .f32)

variable [Facts₀]

abbrev win0_0 : Pipeline.Window sig grid0 :=
  Pipeline.Window.ofSpec (Memref.whole main_v0) S1x1x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x1x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4x1x256x32x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x4x1x256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x1x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x1x4x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x4x1x256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S4x1x256x32x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x4x1x256x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1x1x256x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x1x4x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x4x1x256x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S4x1x256x32x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x4x1x256x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x128x256x32 : Shape := ⟨4, ![1, 128, 256, 32]⟩
abbrev S1x4x128x256 : Shape := ⟨4, ![1, 4, 128, 256]⟩
abbrev S1x4x128x256x32 : Shape := ⟨5, ![1, 4, 128, 256, 32]⟩
abbrev S2x128x256x32x32 : Shape := ⟨5, ![2, 128, 256, 32, 32]⟩
abbrev S1x128x256x32x32 : Shape := ⟨5, ![1, 128, 256, 32, 32]⟩
abbrev S128x256x32x32 : Shape := ⟨4, ![128, 256, 32, 32]⟩
abbrev S128x255x32x32 : Shape := ⟨4, ![128, 255, 32, 32]⟩
abbrev S_ : Shape := ⟨0, ![]⟩
abbrev S127x256x32x32 : Shape := ⟨4, ![127, 256, 32, 32]⟩
abbrev S4x128x256x32x32 : Shape := ⟨5, ![4, 128, 256, 32, 32]⟩
abbrev S1x1x128x256x32 : Shape := ⟨5, ![1, 1, 128, 256, 32]⟩
abbrev S1x128x256x32x1 : Shape := ⟨5, ![1, 128, 256, 32, 1]⟩
abbrev S1x1x128x256 : Shape := ⟨4, ![1, 1, 128, 256]⟩
abbrev S1x128x256 : Shape := ⟨3, ![1, 128, 256]⟩
abbrev S1x128x256x1x1 : Shape := ⟨5, ![1, 128, 256, 1, 1]⟩
abbrev S1x128x255x32 : Shape := ⟨4, ![1, 128, 255, 32]⟩
abbrev S1x128x256x1 : Shape := ⟨4, ![1, 128, 256, 1]⟩
abbrev S1x127x256x32 : Shape := ⟨4, ![1, 127, 256, 32]⟩

abbrev nBuf : Space → Nat
  | .hbm => 370
  | .vmem => 0
  | .smem => 0
  | _ => 0

abbrev hbmTy0_0 (i : Nat) : BufTy := match i % 128 with
  | 0 => ⟨S1x128x256x32, .f32⟩
  | 1 => ⟨S1x4x128x256, .f32⟩
  | 2 => ⟨S1x4x128x256x32, .f32⟩
  | 3 => ⟨S2x128x256x32x32, .f32⟩
  | 4 => ⟨S1x128x256x32, .f32⟩
  | 5 => ⟨S1x128x256x32x32, .f32⟩
  | 6 => ⟨S128x256x32x32, .f32⟩
  | 7 => ⟨S1x128x256x32x32, .f32⟩
  | 8 => ⟨S128x256x32x32, .f32⟩
  | 9 => ⟨S128x255x32x32, .f32⟩
  | 10 => ⟨S128x255x32x32, .f32⟩
  | 11 => ⟨S_, .i32⟩
  | 12 => ⟨S_, .f32⟩
  | 13 => ⟨S128x256x32x32, .f32⟩
  | 14 => ⟨S1x128x256x32x32, .f32⟩
  | 15 => ⟨S128x256x32x32, .f32⟩
  | 16 => ⟨S1x128x256x32x32, .f32⟩
  | 17 => ⟨S128x256x32x32, .f32⟩
  | 18 => ⟨S127x256x32x32, .f32⟩
  | 19 => ⟨S127x256x32x32, .f32⟩
  | 20 => ⟨S_, .i32⟩
  | 21 => ⟨S_, .f32⟩
  | 22 => ⟨S128x256x32x32, .f32⟩
  | 23 => ⟨S1x128x256x32x32, .f32⟩
  | 24 => ⟨S1x128x256x32x32, .f32⟩
  | 25 => ⟨S1x128x256x32x32, .f32⟩
  | 26 => ⟨S1x128x256x32x32, .f32⟩
  | 27 => ⟨S4x128x256x32x32, .f32⟩
  | 28 => ⟨S_, .f32⟩
  | 29 => ⟨S1x128x256x32, .f32⟩
  | 30 => ⟨S1x128x256x32, .f32⟩
  | 31 => ⟨S1x1x128x256x32, .f32⟩
  | 32 => ⟨S1x128x256x32, .f32⟩
  | 33 => ⟨S1x128x256x32, .f32⟩
  | 34 => ⟨S1x128x256x32x1, .f32⟩
  | 35 => ⟨S1x1x128x256, .f32⟩
  | 36 => ⟨S1x128x256, .f32⟩
  | 37 => ⟨S1x128x256x1x1, .f32⟩
  | 38 => ⟨S1x128x256x32x32, .f32⟩
  | 39 => ⟨S128x256x32x32, .f32⟩
  | 40 => ⟨S1x128x256x32x32, .f32⟩
  | 41 => ⟨S1x128x256x32x32, .f32⟩
  | 42 => ⟨S1x128x256x32x32, .f32⟩
  | 43 => ⟨S1x128x256x32x32, .f32⟩
  | 44 => ⟨S1x128x256x32x32, .f32⟩
  | 45 => ⟨S_, .f32⟩
  | 46 => ⟨S1x128x256x32, .f32⟩
  | 47 => ⟨S1x128x255x32, .f32⟩
  | 48 => ⟨S_, .i32⟩
  | 49 => ⟨S_, .f32⟩
  | 50 => ⟨S1x128x256x32, .f32⟩
  | 51 => ⟨S_, .f32⟩
  | 52 => ⟨S1x128x256, .f32⟩
  | 53 => ⟨S1x128x256x1, .f32⟩
  | 54 => ⟨S1x128x256x32, .f32⟩
  | 55 => ⟨S1x128x256x32, .f32⟩
  | 56 => ⟨S1x1x128x256x32, .f32⟩
  | 57 => ⟨S1x128x256x32, .f32⟩
  | 58 => ⟨S1x128x256x32, .f32⟩
  | 59 => ⟨S1x128x256x32x1, .f32⟩
  | 60 => ⟨S1x1x128x256, .f32⟩
  | 61 => ⟨S1x128x256, .f32⟩
  | 62 => ⟨S1x128x256x1x1, .f32⟩
  | 63 => ⟨S1x128x256x32x32, .f32⟩
  | 64 => ⟨S128x256x32x32, .f32⟩
  | 65 => ⟨S1x128x256x32x32, .f32⟩
  | 66 => ⟨S1x128x256x32x32, .f32⟩
  | 67 => ⟨S1x128x256x32x32, .f32⟩
  | 68 => ⟨S1x128x256x32x32, .f32⟩
  | 69 => ⟨S1x128x256x32x32, .f32⟩
  | 70 => ⟨S_, .f32⟩
  | 71 => ⟨S1x128x256x32, .f32⟩
  | 72 => ⟨S1x128x255x32, .f32⟩
  | 73 => ⟨S_, .i32⟩
  | 74 => ⟨S_, .f32⟩
  | 75 => ⟨S1x128x256x32, .f32⟩
  | 76 => ⟨S_, .f32⟩
  | 77 => ⟨S1x128x256, .f32⟩
  | 78 => ⟨S1x128x256x1, .f32⟩
  | 79 => ⟨S1x128x256x32, .f32⟩
  | 80 => ⟨S1x128x256x32, .f32⟩
  | 81 => ⟨S1x1x128x256x32, .f32⟩
  | 82 => ⟨S1x128x256x32, .f32⟩
  | 83 => ⟨S1x128x256x32, .f32⟩
  | 84 => ⟨S1x128x256x32x1, .f32⟩
  | 85 => ⟨S1x1x128x256, .f32⟩
  | 86 => ⟨S1x128x256, .f32⟩
  | 87 => ⟨S1x128x256x1x1, .f32⟩
  | 88 => ⟨S1x128x256x32x32, .f32⟩
  | 89 => ⟨S128x256x32x32, .f32⟩
  | 90 => ⟨S1x128x256x32x32, .f32⟩
  | 91 => ⟨S1x128x256x32x32, .f32⟩
  | 92 => ⟨S1x128x256x32x32, .f32⟩
  | 93 => ⟨S1x128x256x32x32, .f32⟩
  | 94 => ⟨S1x128x256x32x32, .f32⟩
  | 95 => ⟨S_, .f32⟩
  | 96 => ⟨S1x128x256x32, .f32⟩
  | 97 => ⟨S1x127x256x32, .f32⟩
  | 98 => ⟨S_, .i32⟩
  | 99 => ⟨S_, .f32⟩
  | 100 => ⟨S1x128x256x32, .f32⟩
  | 101 => ⟨S_, .f32⟩
  | 102 => ⟨S1x128x256, .f32⟩
  | 103 => ⟨S1x128x256x1, .f32⟩
  | 104 => ⟨S1x128x256x32, .f32⟩
  | 105 => ⟨S1x128x256x32, .f32⟩
  | 106 => ⟨S1x1x128x256x32, .f32⟩
  | 107 => ⟨S1x128x256x32, .f32⟩
  | 108 => ⟨S1x128x256x32, .f32⟩
  | 109 => ⟨S1x128x256x32x1, .f32⟩
  | 110 => ⟨S1x1x128x256, .f32⟩
  | 111 => ⟨S1x128x256, .f32⟩
  | 112 => ⟨S1x128x256x1x1, .f32⟩
  | 113 => ⟨S1x128x256x32x32, .f32⟩
  | 114 => ⟨S128x256x32x32, .f32⟩
  | 115 => ⟨S1x128x256x32x32, .f32⟩
  | 116 => ⟨S1x128x256x32x32, .f32⟩
  | 117 => ⟨S1x128x256x32x32, .f32⟩
  | 118 => ⟨S1x128x256x32x32, .f32⟩
  | 119 => ⟨S1x128x256x32x32, .f32⟩
  | 120 => ⟨S_, .f32⟩
  | 121 => ⟨S1x128x256x32, .f32⟩
  | 122 => ⟨S1x127x256x32, .f32⟩
  | 123 => ⟨S_, .i32⟩
  | 124 => ⟨S_, .f32⟩
  | 125 => ⟨S1x128x256x32, .f32⟩
  | 126 => ⟨S_, .f32⟩
  | 127 => ⟨S1x128x256, .f32⟩
  | _ => ⟨S1x128x256x32, .f32⟩

abbrev hbmTy0_1 (i : Nat) : BufTy := match i % 128 with
  | 0 => ⟨S1x128x256x1, .f32⟩
  | 1 => ⟨S1x128x256x32, .f32⟩
  | 2 => ⟨S1x128x256x32, .f32⟩
  | 3 => ⟨S1x1x128x256x32, .f32⟩
  | 4 => ⟨S1x1x128x256x32, .f32⟩
  | 5 => ⟨S1x1x128x256x32, .f32⟩
  | 6 => ⟨S1x1x128x256x32, .f32⟩
  | 7 => ⟨S1x4x128x256x32, .f32⟩
  | 8 => ⟨S_, .f32⟩
  | 9 => ⟨S1x128x256x32, .f32⟩
  | 10 => ⟨S1x128x256x32, .f32⟩
  | 11 => ⟨S1x1x128x256x32, .f32⟩
  | 12 => ⟨S1x128x256x32, .f32⟩
  | 13 => ⟨S1x128x256x32, .f32⟩
  | 14 => ⟨S1x128x256x32x1, .f32⟩
  | 15 => ⟨S1x1x128x256, .f32⟩
  | 16 => ⟨S1x128x256, .f32⟩
  | 17 => ⟨S1x128x256x1x1, .f32⟩
  | 18 => ⟨S1x128x256x32x32, .f32⟩
  | 19 => ⟨S128x256x32x32, .f32⟩
  | 20 => ⟨S1x128x256x32x32, .f32⟩
  | 21 => ⟨S1x128x256x32x32, .f32⟩
  | 22 => ⟨S1x128x256x32x32, .f32⟩
  | 23 => ⟨S1x128x256x32x32, .f32⟩
  | 24 => ⟨S1x128x256x32x32, .f32⟩
  | 25 => ⟨S_, .f32⟩
  | 26 => ⟨S1x128x256x32, .f32⟩
  | 27 => ⟨S1x128x255x32, .f32⟩
  | 28 => ⟨S_, .i32⟩
  | 29 => ⟨S_, .f32⟩
  | 30 => ⟨S1x128x256x32, .f32⟩
  | 31 => ⟨S_, .f32⟩
  | 32 => ⟨S1x128x256, .f32⟩
  | 33 => ⟨S1x128x256x1, .f32⟩
  | 34 => ⟨S1x128x256x32, .f32⟩
  | 35 => ⟨S1x128x256x32, .f32⟩
  | 36 => ⟨S1x1x128x256x32, .f32⟩
  | 37 => ⟨S1x128x256x32, .f32⟩
  | 38 => ⟨S1x128x256x32, .f32⟩
  | 39 => ⟨S1x128x256x32x1, .f32⟩
  | 40 => ⟨S1x1x128x256, .f32⟩
  | 41 => ⟨S1x128x256, .f32⟩
  | 42 => ⟨S1x128x256x1x1, .f32⟩
  | 43 => ⟨S1x128x256x32x32, .f32⟩
  | 44 => ⟨S128x256x32x32, .f32⟩
  | 45 => ⟨S1x128x256x32x32, .f32⟩
  | 46 => ⟨S1x128x256x32x32, .f32⟩
  | 47 => ⟨S1x128x256x32x32, .f32⟩
  | 48 => ⟨S1x128x256x32x32, .f32⟩
  | 49 => ⟨S1x128x256x32x32, .f32⟩
  | 50 => ⟨S_, .f32⟩
  | 51 => ⟨S1x128x256x32, .f32⟩
  | 52 => ⟨S1x128x255x32, .f32⟩
  | 53 => ⟨S_, .i32⟩
  | 54 => ⟨S_, .f32⟩
  | 55 => ⟨S1x128x256x32, .f32⟩
  | 56 => ⟨S_, .f32⟩
  | 57 => ⟨S1x128x256, .f32⟩
  | 58 => ⟨S1x128x256x1, .f32⟩
  | 59 => ⟨S1x128x256x32, .f32⟩
  | 60 => ⟨S1x128x256x32, .f32⟩
  | 61 => ⟨S1x1x128x256x32, .f32⟩
  | 62 => ⟨S1x128x256x32, .f32⟩
  | 63 => ⟨S1x128x256x32, .f32⟩
  | 64 => ⟨S1x128x256x32x1, .f32⟩
  | 65 => ⟨S1x1x128x256, .f32⟩
  | 66 => ⟨S1x128x256, .f32⟩
  | 67 => ⟨S1x128x256x1x1, .f32⟩
  | 68 => ⟨S1x128x256x32x32, .f32⟩
  | 69 => ⟨S128x256x32x32, .f32⟩
  | 70 => ⟨S1x128x256x32x32, .f32⟩
  | 71 => ⟨S1x128x256x32x32, .f32⟩
  | 72 => ⟨S1x128x256x32x32, .f32⟩
  | 73 => ⟨S1x128x256x32x32, .f32⟩
  | 74 => ⟨S1x128x256x32x32, .f32⟩
  | 75 => ⟨S_, .f32⟩
  | 76 => ⟨S1x128x256x32, .f32⟩
  | 77 => ⟨S1x127x256x32, .f32⟩
  | 78 => ⟨S_, .i32⟩
  | 79 => ⟨S_, .f32⟩
  | 80 => ⟨S1x128x256x32, .f32⟩
  | 81 => ⟨S_, .f32⟩
  | 82 => ⟨S1x128x256, .f32⟩
  | 83 => ⟨S1x128x256x1, .f32⟩
  | 84 => ⟨S1x128x256x32, .f32⟩
  | 85 => ⟨S1x128x256x32, .f32⟩
  | 86 => ⟨S1x1x128x256x32, .f32⟩
  | 87 => ⟨S1x128x256x32, .f32⟩
  | 88 => ⟨S1x128x256x32, .f32⟩
  | 89 => ⟨S1x128x256x32x1, .f32⟩
  | 90 => ⟨S1x1x128x256, .f32⟩
  | 91 => ⟨S1x128x256, .f32⟩
  | 92 => ⟨S1x128x256x1x1, .f32⟩
  | 93 => ⟨S1x128x256x32x32, .f32⟩
  | 94 => ⟨S128x256x32x32, .f32⟩
  | 95 => ⟨S1x128x256x32x32, .f32⟩
  | 96 => ⟨S1x128x256x32x32, .f32⟩
  | 97 => ⟨S1x128x256x32x32, .f32⟩
  | 98 => ⟨S1x128x256x32x32, .f32⟩
  | 99 => ⟨S1x128x256x32x32, .f32⟩
  | 100 => ⟨S_, .f32⟩
  | 101 => ⟨S1x128x256x32, .f32⟩
  | 102 => ⟨S1x127x256x32, .f32⟩
  | 103 => ⟨S_, .i32⟩
  | 104 => ⟨S_, .f32⟩
  | 105 => ⟨S1x128x256x32, .f32⟩
  | 106 => ⟨S_, .f32⟩
  | 107 => ⟨S1x128x256, .f32⟩
  | 108 => ⟨S1x128x256x1, .f32⟩
  | 109 => ⟨S1x128x256x32, .f32⟩
  | 110 => ⟨S1x128x256x32, .f32⟩
  | 111 => ⟨S1x1x128x256x32, .f32⟩
  | 112 => ⟨S1x1x128x256x32, .f32⟩
  | 113 => ⟨S1x1x128x256x32, .f32⟩
  | 114 => ⟨S1x1x128x256x32, .f32⟩
  | 115 => ⟨S1x4x128x256x32, .f32⟩
  | 116 => ⟨S_, .f32⟩
  | 117 => ⟨S1x128x256x32, .f32⟩
  | 118 => ⟨S1x128x256x32, .f32⟩
  | 119 => ⟨S1x1x128x256x32, .f32⟩
  | 120 => ⟨S1x128x256x32, .f32⟩
  | 121 => ⟨S1x128x256x32, .f32⟩
  | 122 => ⟨S1x128x256x32x1, .f32⟩
  | 123 => ⟨S1x1x128x256, .f32⟩
  | 124 => ⟨S1x128x256, .f32⟩
  | 125 => ⟨S1x128x256x1x1, .f32⟩
  | 126 => ⟨S1x128x256x32x32, .f32⟩
  | 127 => ⟨S128x256x32x32, .f32⟩
  | _ => ⟨S1x128x256x32, .f32⟩

abbrev hbmTy0_2 (i : Nat) : BufTy := match i % 128 with
  | 0 => ⟨S1x128x256x32x32, .f32⟩
  | 1 => ⟨S1x128x256x32x32, .f32⟩
  | 2 => ⟨S1x128x256x32x32, .f32⟩
  | 3 => ⟨S1x128x256x32x32, .f32⟩
  | 4 => ⟨S1x128x256x32x32, .f32⟩
  | 5 => ⟨S_, .f32⟩
  | 6 => ⟨S1x128x256x32, .f32⟩
  | 7 => ⟨S1x128x255x32, .f32⟩
  | 8 => ⟨S_, .i32⟩
  | 9 => ⟨S_, .f32⟩
  | 10 => ⟨S1x128x256x32, .f32⟩
  | 11 => ⟨S_, .f32⟩
  | 12 => ⟨S1x128x256, .f32⟩
  | 13 => ⟨S1x128x256x1, .f32⟩
  | 14 => ⟨S1x128x256x32, .f32⟩
  | 15 => ⟨S1x128x256x32, .f32⟩
  | 16 => ⟨S1x1x128x256x32, .f32⟩
  | 17 => ⟨S1x128x256x32, .f32⟩
  | 18 => ⟨S1x128x256x32, .f32⟩
  | 19 => ⟨S1x128x256x32x1, .f32⟩
  | 20 => ⟨S1x1x128x256, .f32⟩
  | 21 => ⟨S1x128x256, .f32⟩
  | 22 => ⟨S1x128x256x1x1, .f32⟩
  | 23 => ⟨S1x128x256x32x32, .f32⟩
  | 24 => ⟨S128x256x32x32, .f32⟩
  | 25 => ⟨S1x128x256x32x32, .f32⟩
  | 26 => ⟨S1x128x256x32x32, .f32⟩
  | 27 => ⟨S1x128x256x32x32, .f32⟩
  | 28 => ⟨S1x128x256x32x32, .f32⟩
  | 29 => ⟨S1x128x256x32x32, .f32⟩
  | 30 => ⟨S_, .f32⟩
  | 31 => ⟨S1x128x256x32, .f32⟩
  | 32 => ⟨S1x128x255x32, .f32⟩
  | 33 => ⟨S_, .i32⟩
  | 34 => ⟨S_, .f32⟩
  | 35 => ⟨S1x128x256x32, .f32⟩
  | 36 => ⟨S_, .f32⟩
  | 37 => ⟨S1x128x256, .f32⟩
  | 38 => ⟨S1x128x256x1, .f32⟩
  | 39 => ⟨S1x128x256x32, .f32⟩
  | 40 => ⟨S1x128x256x32, .f32⟩
  | 41 => ⟨S1x1x128x256x32, .f32⟩
  | 42 => ⟨S1x128x256x32, .f32⟩
  | 43 => ⟨S1x128x256x32, .f32⟩
  | 44 => ⟨S1x128x256x32x1, .f32⟩
  | 45 => ⟨S1x1x128x256, .f32⟩
  | 46 => ⟨S1x128x256, .f32⟩
  | 47 => ⟨S1x128x256x1x1, .f32⟩
  | 48 => ⟨S1x128x256x32x32, .f32⟩
  | 49 => ⟨S128x256x32x32, .f32⟩
  | 50 => ⟨S1x128x256x32x32, .f32⟩
  | 51 => ⟨S1x128x256x32x32, .f32⟩
  | 52 => ⟨S1x128x256x32x32, .f32⟩
  | 53 => ⟨S1x128x256x32x32, .f32⟩
  | 54 => ⟨S1x128x256x32x32, .f32⟩
  | 55 => ⟨S_, .f32⟩
  | 56 => ⟨S1x128x256x32, .f32⟩
  | 57 => ⟨S1x127x256x32, .f32⟩
  | 58 => ⟨S_, .i32⟩
  | 59 => ⟨S_, .f32⟩
  | 60 => ⟨S1x128x256x32, .f32⟩
  | 61 => ⟨S_, .f32⟩
  | 62 => ⟨S1x128x256, .f32⟩
  | 63 => ⟨S1x128x256x1, .f32⟩
  | 64 => ⟨S1x128x256x32, .f32⟩
  | 65 => ⟨S1x128x256x32, .f32⟩
  | 66 => ⟨S1x1x128x256x32, .f32⟩
  | 67 => ⟨S1x128x256x32, .f32⟩
  | 68 => ⟨S1x128x256x32, .f32⟩
  | 69 => ⟨S1x128x256x32x1, .f32⟩
  | 70 => ⟨S1x1x128x256, .f32⟩
  | 71 => ⟨S1x128x256, .f32⟩
  | 72 => ⟨S1x128x256x1x1, .f32⟩
  | 73 => ⟨S1x128x256x32x32, .f32⟩
  | 74 => ⟨S128x256x32x32, .f32⟩
  | 75 => ⟨S1x128x256x32x32, .f32⟩
  | 76 => ⟨S1x128x256x32x32, .f32⟩
  | 77 => ⟨S1x128x256x32x32, .f32⟩
  | 78 => ⟨S1x128x256x32x32, .f32⟩
  | 79 => ⟨S1x128x256x32x32, .f32⟩
  | 80 => ⟨S_, .f32⟩
  | 81 => ⟨S1x128x256x32, .f32⟩
  | 82 => ⟨S1x127x256x32, .f32⟩
  | 83 => ⟨S_, .i32⟩
  | 84 => ⟨S_, .f32⟩
  | 85 => ⟨S1x128x256x32, .f32⟩
  | 86 => ⟨S_, .f32⟩
  | 87 => ⟨S1x128x256, .f32⟩
  | 88 => ⟨S1x128x256x1, .f32⟩
  | 89 => ⟨S1x128x256x32, .f32⟩
  | 90 => ⟨S1x128x256x32, .f32⟩
  | 91 => ⟨S1x1x128x256x32, .f32⟩
  | 92 => ⟨S1x1x128x256x32, .f32⟩
  | 93 => ⟨S1x1x128x256x32, .f32⟩
  | 94 => ⟨S1x1x128x256x32, .f32⟩
  | 95 => ⟨S1x4x128x256x32, .f32⟩
  | 96 => ⟨S_, .f32⟩
  | 97 => ⟨S1x128x256x32, .f32⟩
  | 98 => ⟨S1x128x256x32, .f32⟩
  | 99 => ⟨S1x128x256x32, .f32⟩
  | 100 => ⟨S_, .f32⟩
  | 101 => ⟨S1x128x256, .f32⟩
  | 102 => ⟨S_, .f32⟩
  | 103 => ⟨S1x128x256, .f32⟩
  | 104 => ⟨S1x128x256, .f32⟩
  | 105 => ⟨S1x128x256x1, .f32⟩
  | 106 => ⟨S1x128x256x32, .f32⟩
  | 107 => ⟨S1x128x256x32, .f32⟩
  | 108 => ⟨S1x128x256x32, .f32⟩
  | 109 => ⟨S_, .f32⟩
  | 110 => ⟨S1x128x256, .f32⟩
  | 111 => ⟨S1x128x256x1, .f32⟩
  | 112 => ⟨S1x128x256x32, .f32⟩
  | 113 => ⟨S1x128x256x32, .f32⟩
  | _ => ⟨S1x128x256x32, .f32⟩

abbrev hbmTy (i : Nat) : BufTy := match i / 128 with
  | 0 => hbmTy0_0 i
  | 1 => hbmTy0_1 i
  | 2 => hbmTy0_2 i
  | _ => ⟨S1x128x256x32, .f32⟩

abbrev bufTy : (tb : Table) → Fin (tcTables nBuf tb) → BufTy
  | .hbm, ⟨i, _⟩ => hbmTy i
  | _, _ => ⟨S1x128x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_c_2 : Ref sig .tc := ⟨.hbm, 48, rfl⟩
abbrev main_call2_v0 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_c_5 : Ref sig .tc := ⟨.hbm, 73, rfl⟩
abbrev main_call3_v0 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_v79 : Ref sig .tc := ⟨.hbm, 97, rfl⟩
abbrev main_c_8 : Ref sig .tc := ⟨.hbm, 98, rfl⟩
abbrev main_call4_v0 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_10 : Ref sig .tc := ⟨.hbm, 120, rfl⟩
abbrev main_v99 : Ref sig .tc := ⟨.hbm, 121, rfl⟩
abbrev main_v100 : Ref sig .tc := ⟨.hbm, 122, rfl⟩
abbrev main_c_11 : Ref sig .tc := ⟨.hbm, 123, rfl⟩
abbrev main_call5_v0 : Ref sig .tc := ⟨.hbm, 124, rfl⟩
abbrev main_v101 : Ref sig .tc := ⟨.hbm, 125, rfl⟩
abbrev main_cst_12 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_13 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_14 : Ref sig .tc := ⟨.hbm, 153, rfl⟩
abbrev main_v127 : Ref sig .tc := ⟨.hbm, 154, rfl⟩
abbrev main_v128 : Ref sig .tc := ⟨.hbm, 155, rfl⟩
abbrev main_c_15 : Ref sig .tc := ⟨.hbm, 156, rfl⟩
abbrev main_call6_v0 : Ref sig .tc := ⟨.hbm, 157, rfl⟩
abbrev main_v129 : Ref sig .tc := ⟨.hbm, 158, rfl⟩
abbrev main_cst_16 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_17 : Ref sig .tc := ⟨.hbm, 178, rfl⟩
abbrev main_v148 : Ref sig .tc := ⟨.hbm, 179, rfl⟩
abbrev main_v149 : Ref sig .tc := ⟨.hbm, 180, rfl⟩
abbrev main_c_18 : Ref sig .tc := ⟨.hbm, 181, rfl⟩
abbrev main_call7_v0 : Ref sig .tc := ⟨.hbm, 182, rfl⟩
abbrev main_v150 : Ref sig .tc := ⟨.hbm, 183, rfl⟩
abbrev main_cst_19 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst_20 : Ref sig .tc := ⟨.hbm, 203, rfl⟩
abbrev main_v169 : Ref sig .tc := ⟨.hbm, 204, rfl⟩
abbrev main_v170 : Ref sig .tc := ⟨.hbm, 205, rfl⟩
abbrev main_c_21 : Ref sig .tc := ⟨.hbm, 206, rfl⟩
abbrev main_call8_v0 : Ref sig .tc := ⟨.hbm, 207, rfl⟩
abbrev main_v171 : Ref sig .tc := ⟨.hbm, 208, rfl⟩
abbrev main_cst_22 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_23 : Ref sig .tc := ⟨.hbm, 228, rfl⟩
abbrev main_v190 : Ref sig .tc := ⟨.hbm, 229, rfl⟩
abbrev main_v191 : Ref sig .tc := ⟨.hbm, 230, rfl⟩
abbrev main_c_24 : Ref sig .tc := ⟨.hbm, 231, rfl⟩
abbrev main_call9_v0 : Ref sig .tc := ⟨.hbm, 232, rfl⟩
abbrev main_v192 : Ref sig .tc := ⟨.hbm, 233, rfl⟩
abbrev main_cst_25 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_26 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_cst_27 : Ref sig .tc := ⟨.hbm, 261, rfl⟩
abbrev main_v218 : Ref sig .tc := ⟨.hbm, 262, rfl⟩
abbrev main_v219 : Ref sig .tc := ⟨.hbm, 263, rfl⟩
abbrev main_c_28 : Ref sig .tc := ⟨.hbm, 264, rfl⟩
abbrev main_call10_v0 : Ref sig .tc := ⟨.hbm, 265, rfl⟩
abbrev main_v220 : Ref sig .tc := ⟨.hbm, 266, rfl⟩
abbrev main_cst_29 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_cst_30 : Ref sig .tc := ⟨.hbm, 286, rfl⟩
abbrev main_v239 : Ref sig .tc := ⟨.hbm, 287, rfl⟩
abbrev main_v240 : Ref sig .tc := ⟨.hbm, 288, rfl⟩
abbrev main_c_31 : Ref sig .tc := ⟨.hbm, 289, rfl⟩
abbrev main_call11_v0 : Ref sig .tc := ⟨.hbm, 290, rfl⟩
abbrev main_v241 : Ref sig .tc := ⟨.hbm, 291, rfl⟩
abbrev main_cst_32 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_cst_33 : Ref sig .tc := ⟨.hbm, 311, rfl⟩
abbrev main_v260 : Ref sig .tc := ⟨.hbm, 312, rfl⟩
abbrev main_v261 : Ref sig .tc := ⟨.hbm, 313, rfl⟩
abbrev main_c_34 : Ref sig .tc := ⟨.hbm, 314, rfl⟩
abbrev main_call12_v0 : Ref sig .tc := ⟨.hbm, 315, rfl⟩
abbrev main_v262 : Ref sig .tc := ⟨.hbm, 316, rfl⟩
abbrev main_cst_35 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_cst_36 : Ref sig .tc := ⟨.hbm, 336, rfl⟩
abbrev main_v281 : Ref sig .tc := ⟨.hbm, 337, rfl⟩
abbrev main_v282 : Ref sig .tc := ⟨.hbm, 338, rfl⟩
abbrev main_c_37 : Ref sig .tc := ⟨.hbm, 339, rfl⟩
abbrev main_call13_v0 : Ref sig .tc := ⟨.hbm, 340, rfl⟩
abbrev main_v283 : Ref sig .tc := ⟨.hbm, 341, rfl⟩
abbrev main_cst_38 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_cst_39 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_cst_40 : Ref sig .tc := ⟨.hbm, 356, rfl⟩
abbrev main_v296 : Ref sig .tc := ⟨.hbm, 357, rfl⟩
abbrev main_cst_41 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_cst_42 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩

abbrev nD : Nat := 1
abbrev τ : Topo := Topo.v7x

variable {F : FTy → Type} [FloatOps F]

class Facts₀ : Prop where
  slices_S2x128x256x32x32_S1x128x256x32x32_0_0_0_0_0 : S2x128x256x32x32.Slices ![0, 0, 0, 0, 0] S1x128x256x32x32
  shapeCasts_S1x128x256x32x32_S128x256x32x32 : S1x128x256x32x32.ShapeCasts S128x256x32x32
  slices_S128x256x32x32_S128x255x32x32_0_0_0_0 : S128x256x32x32.Slices ![0, 0, 0, 0] S128x255x32x32
  transposes_S128x255x32x32_S128x255x32x32_0_1_3_2 : S128x255x32x32.Transposes [0, 1, 3, 2] S128x255x32x32
  pads_S128x255x32x32_S128x256x32x32_000_100_000_000 : S128x255x32x32.Pads (![0, 1, 0, 0] : Fin 4 → Nat) ![0, 0, 0, 0] ![0, 0, 0, 0] S128x256x32x32
  h_S_ : 0 < S_.numel
  slices_S2x128x256x32x32_S1x128x256x32x32_1_0_0_0_0 : S2x128x256x32x32.Slices ![1, 0, 0, 0, 0] S1x128x256x32x32
  slices_S128x256x32x32_S127x256x32x32_0_0_0_0 : S128x256x32x32.Slices ![0, 0, 0, 0] S127x256x32x32
  transposes_S127x256x32x32_S127x256x32x32_0_1_3_2 : S127x256x32x32.Transposes [0, 1, 3, 2] S127x256x32x32
  pads_S127x256x32x32_S128x256x32x32_100_000_000_000 : S127x256x32x32.Pads (![1, 0, 0, 0] : Fin 4 → Nat) ![0, 0, 0, 0] ![0, 0, 0, 0] S128x256x32x32
  bcast_S128x256x32x32_S1x128x256x32x32_1_2_3_4 : S128x256x32x32.BroadcastsInDim S1x128x256x32x32 (![1, 2, 3, 4] : Fin 4 → Fin S1x128x256x32x32.rank)
  concatenates_S1x128x256x32x32_S1x128x256x32x32_S1x128x256x32x32_S1x128x256x32x32_S4x128x256x32x32_d0 : Shape.Concatenates [S1x128x256x32x32, S1x128x256x32x32, S1x128x256x32x32, S1x128x256x32x32] S4x128x256x32x32 0
  reducesTo_S1x4x128x256x32_S1x128x256x32_d1 : S1x4x128x256x32.ReducesTo [1] S1x128x256x32
  slices_S1x4x128x256x32_S1x1x128x256x32_0_1_0_0_0 : S1x4x128x256x32.Slices ![0, 1, 0, 0, 0] S1x1x128x256x32
  shapeCasts_S1x1x128x256x32_S1x128x256x32 : S1x1x128x256x32.ShapeCasts S1x128x256x32
  bcast_S1x128x256x32_S1x128x256x32x1_0_1_2_3 : S1x128x256x32.BroadcastsInDim S1x128x256x32x1 (![0, 1, 2, 3] : Fin 4 → Fin S1x128x256x32x1.rank)
  slices_S1x4x128x256_S1x1x128x256_0_0_0_0 : S1x4x128x256.Slices ![0, 0, 0, 0] S1x1x128x256
  shapeCasts_S1x1x128x256_S1x128x256 : S1x1x128x256.ShapeCasts S1x128x256
  bcast_S1x128x256_S1x128x256x1x1_0_1_2 : S1x128x256.BroadcastsInDim S1x128x256x1x1 (![0, 1, 2] : Fin 3 → Fin S1x128x256x1x1.rank)
  slices_S4x128x256x32x32_S1x128x256x32x32_0_0_0_0_0 : S4x128x256x32x32.Slices ![0, 0, 0, 0, 0] S1x128x256x32x32
  bcast_S1x128x256x1x1_S1x128x256x32x32_0_1_2_3_4 : S1x128x256x1x1.BroadcastsInDim S1x128x256x32x32 (![0, 1, 2, 3, 4] : Fin 5 → Fin S1x128x256x32x32.rank)
  bcast_S1x128x256x32x1_S1x128x256x32x32_0_1_2_3_4 : S1x128x256x32x1.BroadcastsInDim S1x128x256x32x32 (![0, 1, 2, 3, 4] : Fin 5 → Fin S1x128x256x32x32.rank)
  reducesTo_S1x128x256x32x32_S1x128x256x32_d3 : S1x128x256x32x32.ReducesTo [3] S1x128x256x32
  slices_S1x128x256x32_S1x128x255x32_0_0_0_0 : S1x128x256x32.Slices ![0, 0, 0, 0] S1x128x255x32
  pads_S1x128x255x32_S1x128x256x32_000_000_100_000 : S1x128x255x32.Pads (![0, 0, 1, 0] : Fin 4 → Nat) ![0, 0, 0, 0] ![0, 0, 0, 0] S1x128x256x32
  reducesTo_S1x128x256x32_S1x128x256_d3 : S1x128x256x32.ReducesTo [3] S1x128x256
  bcast_S1x128x256_S1x128x256x1_0_1_2 : S1x128x256.BroadcastsInDim S1x128x256x1 (![0, 1, 2] : Fin 3 → Fin S1x128x256x1.rank)
  bcast_S1x128x256x1_S1x128x256x32_0_1_2_3 : S1x128x256x1.BroadcastsInDim S1x128x256x32 (![0, 1, 2, 3] : Fin 4 → Fin S1x128x256x32.rank)
  slices_S1x4x128x256x32_S1x1x128x256x32_0_0_0_0_0 : S1x4x128x256x32.Slices ![0, 0, 0, 0, 0] S1x1x128x256x32
  slices_S1x4x128x256_S1x1x128x256_0_1_0_0 : S1x4x128x256.Slices ![0, 1, 0, 0] S1x1x128x256
  slices_S4x128x256x32x32_S1x128x256x32x32_1_0_0_0_0 : S4x128x256x32x32.Slices ![1, 0, 0, 0, 0] S1x128x256x32x32
  slices_S1x128x256x32_S1x128x255x32_0_0_1_0 : S1x128x256x32.Slices ![0, 0, 1, 0] S1x128x255x32
  pads_S1x128x255x32_S1x128x256x32_000_000_010_000 : S1x128x255x32.Pads (![0, 0, 0, 0] : Fin 4 → Nat) ![0, 0, 1, 0] ![0, 0, 0, 0] S1x128x256x32
  slices_S1x4x128x256x32_S1x1x128x256x32_0_3_0_0_0 : S1x4x128x256x32.Slices ![0, 3, 0, 0, 0] S1x1x128x256x32
  slices_S1x4x128x256_S1x1x128x256_0_2_0_0 : S1x4x128x256.Slices ![0, 2, 0, 0] S1x1x128x256
  slices_S4x128x256x32x32_S1x128x256x32x32_2_0_0_0_0 : S4x128x256x32x32.Slices ![2, 0, 0, 0, 0] S1x128x256x32x32
  slices_S1x128x256x32_S1x127x256x32_0_0_0_0 : S1x128x256x32.Slices ![0, 0, 0, 0] S1x127x256x32
  pads_S1x127x256x32_S1x128x256x32_000_100_000_000 : S1x127x256x32.Pads (![0, 1, 0, 0] : Fin 4 → Nat) ![0, 0, 0, 0] ![0, 0, 0, 0] S1x128x256x32
  slices_S1x4x128x256x32_S1x1x128x256x32_0_2_0_0_0 : S1x4x128x256x32.Slices ![0, 2, 0, 0, 0] S1x1x128x256x32
  slices_S1x4x128x256_S1x1x128x256_0_3_0_0 : S1x4x128x256.Slices ![0, 3, 0, 0] S1x1x128x256
  slices_S4x128x256x32x32_S1x128x256x32x32_3_0_0_0_0 : S4x128x256x32x32.Slices ![3, 0, 0, 0, 0] S1x128x256x32x32
  slices_S1x128x256x32_S1x127x256x32_0_1_0_0 : S1x128x256x32.Slices ![0, 1, 0, 0] S1x127x256x32
  pads_S1x127x256x32_S1x128x256x32_000_010_000_000 : S1x127x256x32.Pads (![0, 0, 0, 0] : Fin 4 → Nat) ![0, 1, 0, 0] ![0, 0, 0, 0] S1x128x256x32
  bcast_S1x128x256x32_S1x1x128x256x32_0_2_3_4 : S1x128x256x32.BroadcastsInDim S1x1x128x256x32 (![0, 2, 3, 4] : Fin 4 → Fin S1x1x128x256x32.rank)
  concatenates_S1x1x128x256x32_S1x1x128x256x32_S1x1x128x256x32_S1x1x128x256x32_S1x4x128x256x32_d1 : Shape.Concatenates [S1x1x128x256x32, S1x1x128x256x32, S1x1x128x256x32, S1x1x128x256x32] S1x4x128x256x32 1
  bcast_S_S1x128x256 : S_.BroadcastsInDim S1x128x256 (![] : Fin 0 → Fin S1x128x256.rank)

variable [Facts₀]

class Facts : Prop extends Facts₀ where

variable [Facts]
-- ==== Proof.K.RunCond.lean ====
import proofs.«134770_j15015205667393_2_alg».proof.Proof.RegionsK

/-! The whole run of @main with every unscoped buffer named at the end.

The generated conditional frame states only that the argument arrays end unchanged; a value claim also needs the
result buffer. This module calls the several-regions launch theorem once more, over the same segments and thread
states, with the post "every unscoped buffer of every core holds the last valuation". -/

set_option maxRecDepth 16384

noncomputable section

namespace Cert.Kernel.GenP

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The program's run, given the three regions' records: for any rest states `E` the launch makes on every core at
    once and that end owing nothing, any contents the regions leave (`outs`) and any proof data, GIVEN per region a
    segment record entered from the thread state before it and left at the one after it, every weakly fair execution
    of @main from memory `m` with zero counters terminates, and in every final memory EVERY unscoped buffer of core
    `c` holds the last valuation `V35 m outs c` — the launch contents folded through the 32 host stretches and the
    three regions' outputs. The frame claim and the value of the result buffer are both read off this post. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V25 m outs c) ∗ E 2 c) ⊢ R2.pre c)
    (hpost2 : ∀ c : Dev nD, R2.post c ⊢ iprop(StableHlo.held (c : Thread nD τ) (Pipeline.ucRefs τ sig) (V26 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V35 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, .rfl, .rfl, .rfl, .rfl, hpre0 c, hpost0 c, .rfl, .rfl, .rfl, .rfl, .rfl, .rfl, .rfl, .rfl, hpre1 c, hpost1 c, .rfl, .rfl, .rfl, .rfl, .rfl, .rfl, .rfl, .rfl, hpre2 c, hpost2 c, .rfl, .rfl, .rfl, .rfl, .rfl, .rfl, .rfl, .rfl, sep_mono .rfl (hE3 c)⟩)
    (hinit := ?_) (QY := fun c s => ∀ b ∈ Pipeline.ucRefs τ sig, s.mem (((c : Thread nD τ)).1, b) = V35 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V35 m outs c) s')
    isplitl [Hh] <;> iassumption

end Cert.Kernel.GenP

end
-- ==== Proof.K.Region0.lean ====
/- Region 0 of @main (custom_call 0, the kernel function cc0__bp_core_kernel, pipeline 0), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.Kernel.Launch
import proofs.«134770_j15015205667393_2_alg».proof.Proof.Gen.Kernel.Skeleton
import proofs.«134770_j15015205667393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of input blocks 0, 1 and 2. -/
abbrev r0_0 : Rect S1x1x256x32 := Rect.unit (s := S1x1x256x32) ![0, 0, 0, 0] S1x1x256x32.size inb_S1x1x256x32_S1x1x256x32_0_0_0_0
abbrev r0_1 : Rect S1x1x4x256 := Rect.unit (s := S1x1x4x256) ![0, 0, 0, 0] S1x1x4x256.size inb_S1x1x4x256_S1x1x4x256_0_0_0_0
abbrev r0_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r0_3 : Rect S4x1x256x32x32 := Rect.unit (s := S4x1x256x32x32) ![0, 0, 0, 0, 0] S1x1x256x32x32.size inb_S4x1x256x32x32_S1x1x256x32x32_0_0_0_0_0
abbrev r0_4 : Rect S4x1x256x32x32 := Rect.unit (s := S4x1x256x32x32) ![1, 0, 0, 0, 0] S1x1x256x32x32.size inb_S4x1x256x32x32_S1x1x256x32x32_1_0_0_0_0
abbrev r0_5 : Rect S4x1x256x32x32 := Rect.unit (s := S4x1x256x32x32) ![2, 0, 0, 0, 0] S1x1x256x32x32.size inb_S4x1x256x32x32_S1x1x256x32x32_2_0_0_0_0
abbrev r0_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r0_7 : Rect S1x4x1x256x32 := Rect.unit (s := S1x4x1x256x32) ![0, 0, 0, 0, 0] S1x1x1x256x32.size inb_S1x4x1x256x32_S1x1x1x256x32_0_0_0_0_0
abbrev r0_8 : Rect S1x4x1x256x32 := Rect.unit (s := S1x4x1x256x32) ![0, 1, 0, 0, 0] S1x1x1x256x32.size inb_S1x4x1x256x32_S1x1x1x256x32_0_1_0_0_0
abbrev r0_9 : Rect S1x4x1x256x32 := Rect.unit (s := S1x4x1x256x32) ![0, 2, 0, 0, 0] S1x1x1x256x32.size inb_S1x4x1x256x32_S1x1x1x256x32_0_2_0_0_0
abbrev r0_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out0_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r0_10, k0_pay2 (k0_pay3 (View.ld x1 r0_1)) (View.ld x2 r0_2) (k0_pay4 (View.ld x0 r0_0) (View.ld x2 r0_2)) (View.ld x3 r0_6)⟩,
    ⟨r0_9, k0_pay1 (k0_pay8 (k0_pay3 (View.ld x1 r0_1)) (View.ld x2 r0_2) (k0_pay4 (View.ld x0 r0_0) (View.ld x2 r0_2)) (View.ld x3 r0_5))⟩,
    ⟨r0_8, k0_pay7 (k0_pay3 (View.ld x1 r0_1)) (k0_pay6 (View.ld x0 r0_0) (View.ld x2 r0_2)) (View.ld x3 r0_4)⟩,
    ⟨r0_7, k0_pay5 (View.ld x0 r0_0) (View.ld x1 r0_1) (View.ld x2 r0_2) (View.ld x3 r0_3)⟩]

/-- The four slabs tile the block (checked by evaluation), so they cover it. -/
theorem cover0_4 (p3 p2 p1 p0 : Vec F S1x1x1x256x32 .f32) (y : S1x4x1x256x32.Idx) :
    ∃ pc ∈ ([⟨r0_10, p3⟩, ⟨r0_9, p2⟩, ⟨r0_8, p1⟩, ⟨r0_7, p0⟩] : List (View.Piece (Elt F) S1x4x1x256x32 .f32)), y ∈ pc.1.set :=
  View.cover_of_tiled [⟨r0_10, p3⟩, ⟨r0_9, p2⟩, ⟨r0_8, p1⟩, ⟨r0_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out0_4` of the inputs'. Before
    each store the body also loads the slab it is about to overwrite; the value is read off whatever the buffer
    holds and is not used. -/
theorem sound_kernel0 (c : Dev nD) (E : Set ℕ) (i : grid0.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__bp_core_kernel i arg1 harg1 arg2 harg2 arg3 harg3 arg4 harg4 arg5 harg5) K := by
  simp only [cc0__bp_core_kernel_eq_skeleton]; unfold cc0__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _)

/-! ## The pipeline's proof data -/

/-- The proof data of pipeline 0 on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.K.Region1.lean ====
/- Region 1 of @main (custom_call 1, the kernel function cc1__bp_core_kernel, pipeline 1), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.Kernel.Launch
import proofs.«134770_j15015205667393_2_alg».proof.Proof.Gen.Kernel.Skeleton
import proofs.«134770_j15015205667393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of input blocks 0, 1 and 2. -/
abbrev r1_0 : Rect S1x1x256x32 := Rect.unit (s := S1x1x256x32) ![0, 0, 0, 0] S1x1x256x32.size inb_S1x1x256x32_S1x1x256x32_0_0_0_0
abbrev r1_1 : Rect S1x1x4x256 := Rect.unit (s := S1x1x4x256) ![0, 0, 0, 0] S1x1x4x256.size inb_S1x1x4x256_S1x1x4x256_0_0_0_0
abbrev r1_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r1_3 : Rect S4x1x256x32x32 := Rect.unit (s := S4x1x256x32x32) ![0, 0, 0, 0, 0] S1x1x256x32x32.size inb_S4x1x256x32x32_S1x1x256x32x32_0_0_0_0_0
abbrev r1_4 : Rect S4x1x256x32x32 := Rect.unit (s := S4x1x256x32x32) ![1, 0, 0, 0, 0] S1x1x256x32x32.size inb_S4x1x256x32x32_S1x1x256x32x32_1_0_0_0_0
abbrev r1_5 : Rect S4x1x256x32x32 := Rect.unit (s := S4x1x256x32x32) ![2, 0, 0, 0, 0] S1x1x256x32x32.size inb_S4x1x256x32x32_S1x1x256x32x32_2_0_0_0_0
abbrev r1_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r1_7 : Rect S1x4x1x256x32 := Rect.unit (s := S1x4x1x256x32) ![0, 0, 0, 0, 0] S1x1x1x256x32.size inb_S1x4x1x256x32_S1x1x1x256x32_0_0_0_0_0
abbrev r1_8 : Rect S1x4x1x256x32 := Rect.unit (s := S1x4x1x256x32) ![0, 1, 0, 0, 0] S1x1x1x256x32.size inb_S1x4x1x256x32_S1x1x1x256x32_0_1_0_0_0
abbrev r1_9 : Rect S1x4x1x256x32 := Rect.unit (s := S1x4x1x256x32) ![0, 2, 0, 0, 0] S1x1x1x256x32.size inb_S1x4x1x256x32_S1x1x1x256x32_0_2_0_0_0
abbrev r1_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out1_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r1_10, k1_pay2 (k1_pay3 (View.ld x1 r1_1)) (k1_pay4 (View.ld x2 r1_2)) (k1_pay5 (View.ld x0 r1_0) (View.ld x2 r1_2)) (View.ld x3 r1_6)⟩,
    ⟨r1_9, k1_pay1 (k1_pay9 (k1_pay3 (View.ld x1 r1_1)) (k1_pay4 (View.ld x2 r1_2)) (k1_pay5 (View.ld x0 r1_0) (View.ld x2 r1_2)) (View.ld x3 r1_5))⟩,
    ⟨r1_8, k1_pay8 (k1_pay3 (View.ld x1 r1_1)) (k1_pay5 (View.ld x0 r1_0) (View.ld x2 r1_2)) (k1_pay7 (View.ld x2 r1_2)) (View.ld x3 r1_4)⟩,
    ⟨r1_7, k1_pay6 (View.ld x0 r1_0) (View.ld x1 r1_1) (View.ld x2 r1_2) (View.ld x3 r1_3)⟩]

/-- The four slabs tile the block (checked by evaluation), so they cover it. -/
theorem cover1_4 (p3 p2 p1 p0 : Vec F S1x1x1x256x32 .f32) (y : S1x4x1x256x32.Idx) :
    ∃ pc ∈ ([⟨r1_10, p3⟩, ⟨r1_9, p2⟩, ⟨r1_8, p1⟩, ⟨r1_7, p0⟩] : List (View.Piece (Elt F) S1x4x1x256x32 .f32)), y ∈ pc.1.set :=
  View.cover_of_tiled [⟨r1_10, p3⟩, ⟨r1_9, p2⟩, ⟨r1_8, p1⟩, ⟨r1_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out1_4` of the inputs'. Before
    each store the body also loads the slab it is about to overwrite; the value is read off whatever the buffer
    holds and is not used. -/
theorem sound_kernel1 (c : Dev nD) (E : Set ℕ) (i : grid1.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bp_core_kernel i arg1 harg1 arg2 harg2 arg3 harg3 arg4 harg4 arg5 harg5) K := by
  simp only [cc1__bp_core_kernel_eq_skeleton]; unfold cc1__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data of pipeline 1 on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.K.Region2.lean ====
/- Region 2 of @main (custom_call 2, the kernel function cc2__bp_core_kernel, pipeline 2), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.Kernel.Launch
import proofs.«134770_j15015205667393_2_alg».proof.Proof.Gen.Kernel.Skeleton
import proofs.«134770_j15015205667393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of input blocks 0, 1 and 2. -/
abbrev r2_0 : Rect S1x1x256x32 := Rect.unit (s := S1x1x256x32) ![0, 0, 0, 0] S1x1x256x32.size inb_S1x1x256x32_S1x1x256x32_0_0_0_0
abbrev r2_1 : Rect S1x1x4x256 := Rect.unit (s := S1x1x4x256) ![0, 0, 0, 0] S1x1x4x256.size inb_S1x1x4x256_S1x1x4x256_0_0_0_0
abbrev r2_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r2_3 : Rect S4x1x256x32x32 := Rect.unit (s := S4x1x256x32x32) ![0, 0, 0, 0, 0] S1x1x256x32x32.size inb_S4x1x256x32x32_S1x1x256x32x32_0_0_0_0_0
abbrev r2_4 : Rect S4x1x256x32x32 := Rect.unit (s := S4x1x256x32x32) ![1, 0, 0, 0, 0] S1x1x256x32x32.size inb_S4x1x256x32x32_S1x1x256x32x32_1_0_0_0_0
abbrev r2_5 : Rect S4x1x256x32x32 := Rect.unit (s := S4x1x256x32x32) ![2, 0, 0, 0, 0] S1x1x256x32x32.size inb_S4x1x256x32x32_S1x1x256x32x32_2_0_0_0_0
abbrev r2_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r2_7 : Rect S1x4x1x256x32 := Rect.unit (s := S1x4x1x256x32) ![0, 0, 0, 0, 0] S1x1x1x256x32.size inb_S1x4x1x256x32_S1x1x1x256x32_0_0_0_0_0
abbrev r2_8 : Rect S1x4x1x256x32 := Rect.unit (s := S1x4x1x256x32) ![0, 1, 0, 0, 0] S1x1x1x256x32.size inb_S1x4x1x256x32_S1x1x1x256x32_0_1_0_0_0
abbrev r2_9 : Rect S1x4x1x256x32 := Rect.unit (s := S1x4x1x256x32) ![0, 2, 0, 0, 0] S1x1x1x256x32.size inb_S1x4x1x256x32_S1x1x1x256x32_0_2_0_0_0
abbrev r2_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out2_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r2_10, k2_pay2 (k2_pay3 (View.ld x1 r2_1)) (k2_pay4 (View.ld x2 r2_2)) (k2_pay5 (View.ld x0 r2_0) (View.ld x2 r2_2)) (View.ld x3 r2_6)⟩,
    ⟨r2_9, k2_pay1 (k2_pay9 (k2_pay3 (View.ld x1 r2_1)) (k2_pay4 (View.ld x2 r2_2)) (k2_pay5 (View.ld x0 r2_0) (View.ld x2 r2_2)) (View.ld x3 r2_5))⟩,
    ⟨r2_8, k2_pay8 (k2_pay3 (View.ld x1 r2_1)) (k2_pay5 (View.ld x0 r2_0) (View.ld x2 r2_2)) (k2_pay7 (View.ld x2 r2_2)) (View.ld x3 r2_4)⟩,
    ⟨r2_7, k2_pay6 (View.ld x0 r2_0) (View.ld x1 r2_1) (View.ld x2 r2_2) (View.ld x3 r2_3)⟩]

/-- The four slabs tile the block (checked by evaluation), so they cover it. -/
theorem cover2_4 (p3 p2 p1 p0 : Vec F S1x1x1x256x32 .f32) (y : S1x4x1x256x32.Idx) :
    ∃ pc ∈ ([⟨r2_10, p3⟩, ⟨r2_9, p2⟩, ⟨r2_8, p1⟩, ⟨r2_7, p0⟩] : List (View.Piece (Elt F) S1x4x1x256x32 .f32)), y ∈ pc.1.set :=
  View.cover_of_tiled [⟨r2_10, p3⟩, ⟨r2_9, p2⟩, ⟨r2_8, p1⟩, ⟨r2_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out2_4` of the inputs'. Before
    each store the body also loads the slab it is about to overwrite; the value is read off whatever the buffer
    holds and is not used. -/
theorem sound_kernel2 (c : Dev nD) (E : Set ℕ) (i : grid2.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bp_core_kernel i arg1 harg1 arg2 harg2 arg3 harg3 arg4 harg4 arg5 harg5) K := by
  simp only [cc2__bp_core_kernel_eq_skeleton]; unfold cc2__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _ _ _)

/-! ## The pipeline's proof data -/

/-- The proof data of pipeline 2 on core `c`: the arrays as the region finds them (`V`); after the body at
    point `t` each input's buffer at its block and the output's at `out2_4` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.K.Frame.lean ====
import proofs.«134770_j15015205667393_2_alg».proof.Proof.K.RunCond
import proofs.«134770_j15015205667393_2_alg».proof.Proof.K.Region0
import proofs.«134770_j15015205667393_2_alg».proof.Proof.K.Region1
import proofs.«134770_j15015205667393_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The program's run assembled: the contents each region leaves, the three regions as segments of @main, and the
run of the whole program with every unscoped buffer named at the end.

Between two items of @main core `c` holds every unscoped buffer at a valuation: the launch memory folded through the
host stretches, and after region K its output array replaced by what the pipeline's write-backs leave, the fold of
the 128 blocks each grid point writes back. -/

set_option maxRecDepth 16384

noncomputable section

namespace Cert.Kernel.GenP

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- Region 0's entry contents read at the TensorCore's references. -/
abbrev En0 : (c : Dev nD) → (b : Ref sig .tc) → Buf (Elt F) ((c : Thread nD τ).loc b) := fun c b => V5 m c b
/-- At region 0's exit: its arrays at what the pipeline leaves, every other buffer as entered. -/
def W6 (c : Dev nD) : Valuation τ sig (Elt F) :=
  Pipeline.withArrays spec0 c (V5 m c) fun w => (dat0 (En0 m) c).arrAt w cfg0.N
theorem W6_arr (c : Dev nD) (w : Fin cfg0.W) :
    W6 m c (Proc.devRef .tc (Pipeline.arrRef spec0 w)) = (dat0 (En0 m) c).arrAt w cfg0.N := by
  unfold W6; exact Pipeline.withArrays_arr spec0 launch0.win.arr_inj c _ _ w
/-- The regions' outputs known so far: region 0's. -/
def outs1 : Outs (F := F) := fun J r c => match J with | 6 => W6 m c r | _ => V0 m c r

/-- Region 1's entry contents. -/
abbrev En1 : (c : Dev nD) → (b : Ref sig .tc) → Buf (Elt F) ((c : Thread nD τ).loc b) := fun c b => V15 m (outs1 m) c b
def W16 (c : Dev nD) : Valuation τ sig (Elt F) :=
  Pipeline.withArrays spec1 c (V15 m (outs1 m) c) fun w => (dat1 (En1 m) c).arrAt w cfg1.N
theorem W16_arr (c : Dev nD) (w : Fin cfg1.W) :
    W16 m c (Proc.devRef .tc (Pipeline.arrRef spec1 w)) = (dat1 (En1 m) c).arrAt w cfg1.N := by
  unfold W16; exact Pipeline.withArrays_arr spec1 launch1.win.arr_inj c _ _ w
/-- Regions 0's and 1's outputs. -/
def outs2 : Outs (F := F) := fun J r c => match J with | 6 => W6 m c r | 16 => W16 m c r | _ => V0 m c r

/-- Region 2's entry contents. -/
abbrev En2 : (c : Dev nD) → (b : Ref sig .tc) → Buf (Elt F) ((c : Thread nD τ).loc b) := fun c b => V25 m (outs2 m) c b
def W26 (c : Dev nD) : Valuation τ sig (Elt F) :=
  Pipeline.withArrays spec2 c (V25 m (outs2 m) c) fun w => (dat2 (En2 m) c).arrAt w cfg2.N
theorem W26_arr (c : Dev nD) (w : Fin cfg2.W) :
    W26 m c (Proc.devRef .tc (Pipeline.arrRef spec2 w)) = (dat2 (En2 m) c).arrAt w cfg2.N := by
  unfold W26; exact Pipeline.withArrays_arr spec2 launch2.win.arr_inj c _ _ w
/-- All three regions' outputs: what the valuations between @main's items are written over. -/
def outs : Outs (F := F) := fun J r c => match J with | 6 => W6 m c r | 16 => W16 m c r | 26 => W26 m c r | _ => V0 m c r

/-- A region's entry contents do not depend on the outputs of the regions after it. -/
theorem V15_outs (c : Dev nD) : V15 m (outs m) c = V15 m (outs1 m) c := rfl
theorem V25_outs (c : Dev nD) : V25 m (outs m) c = V25 m (outs2 m) c := rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the four input arrays their entry contents (an
    input window is never written back), the output array its write-backs folded over the 128 grid points. -/
theorem hF0 (c : Dev nD) (w : Fin cfg0.W) :
    (dat0 (En0 m) c).arrAt w cfg0.N = (fun b : Ref sig .tc => V6 m (outs m) c b) (Pipeline.arrRef spec0 w) := by
  match w with
  | ⟨0, _⟩ => exact (((dat0 (En0 m) c).arrAt_in 0 rfl _).trans (A_eq0 (En0 m) c 0)).trans (Function.update_of_ne (StableHlo.devRef_ne_of_ne (by decide)) _ _).symm
  | ⟨1, _⟩ => exact (((dat0 (En0 m) c).arrAt_in 1 rfl _).trans (A_eq0 (En0 m) c 1)).trans (Function.update_of_ne (StableHlo.devRef_ne_of_ne (by decide)) _ _).symm
  | ⟨2, _⟩ => exact (((dat0 (En0 m) c).arrAt_in 2 rfl _).trans (A_eq0 (En0 m) c 2)).trans (Function.update_of_ne (StableHlo.devRef_ne_of_ne (by decide)) _ _).symm
  | ⟨3, _⟩ => exact (((dat0 (En0 m) c).arrAt_in 3 rfl _).trans (A_eq0 (En0 m) c 3)).trans (Function.update_of_ne (StableHlo.devRef_ne_of_ne (by decide)) _ _).symm
  | ⟨4, _⟩ =>
    show _ = Function.update (V5 m c) (Proc.devRef .tc main_v21) (W6 m c (Proc.devRef .tc main_v21)) (Proc.devRef .tc main_v21)
    rw [Function.update_self]
    exact (W6_arr m c 4).symm

/-- and every other buffer what it held at entry. -/
theorem hrest0 (c : Dev nD) : ∀ b, b ∉ Finset.univ.image (Pipeline.arrRef spec0) →
    (fun b : Ref sig .tc => V6 m (outs m) c b) b = En0 m c b := fun b hb =>
  Function.update_of_ne (StableHlo.devRef_ne_of_ne fun e => hb (Finset.mem_image.mpr ⟨4, Finset.mem_univ _, e.symm⟩)) _ _

set_option backward.isDefEq.respectTransparency.types false in
/-- Region 0 over the thread state "every unscoped buffer at the boundary's contents, the generator register at
    some state, nothing owed": its arrays are split out of the unscoped buffers at entry and put back at the exit
    contents; the generator register goes into the class invariant and comes back; the kernel has no semaphore of
    its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L₀ lv₀ 0 fun _ _ => rfl
  pre c := iprop(StableHlo.held (c : Thread nD τ) (Pipeline.ucRefs τ sig) (V5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b : Ref sig .tc => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- After region 1 each of its arrays holds what the pipeline leaves: the four input arrays their entry contents (an
    input window is never written back), the output array its write-backs folded over the 128 grid points. -/
theorem hF1 (c : Dev nD) (w : Fin cfg1.W) :
    (dat1 (En1 m) c).arrAt w cfg1.N = (fun b : Ref sig .tc => V16 m (outs m) c b) (Pipeline.arrRef spec1 w) := by
  match w with
  | ⟨0, _⟩ => exact (((dat1 (En1 m) c).arrAt_in 0 rfl _).trans (A_eq1 (En1 m) c 0)).trans (Function.update_of_ne (StableHlo.devRef_ne_of_ne (by decide)) _ _).symm
  | ⟨1, _⟩ => exact (((dat1 (En1 m) c).arrAt_in 1 rfl _).trans (A_eq1 (En1 m) c 1)).trans (Function.update_of_ne (StableHlo.devRef_ne_of_ne (by decide)) _ _).symm
  | ⟨2, _⟩ => exact (((dat1 (En1 m) c).arrAt_in 2 rfl _).trans (A_eq1 (En1 m) c 2)).trans (Function.update_of_ne (StableHlo.devRef_ne_of_ne (by decide)) _ _).symm
  | ⟨3, _⟩ => exact (((dat1 (En1 m) c).arrAt_in 3 rfl _).trans (A_eq1 (En1 m) c 3)).trans (Function.update_of_ne (StableHlo.devRef_ne_of_ne (by decide)) _ _).symm
  | ⟨4, _⟩ =>
    show _ = Function.update (V15 m (outs m) c) (Proc.devRef .tc main_v39) (W16 m c (Proc.devRef .tc main_v39)) (Proc.devRef .tc main_v39)
    rw [Function.update_self]
    exact (W16_arr m c 4).symm

/-- and every other buffer what it held at entry. -/
theorem hrest1 (c : Dev nD) : ∀ b, b ∉ Finset.univ.image (Pipeline.arrRef spec1) →
    (fun b : Ref sig .tc => V16 m (outs m) c b) b = En1 m c b := fun b hb =>
  Function.update_of_ne (StableHlo.devRef_ne_of_ne fun e => hb (Finset.mem_image.mpr ⟨4, Finset.mem_univ _, e.symm⟩)) _ _

set_option backward.isDefEq.respectTransparency.types false in
/-- Region 1 over the thread state "every unscoped buffer at the boundary's contents, the generator register at
    some state, nothing owed": its arrays are split out of the unscoped buffers at entry and put back at the exit
    contents; the generator register goes into the class invariant and comes back; the kernel has no semaphore of
    its own. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L₀ lv₀ 1 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, show V15 m (outs m) c = V15 m (outs1 m) c from rfl]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b : Ref sig .tc => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- After region 2 each of its arrays holds what the pipeline leaves: the four input arrays their entry contents (an
    input window is never written back), the output array its write-backs folded over the 128 grid points. -/
theorem hF2 (c : Dev nD) (w : Fin cfg2.W) :
    (dat2 (En2 m) c).arrAt w cfg2.N = (fun b : Ref sig .tc => V26 m (outs m) c b) (Pipeline.arrRef spec2 w) := by
  match w with
  | ⟨0, _⟩ => exact (((dat2 (En2 m) c).arrAt_in 0 rfl _).trans (A_eq2 (En2 m) c 0)).trans (Function.update_of_ne (StableHlo.devRef_ne_of_ne (by decide)) _ _).symm
  | ⟨1, _⟩ => exact (((dat2 (En2 m) c).arrAt_in 1 rfl _).trans (A_eq2 (En2 m) c 1)).trans (Function.update_of_ne (StableHlo.devRef_ne_of_ne (by decide)) _ _).symm
  | ⟨2, _⟩ => exact (((dat2 (En2 m) c).arrAt_in 2 rfl _).trans (A_eq2 (En2 m) c 2)).trans (Function.update_of_ne (StableHlo.devRef_ne_of_ne (by decide)) _ _).symm
  | ⟨3, _⟩ => exact (((dat2 (En2 m) c).arrAt_in 3 rfl _).trans (A_eq2 (En2 m) c 3)).trans (Function.update_of_ne (StableHlo.devRef_ne_of_ne (by decide)) _ _).symm
  | ⟨4, _⟩ =>
    show _ = Function.update (V25 m (outs m) c) (Proc.devRef .tc main_v57) (W26 m c (Proc.devRef .tc main_v57)) (Proc.devRef .tc main_v57)
    rw [Function.update_self]
    exact (W26_arr m c 4).symm

/-- and every other buffer what it held at entry. -/
theorem hrest2 (c : Dev nD) : ∀ b, b ∉ Finset.univ.image (Pipeline.arrRef spec2) →
    (fun b : Ref sig .tc => V26 m (outs m) c b) b = En2 m c b := fun b hb =>
  Function.update_of_ne (StableHlo.devRef_ne_of_ne fun e => hb (Finset.mem_image.mpr ⟨4, Finset.mem_univ _, e.symm⟩)) _ _

set_option backward.isDefEq.respectTransparency.types false in
/-- Region 2 over the thread state "every unscoped buffer at the boundary's contents, the generator register at
    some state, nothing owed": its arrays are split out of the unscoped buffers at entry and put back at the exit
    contents; the generator register goes into the class invariant and comes back; the kernel has no semaphore of
    its own. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L₀ lv₀ 2 fun _ _ => rfl
  pre c := iprop(StableHlo.held (c : Thread nD τ) (Pipeline.ucRefs τ sig) (V25 m (outs m) c) ∗ Rst c)
  post c := iprop(StableHlo.held (c : Thread nD τ) (Pipeline.ucRefs τ sig) (V26 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none, show V25 m (outs m) c = V25 m (outs2 m) c from rfl]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b : Ref sig .tc => V26 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, nothing faulting, and in
    every final memory every unscoped buffer of core `c` holds the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V35 m (outs m) c b) :=
  run_cond m emb₁ () 𝒱₀ L₀ lv₀ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach L₀ lv₀ fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)

/-- The frame: the four argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c (Proc.devRef .tc main_arg0) (Finset.mem_filter.mpr ⟨StableHlo.devRef_mem_tcRefs main_arg0, by decide⟩)).trans (V35_main_arg0 m (outs m) c),
     (h c (Proc.devRef .tc main_arg1) (Finset.mem_filter.mpr ⟨StableHlo.devRef_mem_tcRefs main_arg1, by decide⟩)).trans (V35_main_arg1 m (outs m) c),
     (h c (Proc.devRef .tc main_arg2) (Finset.mem_filter.mpr ⟨StableHlo.devRef_mem_tcRefs main_arg2, by decide⟩)).trans (V35_main_arg2 m (outs m) c),
     (h c (Proc.devRef .tc main_arg3) (Finset.mem_filter.mpr ⟨StableHlo.devRef_mem_tcRefs main_arg3, by decide⟩)).trans (V35_main_arg3 m (outs m) c)⟩)
    (run_all m ρ)

end Cert.Kernel.GenP

end
-- ==== Proof.KI.RunCond.lean ====
import proofs.«134770_j15015205667393_2_alg».proof.Proof.RegionsKI

/-! The whole run of @main with every unscoped buffer named at the end.

The generated conditional frame states only that the argument arrays end unchanged; a value claim also needs the
result buffer. This module calls the several-regions launch theorem once more, over the same segments and thread
states, with the post "every unscoped buffer of every core holds the last valuation". -/

set_option maxRecDepth 16384

noncomputable section

namespace Cert.KernelIdeal.GenP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The program's run, given the three regions' records: for any rest states `E` the launch makes on every core at
    once and that end owing nothing, any contents the regions leave (`outs`) and any proof data, GIVEN per region a
    segment record entered from the thread state before it and left at the one after it, every weakly fair execution
    of @main from memory `m` with zero counters terminates, and in every final memory EVERY unscoped buffer of core
    `c` holds the last valuation `V35 m outs c` — the launch contents folded through the 32 host stretches and the
    three regions' outputs. The frame claim and the value of the result buffer are both read off this post. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V25 m outs c) ∗ E 2 c) ⊢ R2.pre c)
    (hpost2 : ∀ c : Dev nD, R2.post c ⊢ iprop(StableHlo.held (c : Thread nD τ) (Pipeline.ucRefs τ sig) (V26 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V35 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V35 m outs c))
    (hch := fun c => ⟨.rfl, .rfl, .rfl, .rfl, .rfl, hpre0 c, hpost0 c, .rfl, .rfl, .rfl, .rfl, .rfl, .rfl, .rfl, .rfl, hpre1 c, hpost1 c, .rfl, .rfl, .rfl, .rfl, .rfl, .rfl, .rfl, .rfl, hpre2 c, hpost2 c, .rfl, .rfl, .rfl, .rfl, .rfl, .rfl, .rfl, .rfl, sep_mono .rfl (hE3 c)⟩)
    (hinit := ?_) (QY := fun c s => ∀ b ∈ Pipeline.ucRefs τ sig, s.mem (((c : Thread nD τ)).1, b) = V35 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V35 m outs c) s')
    isplitl [Hh] <;> iassumption

end Cert.KernelIdeal.GenP

end
-- ==== Proof.KI.Region0.lean ====
/- Region 0 of @main (custom_call 0, the kernel function cc0__bp_core_kernel, pipeline 0), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.KernelIdeal.Launch
import proofs.«134770_j15015205667393_2_alg».proof.Proof.Gen.KernelIdeal.Skeleton
import proofs.«134770_j15015205667393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of input blocks 0, 1 and 2. -/
abbrev r0_0 : Rect S1x1x256x32 := Rect.unit (s := S1x1x256x32) ![0, 0, 0, 0] S1x1x256x32.size inb_S1x1x256x32_S1x1x256x32_0_0_0_0
abbrev r0_1 : Rect S1x1x4x256 := Rect.unit (s := S1x1x4x256) ![0, 0, 0, 0] S1x1x4x256.size inb_S1x1x4x256_S1x1x4x256_0_0_0_0
abbrev r0_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r0_3 : Rect S4x1x256x32x32 := Rect.unit (s := S4x1x256x32x32) ![0, 0, 0, 0, 0] S1x1x256x32x32.size inb_S4x1x256x32x32_S1x1x256x32x32_0_0_0_0_0
abbrev r0_4 : Rect S4x1x256x32x32 := Rect.unit (s := S4x1x256x32x32) ![1, 0, 0, 0, 0] S1x1x256x32x32.size inb_S4x1x256x32x32_S1x1x256x32x32_1_0_0_0_0
abbrev r0_5 : Rect S4x1x256x32x32 := Rect.unit (s := S4x1x256x32x32) ![2, 0, 0, 0, 0] S1x1x256x32x32.size inb_S4x1x256x32x32_S1x1x256x32x32_2_0_0_0_0
abbrev r0_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r0_7 : Rect S1x4x1x256x32 := Rect.unit (s := S1x4x1x256x32) ![0, 0, 0, 0, 0] S1x1x1x256x32.size inb_S1x4x1x256x32_S1x1x1x256x32_0_0_0_0_0
abbrev r0_8 : Rect S1x4x1x256x32 := Rect.unit (s := S1x4x1x256x32) ![0, 1, 0, 0, 0] S1x1x1x256x32.size inb_S1x4x1x256x32_S1x1x1x256x32_0_1_0_0_0
abbrev r0_9 : Rect S1x4x1x256x32 := Rect.unit (s := S1x4x1x256x32) ![0, 2, 0, 0, 0] S1x1x1x256x32.size inb_S1x4x1x256x32_S1x1x1x256x32_0_2_0_0_0
abbrev r0_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out0_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r0_10, k0_pay2 (k0_pay3 (View.ld x1 r0_1)) (View.ld x2 r0_2) (k0_pay4 (View.ld x0 r0_0) (View.ld x2 r0_2)) (View.ld x3 r0_6)⟩,
    ⟨r0_9, k0_pay1 (k0_pay8 (k0_pay3 (View.ld x1 r0_1)) (View.ld x2 r0_2) (k0_pay4 (View.ld x0 r0_0) (View.ld x2 r0_2)) (View.ld x3 r0_5))⟩,
    ⟨r0_8, k0_pay7 (k0_pay3 (View.ld x1 r0_1)) (k0_pay6 (View.ld x0 r0_0) (View.ld x2 r0_2)) (View.ld x3 r0_4)⟩,
    ⟨r0_7, k0_pay5 (View.ld x0 r0_0) (View.ld x1 r0_1) (View.ld x2 r0_2) (View.ld x3 r0_3)⟩]

/-- The four slabs tile the block (checked by evaluation), so they cover it. -/
theorem cover0_4 (p3 p2 p1 p0 : Vec F S1x1x1x256x32 .f32) (y : S1x4x1x256x32.Idx) :
    ∃ pc ∈ ([⟨r0_10, p3⟩, ⟨r0_9, p2⟩, ⟨r0_8, p1⟩, ⟨r0_7, p0⟩] : List (View.Piece (Elt F) S1x4x1x256x32 .f32)), y ∈ pc.1.set :=
  View.cover_of_tiled [⟨r0_10, p3⟩, ⟨r0_9, p2⟩, ⟨r0_8, p1⟩, ⟨r0_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out0_4` of the inputs'. Before
    each store the body also loads the slab it is about to overwrite; the value is read off whatever the buffer
    holds and is not used. -/
theorem sound_kernel0 (c : Dev nD) (E : Set ℕ) (i : grid0.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__bp_core_kernel i arg1 harg1 arg2 harg2 arg3 harg3 arg4 harg4 arg5 harg5) K := by
  simp only [cc0__bp_core_kernel_eq_skeleton]; unfold cc0__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _ _ _ _)

/-! ## The pipeline's proof data -/

/-- The proof data of pipeline 0 on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KI.Region1.lean ====
/- Region 1 of @main (custom_call 1, the kernel function cc1__bp_core_kernel, pipeline 1), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.KernelIdeal.Launch
import proofs.«134770_j15015205667393_2_alg».proof.Proof.Gen.KernelIdeal.Skeleton
import proofs.«134770_j15015205667393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of input blocks 0, 1 and 2. -/
abbrev r1_0 : Rect S1x1x256x32 := Rect.unit (s := S1x1x256x32) ![0, 0, 0, 0] S1x1x256x32.size inb_S1x1x256x32_S1x1x256x32_0_0_0_0
abbrev r1_1 : Rect S1x1x4x256 := Rect.unit (s := S1x1x4x256) ![0, 0, 0, 0] S1x1x4x256.size inb_S1x1x4x256_S1x1x4x256_0_0_0_0
abbrev r1_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r1_3 : Rect S4x1x256x32x32 := Rect.unit (s := S4x1x256x32x32) ![0, 0, 0, 0, 0] S1x1x256x32x32.size inb_S4x1x256x32x32_S1x1x256x32x32_0_0_0_0_0
abbrev r1_4 : Rect S4x1x256x32x32 := Rect.unit (s := S4x1x256x32x32) ![1, 0, 0, 0, 0] S1x1x256x32x32.size inb_S4x1x256x32x32_S1x1x256x32x32_1_0_0_0_0
abbrev r1_5 : Rect S4x1x256x32x32 := Rect.unit (s := S4x1x256x32x32) ![2, 0, 0, 0, 0] S1x1x256x32x32.size inb_S4x1x256x32x32_S1x1x256x32x32_2_0_0_0_0
abbrev r1_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r1_7 : Rect S1x4x1x256x32 := Rect.unit (s := S1x4x1x256x32) ![0, 0, 0, 0, 0] S1x1x1x256x32.size inb_S1x4x1x256x32_S1x1x1x256x32_0_0_0_0_0
abbrev r1_8 : Rect S1x4x1x256x32 := Rect.unit (s := S1x4x1x256x32) ![0, 1, 0, 0, 0] S1x1x1x256x32.size inb_S1x4x1x256x32_S1x1x1x256x32_0_1_0_0_0
abbrev r1_9 : Rect S1x4x1x256x32 := Rect.unit (s := S1x4x1x256x32) ![0, 2, 0, 0, 0] S1x1x1x256x32.size inb_S1x4x1x256x32_S1x1x1x256x32_0_2_0_0_0
abbrev r1_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out1_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r1_10, k1_pay2 (k1_pay3 (View.ld x1 r1_1)) (k1_pay4 (View.ld x2 r1_2)) (k1_pay5 (View.ld x0 r1_0) (View.ld x2 r1_2)) (View.ld x3 r1_6)⟩,
    ⟨r1_9, k1_pay1 (k1_pay9 (k1_pay3 (View.ld x1 r1_1)) (k1_pay4 (View.ld x2 r1_2)) (k1_pay5 (View.ld x0 r1_0) (View.ld x2 r1_2)) (View.ld x3 r1_5))⟩,
    ⟨r1_8, k1_pay8 (k1_pay3 (View.ld x1 r1_1)) (k1_pay5 (View.ld x0 r1_0) (View.ld x2 r1_2)) (k1_pay7 (View.ld x2 r1_2)) (View.ld x3 r1_4)⟩,
    ⟨r1_7, k1_pay6 (View.ld x0 r1_0) (View.ld x1 r1_1) (View.ld x2 r1_2) (View.ld x3 r1_3)⟩]

/-- The four slabs tile the block (checked by evaluation), so they cover it. -/
theorem cover1_4 (p3 p2 p1 p0 : Vec F S1x1x1x256x32 .f32) (y : S1x4x1x256x32.Idx) :
    ∃ pc ∈ ([⟨r1_10, p3⟩, ⟨r1_9, p2⟩, ⟨r1_8, p1⟩, ⟨r1_7, p0⟩] : List (View.Piece (Elt F) S1x4x1x256x32 .f32)), y ∈ pc.1.set :=
  View.cover_of_tiled [⟨r1_10, p3⟩, ⟨r1_9, p2⟩, ⟨r1_8, p1⟩, ⟨r1_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out1_4` of the inputs'. Before
    each store the body also loads the slab it is about to overwrite; the value is read off whatever the buffer
    holds and is not used. -/
theorem sound_kernel1 (c : Dev nD) (E : Set ℕ) (i : grid1.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bp_core_kernel i arg1 harg1 arg2 harg2 arg3 harg3 arg4 harg4 arg5 harg5) K := by
  simp only [cc1__bp_core_kernel_eq_skeleton]; unfold cc1__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The pipeline's proof data -/

/-- The proof data of pipeline 1 on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KI.Region2.lean ====
/- Region 2 of @main (custom_call 2, the kernel function cc2__bp_core_kernel, pipeline 2), stated at a
   parameter V: the TensorCore's buffer contents when the region is entered. Each window's block at a grid point is
   read off V; the four input windows' staging buffers hold their blocks at every point; the body stores the output
   block as four slabs along its second axis, each slab a payload of the input blocks, so what the output window's
   staging buffer holds after the body is the canon of those four stores; the body's triple, the pipeline's proof
   data and the body obligation follow. -/
import proofs.«134770_j15015205667393_2_alg».proof.Proof.Gen.KernelIdeal.Launch
import proofs.«134770_j15015205667393_2_alg».proof.Proof.Gen.KernelIdeal.Skeleton
import proofs.«134770_j15015205667393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of input blocks 0, 1 and 2. -/
abbrev r2_0 : Rect S1x1x256x32 := Rect.unit (s := S1x1x256x32) ![0, 0, 0, 0] S1x1x256x32.size inb_S1x1x256x32_S1x1x256x32_0_0_0_0
abbrev r2_1 : Rect S1x1x4x256 := Rect.unit (s := S1x1x4x256) ![0, 0, 0, 0] S1x1x4x256.size inb_S1x1x4x256_S1x1x4x256_0_0_0_0
abbrev r2_2 : Rect S1x4x1x256x32 := Rect.unit (s := S1x4x1x256x32) ![0, 0, 0, 0, 0] S1x4x1x256x32.size inb_S1x4x1x256x32_S1x4x1x256x32_0_0_0_0_0
/-- Slab `d` of input block 3 along its first axis, `d = 0, 1, 2, 3`. -/
abbrev r2_3 : Rect S4x1x256x32x32 := Rect.unit (s := S4x1x256x32x32) ![0, 0, 0, 0, 0] S1x1x256x32x32.size inb_S4x1x256x32x32_S1x1x256x32x32_0_0_0_0_0
abbrev r2_4 : Rect S4x1x256x32x32 := Rect.unit (s := S4x1x256x32x32) ![1, 0, 0, 0, 0] S1x1x256x32x32.size inb_S4x1x256x32x32_S1x1x256x32x32_1_0_0_0_0
abbrev r2_5 : Rect S4x1x256x32x32 := Rect.unit (s := S4x1x256x32x32) ![2, 0, 0, 0, 0] S1x1x256x32x32.size inb_S4x1x256x32x32_S1x1x256x32x32_2_0_0_0_0
abbrev r2_6 : Rect S4x1x256x32x32 := Rect.unit (s := S4x1x256x32x32) ![3, 0, 0, 0, 0] S1x1x256x32x32.size inb_S4x1x256x32x32_S1x1x256x32x32_3_0_0_0_0
/-- Slab `d` of the output block along its second axis, `d = 0, 1, 2, 3`. -/
abbrev r2_7 : Rect S1x4x1x256x32 := Rect.unit (s := S1x4x1x256x32) ![0, 0, 0, 0, 0] S1x1x1x256x32.size inb_S1x4x1x256x32_S1x1x1x256x32_0_0_0_0_0
abbrev r2_8 : Rect S1x4x1x256x32 := Rect.unit (s := S1x4x1x256x32) ![0, 1, 0, 0, 0] S1x1x1x256x32.size inb_S1x4x1x256x32_S1x1x1x256x32_0_1_0_0_0
abbrev r2_9 : Rect S1x4x1x256x32 := Rect.unit (s := S1x4x1x256x32) ![0, 2, 0, 0, 0] S1x1x1x256x32.size inb_S1x4x1x256x32_S1x1x1x256x32_0_2_0_0_0
abbrev r2_10 : Rect S1x4x1x256x32 := Rect.unit (s := S1x4x1x256x32) ![0, 3, 0, 0, 0] S1x1x1x256x32.size inb_S1x4x1x256x32_S1x1x1x256x32_0_3_0_0_0

/-! ## What the body leaves in the output window's buffer -/

/-- Window 4's staging buffer after the body, from the input windows' blocks: its four stores as pieces, last
    first — slab 3, slab 2, slab 1, slab 0 of the second axis —, each payload over what the body loaded of the
    input blocks (the payloads are the skeleton's). -/
def out2_4 (x0 : Vec F S1x1x256x32 .f32) (x1 : Vec F S1x1x4x256 .f32) (x2 : Vec F S1x4x1x256x32 .f32) (x3 : Vec F S4x1x256x32x32 .f32) : Vec F S1x4x1x256x32 .f32 :=
  View.canon [⟨r2_10, k2_pay2 (k2_pay3 (View.ld x1 r2_1)) (k2_pay4 (View.ld x2 r2_2)) (k2_pay5 (View.ld x0 r2_0) (View.ld x2 r2_2)) (View.ld x3 r2_6)⟩,
    ⟨r2_9, k2_pay1 (k2_pay9 (k2_pay3 (View.ld x1 r2_1)) (k2_pay4 (View.ld x2 r2_2)) (k2_pay5 (View.ld x0 r2_0) (View.ld x2 r2_2)) (View.ld x3 r2_5))⟩,
    ⟨r2_8, k2_pay8 (k2_pay3 (View.ld x1 r2_1)) (k2_pay5 (View.ld x0 r2_0) (View.ld x2 r2_2)) (k2_pay7 (View.ld x2 r2_2)) (View.ld x3 r2_4)⟩,
    ⟨r2_7, k2_pay6 (View.ld x0 r2_0) (View.ld x1 r2_1) (View.ld x2 r2_2) (View.ld x3 r2_3)⟩]

/-- The four slabs tile the block (checked by evaluation), so they cover it. -/
theorem cover2_4 (p3 p2 p1 p0 : Vec F S1x1x1x256x32 .f32) (y : S1x4x1x256x32.Idx) :
    ∃ pc ∈ ([⟨r2_10, p3⟩, ⟨r2_9, p2⟩, ⟨r2_8, p1⟩, ⟨r2_7, p0⟩] : List (View.Piece (Elt F) S1x4x1x256x32 .f32)), y ∈ pc.1.set :=
  View.cover_of_tiled [⟨r2_10, p3⟩, ⟨r2_9, p2⟩, ⟨r2_8, p1⟩, ⟨r2_7, p0⟩] S1x1x1x256x32.size (by rfl) y

/-! ## The body's triple -/

set_option maxHeartbeats 4000000 in
/-- The kernel body on whole staging memrefs, the inputs' at read contents `x0 … x3` and the output's at anything,
    runs to the continuation holding the inputs' as they were and the output's at `out2_4` of the inputs'. Before
    each store the body also loads the slab it is about to overwrite; the value is read off whatever the buffer
    holds and is not used. -/
theorem sound_kernel2 (c : Dev nD) (E : Set ℕ) (i : grid2.Coords) (arg1 : Memref sig .tc .vmem S1x1x256x32 .f32) (harg1 : arg1.IsWhole) (arg2 : Memref sig .tc .vmem S1x1x4x256 .f32) (harg2 : arg2.IsWhole) (arg3 : Memref sig .tc .vmem S1x4x1x256x32 .f32) (harg3 : arg3.IsWhole) (arg4 : Memref sig .tc .vmem S4x1x256x32x32 .f32) (harg4 : arg4.IsWhole) (arg5 : Memref sig .tc .vmem S1x4x1x256x32 .f32) (harg5 : arg5.IsWhole)
    (x0 : Vec F S1x1x256x32 .f32) (x1 : Vec F S1x1x4x256 .f32) (x2 : Vec F S1x4x1x256x32 .f32) (x3 : Vec F S4x1x256x32x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bp_core_kernel i arg1 harg1 arg2 harg2 arg3 harg3 arg4 harg4 arg5 harg5) K := by
  simp only [cc2__bp_core_kernel_eq_skeleton]; unfold cc2__bp_core_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _ _ _ _)

/-! ## The pipeline's proof data -/

/-- The proof data of pipeline 2 on core `c`: the arrays as the region finds them (`V`); after the body at
    point `t` each input's buffer at its block and the output's at `out2_4` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.KI.Frame.lean ====
import proofs.«134770_j15015205667393_2_alg».proof.Proof.KI.RunCond
import proofs.«134770_j15015205667393_2_alg».proof.Proof.KI.Region0
import proofs.«134770_j15015205667393_2_alg».proof.Proof.KI.Region1
import proofs.«134770_j15015205667393_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The program's run assembled: the contents each region leaves, the three regions as segments of @main, and the
run of the whole program with every unscoped buffer named at the end.

Between two items of @main core `c` holds every unscoped buffer at a valuation: the launch memory folded through the
host stretches, and after region K its output array replaced by what the pipeline's write-backs leave, the fold of
the 128 blocks each grid point writes back. -/

set_option maxRecDepth 16384

noncomputable section

namespace Cert.KernelIdeal.GenP

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- Region 0's entry contents read at the TensorCore's references. -/
abbrev En0 : (c : Dev nD) → (b : Ref sig .tc) → Buf (Elt F) ((c : Thread nD τ).loc b) := fun c b => V5 m c b
/-- At region 0's exit: its arrays at what the pipeline leaves, every other buffer as entered. -/
def W6 (c : Dev nD) : Valuation τ sig (Elt F) :=
  Pipeline.withArrays spec0 c (V5 m c) fun w => (dat0 (En0 m) c).arrAt w cfg0.N
theorem W6_arr (c : Dev nD) (w : Fin cfg0.W) :
    W6 m c (Proc.devRef .tc (Pipeline.arrRef spec0 w)) = (dat0 (En0 m) c).arrAt w cfg0.N := by
  unfold W6; exact Pipeline.withArrays_arr spec0 launch0.win.arr_inj c _ _ w
/-- The regions' outputs known so far: region 0's. -/
def outs1 : Outs (F := F) := fun J r c => match J with | 6 => W6 m c r | _ => V0 m c r

/-- Region 1's entry contents. -/
abbrev En1 : (c : Dev nD) → (b : Ref sig .tc) → Buf (Elt F) ((c : Thread nD τ).loc b) := fun c b => V15 m (outs1 m) c b
def W16 (c : Dev nD) : Valuation τ sig (Elt F) :=
  Pipeline.withArrays spec1 c (V15 m (outs1 m) c) fun w => (dat1 (En1 m) c).arrAt w cfg1.N
theorem W16_arr (c : Dev nD) (w : Fin cfg1.W) :
    W16 m c (Proc.devRef .tc (Pipeline.arrRef spec1 w)) = (dat1 (En1 m) c).arrAt w cfg1.N := by
  unfold W16; exact Pipeline.withArrays_arr spec1 launch1.win.arr_inj c _ _ w
/-- Regions 0's and 1's outputs. -/
def outs2 : Outs (F := F) := fun J r c => match J with | 6 => W6 m c r | 16 => W16 m c r | _ => V0 m c r

/-- Region 2's entry contents. -/
abbrev En2 : (c : Dev nD) → (b : Ref sig .tc) → Buf (Elt F) ((c : Thread nD τ).loc b) := fun c b => V25 m (outs2 m) c b
def W26 (c : Dev nD) : Valuation τ sig (Elt F) :=
  Pipeline.withArrays spec2 c (V25 m (outs2 m) c) fun w => (dat2 (En2 m) c).arrAt w cfg2.N
theorem W26_arr (c : Dev nD) (w : Fin cfg2.W) :
    W26 m c (Proc.devRef .tc (Pipeline.arrRef spec2 w)) = (dat2 (En2 m) c).arrAt w cfg2.N := by
  unfold W26; exact Pipeline.withArrays_arr spec2 launch2.win.arr_inj c _ _ w
/-- All three regions' outputs: what the valuations between @main's items are written over. -/
def outs : Outs (F := F) := fun J r c => match J with | 6 => W6 m c r | 16 => W16 m c r | 26 => W26 m c r | _ => V0 m c r

/-- A region's entry contents do not depend on the outputs of the regions after it. -/
theorem V15_outs (c : Dev nD) : V15 m (outs m) c = V15 m (outs1 m) c := rfl
theorem V25_outs (c : Dev nD) : V25 m (outs m) c = V25 m (outs2 m) c := rfl

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its
    `owes`, at nothing. -/
abbrev Rst (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the four input arrays their entry contents (an
    input window is never written back), the output array its write-backs folded over the 128 grid points. -/
theorem hF0 (c : Dev nD) (w : Fin cfg0.W) :
    (dat0 (En0 m) c).arrAt w cfg0.N = (fun b : Ref sig .tc => V6 m (outs m) c b) (Pipeline.arrRef spec0 w) := by
  match w with
  | ⟨0, _⟩ => exact (((dat0 (En0 m) c).arrAt_in 0 rfl _).trans (A_eq0 (En0 m) c 0)).trans (Function.update_of_ne (StableHlo.devRef_ne_of_ne (by decide)) _ _).symm
  | ⟨1, _⟩ => exact (((dat0 (En0 m) c).arrAt_in 1 rfl _).trans (A_eq0 (En0 m) c 1)).trans (Function.update_of_ne (StableHlo.devRef_ne_of_ne (by decide)) _ _).symm
  | ⟨2, _⟩ => exact (((dat0 (En0 m) c).arrAt_in 2 rfl _).trans (A_eq0 (En0 m) c 2)).trans (Function.update_of_ne (StableHlo.devRef_ne_of_ne (by decide)) _ _).symm
  | ⟨3, _⟩ => exact (((dat0 (En0 m) c).arrAt_in 3 rfl _).trans (A_eq0 (En0 m) c 3)).trans (Function.update_of_ne (StableHlo.devRef_ne_of_ne (by decide)) _ _).symm
  | ⟨4, _⟩ =>
    show _ = Function.update (V5 m c) (Proc.devRef .tc main_v21) (W6 m c (Proc.devRef .tc main_v21)) (Proc.devRef .tc main_v21)
    rw [Function.update_self]
    exact (W6_arr m c 4).symm

/-- and every other buffer what it held at entry. -/
theorem hrest0 (c : Dev nD) : ∀ b, b ∉ Finset.univ.image (Pipeline.arrRef spec0) →
    (fun b : Ref sig .tc => V6 m (outs m) c b) b = En0 m c b := fun b hb =>
  Function.update_of_ne (StableHlo.devRef_ne_of_ne fun e => hb (Finset.mem_image.mpr ⟨4, Finset.mem_univ _, e.symm⟩)) _ _

set_option backward.isDefEq.respectTransparency.types false in
/-- Region 0 over the thread state "every unscoped buffer at the boundary's contents, the generator register at
    some state, nothing owed": its arrays are split out of the unscoped buffers at entry and put back at the exit
    contents; the generator register goes into the class invariant and comes back; the kernel has no semaphore of
    its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L₀ lv₀ 0 fun _ _ => rfl
  pre c := iprop(StableHlo.held (c : Thread nD τ) (Pipeline.ucRefs τ sig) (V5 m c) ∗ Rst c)
  post c := iprop(StableHlo.held (c : Thread nD τ) (Pipeline.ucRefs τ sig) (V6 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b : Ref sig .tc => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- After region 1 each of its arrays holds what the pipeline leaves: the four input arrays their entry contents (an
    input window is never written back), the output array its write-backs folded over the 128 grid points. -/
theorem hF1 (c : Dev nD) (w : Fin cfg1.W) :
    (dat1 (En1 m) c).arrAt w cfg1.N = (fun b : Ref sig .tc => V16 m (outs m) c b) (Pipeline.arrRef spec1 w) := by
  match w with
  | ⟨0, _⟩ => exact (((dat1 (En1 m) c).arrAt_in 0 rfl _).trans (A_eq1 (En1 m) c 0)).trans (Function.update_of_ne (StableHlo.devRef_ne_of_ne (by decide)) _ _).symm
  | ⟨1, _⟩ => exact (((dat1 (En1 m) c).arrAt_in 1 rfl _).trans (A_eq1 (En1 m) c 1)).trans (Function.update_of_ne (StableHlo.devRef_ne_of_ne (by decide)) _ _).symm
  | ⟨2, _⟩ => exact (((dat1 (En1 m) c).arrAt_in 2 rfl _).trans (A_eq1 (En1 m) c 2)).trans (Function.update_of_ne (StableHlo.devRef_ne_of_ne (by decide)) _ _).symm
  | ⟨3, _⟩ => exact (((dat1 (En1 m) c).arrAt_in 3 rfl _).trans (A_eq1 (En1 m) c 3)).trans (Function.update_of_ne (StableHlo.devRef_ne_of_ne (by decide)) _ _).symm
  | ⟨4, _⟩ =>
    show _ = Function.update (V15 m (outs m) c) (Proc.devRef .tc main_v39) (W16 m c (Proc.devRef .tc main_v39)) (Proc.devRef .tc main_v39)
    rw [Function.update_self]
    exact (W16_arr m c 4).symm

/-- and every other buffer what it held at entry. -/
theorem hrest1 (c : Dev nD) : ∀ b, b ∉ Finset.univ.image (Pipeline.arrRef spec1) →
    (fun b : Ref sig .tc => V16 m (outs m) c b) b = En1 m c b := fun b hb =>
  Function.update_of_ne (StableHlo.devRef_ne_of_ne fun e => hb (Finset.mem_image.mpr ⟨4, Finset.mem_univ _, e.symm⟩)) _ _

set_option backward.isDefEq.respectTransparency.types false in
/-- Region 1 over the thread state "every unscoped buffer at the boundary's contents, the generator register at
    some state, nothing owed": its arrays are split out of the unscoped buffers at entry and put back at the exit
    contents; the generator register goes into the class invariant and comes back; the kernel has no semaphore of
    its own. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L₀ lv₀ 1 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, show V15 m (outs m) c = V15 m (outs1 m) c from rfl]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b : Ref sig .tc => V16 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- After region 2 each of its arrays holds what the pipeline leaves: the four input arrays their entry contents (an
    input window is never written back), the output array its write-backs folded over the 128 grid points. -/
theorem hF2 (c : Dev nD) (w : Fin cfg2.W) :
    (dat2 (En2 m) c).arrAt w cfg2.N = (fun b : Ref sig .tc => V26 m (outs m) c b) (Pipeline.arrRef spec2 w) := by
  match w with
  | ⟨0, _⟩ => exact (((dat2 (En2 m) c).arrAt_in 0 rfl _).trans (A_eq2 (En2 m) c 0)).trans (Function.update_of_ne (StableHlo.devRef_ne_of_ne (by decide)) _ _).symm
  | ⟨1, _⟩ => exact (((dat2 (En2 m) c).arrAt_in 1 rfl _).trans (A_eq2 (En2 m) c 1)).trans (Function.update_of_ne (StableHlo.devRef_ne_of_ne (by decide)) _ _).symm
  | ⟨2, _⟩ => exact (((dat2 (En2 m) c).arrAt_in 2 rfl _).trans (A_eq2 (En2 m) c 2)).trans (Function.update_of_ne (StableHlo.devRef_ne_of_ne (by decide)) _ _).symm
  | ⟨3, _⟩ => exact (((dat2 (En2 m) c).arrAt_in 3 rfl _).trans (A_eq2 (En2 m) c 3)).trans (Function.update_of_ne (StableHlo.devRef_ne_of_ne (by decide)) _ _).symm
  | ⟨4, _⟩ =>
    show _ = Function.update (V25 m (outs m) c) (Proc.devRef .tc main_v57) (W26 m c (Proc.devRef .tc main_v57)) (Proc.devRef .tc main_v57)
    rw [Function.update_self]
    exact (W26_arr m c 4).symm

/-- and every other buffer what it held at entry. -/
theorem hrest2 (c : Dev nD) : ∀ b, b ∉ Finset.univ.image (Pipeline.arrRef spec2) →
    (fun b : Ref sig .tc => V26 m (outs m) c b) b = En2 m c b := fun b hb =>
  Function.update_of_ne (StableHlo.devRef_ne_of_ne fun e => hb (Finset.mem_image.mpr ⟨4, Finset.mem_univ _, e.symm⟩)) _ _

set_option backward.isDefEq.respectTransparency.types false in
/-- Region 2 over the thread state "every unscoped buffer at the boundary's contents, the generator register at
    some state, nothing owed": its arrays are split out of the unscoped buffers at entry and put back at the exit
    contents; the generator register goes into the class invariant and comes back; the kernel has no semaphore of
    its own. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L₀ lv₀ 2 fun _ _ => rfl
  pre c := iprop(StableHlo.held (c : Thread nD τ) (Pipeline.ucRefs τ sig) (V25 m (outs m) c) ∗ Rst c)
  post c := iprop(StableHlo.held (c : Thread nD τ) (Pipeline.ucRefs τ sig) (V26 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none, show V25 m (outs m) c = V25 m (outs2 m) c from rfl]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b : Ref sig .tc => V26 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, nothing faulting, and in
    every final memory every unscoped buffer of core `c` holds the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V35 m (outs m) c b) :=
  run_cond m emb₁ () 𝒱₀ L₀ lv₀ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach L₀ lv₀ fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => .rfl) (fun c => .rfl)
    (reg2 m) (fun c => .rfl) (fun c => .rfl)

/-- The frame: the four argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c (Proc.devRef .tc main_arg0) (Finset.mem_filter.mpr ⟨StableHlo.devRef_mem_tcRefs main_arg0, by decide⟩)).trans (V35_main_arg0 m (outs m) c),
     (h c (Proc.devRef .tc main_arg1) (Finset.mem_filter.mpr ⟨StableHlo.devRef_mem_tcRefs main_arg1, by decide⟩)).trans (V35_main_arg1 m (outs m) c),
     (h c (Proc.devRef .tc main_arg2) (Finset.mem_filter.mpr ⟨StableHlo.devRef_mem_tcRefs main_arg2, by decide⟩)).trans (V35_main_arg2 m (outs m) c),
     (h c (Proc.devRef .tc main_arg3) (Finset.mem_filter.mpr ⟨StableHlo.devRef_mem_tcRefs main_arg3, by decide⟩)).trans (V35_main_arg3 m (outs m) c)⟩)
    (run_all m ρ)

end Cert.KernelIdeal.GenP

end
-- ==== Proof.KI.HostSide.lean ====
import proofs.«134770_j15015205667393_2_alg».proof.Proof.KI.Frame
import Idealize.ShloMosaic.Lib.StableHlo.Run

/-! The host side of the kernel program read as pure array terms: the cost, the transposed edge weights and the
pairwise table built before the first launch; the move of a launch's output to the receiver pixels (a slice, a pad
with zero and a broadcast per direction, joined along the direction axis); and the final beliefs' softmax. -/

set_option maxRecDepth 16384

noncomputable section

namespace Cert.KernelIdeal.HostSide

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- Running two lists of host operations one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- A list of operations run as its first `n` and then the rest. -/
theorem after_split (n : Nat) (l : List (HloOp τ sig (Elt F))) (V : Valuation τ sig (Elt F)) :
    StableHlo.after l V = StableHlo.after (l.drop n) (StableHlo.after (l.take n) V) := by
  rw [← after_append, List.take_append_drop]

/-! ## The move to the receiver pixels -/

/-- The float zero the pads write: the integer zero converted. -/
def zeroS : (⟨S_, .f32⟩ : BufTy).Contents (Elt F) := sitofp .f32 (constantI S_ 32 0#32)

/-- A plane laid as the one slab of a direction. -/
abbrev bc (x : (⟨S1x128x256x32, .f32⟩ : BufTy).Contents (Elt F)) : (⟨S1x1x128x256x32, .f32⟩ : BufTy).Contents (Elt F) :=
  broadcastInDim S1x1x128x256x32 ![0, 2, 3, 4] bcast_S1x128x256x32_S1x1x128x256x32_0_2_3_4 x

/-- Direction 0 (to the right): columns 0 … 254 of slab 0 moved one column right, column 0 zero. -/
def mv0 (o : (⟨S1x4x128x256x32, .f32⟩ : BufTy).Contents (Elt F)) : (⟨S1x128x256x32, .f32⟩ : BufTy).Contents (Elt F) :=
  pad S1x128x256x32 ![0, 0, 1, 0] ![0, 0, 0, 0] ![0, 0, 0, 0]
    (shapeCast S1x128x255x32 (extractStridedSlice S1x1x128x255x32 ![0, 0, 0, 0, 0] o slices_S1x4x128x256x32_S1x1x128x255x32_0_0_0_0_0) shapeCasts_S1x1x128x255x32_S1x128x255x32)
    zeroS pads_S1x128x255x32_S1x128x256x32_000_000_100_000 h_S_
/-- Direction 1 (to the left): columns 1 … 255 of slab 1 moved one column left, column 255 zero. -/
def mv1 (o : (⟨S1x4x128x256x32, .f32⟩ : BufTy).Contents (Elt F)) : (⟨S1x128x256x32, .f32⟩ : BufTy).Contents (Elt F) :=
  pad S1x128x256x32 ![0, 0, 0, 0] ![0, 0, 1, 0] ![0, 0, 0, 0]
    (shapeCast S1x128x255x32 (extractStridedSlice S1x1x128x255x32 ![0, 1, 0, 1, 0] o slices_S1x4x128x256x32_S1x1x128x255x32_0_1_0_1_0) shapeCasts_S1x1x128x255x32_S1x128x255x32)
    zeroS pads_S1x128x255x32_S1x128x256x32_000_000_010_000 h_S_
/-- Direction 2 (down): rows 0 … 126 of slab 2 moved one row down, row 0 zero. -/
def mv2 (o : (⟨S1x4x128x256x32, .f32⟩ : BufTy).Contents (Elt F)) : (⟨S1x128x256x32, .f32⟩ : BufTy).Contents (Elt F) :=
  pad S1x128x256x32 ![0, 1, 0, 0] ![0, 0, 0, 0] ![0, 0, 0, 0]
    (shapeCast S1x127x256x32 (extractStridedSlice S1x1x127x256x32 ![0, 2, 0, 0, 0] o slices_S1x4x128x256x32_S1x1x127x256x32_0_2_0_0_0) shapeCasts_S1x1x127x256x32_S1x127x256x32)
    zeroS pads_S1x127x256x32_S1x128x256x32_000_100_000_000 h_S_
/-- Direction 3 (up): rows 1 … 127 of slab 3 moved one row up, row 127 zero. -/
def mv3 (o : (⟨S1x4x128x256x32, .f32⟩ : BufTy).Contents (Elt F)) : (⟨S1x128x256x32, .f32⟩ : BufTy).Contents (Elt F) :=
  pad S1x128x256x32 ![0, 0, 0, 0] ![0, 1, 0, 0] ![0, 0, 0, 0]
    (shapeCast S1x127x256x32 (extractStridedSlice S1x1x127x256x32 ![0, 3, 1, 0, 0] o slices_S1x4x128x256x32_S1x1x127x256x32_0_3_1_0_0) shapeCasts_S1x1x127x256x32_S1x127x256x32)
    zeroS pads_S1x127x256x32_S1x128x256x32_000_010_000_000 h_S_

/-- The four moved planes joined along the direction axis. -/
def join4 (a b c d : (⟨S1x128x256x32, .f32⟩ : BufTy).Contents (Elt F)) : (⟨S1x4x128x256x32, .f32⟩ : BufTy).Contents (Elt F) :=
  concatenate S1x4x128x256x32 1 [⟨S1x1x128x256x32, bc a⟩, ⟨S1x1x128x256x32, bc b⟩, ⟨S1x1x128x256x32, bc c⟩, ⟨S1x1x128x256x32, bc d⟩]
    concatenates_S1x1x128x256x32_S1x1x128x256x32_S1x1x128x256x32_S1x1x128x256x32_S1x4x128x256x32_d1

/-- A launch's output moved to the receiver pixels: the next launch's messages. -/
def shiftT (o : (⟨S1x4x128x256x32, .f32⟩ : BufTy).Contents (Elt F)) : (⟨S1x4x128x256x32, .f32⟩ : BufTy).Contents (Elt F) :=
  join4 (mv0 o) (mv1 o) (mv2 o) (mv3 o)

/-- The nine host stretches after launch 0: the move of `main_v21` into `main_v38`. -/
theorem shift1 (W : Valuation τ sig (Elt F)) :
    StableHlo.after hostOps1_8 (StableHlo.after hostOps1_7 (StableHlo.after hostOps1_6 (StableHlo.after hostOps1_5 (StableHlo.after hostOps1_4
      (StableHlo.after hostOps1_3 (StableHlo.after hostOps1_2 (StableHlo.after hostOps1_1 (StableHlo.after hostOps1 W)))))))) (Proc.devRef .tc main_v38)
      = shiftT (W (Proc.devRef .tc main_v21)) := by
  generalize hU : StableHlo.after hostOps1_7 (StableHlo.after hostOps1_6 (StableHlo.after hostOps1_5 (StableHlo.after hostOps1_4
      (StableHlo.after hostOps1_3 (StableHlo.after hostOps1_2 (StableHlo.after hostOps1_1 (StableHlo.after hostOps1 W))))))) = U
  have e0 : U (Proc.devRef .tc main_v24) = mv0 (W (Proc.devRef .tc main_v21)) := by
    subst hU; after_results_simp; rfl
  have e1 : U (Proc.devRef .tc main_v27) = mv1 (W (Proc.devRef .tc main_v21)) := by
    subst hU; after_results_simp; rfl
  have e2 : U (Proc.devRef .tc main_v30) = mv2 (W (Proc.devRef .tc main_v21)) := by
    subst hU; after_results_simp; rfl
  have e3 : U (Proc.devRef .tc main_v33) = mv3 (W (Proc.devRef .tc main_v21)) := by
    subst hU; after_results_simp; rfl
  rw [after_split 4 hostOps1_8 U]
  simp only [List.drop_succ_cons, List.drop_zero, after_cons, after_nil]
  rw [nary_result]
  show concatenate S1x4x128x256x32 1
      [⟨S1x1x128x256x32, StableHlo.after (hostOps1_8.take 4) U (Proc.devRef .tc main_v34)⟩,
       ⟨S1x1x128x256x32, StableHlo.after (hostOps1_8.take 4) U (Proc.devRef .tc main_v35)⟩,
       ⟨S1x1x128x256x32, StableHlo.after (hostOps1_8.take 4) U (Proc.devRef .tc main_v36)⟩,
       ⟨S1x1x128x256x32, StableHlo.after (hostOps1_8.take 4) U (Proc.devRef .tc main_v37)⟩] _ = _
  have b0 : StableHlo.after (hostOps1_8.take 4) U (Proc.devRef .tc main_v34) = bc (U (Proc.devRef .tc main_v24)) := by
    simp only [List.take_succ_cons, List.take_zero]; after_results_simp
  have b1 : StableHlo.after (hostOps1_8.take 4) U (Proc.devRef .tc main_v35) = bc (U (Proc.devRef .tc main_v27)) := by
    simp only [List.take_succ_cons, List.take_zero]; after_results_simp
  have b2 : StableHlo.after (hostOps1_8.take 4) U (Proc.devRef .tc main_v36) = bc (U (Proc.devRef .tc main_v30)) := by
    simp only [List.take_succ_cons, List.take_zero]; after_results_simp
  have b3 : StableHlo.after (hostOps1_8.take 4) U (Proc.devRef .tc main_v37) = bc (U (Proc.devRef .tc main_v33)) := by
    simp only [List.take_succ_cons, List.take_zero]; after_results_simp
  rw [b0, b1, b2, b3, e0, e1, e2, e3]
  rfl

/-- The nine host stretches after launch 1: the move of `main_v39` into `main_v56`. -/
theorem shift2 (W : Valuation τ sig (Elt F)) :
    StableHlo.after hostOps2_8 (StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W)))))))) (Proc.devRef .tc main_v56)
      = shiftT (W (Proc.devRef .tc main_v39)) := by
  generalize hU : StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W))))))) = U
  have e0 : U (Proc.devRef .tc main_v42) = mv0 (W (Proc.devRef .tc main_v39)) := by
    subst hU; after_results_simp; rfl
  have e1 : U (Proc.devRef .tc main_v45) = mv1 (W (Proc.devRef .tc main_v39)) := by
    subst hU; after_results_simp; rfl
  have e2 : U (Proc.devRef .tc main_v48) = mv2 (W (Proc.devRef .tc main_v39)) := by
    subst hU; after_results_simp; rfl
  have e3 : U (Proc.devRef .tc main_v51) = mv3 (W (Proc.devRef .tc main_v39)) := by
    subst hU; after_results_simp; rfl
  rw [after_split 4 hostOps2_8 U]
  simp only [List.drop_succ_cons, List.drop_zero, after_cons, after_nil]
  rw [nary_result]
  show concatenate S1x4x128x256x32 1
      [⟨S1x1x128x256x32, StableHlo.after (hostOps2_8.take 4) U (Proc.devRef .tc main_v52)⟩,
       ⟨S1x1x128x256x32, StableHlo.after (hostOps2_8.take 4) U (Proc.devRef .tc main_v53)⟩,
       ⟨S1x1x128x256x32, StableHlo.after (hostOps2_8.take 4) U (Proc.devRef .tc main_v54)⟩,
       ⟨S1x1x128x256x32, StableHlo.after (hostOps2_8.take 4) U (Proc.devRef .tc main_v55)⟩] _ = _
  have b0 : StableHlo.after (hostOps2_8.take 4) U (Proc.devRef .tc main_v52) = bc (U (Proc.devRef .tc main_v42)) := by
    simp only [List.take_succ_cons, List.take_zero]; after_results_simp
  have b1 : StableHlo.after (hostOps2_8.take 4) U (Proc.devRef .tc main_v53) = bc (U (Proc.devRef .tc main_v45)) := by
    simp only [List.take_succ_cons, List.take_zero]; after_results_simp
  have b2 : StableHlo.after (hostOps2_8.take 4) U (Proc.devRef .tc main_v54) = bc (U (Proc.devRef .tc main_v48)) := by
    simp only [List.take_succ_cons, List.take_zero]; after_results_simp
  have b3 : StableHlo.after (hostOps2_8.take 4) U (Proc.devRef .tc main_v55) = bc (U (Proc.devRef .tc main_v51)) := by
    simp only [List.take_succ_cons, List.take_zero]; after_results_simp
  rw [b0, b1, b2, b3, e0, e1, e2, e3]
  rfl

/-- The nine host stretches after the last launch, up to the join: the move of `main_v57` into `main_v74`; and the
    cost passes through. -/
abbrev lastV (W : Valuation τ sig (Elt F)) : Valuation τ sig (Elt F) :=
  StableHlo.after (hostOps3_8.take 5) (StableHlo.after hostOps3_7 (StableHlo.after hostOps3_6 (StableHlo.after hostOps3_5 (StableHlo.after hostOps3_4
      (StableHlo.after hostOps3_3 (StableHlo.after hostOps3_2 (StableHlo.after hostOps3_1 (StableHlo.after hostOps3 W))))))))

theorem shift3 (W : Valuation τ sig (Elt F)) :
    lastV W (Proc.devRef .tc main_v74) = shiftT (W (Proc.devRef .tc main_v57)) := by
  unfold lastV
  generalize hU : StableHlo.after hostOps3_7 (StableHlo.after hostOps3_6 (StableHlo.after hostOps3_5 (StableHlo.after hostOps3_4
      (StableHlo.after hostOps3_3 (StableHlo.after hostOps3_2 (StableHlo.after hostOps3_1 (StableHlo.after hostOps3 W))))))) = U
  have e0 : U (Proc.devRef .tc main_v60) = mv0 (W (Proc.devRef .tc main_v57)) := by
    subst hU; after_results_simp; rfl
  have e1 : U (Proc.devRef .tc main_v63) = mv1 (W (Proc.devRef .tc main_v57)) := by
    subst hU; after_results_simp; rfl
  have e2 : U (Proc.devRef .tc main_v66) = mv2 (W (Proc.devRef .tc main_v57)) := by
    subst hU; after_results_simp; rfl
  have e3 : U (Proc.devRef .tc main_v69) = mv3 (W (Proc.devRef .tc main_v57)) := by
    subst hU; after_results_simp; rfl
  rw [after_split 4 (hostOps3_8.take 5) U]
  generalize hY : StableHlo.after ((hostOps3_8.take 5).take 4) U = Y
  have b0 : Y (Proc.devRef .tc main_v70) = bc (U (Proc.devRef .tc main_v60)) := by
    subst hY; simp only [List.take_succ_cons, List.take_zero]; after_results_simp
  have b1 : Y (Proc.devRef .tc main_v71) = bc (U (Proc.devRef .tc main_v63)) := by
    subst hY; simp only [List.take_succ_cons, List.take_zero]; after_results_simp
  have b2 : Y (Proc.devRef .tc main_v72) = bc (U (Proc.devRef .tc main_v66)) := by
    subst hY; simp only [List.take_succ_cons, List.take_zero]; after_results_simp
  have b3 : Y (Proc.devRef .tc main_v73) = bc (U (Proc.devRef .tc main_v69)) := by
    subst hY; simp only [List.take_succ_cons, List.take_zero]; after_results_simp
  simp only [List.take_succ_cons, List.take_zero, List.drop_succ_cons, List.drop_zero, after_cons, after_nil]
  rw [nary_result]
  show concatenate S1x4x128x256x32 1
      [⟨S1x1x128x256x32, Y (Proc.devRef .tc main_v70)⟩, ⟨S1x1x128x256x32, Y (Proc.devRef .tc main_v71)⟩,
       ⟨S1x1x128x256x32, Y (Proc.devRef .tc main_v72)⟩, ⟨S1x1x128x256x32, Y (Proc.devRef .tc main_v73)⟩] _ = _
  rw [b0, b1, b2, b3, e0, e1, e2, e3]
  rfl

theorem last_cost (W : Valuation τ sig (Elt F)) : lastV W (Proc.devRef .tc main_v0) = W (Proc.devRef .tc main_v0) := by
  unfold lastV; simp only [List.take_succ_cons, List.take_zero]; after_results_simp

/-! ## The moves leave the cost, the edge weights and the pairwise table in place -/

theorem keep1_v0 (W : Valuation τ sig (Elt F)) :
    StableHlo.after hostOps1_8 (StableHlo.after hostOps1_7 (StableHlo.after hostOps1_6 (StableHlo.after hostOps1_5 (StableHlo.after hostOps1_4
      (StableHlo.after hostOps1_3 (StableHlo.after hostOps1_2 (StableHlo.after hostOps1_1 (StableHlo.after hostOps1 W)))))))) (Proc.devRef .tc main_v0)
      = W (Proc.devRef .tc main_v0) := by
  after_results_simp

theorem keep1_v20 (W : Valuation τ sig (Elt F)) :
    StableHlo.after hostOps1_8 (StableHlo.after hostOps1_7 (StableHlo.after hostOps1_6 (StableHlo.after hostOps1_5 (StableHlo.after hostOps1_4
      (StableHlo.after hostOps1_3 (StableHlo.after hostOps1_2 (StableHlo.after hostOps1_1 (StableHlo.after hostOps1 W)))))))) (Proc.devRef .tc main_v20)
      = W (Proc.devRef .tc main_v20) := by
  after_results_simp

theorem keep1_v19 (W : Valuation τ sig (Elt F)) :
    StableHlo.after hostOps1_8 (StableHlo.after hostOps1_7 (StableHlo.after hostOps1_6 (StableHlo.after hostOps1_5 (StableHlo.after hostOps1_4
      (StableHlo.after hostOps1_3 (StableHlo.after hostOps1_2 (StableHlo.after hostOps1_1 (StableHlo.after hostOps1 W)))))))) (Proc.devRef .tc main_v19)
      = W (Proc.devRef .tc main_v19) := by
  after_results_simp

theorem keep2_v0 (W : Valuation τ sig (Elt F)) :
    StableHlo.after hostOps2_8 (StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W)))))))) (Proc.devRef .tc main_v0)
      = W (Proc.devRef .tc main_v0) := by
  after_results_simp

theorem keep2_v20 (W : Valuation τ sig (Elt F)) :
    StableHlo.after hostOps2_8 (StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W)))))))) (Proc.devRef .tc main_v20)
      = W (Proc.devRef .tc main_v20) := by
  after_results_simp

theorem keep2_v19 (W : Valuation τ sig (Elt F)) :
    StableHlo.after hostOps2_8 (StableHlo.after hostOps2_7 (StableHlo.after hostOps2_6 (StableHlo.after hostOps2_5 (StableHlo.after hostOps2_4
      (StableHlo.after hostOps2_3 (StableHlo.after hostOps2_2 (StableHlo.after hostOps2_1 (StableHlo.after hostOps2 W)))))))) (Proc.devRef .tc main_v19)
      = W (Proc.devRef .tc main_v19) := by
  after_results_simp

/-! ## Before the first launch: the cost, the edge weights transposed, the pairwise table -/

/-- A [128,256,32,32] table laid as one slab of the direction axis. -/
abbrev bc5 (x : (⟨S128x256x32x32, .f32⟩ : BufTy).Contents (Elt F)) : (⟨S1x128x256x32x32, .f32⟩ : BufTy).Contents (Elt F) :=
  broadcastInDim S1x128x256x32x32 ![1, 2, 3, 4] bcast_S128x256x32x32_S1x128x256x32x32_1_2_3_4 x

/-- Slab `k` of the jump costs as a [128,256,32,32] table. -/
def jump0 (x3 : (⟨S2x128x256x32x32, .f32⟩ : BufTy).Contents (Elt F)) : (⟨S128x256x32x32, .f32⟩ : BufTy).Contents (Elt F) :=
  shapeCast S128x256x32x32 (extractStridedSlice S1x128x256x32x32 ![0, 0, 0, 0, 0] x3 slices_S2x128x256x32x32_S1x128x256x32x32_0_0_0_0_0) shapeCasts_S1x128x256x32x32_S128x256x32x32
def jump1 (x3 : (⟨S2x128x256x32x32, .f32⟩ : BufTy).Contents (Elt F)) : (⟨S128x256x32x32, .f32⟩ : BufTy).Contents (Elt F) :=
  shapeCast S128x256x32x32 (extractStridedSlice S1x128x256x32x32 ![1, 0, 0, 0, 0] x3 slices_S2x128x256x32x32_S1x128x256x32x32_1_0_0_0_0) shapeCasts_S1x128x256x32x32_S128x256x32x32

/-- The table for messages to the left: the horizontal costs of columns 0 … 254 with the two labels exchanged,
    moved one column right, column 0 zero. -/
def pwLeft (x3 : (⟨S2x128x256x32x32, .f32⟩ : BufTy).Contents (Elt F)) : (⟨S128x256x32x32, .f32⟩ : BufTy).Contents (Elt F) :=
  pad S128x256x32x32 ![0, 1, 0, 0] ![0, 0, 0, 0] ![0, 0, 0, 0]
    (transpose S128x255x32x32 [0, 1, 3, 2] (extractStridedSlice S128x255x32x32 ![0, 0, 0, 0] (jump0 x3) slices_S128x256x32x32_S128x255x32x32_0_0_0_0) transposes_S128x255x32x32_S128x255x32x32_0_1_3_2)
    zeroS pads_S128x255x32x32_S128x256x32x32_000_100_000_000 h_S_
/-- The table for messages upwards: the vertical costs of rows 0 … 126 with the two labels exchanged, moved one row
    down, row 0 zero. -/
def pwUp (x3 : (⟨S2x128x256x32x32, .f32⟩ : BufTy).Contents (Elt F)) : (⟨S128x256x32x32, .f32⟩ : BufTy).Contents (Elt F) :=
  pad S128x256x32x32 ![1, 0, 0, 0] ![0, 0, 0, 0] ![0, 0, 0, 0]
    (transpose S127x256x32x32 [0, 1, 3, 2] (extractStridedSlice S127x256x32x32 ![0, 0, 0, 0] (jump1 x3) slices_S128x256x32x32_S127x256x32x32_0_0_0_0) transposes_S127x256x32x32_S127x256x32x32_0_1_3_2)
    zeroS pads_S127x256x32x32_S128x256x32x32_100_000_000_000 h_S_

/-- The pairwise table: right, left, down, up. -/
def pwT (x3 : (⟨S2x128x256x32x32, .f32⟩ : BufTy).Contents (Elt F)) : (⟨S4x128x256x32x32, .f32⟩ : BufTy).Contents (Elt F) :=
  concatenate S4x128x256x32x32 0 [⟨S1x128x256x32x32, bc5 (jump0 x3)⟩, ⟨S1x128x256x32x32, bc5 (pwLeft x3)⟩, ⟨S1x128x256x32x32, bc5 (jump1 x3)⟩, ⟨S1x128x256x32x32, bc5 (pwUp x3)⟩]
    concatenates_S1x128x256x32x32_S1x128x256x32x32_S1x128x256x32x32_S1x128x256x32x32_S4x128x256x32x32_d0

/-- The cost: the probability volume negated. -/
def costT (x0 : (⟨S1x128x256x32, .f32⟩ : BufTy).Contents (Elt F)) : (⟨S1x128x256x32, .f32⟩ : BufTy).Contents (Elt F) :=
  (Host.negf : (⟨S1x128x256x32, .f32⟩ : BufTy).Contents (Elt F) → (⟨S1x128x256x32, .f32⟩ : BufTy).Contents (Elt F)) x0

/-- The edge weights with the direction axis moved behind the row axis. -/
def etT (x1 : (⟨S1x4x128x256, .f32⟩ : BufTy).Contents (Elt F)) : (⟨S1x128x4x256, .f32⟩ : BufTy).Contents (Elt F) :=
  transpose S1x128x4x256 [0, 2, 1, 3] x1 transposes_S1x4x128x256_S1x128x4x256_0_2_1_3

/-- The five host stretches before the first launch. -/
abbrev preV (W : Valuation τ sig (Elt F)) : Valuation τ sig (Elt F) :=
  StableHlo.after hostOps0_4 (StableHlo.after hostOps0_3 (StableHlo.after hostOps0_2 (StableHlo.after hostOps0_1 (StableHlo.after hostOps0 W))))

theorem pre_cost (W : Valuation τ sig (Elt F)) : preV W (Proc.devRef .tc main_v0) = costT (W (Proc.devRef .tc main_arg0)) := by
  unfold preV; after_results_simp; rfl
theorem pre_et (W : Valuation τ sig (Elt F)) : preV W (Proc.devRef .tc main_v20) = etT (W (Proc.devRef .tc main_arg1)) := by
  unfold preV; after_results_simp; rfl
theorem pre_msgs (W : Valuation τ sig (Elt F)) : preV W (Proc.devRef .tc main_arg2) = W (Proc.devRef .tc main_arg2) := by
  unfold preV; after_results_simp
theorem pre_pw (W : Valuation τ sig (Elt F)) : preV W (Proc.devRef .tc main_v19) = pwT (W (Proc.devRef .tc main_arg3)) := by
  unfold preV
  generalize hU : StableHlo.after hostOps0_3 (StableHlo.after hostOps0_2 (StableHlo.after hostOps0_1 (StableHlo.after hostOps0 W))) = U
  have e0 : U (Proc.devRef .tc main_v2) = jump0 (W (Proc.devRef .tc main_arg3)) := by
    subst hU; after_results_simp; rfl
  have e1 : U (Proc.devRef .tc main_v7) = pwLeft (W (Proc.devRef .tc main_arg3)) := by
    subst hU; after_results_simp; rfl
  have e2 : U (Proc.devRef .tc main_v9) = jump1 (W (Proc.devRef .tc main_arg3)) := by
    subst hU; after_results_simp; rfl
  have e3 : U (Proc.devRef .tc main_v14) = pwUp (W (Proc.devRef .tc main_arg3)) := by
    subst hU; after_results_simp; rfl
  rw [after_split 5 hostOps0_4 U]
  generalize hX : StableHlo.after (hostOps0_4.take 5) U = X
  have hx : StableHlo.after (hostOps0_4.drop 5) X (Proc.devRef .tc main_v19) = X (Proc.devRef .tc main_v19) := by
    simp only [List.drop_succ_cons, List.drop_zero]; after_results_simp
  rw [hx]; subst hX
  rw [after_split 4 (hostOps0_4.take 5) U]
  generalize hY : StableHlo.after ((hostOps0_4.take 5).take 4) U = Y
  have b0 : Y (Proc.devRef .tc main_v15) = bc5 (U (Proc.devRef .tc main_v2)) := by
    subst hY; simp only [List.take_succ_cons, List.take_zero]; after_results_simp
  have b1 : Y (Proc.devRef .tc main_v16) = bc5 (U (Proc.devRef .tc main_v7)) := by
    subst hY; simp only [List.take_succ_cons, List.take_zero]; after_results_simp
  have b2 : Y (Proc.devRef .tc main_v17) = bc5 (U (Proc.devRef .tc main_v9)) := by
    subst hY; simp only [List.take_succ_cons, List.take_zero]; after_results_simp
  have b3 : Y (Proc.devRef .tc main_v18) = bc5 (U (Proc.devRef .tc main_v14)) := by
    subst hY; simp only [List.take_succ_cons, List.take_zero]; after_results_simp
  simp only [List.take_succ_cons, List.take_zero, List.drop_succ_cons, List.drop_zero, after_cons, after_nil]
  rw [nary_result]
  show concatenate S4x128x256x32x32 0
      [⟨S1x128x256x32x32, Y (Proc.devRef .tc main_v15)⟩, ⟨S1x128x256x32x32, Y (Proc.devRef .tc main_v16)⟩,
       ⟨S1x128x256x32x32, Y (Proc.devRef .tc main_v17)⟩, ⟨S1x128x256x32x32, Y (Proc.devRef .tc main_v18)⟩] _ = _
  rw [b0, b1, b2, b3, e0, e1, e2, e3]
  rfl

/-! ## After the last launch: the beliefs' softmax -/

/-- The result from the cost and the last messages: the softmax over the labels of minus (the four messages' sum plus
    the cost). -/
def tailT (cost : (⟨S1x128x256x32, .f32⟩ : BufTy).Contents (Elt F)) (msgs : (⟨S1x4x128x256x32, .f32⟩ : BufTy).Contents (Elt F)) :
    (⟨S1x128x256x32, .f32⟩ : BufTy).Contents (Elt F) :=
  have v77 : (⟨S1x128x256x32, .f32⟩ : BufTy).Contents (Elt F) :=
    Host.negf (addf (Host.reduceAdd msgs (constant S_ .f32 0x00000000#32) reducesTo_S1x4x128x256x32_S1x128x256x32_d1 h_S_) cost)
  have v84 : (⟨S1x128x256x32, .f32⟩ : BufTy).Contents (Elt F) :=
    Host.exp (subf v77 (broadcastInDim S1x128x256x32 ![0, 1, 2, 3] bcast_S1x128x256x1_S1x128x256x32_0_1_2_3
      (broadcastInDim S1x128x256x1 ![0, 1, 2] bcast_S1x128x256_S1x128x256x1_0_1_2
        (maximumf (broadcastInDim S1x128x256 ![] bcast_S_S1x128x256 (constant S_ .f32 0xFF800000#32))
          (Host.reduce FloatOps.maximumf v77 (constant S_ .f32 0xFF800000#32) reducesTo_S1x128x256x32_S1x128x256_d3 h_S_)))))
  Host.divf v84 (broadcastInDim S1x128x256x32 ![0, 1, 2, 3] bcast_S1x128x256x1_S1x128x256x32_0_1_2_3
    (broadcastInDim S1x128x256x1 ![0, 1, 2] bcast_S1x128x256_S1x128x256x1_0_1_2
      (Host.reduceAdd v84 (constant S_ .f32 0x00000000#32) reducesTo_S1x128x256x32_S1x128x256_d3 h_S_)))

/-- The operations of the last stretch after its join. -/
theorem tail_ops (W : Valuation τ sig (Elt F)) :
    StableHlo.after (hostOps3_8.drop 5) W (Proc.devRef .tc main_v88) = tailT (W (Proc.devRef .tc main_v0)) (W (Proc.devRef .tc main_v74)) := by
  simp only [List.drop_succ_cons, List.drop_zero]
  after_results_simp
  rfl

end Cert.KernelIdeal.HostSide

end
-- ==== Proof.Spec.lean ====
import Idealize.ShloMosaic.PureOps.Ideal
import Idealize.ShloMosaic.PureOps.Ideal.Laws
import Idealize.ShloMosaic.Lib.ValueIdx

/-! One min-sum message-passing step on a 128 × 256 grid of 32 labels, four directions, as functions of the arrays
index by index over the extended reals — the common reading of the kernel's step and the reference's.

At a sender pixel `(h, w)` and direction `d` the message to the neighbour is, per receiver label `l`,
`mp d h w l = min over l' of ((total h w l' − msgs (opp d) h w l') + e d h w · pw d h w l' l)`, where
`total = cost + Σ_d msgs d` and `opp` exchanges the two directions of an axis. The kernel normalises the message at
the sender (subtracts its minimum over `l`) and then moves it to the receiver pixel, writing 0 at the border the move
leaves empty; the reference moves first and normalises at the receiver. The two agree: away from the border they are
the same expression, and at the border the reference's `0 − min (0, …, 0)` is `0`. -/

noncomputable section

namespace Cert.Spec

open Idealize.ShloMosaic Idealize.ShloMosaic.ValueIdx

/-- The shapes: the cost and a message plane [1,128,256,32]; the edge weights as the reference takes them
    [1,4,128,256] and as the kernel takes them [1,128,4,256]; the messages [1,4,128,256,32]; the pairwise table
    [4,128,256,32,32]. -/
abbrev SC : Shape := ⟨4, ![1, 128, 256, 32]⟩
abbrev SEr : Shape := ⟨4, ![1, 4, 128, 256]⟩
abbrev SEk : Shape := ⟨4, ![1, 128, 4, 256]⟩
abbrev SM : Shape := ⟨5, ![1, 4, 128, 256, 32]⟩
abbrev SP : Shape := ⟨5, ![4, 128, 256, 32, 32]⟩

/-- The value the minima start from: the word of +∞. -/
def inf32 : EReal := Ideal.ofBits .f32 0x7F800000#32

theorem inf32_eq : inf32 = ⊤ := by
  simp [inf32, Ideal.ofBits, Ideal.ieee]

/-- The direction whose incoming message is left out: 0 ↔ 1, 2 ↔ 3. -/
def opp : Fin 4 → Fin 4 := ![1, 0, 3, 2]

/-- The minimum over the 32 labels, folded from +∞. -/
def min32 (f : Fin 32 → EReal) : EReal := (Finset.univ : Finset (Fin 32)).fold min inf32 f

theorem min32_const_zero : min32 (fun _ => 0) = 0 := by
  unfold min32
  rw [inf32_eq]
  have h : ∀ (s : Finset (Fin 32)), s.Nonempty → s.fold min (⊤ : EReal) (fun _ => (0 : EReal)) = 0 := by
    intro s hs
    induction hs using Finset.Nonempty.cons_induction with
    | singleton a => simp
    | cons a s ha hs ih => rw [Finset.fold_cons, ih]; simp
  exact h _ Finset.univ_nonempty

section Step

variable (cost : SC.Idx → EReal) (e : Fin 4 → Fin 128 → Fin 256 → EReal) (msgs : SM.Idx → EReal) (pw : SP.Idx → EReal)

/-- The belief at a pixel and label: the cost plus the four incoming messages. -/
def total (h : Fin 128) (w : Fin 256) (l : Fin 32) : EReal :=
  cost (ix4 0 h w l) + ∑ d : Fin 4, msgs (ix5 0 d h w l)

/-- The message a sender pixel computes for direction `d`, before normalisation. -/
def mp (d : Fin 4) (h : Fin 128) (w : Fin 256) (l : Fin 32) : EReal :=
  min32 fun l' => (total cost msgs h w l' - msgs (ix5 0 (opp d) h w l')) + e d h w * pw (ix5 d h w l' l)

/-- The message normalised at the sender: its minimum over the labels subtracted. -/
def kern (d : Fin 4) (h : Fin 128) (w : Fin 256) (l : Fin 32) : EReal :=
  mp cost e msgs pw d h w l - min32 fun l'' => mp cost e msgs pw d h w l''

end Step

/-- A pixel on the border a move in direction `d` leaves empty: the first column for a move right (0), the last for a
    move left (1), the first row for a move down (2), the last for a move up (3). -/
def onBorder (d : Fin 4) (h : Fin 128) (w : Fin 256) : Prop :=
  match d with
  | 0 => w.val = 0
  | 1 => w.val = 255
  | 2 => h.val = 0
  | 3 => h.val = 127

instance (d : Fin 4) (h : Fin 128) (w : Fin 256) : Decidable (onBorder d h w) := by
  unfold onBorder; split <;> infer_instance

/-- The sender of the message a pixel receives from direction `d` (meaningful off the border). -/
def senderH (d : Fin 4) (h : Fin 128) : Fin 128 :=
  match d with
  | 0 => h
  | 1 => h
  | 2 => ⟨h.val - 1, by omega⟩
  | 3 => ⟨(h.val + 1) % 128, Nat.mod_lt _ (by norm_num)⟩

def senderW (d : Fin 4) (w : Fin 256) : Fin 256 :=
  match d with
  | 0 => ⟨w.val - 1, by omega⟩
  | 1 => ⟨(w.val + 1) % 256, Nat.mod_lt _ (by norm_num)⟩
  | 2 => w
  | 3 => w

/-- A plane of messages per direction moved to the receiver pixels, 0 on the border. -/
def moved (x : Fin 4 → Fin 128 → Fin 256 → Fin 32 → EReal) (d : Fin 4) (h : Fin 128) (w : Fin 256) (l : Fin 32) : EReal :=
  if onBorder d h w then 0 else x d (senderH d h) (senderW d w) l

section Step

variable (cost : SC.Idx → EReal) (e : Fin 4 → Fin 128 → Fin 256 → EReal) (msgs : SM.Idx → EReal) (pw : SP.Idx → EReal)

/-- The kernel's step: normalise at the sender, then move. -/
def stepK : SM.Idx → EReal := fun i =>
  moved (kern cost e msgs pw) (i 1) (i 2) (i 3) (i 4)

/-- The reference's step: move, then normalise at the receiver. -/
def stepR : SM.Idx → EReal := fun i =>
  moved (mp cost e msgs pw) (i 1) (i 2) (i 3) (i 4) - min32 fun l' => moved (mp cost e msgs pw) (i 1) (i 2) (i 3) l'

/-- The two steps are one function of the arrays, with no hypothesis on their entries. -/
theorem stepK_eq_stepR : stepK cost e msgs pw = stepR cost e msgs pw := by
  funext i
  unfold stepK stepR moved
  by_cases hb : onBorder (i 1) (i 2) (i 3)
  · simp only [if_pos hb]
    rw [min32_const_zero]; simp
  · simp only [if_neg hb]
    rfl

end Step

/-- The edge weights as the two programs index them: the kernel's array is the reference's with axes 1 and 2
    exchanged. -/
def eOfK (et : SEk.Idx → EReal) : Fin 4 → Fin 128 → Fin 256 → EReal := fun d h w => et (ix4 0 h d w)
def eOfR (er : SEr.Idx → EReal) : Fin 4 → Fin 128 → Fin 256 → EReal := fun d h w => er (ix4 0 d h w)

/-- What one launch of the kernel leaves in its output array [1,4,128,256,32]: at direction `d`, pixel `(h, w)`
    and label `l` the message normalised at the sender. -/
def outK (cost : SC.Idx → EReal) (et : SEk.Idx → EReal) (msgs : SM.Idx → EReal) (pw : SP.Idx → EReal) : SM.Idx → EReal :=
  fun i => kern cost (eOfK et) msgs pw (i 1) (i 2) (i 3) (i 4)

end Cert.Spec

end
-- ==== Proof.KI.Value.lean ====
import proofs.«134770_j15015205667393_2_alg».proof.Proof.KI.HostSide
import proofs.«134770_j15015205667393_2_alg».proof.Proof.Spec

/-! The kernel program's result as one term of the argument arrays, at the ideal values: three launches, each leaving
the messages normalised at the sender, each followed by the move to the receiver pixels, then the beliefs' softmax. -/

set_option maxRecDepth 16384

noncomputable section

namespace Cert.KernelIdeal.HostSide

open Cert.KernelIdeal Cert.KernelIdeal.Gen Cert.KernelIdeal.GenP Cert.KernelIdeal.Body
open Idealize.ShloMosaic Idealize.ShloMosaic.TcCoe Idealize.SL.Sem Idealize.ShloMosaic.StableHlo

variable (m : (ℓ : Loc nD τ sig) → Buf (Elt Ideal) ℓ) (c : Dev nD)

/-- The cost, the transposed edge weights and the pairwise table, from the arguments. -/
abbrev costA : (⟨S1x128x256x32, .f32⟩ : BufTy).Contents (Elt Ideal) := costT (m ((c.tc : Thread nD τ).loc main_arg0))
abbrev etA : (⟨S1x128x4x256, .f32⟩ : BufTy).Contents (Elt Ideal) := etT (m ((c.tc : Thread nD τ).loc main_arg1))
abbrev pwA : (⟨S4x128x256x32x32, .f32⟩ : BufTy).Contents (Elt Ideal) := pwT (m ((c.tc : Thread nD τ).loc main_arg3))

/-- One launch and the move after it: the next messages from the current ones. -/
def stepA (msgs : (⟨S1x4x128x256x32, .f32⟩ : BufTy).Contents (Elt Ideal)) : (⟨S1x4x128x256x32, .f32⟩ : BufTy).Contents (Elt Ideal) :=
  shiftT (Spec.outK (costA m c) (etA m c) msgs (pwA m c))

/-! ### Region 0's entry contents -/
theorem en0_cost : En0 m c main_v0 = costA m c := pre_cost (V0 m c)
theorem en0_et : En0 m c main_v20 = etA m c := pre_et (V0 m c)
theorem en0_pw : En0 m c main_v19 = pwA m c := pre_pw (V0 m c)
theorem en0_msgs : En0 m c main_arg2 = m ((c.tc : Thread nD τ).loc main_arg2) := pre_msgs (V0 m c)

/-! ### Region 1's -/
theorem en1_cost : En1 m c main_v0 = costA m c :=
  ((keep1_v0 (V6 m (outs1 m) c)).trans (Function.update_of_ne (StableHlo.devRef_ne_of_ne (by decide)) _ _)).trans (en0_cost m c)
theorem en1_et : En1 m c main_v20 = etA m c :=
  ((keep1_v20 (V6 m (outs1 m) c)).trans (Function.update_of_ne (StableHlo.devRef_ne_of_ne (by decide)) _ _)).trans (en0_et m c)
theorem en1_pw : En1 m c main_v19 = pwA m c :=
  ((keep1_v19 (V6 m (outs1 m) c)).trans (Function.update_of_ne (StableHlo.devRef_ne_of_ne (by decide)) _ _)).trans (en0_pw m c)
theorem en1_msgs : En1 m c main_v38 = shiftT (W6 m c (Proc.devRef .tc main_v21)) :=
  (shift1 (V6 m (outs1 m) c)).trans (congrArg shiftT (Function.update_self _ _ _))

/-! ### Region 2's -/
theorem en2_cost : En2 m c main_v0 = costA m c :=
  ((keep2_v0 (V16 m (outs2 m) c)).trans (Function.update_of_ne (StableHlo.devRef_ne_of_ne (by decide)) _ _)).trans (en1_cost m c)
theorem en2_et : En2 m c main_v20 = etA m c :=
  ((keep2_v20 (V16 m (outs2 m) c)).trans (Function.update_of_ne (StableHlo.devRef_ne_of_ne (by decide)) _ _)).trans (en1_et m c)
theorem en2_pw : En2 m c main_v19 = pwA m c :=
  ((keep2_v19 (V16 m (outs2 m) c)).trans (Function.update_of_ne (StableHlo.devRef_ne_of_ne (by decide)) _ _)).trans (en1_pw m c)
theorem en2_msgs : En2 m c main_v56 = shiftT (W16 m c (Proc.devRef .tc main_v39)) :=
  (shift2 (V16 m (outs2 m) c)).trans (congrArg shiftT (Function.update_self _ _ _))

/-! ### The result -/

/-- The result buffer after the whole program: the softmax tail of the cost and the last launch's output moved. -/
theorem result_raw : V35 m (outs m) c main_v88 = tailT (costA m c) (shiftT (W26 m c (Proc.devRef .tc main_v57))) := by
  show StableHlo.after hostOps3_8 (V34 m (outs m) c) (Proc.devRef .tc main_v88) = _
  rw [after_split 5 hostOps3_8, tail_ops]
  show tailT (lastV (V26 m (outs m) c) (Proc.devRef .tc main_v0)) (lastV (V26 m (outs m) c) (Proc.devRef .tc main_v74)) = _
  rw [last_cost, shift3]
  exact congrArg₂ tailT ((Function.update_of_ne (StableHlo.devRef_ne_of_ne (by decide)) _ _).trans (en2_cost m c))
    (congrArg shiftT (Function.update_self _ _ _))

end Cert.KernelIdeal.HostSide

end
-- ==== Proof.KI.Pay.lean ====
/- One direction's message of a min-sum step as the kernel body computes it on a block, read index by index over the
   extended reals: the belief (the cost plus the four incoming messages), less the message from the opposite
   direction, plus the edge weight times the pairwise table, minimised over the sender's label, then less its minimum
   over the receiver's label; and the same over blocks that are one row of the arrays. -/
import proofs.«134770_j15015205667393_2_alg».proof.Proof.Gen.KernelIdeal.Skeleton
import proofs.«134770_j15015205667393_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx
open Cert.Spec (min32 inf32 opp)
set_option maxRecDepth 8192

section Generic
variable {F : FTy → Type} [FloatOps F]

/-- Per pixel and pair of labels: `tmp w l' + ed w · pwd w l' l`, as the body lays it out on [1,1,256,32,32]. -/
def sumTerm (tmp : FVec F S1x1x256x32 .f32) (ed : FVec F S1x1x1x256 .f32) (pwd : Vec F S1x1x256x32x32 .f32) : FVec F S1x1x256x32x32 .f32 :=
  addf (broadcastTo S1x1x256x32x32 (shapeCast S1x1x256x32x1 tmp shapeCasts_S1x1x256x32_S1x1x256x32x1) broadcasts_S1x1x256x32x1_S1x1x256x32x32)
    (mulf (broadcastTo S1x1x256x32x32 (shapeCast S1x1x256x1x1 (shapeCast S1x1x256 ed shapeCasts_S1x1x1x256_S1x1x256) shapeCasts_S1x1x256_S1x1x256x1x1) broadcasts_S1x1x256x1x1_S1x1x256x32x32)
      (shapeCast S1x1x256x32x32 (shapeCast S1x256x32x32 pwd shapeCasts_S1x1x256x32x32_S1x256x32x32) shapeCasts_S1x256x32x32_S1x1x256x32x32))

/-- Its minimum over the sender label `l'`: the message before normalisation, [1,1,256,32]. -/
def rawMsg (tmp : FVec F S1x1x256x32 .f32) (ed : FVec F S1x1x1x256 .f32) (pwd : Vec F S1x1x256x32x32 .f32) : FVec F S1x1x256x32 .f32 :=
  multiReduction .minimumf [3] S1x1x256x32 (sumTerm tmp ed pwd) 0x7F800000#32 reduces_S1x1x256x32x32_S1x1x256x32 (.inl rfl) rfl

/-- One direction's message normalised at the sender, as the body computes it from: `tmp`, the belief less the
    message from the opposite direction, [1,1,256,32]; `ed`, that direction's edge weights, [1,1,1,256]; `pwd`, that
    direction's pairwise table, [1,1,256,32,32]: the message less its minimum over the receiver label. -/
def dirMsg (tmp : FVec F S1x1x256x32 .f32) (ed : FVec F S1x1x1x256 .f32) (pwd : Vec F S1x1x256x32x32 .f32) : FVec F S1x1x256x32 .f32 :=
  subf (rawMsg tmp ed pwd)
    (broadcastTo S1x1x256x32 (shapeCast S1x1x256x1 (multiReduction .minimumf [3] S1x1x256 (rawMsg tmp ed pwd) 0x7F800000#32 reduces_S1x1x256x32_S1x1x256 (.inl rfl) rfl) shapeCasts_S1x1x256_S1x1x256x1) broadcasts_S1x1x256x1_S1x1x256x32)

/-- The belief less one direction's message, that message given as a slab [1,1,1,256,32]. -/
def lessDir (tot : FVec F S1x1x256x32 .f32) (sl : FVec F S1x1x1x256x32 .f32) : FVec F S1x1x256x32 .f32 :=
  subf tot (shapeCast S1x1x256x32 sl shapeCasts_S1x1x1x256x32_S1x1x256x32)

end Generic

section Generic2
variable {F : FTy → Type} [FloatOps F]

/-- The belief: the cost plus the four incoming messages, [1,1,256,32]. -/
def totOf (c0 : FVec F S1x1x256x32 .f32) (mm : FVec F S1x4x1x256x32 .f32) : FVec F S1x1x256x32 .f32 :=
  addf c0 (multiReduction .add [1] S1x1x256x32 mm 0x00000000#32 reduces_S1x4x1x256x32_S1x1x256x32 (.inl rfl) rfl)

/-- Direction `d`'s normalised message, [1,1,256,32], from the cost block `c0`, the edge weights `e3`, the
    messages `mm` and direction `d`'s pairwise table `pwd`: the belief less the message from the opposite direction
    goes in with direction `d`'s edge weights. -/
def slabOf (c0 : FVec F S1x1x256x32 .f32) (e3 : FVec F S1x1x4x256 .f32) (mm : FVec F S1x4x1x256x32 .f32) (pwd : Vec F S1x1x256x32x32 .f32)
    (d : Fin 4) (ho : S1x4x1x256x32.Slices ![0, (opp d).val, 0, 0, 0] S1x1x1x256x32) (hd : S1x1x4x256.Slices ![0, 0, d.val, 0] S1x1x1x256) :
    FVec F S1x1x256x32 .f32 :=
  dirMsg (lessDir (totOf c0 mm) (extractStridedSlice S1x1x1x256x32 ![0, (opp d).val, 0, 0, 0] mm ho))
    (extractStridedSlice S1x1x1x256 ![0, 0, d.val, 0] e3 hd) pwd

end Generic2

/-! ## Read at an index, over the extended reals -/

/-- A minimum-reduction over one axis is the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the sender label of a [1,1,256,32,32] vector, at pixel `w` and receiver label `l`. -/
theorem min5_apply (x : FVec Ideal S1x1x256x32x32 .f32) (w : Fin 256) (l : Fin 32) :
    multiReduction .minimumf [3] S1x1x256x32 x 0x7F800000#32 reduces_S1x1x256x32x32_S1x1x256x32 (.inl rfl) rfl (ix4 0 0 w l)
      = min32 fun l' => x (ix5 0 0 w l' l) := by
  unfold min32 inf32
  refine (multiReduction_minimumf_single _ _ _ _ _ _).trans ?_
  refine congrArg (fun f : Fin 32 → EReal => Finset.fold min (Ideal.ofBits .f32 0x7F800000#32) f (Finset.univ : Finset (Fin 32))) (funext fun l' : Fin 32 => ?_)
  refine congrArg x ?_
  funext a; apply Fin.ext
  match a with
  | ⟨0, _⟩ => rfl
  | ⟨1, _⟩ => rfl
  | ⟨2, _⟩ => rfl
  | ⟨3, _⟩ => rfl
  | ⟨4, _⟩ => rfl

/-- The minimum over the label of a [1,1,256,32] vector, at pixel `w`. -/
theorem min4_apply (x : FVec Ideal S1x1x256x32 .f32) (w : Fin 256) :
    multiReduction .minimumf [3] S1x1x256 x 0x7F800000#32 reduces_S1x1x256x32_S1x1x256 (.inl rfl) rfl (ix3 0 0 w)
      = min32 fun l => x (ix4 0 0 w l) := by
  unfold min32 inf32
  refine (multiReduction_minimumf_single _ _ _ _ _ _).trans ?_
  refine congrArg (fun f : Fin 32 → EReal => Finset.fold min (Ideal.ofBits .f32 0x7F800000#32) f (Finset.univ : Finset (Fin 32))) (funext fun l : Fin 32 => ?_)
  refine congrArg x ?_
  funext a; apply Fin.ext
  match a with
  | ⟨0, _⟩ => rfl
  | ⟨1, _⟩ => rfl
  | ⟨2, _⟩ => rfl
  | ⟨3, _⟩ => rfl

/-- The message before normalisation at pixel `w` and receiver label `l`. -/
def mpB (tmp : S1x1x256x32.Idx → EReal) (ed : S1x1x1x256.Idx → EReal) (pwd : S1x1x256x32x32.Idx → EReal) (w : Fin 256) (l : Fin 32) : EReal :=
  min32 fun l' => tmp (ix4 0 0 w l') + ed (ix4 0 0 0 w) * pwd (ix5 0 0 w l' l)

theorem sumTerm_apply (tmp : FVec Ideal S1x1x256x32 .f32) (ed : FVec Ideal S1x1x1x256 .f32) (pwd : Vec Ideal S1x1x256x32x32 .f32)
    (w : Fin 256) (l' l : Fin 32) :
    sumTerm tmp ed pwd (ix5 0 0 w l' l) = tmp (ix4 0 0 w l') + ed (ix4 0 0 0 w) * pwd (ix5 0 0 w l' l) := by
  unfold sumTerm
  rw [shapeCast_shapeCast]
  show broadcastTo S1x1x256x32x32 _ _ (ix5 0 0 w l' l) + broadcastTo S1x1x256x32x32 _ _ (ix5 0 0 w l' l) * pwd (ix5 0 0 w l' l) = _
  have h1 : broadcastTo S1x1x256x32x32 (shapeCast S1x1x256x32x1 tmp shapeCasts_S1x1x256x32_S1x1x256x32x1) broadcasts_S1x1x256x32x1_S1x1x256x32x32 (ix5 0 0 w l' l)
      = tmp (ix4 0 0 w l') := by
    refine (broadcastTo_apply _ _ (ix5 0 0 w l' l) (ix5 0 0 w l' 0) fun a => ?_).trans ?_
    · match a with
      | ⟨0, _⟩ => rfl
      | ⟨1, _⟩ => rfl
      | ⟨2, _⟩ => rfl
      | ⟨3, _⟩ => rfl
      | ⟨4, _⟩ => rfl
    · refine shapeCast_apply _ _ _ _ ?_
      rw [Shape.rowMajor_val_five, Shape.rowMajor_val_four]
      show ((0 * 1 + 0) * 256 + w.val) * 32 + l'.val = (((0 * 1 + 0) * 256 + w.val) * 32 + l'.val) * 1 + 0
      omega
  have h2 : broadcastTo S1x1x256x32x32 (shapeCast S1x1x256x1x1 (shapeCast S1x1x256 ed shapeCasts_S1x1x1x256_S1x1x256) shapeCasts_S1x1x256_S1x1x256x1x1) broadcasts_S1x1x256x1x1_S1x1x256x32x32 (ix5 0 0 w l' l)
      = ed (ix4 0 0 0 w) := by
    refine (broadcastTo_apply _ _ (ix5 0 0 w l' l) (ix5 0 0 w 0 0) fun a => ?_).trans ?_
    · match a with
      | ⟨0, _⟩ => rfl
      | ⟨1, _⟩ => rfl
      | ⟨2, _⟩ => rfl
      | ⟨3, _⟩ => rfl
      | ⟨4, _⟩ => rfl
    · refine (shapeCast_apply _ _ _ (ix3 0 0 w) ?_).trans (shapeCast_apply _ _ _ _ ?_)
      · rw [Shape.rowMajor_val_five, Shape.rowMajor_val_three]
        show (0 * 1 + 0) * 256 + w.val = (((0 * 1 + 0) * 256 + w.val) * 1 + 0) * 1 + 0
        omega
      · rw [Shape.rowMajor_val_four, Shape.rowMajor_val_three]
        show ((0 * 1 + 0) * 1 + 0) * 256 + w.val = (0 * 1 + 0) * 256 + w.val
        omega
  rw [h1, h2]

theorem rawMsg_apply (tmp : FVec Ideal S1x1x256x32 .f32) (ed : FVec Ideal S1x1x1x256 .f32) (pwd : Vec Ideal S1x1x256x32x32 .f32)
    (w : Fin 256) (l : Fin 32) : rawMsg tmp ed pwd (ix4 0 0 w l) = mpB tmp ed pwd w l := by
  unfold rawMsg mpB
  exact (min5_apply _ w l).trans (congrArg min32 (funext fun l' => sumTerm_apply tmp ed pwd w l' l))

/-- A [1,1,256] vector recast [1,1,256,1] and broadcast along the labels reads, at pixel `w` and any label, its
    entry at `w`. -/
theorem bcastLabels_apply (x : FVec Ideal S1x1x256 .f32) (w : Fin 256) (l : Fin 32) :
    broadcastTo S1x1x256x32 (shapeCast S1x1x256x1 x shapeCasts_S1x1x256_S1x1x256x1) broadcasts_S1x1x256x1_S1x1x256x32 (ix4 0 0 w l)
      = x (ix3 0 0 w) := by
  refine (broadcastTo_apply _ _ (ix4 0 0 w l) (ix4 0 0 w 0) fun a => ?_).trans ?_
  · match a with
    | ⟨0, _⟩ => rfl
    | ⟨1, _⟩ => rfl
    | ⟨2, _⟩ => rfl
    | ⟨3, _⟩ => rfl
  refine shapeCast_apply _ _ _ (ix3 0 0 w) ?_
  rw [Shape.rowMajor_val_four, Shape.rowMajor_val_three]
  show (0 * 1 + 0) * 256 + w.val = ((0 * 1 + 0) * 256 + w.val) * 1 + 0
  omega

theorem dirMsg_apply (tmp : FVec Ideal S1x1x256x32 .f32) (ed : FVec Ideal S1x1x1x256 .f32) (pwd : Vec Ideal S1x1x256x32x32 .f32)
    (w : Fin 256) (l : Fin 32) :
    dirMsg tmp ed pwd (ix4 0 0 w l) = mpB tmp ed pwd w l - min32 fun l'' => mpB tmp ed pwd w l'' := by
  unfold dirMsg
  show rawMsg tmp ed pwd (ix4 0 0 w l) - broadcastTo S1x1x256x32 _ _ (ix4 0 0 w l) = _
  rw [rawMsg_apply, bcastLabels_apply, min4_apply]
  exact congrArg (fun z : EReal => mpB tmp ed pwd w l - z) (congrArg min32 (funext fun l'' => rawMsg_apply tmp ed pwd w l''))

/-- The belief at pixel `w` and label `l`. -/
def totB (c0 : S1x1x256x32.Idx → EReal) (mm : S1x4x1x256x32.Idx → EReal) (w : Fin 256) (l : Fin 32) : EReal :=
  c0 (ix4 0 0 w l) + ∑ d : Fin 4, mm (ix5 0 d 0 w l)

/-- Direction `d`'s message before normalisation, over the blocks. -/
def mpG (c0 : S1x1x256x32.Idx → EReal) (e3 : S1x1x4x256.Idx → EReal) (mm : S1x4x1x256x32.Idx → EReal) (pwd : S1x1x256x32x32.Idx → EReal)
    (d : Fin 4) (w : Fin 256) (l : Fin 32) : EReal :=
  min32 fun l' => (totB c0 mm w l' - mm (ix5 0 (opp d) 0 w l')) + e3 (ix4 0 0 d w) * pwd (ix5 0 0 w l' l)

/-- Direction `d`'s message normalised at the sender, over the blocks. -/
def kernG (c0 : S1x1x256x32.Idx → EReal) (e3 : S1x1x4x256.Idx → EReal) (mm : S1x4x1x256x32.Idx → EReal) (pwd : S1x1x256x32x32.Idx → EReal)
    (d : Fin 4) (w : Fin 256) (l : Fin 32) : EReal :=
  mpG c0 e3 mm pwd d w l - min32 fun l'' => mpG c0 e3 mm pwd d w l''

theorem totOf_apply (c0 : FVec Ideal S1x1x256x32 .f32) (mm : FVec Ideal S1x4x1x256x32 .f32) (w : Fin 256) (l : Fin 32) :
    totOf c0 mm (ix4 0 0 w l) = totB c0 mm w l := by
  unfold totOf totB
  show c0 (ix4 0 0 w l) + multiReduction (F := Ideal) .add [1] S1x1x256x32 mm 0x00000000#32 reduces_S1x4x1x256x32_S1x1x256x32 (.inl rfl) rfl (ix4 0 0 w l) = _
  refine congrArg (fun z : EReal => c0 (ix4 0 0 w l) + z) ?_
  refine (Ideal.multiReduction_add_single _ _ _ _ _ _).trans ?_
  show (∑ d : Fin 4, mm (reduces_S1x4x1x256x32_S1x1x256x32.lift (ix4 0 0 w l) d)) = ∑ d : Fin 4, mm (ix5 0 d 0 w l)
  refine Finset.sum_congr rfl fun d _ => congrArg mm ?_
  funext a; apply Fin.ext
  match a with
  | ⟨0, _⟩ => rfl
  | ⟨1, _⟩ => rfl
  | ⟨2, _⟩ => rfl
  | ⟨3, _⟩ => rfl
  | ⟨4, _⟩ => rfl

theorem lessDir_apply (tot : FVec Ideal S1x1x256x32 .f32) (sl : FVec Ideal S1x1x1x256x32 .f32) (w : Fin 256) (l : Fin 32) :
    lessDir tot sl (ix4 0 0 w l) = tot (ix4 0 0 w l) - sl (ix5 0 0 0 w l) := by
  unfold lessDir
  show tot (ix4 0 0 w l) - shapeCast S1x1x256x32 sl shapeCasts_S1x1x1x256x32_S1x1x256x32 (ix4 0 0 w l) = _
  refine congrArg (fun z : EReal => tot (ix4 0 0 w l) - z) ?_
  refine shapeCast_apply _ _ _ _ ?_
  rw [Shape.rowMajor_val_five, Shape.rowMajor_val_four]
  show (((0 * 1 + 0) * 1 + 0) * 256 + w.val) * 32 + l.val = ((0 * 1 + 0) * 256 + w.val) * 32 + l.val
  omega

/-- The slab of the messages at direction `o`. -/
theorem sliceDir_apply {α : Type} (mm : S1x4x1x256x32.Idx → α) (o : Fin 4) (ho : S1x4x1x256x32.Slices ![0, o.val, 0, 0, 0] S1x1x1x256x32)
    (w : Fin 256) (l : Fin 32) :
    extractStridedSlice S1x1x1x256x32 ![0, o.val, 0, 0, 0] mm ho (ix5 0 0 0 w l) = mm (ix5 0 o 0 w l) := by
  refine extractStridedSlice_apply _ mm ho _ _ fun a => ?_
  match a with
  | ⟨0, _⟩ => rfl
  | ⟨1, _⟩ => rfl
  | ⟨2, _⟩ => rfl
  | ⟨3, _⟩ => show w.val = 0 + w.val; omega
  | ⟨4, _⟩ => show l.val = 0 + l.val; omega

/-- The row of the edge weights at direction `d`. -/
theorem sliceEdge_apply {α : Type} (e3 : S1x1x4x256.Idx → α) (d : Fin 4) (hd : S1x1x4x256.Slices ![0, 0, d.val, 0] S1x1x1x256) (w : Fin 256) :
    extractStridedSlice S1x1x1x256 ![0, 0, d.val, 0] e3 hd (ix4 0 0 0 w) = e3 (ix4 0 0 d w) := by
  refine extractStridedSlice_apply _ e3 hd _ _ fun a => ?_
  match a with
  | ⟨0, _⟩ => rfl
  | ⟨1, _⟩ => rfl
  | ⟨2, _⟩ => rfl
  | ⟨3, _⟩ => show w.val = 0 + w.val; omega

theorem slabOf_apply (c0 : FVec Ideal S1x1x256x32 .f32) (e3 : FVec Ideal S1x1x4x256 .f32) (mm : FVec Ideal S1x4x1x256x32 .f32) (pwd : Vec Ideal S1x1x256x32x32 .f32)
    (d : Fin 4) (ho : S1x4x1x256x32.Slices ![0, (opp d).val, 0, 0, 0] S1x1x1x256x32) (hd : S1x1x4x256.Slices ![0, 0, d.val, 0] S1x1x1x256)
    (w : Fin 256) (l : Fin 32) :
    slabOf c0 e3 mm pwd d ho hd (ix4 0 0 w l) = kernG c0 e3 mm pwd d w l := by
  have hmp : ∀ l : Fin 32, mpB (lessDir (totOf c0 mm) (extractStridedSlice S1x1x1x256x32 ![0, (opp d).val, 0, 0, 0] mm ho))
      (extractStridedSlice S1x1x1x256 ![0, 0, d.val, 0] e3 hd) pwd w l = mpG c0 e3 mm pwd d w l := by
    intro l
    unfold mpB mpG
    refine congrArg min32 (funext fun l' => ?_)
    rw [lessDir_apply, totOf_apply, sliceDir_apply, sliceEdge_apply]
  unfold slabOf kernG
  rw [dirMsg_apply, hmp l]
  exact congrArg (fun z : EReal => mpG c0 e3 mm pwd d w l - z) (congrArg min32 (funext fun l'' => hmp l''))

/-- A [1,1,256,32] vector recast as a slab [1,1,1,256,32]. -/
theorem slabCast_apply {α : Type} (x : S1x1x256x32.Idx → α) (w : Fin 256) (l : Fin 32) :
    shapeCast S1x1x1x256x32 x shapeCasts_S1x1x256x32_S1x1x1x256x32 (ix5 0 0 0 w l) = x (ix4 0 0 w l) := by
  refine shapeCast_apply _ _ _ _ ?_
  rw [Shape.rowMajor_val_five, Shape.rowMajor_val_four]
  show ((0 * 1 + 0) * 256 + w.val) * 32 + l.val = (((0 * 1 + 0) * 1 + 0) * 256 + w.val) * 32 + l.val
  omega

/-! ## The blocks as rows of the arrays -/

/-- Over blocks that are row `h` of the four arrays, the block's message is the array's at row `h`. -/
theorem kernG_eq_kern (cost : Cert.Spec.SC.Idx → EReal) (et : Cert.Spec.SEk.Idx → EReal) (msgs : Cert.Spec.SM.Idx → EReal) (pw : Cert.Spec.SP.Idx → EReal)
    (c0 : S1x1x256x32.Idx → EReal) (e3 : S1x1x4x256.Idx → EReal) (mm : S1x4x1x256x32.Idx → EReal) (pwd : S1x1x256x32x32.Idx → EReal)
    (d : Fin 4) (h : Fin 128)
    (hc : ∀ (w : Fin 256) (l : Fin 32), c0 (ix4 0 0 w l) = cost (ix4 0 h w l))
    (he : ∀ (d : Fin 4) (w : Fin 256), e3 (ix4 0 0 d w) = et (ix4 0 h d w))
    (hm : ∀ (d : Fin 4) (w : Fin 256) (l : Fin 32), mm (ix5 0 d 0 w l) = msgs (ix5 0 d h w l))
    (hp : ∀ (w : Fin 256) (l' l : Fin 32), pwd (ix5 0 0 w l' l) = pw (ix5 d h w l' l))
    (w : Fin 256) (l : Fin 32) :
    kernG c0 e3 mm pwd d w l = Cert.Spec.kern cost (Cert.Spec.eOfK et) msgs pw d h w l := by
  unfold kernG Cert.Spec.kern mpG Cert.Spec.mp totB Cert.Spec.total Cert.Spec.eOfK
  simp only [hc, he, hm, hp]

end Cert.KernelIdeal.Body

end
-- ==== Proof.KI.Value0.lean ====
/- What region 0 leaves in its output array: at direction d, row h, pixel w and label l, direction d's message of
   one min-sum step normalised at the sender, over the four input arrays as the region finds them. The output block's
   slab d is the d-th store's payload, that payload is direction d's message of the loaded blocks, the blocks at grid
   point t are row t of the arrays, and the points' blocks cover the array. -/
import proofs.«134770_j15015205667393_2_alg».proof.Proof.KI.Region0
import proofs.«134770_j15015205667393_2_alg».proof.Proof.KI.Pay
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (min32 inf32 opp)

/-! ## The output block at an index: slab `d` of the second axis holds the `d`-th store's payload -/

theorem slabIdx0_0 (w : Fin 256) (l : Fin 32) : (ix5 0 0 0 w l : S1x4x1x256x32.Idx) = r0_7.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx0_1 (w : Fin 256) (l : Fin 32) : (ix5 0 1 0 w l : S1x4x1x256x32.Idx) = r0_8.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx0_2 (w : Fin 256) (l : Fin 32) : (ix5 0 2 0 w l : S1x4x1x256x32.Idx) = r0_9.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx0_3 (w : Fin 256) (l : Fin 32) : (ix5 0 3 0 w l : S1x4x1x256x32.Idx) = r0_10.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabOff0_2_3 (w : Fin 256) (l : Fin 32) : (ix5 0 2 0 w l : S1x4x1x256x32.Idx) ∉ r0_10.set := fun hm => by
  have h1 := (Rect.mem_set_unit.mp hm) (1 : Fin 5)
  change (3 : ℕ) ≤ 2 ∧ _ at h1
  omega

theorem slabOff0_1_3 (w : Fin 256) (l : Fin 32) : (ix5 0 1 0 w l : S1x4x1x256x32.Idx) ∉ r0_10.set := fun hm => by
  have h1 := (Rect.mem_set_unit.mp hm) (1 : Fin 5)
  change (3 : ℕ) ≤ 1 ∧ _ at h1
  omega

theorem slabOff0_1_2 (w : Fin 256) (l : Fin 32) : (ix5 0 1 0 w l : S1x4x1x256x32.Idx) ∉ r0_9.set := fun hm => by
  have h1 := (Rect.mem_set_unit.mp hm) (1 : Fin 5)
  change (2 : ℕ) ≤ 1 ∧ _ at h1
  omega

theorem slabOff0_0_3 (w : Fin 256) (l : Fin 32) : (ix5 0 0 0 w l : S1x4x1x256x32.Idx) ∉ r0_10.set := fun hm => by
  have h1 := (Rect.mem_set_unit.mp hm) (1 : Fin 5)
  change (3 : ℕ) ≤ 0 ∧ _ at h1
  omega

theorem slabOff0_0_2 (w : Fin 256) (l : Fin 32) : (ix5 0 0 0 w l : S1x4x1x256x32.Idx) ∉ r0_9.set := fun hm => by
  have h1 := (Rect.mem_set_unit.mp hm) (1 : Fin 5)
  change (2 : ℕ) ≤ 0 ∧ _ at h1
  omega

theorem slabOff0_0_1 (w : Fin 256) (l : Fin 32) : (ix5 0 0 0 w l : S1x4x1x256x32.Idx) ∉ r0_8.set := fun hm => by
  have h1 := (Rect.mem_set_unit.mp hm) (1 : Fin 5)
  change (1 : ℕ) ≤ 0 ∧ _ at h1
  omega

section Canon
variable {Val : EltTy → Type} [∀ e, Nonempty (Val e)]

theorem canon0_slab3 (p3 p2 p1 p0 : S1x1x1x256x32.Idx → Val .f32) (w : Fin 256) (l : Fin 32) :
    View.canon ([⟨r0_10, p3⟩, ⟨r0_9, p2⟩, ⟨r0_8, p1⟩, ⟨r0_7, p0⟩] : List (View.Piece Val S1x4x1x256x32 .f32)) (ix5 0 3 0 w l) = p3 (ix5 0 0 0 w l) :=
  ((congrArg (View.canon ([⟨r0_10, p3⟩, ⟨r0_9, p2⟩, ⟨r0_8, p1⟩, ⟨r0_7, p0⟩] : List (View.Piece Val S1x4x1x256x32 .f32))) (slabIdx0_3 w l)).trans
      (View.canon_cons_emb r0_10 p3 [⟨r0_9, p2⟩, ⟨r0_8, p1⟩, ⟨r0_7, p0⟩] (ix5 0 0 0 w l)))

theorem canon0_slab2 (p3 p2 p1 p0 : S1x1x1x256x32.Idx → Val .f32) (w : Fin 256) (l : Fin 32) :
    View.canon ([⟨r0_10, p3⟩, ⟨r0_9, p2⟩, ⟨r0_8, p1⟩, ⟨r0_7, p0⟩] : List (View.Piece Val S1x4x1x256x32 .f32)) (ix5 0 2 0 w l) = p2 (ix5 0 0 0 w l) :=
  ((View.canon_cons_of_not_mem (⟨r0_10, p3⟩ : View.Piece Val S1x4x1x256x32 .f32) [⟨r0_9, p2⟩, ⟨r0_8, p1⟩, ⟨r0_7, p0⟩] (slabOff0_2_3 w l)).trans
    ((congrArg (View.canon ([⟨r0_9, p2⟩, ⟨r0_8, p1⟩, ⟨r0_7, p0⟩] : List (View.Piece Val S1x4x1x256x32 .f32))) (slabIdx0_2 w l)).trans
      (View.canon_cons_emb r0_9 p2 [⟨r0_8, p1⟩, ⟨r0_7, p0⟩] (ix5 0 0 0 w l))))

theorem canon0_slab1 (p3 p2 p1 p0 : S1x1x1x256x32.Idx → Val .f32) (w : Fin 256) (l : Fin 32) :
    View.canon ([⟨r0_10, p3⟩, ⟨r0_9, p2⟩, ⟨r0_8, p1⟩, ⟨r0_7, p0⟩] : List (View.Piece Val S1x4x1x256x32 .f32)) (ix5 0 1 0 w l) = p1 (ix5 0 0 0 w l) :=
  ((View.canon_cons_of_not_mem (⟨r0_10, p3⟩ : View.Piece Val S1x4x1x256x32 .f32) [⟨r0_9, p2⟩, ⟨r0_8, p1⟩, ⟨r0_7, p0⟩] (slabOff0_1_3 w l)).trans
    ((View.canon_cons_of_not_mem (⟨r0_9, p2⟩ : View.Piece Val S1x4x1x256x32 .f32) [⟨r0_8, p1⟩, ⟨r0_7, p0⟩] (slabOff0_1_2 w l)).trans
    ((congrArg (View.canon ([⟨r0_8, p1⟩, ⟨r0_7, p0⟩] : List (View.Piece Val S1x4x1x256x32 .f32))) (slabIdx0_1 w l)).trans
      (View.canon_cons_emb r0_8 p1 [⟨r0_7, p0⟩] (ix5 0 0 0 w l)))))

theorem canon0_slab0 (p3 p2 p1 p0 : S1x1x1x256x32.Idx → Val .f32) (w : Fin 256) (l : Fin 32) :
    View.canon ([⟨r0_10, p3⟩, ⟨r0_9, p2⟩, ⟨r0_8, p1⟩, ⟨r0_7, p0⟩] : List (View.Piece Val S1x4x1x256x32 .f32)) (ix5 0 0 0 w l) = p0 (ix5 0 0 0 w l) :=
  ((View.canon_cons_of_not_mem (⟨r0_10, p3⟩ : View.Piece Val S1x4x1x256x32 .f32) [⟨r0_9, p2⟩, ⟨r0_8, p1⟩, ⟨r0_7, p0⟩] (slabOff0_0_3 w l)).trans
    ((View.canon_cons_of_not_mem (⟨r0_9, p2⟩ : View.Piece Val S1x4x1x256x32 .f32) [⟨r0_8, p1⟩, ⟨r0_7, p0⟩] (slabOff0_0_2 w l)).trans
    ((View.canon_cons_of_not_mem (⟨r0_8, p1⟩ : View.Piece Val S1x4x1x256x32 .f32) [⟨r0_7, p0⟩] (slabOff0_0_1 w l)).trans
    ((congrArg (View.canon ([⟨r0_7, p0⟩] : List (View.Piece Val S1x4x1x256x32 .f32))) (slabIdx0_0 w l)).trans
      (View.canon_cons_emb r0_7 p0 [] (ix5 0 0 0 w l))))))

end Canon

/-! ## Each store's payload is one direction's message of the loaded blocks -/
section Pay
variable {F : FTy → Type} [FloatOps F]

theorem pay0_slab0 (v0 : Vec F S1x1x256x32 .f32) (v2 : Vec F S1x1x4x256 .f32) (v4 : Vec F S1x4x1x256x32 .f32) (pw : Vec F S1x1x256x32x32 .f32) :
    k0_pay5 v0 v2 v4 pw = shapeCast S1x1x1x256x32 (slabOf (shapeCast S1x1x256x32 v0 shapeCasts_S1x1x256x32_S1x1x256x32) (k0_pay3 v2) v4 pw 0 slices_S1x4x1x256x32_o0_1_0_0_0_S1x1x1x256x32 slices_S1x1x4x256_o0_0_0_0_S1x1x1x256) shapeCasts_S1x1x256x32_S1x1x1x256x32 := rfl

theorem pay0_slab1 (v0 : Vec F S1x1x256x32 .f32) (v2 : Vec F S1x1x4x256 .f32) (v4 : Vec F S1x4x1x256x32 .f32) (pw : Vec F S1x1x256x32x32 .f32) :
    k0_pay7 (k0_pay3 v2) (k0_pay6 v0 v4) pw = shapeCast S1x1x1x256x32 (slabOf (shapeCast S1x1x256x32 v0 shapeCasts_S1x1x256x32_S1x1x256x32) (k0_pay3 v2) v4 pw 1 slices_S1x4x1x256x32_o0_0_0_0_0_S1x1x1x256x32 slices_S1x1x4x256_o0_0_1_0_S1x1x1x256) shapeCasts_S1x1x256x32_S1x1x1x256x32 := rfl

theorem pay0_slab2 (v0 : Vec F S1x1x256x32 .f32) (v2 : Vec F S1x1x4x256 .f32) (v4 : Vec F S1x4x1x256x32 .f32) (pw : Vec F S1x1x256x32x32 .f32) :
    k0_pay1 (k0_pay8 (k0_pay3 v2) v4 (k0_pay4 v0 v4) pw) = shapeCast S1x1x1x256x32 (slabOf (shapeCast S1x1x256x32 v0 shapeCasts_S1x1x256x32_S1x1x256x32) (k0_pay3 v2) v4 pw 2 slices_S1x4x1x256x32_o0_3_0_0_0_S1x1x1x256x32 slices_S1x1x4x256_o0_0_2_0_S1x1x1x256) shapeCasts_S1x1x256x32_S1x1x1x256x32 := rfl

theorem pay0_slab3 (v0 : Vec F S1x1x256x32 .f32) (v2 : Vec F S1x1x4x256 .f32) (v4 : Vec F S1x4x1x256x32 .f32) (pw : Vec F S1x1x256x32x32 .f32) :
    k0_pay2 (k0_pay3 v2) v4 (k0_pay4 v0 v4) pw = shapeCast S1x1x1x256x32 (slabOf (shapeCast S1x1x256x32 v0 shapeCasts_S1x1x256x32_S1x1x256x32) (k0_pay3 v2) v4 pw 3 slices_S1x4x1x256x32_o0_2_0_0_0_S1x1x1x256x32 slices_S1x1x4x256_o0_0_3_0_S1x1x1x256) shapeCasts_S1x1x256x32_S1x1x1x256x32 := rfl

end Pay

variable (V : (c : Dev nD) → (b : Ref sig .tc) → Buf (Elt Ideal) ((c : Thread nD τ).loc b))

theorem hz4_0 : (![0, 0, 0, 0] : Fin 4 → Nat) = fun _ => 0 := funext fun a => by fin_cases a <;> rfl
theorem hz5_0 : (![0, 0, 0, 0, 0] : Fin 5 → Nat) = fun _ => 0 := funext fun a => by fin_cases a <;> rfl

/-- Slab 0 of the output block: direction 0's normalised message of the input blocks. -/
theorem out0_4_slab0 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out0_4 (F := Ideal) x0 x1 x2 x3 (ix5 0 0 0 w l) = kernG x0 x1 x2 (View.ld x3 r0_3) 0 w l := by
  have e0 : (shapeCast S1x1x256x32 (View.ld x0 r0_0) shapeCasts_S1x1x256x32_S1x1x256x32) = x0 := (shapeCast_self _ _).trans (View.ld_unit_zero hz4_0 _ x0)
  have e1 : (k0_pay3 (View.ld x1 r0_1)) = x1 := (shapeCast_self _ _).trans (View.ld_unit_zero hz4_0 _ x1)
  have e2 : (View.ld x2 r0_2) = x2 := View.ld_unit_zero hz5_0 _ x2
  unfold out0_4
  refine (canon0_slab0 _ _ _ _ w l).trans ?_
  refine (congrFun (pay0_slab0 (View.ld x0 r0_0) (View.ld x1 r0_1) (View.ld x2 r0_2) (View.ld x3 r0_3)) (ix5 0 0 0 w l)).trans ?_
  refine (slabCast_apply _ w l).trans ?_
  refine (slabOf_apply _ _ _ _ 0 _ _ w l).trans ?_
  rw [e0, e1, e2]

/-- Slab 1 of the output block: direction 1's normalised message of the input blocks. -/
theorem out0_4_slab1 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out0_4 (F := Ideal) x0 x1 x2 x3 (ix5 0 1 0 w l) = kernG x0 x1 x2 (View.ld x3 r0_4) 1 w l := by
  have e0 : (shapeCast S1x1x256x32 (View.ld x0 r0_0) shapeCasts_S1x1x256x32_S1x1x256x32) = x0 := (shapeCast_self _ _).trans (View.ld_unit_zero hz4_0 _ x0)
  have e1 : (k0_pay3 (View.ld x1 r0_1)) = x1 := (shapeCast_self _ _).trans (View.ld_unit_zero hz4_0 _ x1)
  have e2 : (View.ld x2 r0_2) = x2 := View.ld_unit_zero hz5_0 _ x2
  unfold out0_4
  refine (canon0_slab1 _ _ _ _ w l).trans ?_
  refine (congrFun (pay0_slab1 (View.ld x0 r0_0) (View.ld x1 r0_1) (View.ld x2 r0_2) (View.ld x3 r0_4)) (ix5 0 0 0 w l)).trans ?_
  refine (slabCast_apply _ w l).trans ?_
  refine (slabOf_apply _ _ _ _ 1 _ _ w l).trans ?_
  rw [e0, e1, e2]

/-- Slab 2 of the output block: direction 2's normalised message of the input blocks. -/
theorem out0_4_slab2 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out0_4 (F := Ideal) x0 x1 x2 x3 (ix5 0 2 0 w l) = kernG x0 x1 x2 (View.ld x3 r0_5) 2 w l := by
  have e0 : (shapeCast S1x1x256x32 (View.ld x0 r0_0) shapeCasts_S1x1x256x32_S1x1x256x32) = x0 := (shapeCast_self _ _).trans (View.ld_unit_zero hz4_0 _ x0)
  have e1 : (k0_pay3 (View.ld x1 r0_1)) = x1 := (shapeCast_self _ _).trans (View.ld_unit_zero hz4_0 _ x1)
  have e2 : (View.ld x2 r0_2) = x2 := View.ld_unit_zero hz5_0 _ x2
  unfold out0_4
  refine (canon0_slab2 _ _ _ _ w l).trans ?_
  refine (congrFun (pay0_slab2 (View.ld x0 r0_0) (View.ld x1 r0_1) (View.ld x2 r0_2) (View.ld x3 r0_5)) (ix5 0 0 0 w l)).trans ?_
  refine (slabCast_apply _ w l).trans ?_
  refine (slabOf_apply _ _ _ _ 2 _ _ w l).trans ?_
  rw [e0, e1, e2]

/-- Slab 3 of the output block: direction 3's normalised message of the input blocks. -/
theorem out0_4_slab3 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out0_4 (F := Ideal) x0 x1 x2 x3 (ix5 0 3 0 w l) = kernG x0 x1 x2 (View.ld x3 r0_6) 3 w l := by
  have e0 : (shapeCast S1x1x256x32 (View.ld x0 r0_0) shapeCasts_S1x1x256x32_S1x1x256x32) = x0 := (shapeCast_self _ _).trans (View.ld_unit_zero hz4_0 _ x0)
  have e1 : (k0_pay3 (View.ld x1 r0_1)) = x1 := (shapeCast_self _ _).trans (View.ld_unit_zero hz4_0 _ x1)
  have e2 : (View.ld x2 r0_2) = x2 := View.ld_unit_zero hz5_0 _ x2
  unfold out0_4
  refine (canon0_slab3 _ _ _ _ w l).trans ?_
  refine (congrFun (pay0_slab3 (View.ld x0 r0_0) (View.ld x1 r0_1) (View.ld x2 r0_2) (View.ld x3 r0_6)) (ix5 0 0 0 w l)).trans ?_
  refine (slabCast_apply _ w l).trans ?_
  refine (slabOf_apply _ _ _ _ 3 _ _ w l).trans ?_
  rw [e0, e1, e2]

/-! ## The blocks are rows of the arrays -/

/-- The printed index maps, decided over the grid: point `t` takes row `t` of every array. -/
theorem idx0_0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
theorem idx0_1 : ∀ t : Fin cfg0.N, win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)
theorem idx0_2 : ∀ t : Fin cfg0.N, win0_2.index t (0 : Fin 5) = 0 ∧ win0_2.index t (1 : Fin 5) = 0 ∧ win0_2.index t (2 : Fin 5) = t.val ∧ win0_2.index t (3 : Fin 5) = 0 ∧ win0_2.index t (4 : Fin 5) = 0 :=
  (by decide +kernel : ∀ t : Fin grid0.N, _)
theorem idx0_3 : ∀ t : Fin cfg0.N, win0_3.index t (0 : Fin 5) = 0 ∧ win0_3.index t (1 : Fin 5) = t.val ∧ win0_3.index t (2 : Fin 5) = 0 ∧ win0_3.index t (3 : Fin 5) = 0 ∧ win0_3.index t (4 : Fin 5) = 0 :=
  (by decide +kernel : ∀ t : Fin grid0.N, _)
theorem idx0_4 : ∀ t : Fin cfg0.N, win0_4.index t (0 : Fin 5) = 0 ∧ win0_4.index t (1 : Fin 5) = 0 ∧ win0_4.index t (2 : Fin 5) = t.val ∧ win0_4.index t (3 : Fin 5) = 0 ∧ win0_4.index t (4 : Fin 5) = 0 :=
  (by decide +kernel : ∀ t : Fin grid0.N, _)

/-- The row of the arrays that point `t` works on. -/
abbrev row0 (t : Fin cfg0.N) : Fin 128 := ⟨t.val, lt_of_lt_of_eq t.isLt (show cfg0.N = 128 from N_0)⟩

/-- The cost block at point `t` is row `t` of the cost. -/
theorem iblk0_0_row (c : Dev nD) (t : Fin cfg0.N) (w : Fin 256) (l : Fin 32) :
    (iblk0 V c 0 t : Vec Ideal S1x1x256x32 .f32) (ix4 0 0 w l) = (V c main_v0 : S1x128x256x32.Idx → EReal) (ix4 0 (row0 t) w l) := by
  obtain ⟨h0, h1, h2, h3⟩ := idx0_0 t
  unfold iblk0
  rw [View.read_apply]
  show V c main_v0 _ = V c main_v0 _
  refine congrArg (V c main_v0 : S1x128x256x32.Idx → EReal) ?_
  funext a; apply Fin.ext
  match a with
  | ⟨0, _⟩ => show win0_0.index t (0 : Fin 4) * 1 + 1 * 0 = 0; omega
  | ⟨1, _⟩ => show win0_0.index t (1 : Fin 4) * 1 + 1 * 0 = t.val; omega
  | ⟨2, _⟩ => show win0_0.index t (2 : Fin 4) * 256 + 1 * w.val = w.val; omega
  | ⟨3, _⟩ => show win0_0.index t (3 : Fin 4) * 32 + 1 * l.val = l.val; omega

/-- The edge-weight block at point `t` is row `t` of the edge weights. -/
theorem iblk0_1_row (c : Dev nD) (t : Fin cfg0.N) (d : Fin 4) (w : Fin 256) :
    (iblk0 V c 1 t : Vec Ideal S1x1x4x256 .f32) (ix4 0 0 d w) = (V c main_v20 : S1x128x4x256.Idx → EReal) (ix4 0 (row0 t) d w) := by
  obtain ⟨h0, h1, h2, h3⟩ := idx0_1 t
  unfold iblk0
  rw [View.read_apply]
  show V c main_v20 _ = V c main_v20 _
  refine congrArg (V c main_v20 : S1x128x4x256.Idx → EReal) ?_
  funext a; apply Fin.ext
  match a with
  | ⟨0, _⟩ => show win0_1.index t (0 : Fin 4) * 1 + 1 * 0 = 0; omega
  | ⟨1, _⟩ => show win0_1.index t (1 : Fin 4) * 1 + 1 * 0 = t.val; omega
  | ⟨2, _⟩ => show win0_1.index t (2 : Fin 4) * 4 + 1 * d.val = d.val; omega
  | ⟨3, _⟩ => show win0_1.index t (3 : Fin 4) * 256 + 1 * w.val = w.val; omega

/-- The message block at point `t` is row `t` of the messages. -/
theorem iblk0_2_row (c : Dev nD) (t : Fin cfg0.N) (d : Fin 4) (w : Fin 256) (l : Fin 32) :
    (iblk0 V c 2 t : Vec Ideal S1x4x1x256x32 .f32) (ix5 0 d 0 w l) = (V c main_arg2 : S1x4x128x256x32.Idx → EReal) (ix5 0 d (row0 t) w l) := by
  obtain ⟨h0, h1, h2, h3, h4⟩ := idx0_2 t
  unfold iblk0
  rw [View.read_apply]
  show V c main_arg2 _ = V c main_arg2 _
  refine congrArg (V c main_arg2 : S1x4x128x256x32.Idx → EReal) ?_
  funext a; apply Fin.ext
  match a with
  | ⟨0, _⟩ => show win0_2.index t (0 : Fin 5) * 1 + 1 * 0 = 0; omega
  | ⟨1, _⟩ => show win0_2.index t (1 : Fin 5) * 4 + 1 * d.val = d.val; omega
  | ⟨2, _⟩ => show win0_2.index t (2 : Fin 5) * 1 + 1 * 0 = t.val; omega
  | ⟨3, _⟩ => show win0_2.index t (3 : Fin 5) * 256 + 1 * w.val = w.val; omega
  | ⟨4, _⟩ => show win0_2.index t (4 : Fin 5) * 32 + 1 * l.val = l.val; omega

/-- The pairwise block at point `t` is row `t` of the pairwise table, at any index given by its coordinates. -/
theorem iblk0_3_row (c : Dev nD) (t : Fin cfg0.N) (i : S4x1x256x32x32.Idx) (d : Fin 4) (w : Fin 256) (l' l : Fin 32)
    (e0 : (i 0).val = d.val) (e1 : (i 1).val = 0) (e2 : (i 2).val = w.val) (e3 : (i 3).val = l'.val) (e4 : (i 4).val = l.val) :
    (iblk0 V c 3 t : Vec Ideal S4x1x256x32x32 .f32) i = (V c main_v19 : S4x128x256x32x32.Idx → EReal) (ix5 d (row0 t) w l' l) := by
  obtain ⟨h0, h1, h2, h3, h4⟩ := idx0_3 t
  unfold iblk0
  rw [View.read_apply]
  show V c main_v19 _ = V c main_v19 _
  refine congrArg (V c main_v19 : S4x128x256x32x32.Idx → EReal) ?_
  funext a; apply Fin.ext
  match a with
  | ⟨0, _⟩ => show win0_3.index t (0 : Fin 5) * 4 + 1 * (i 0).val = d.val; omega
  | ⟨1, _⟩ => show win0_3.index t (1 : Fin 5) * 1 + 1 * (i 1).val = t.val; omega
  | ⟨2, _⟩ => show win0_3.index t (2 : Fin 5) * 256 + 1 * (i 2).val = w.val; omega
  | ⟨3, _⟩ => show win0_3.index t (3 : Fin 5) * 32 + 1 * (i 3).val = l'.val; omega
  | ⟨4, _⟩ => show win0_3.index t (4 : Fin 5) * 32 + 1 * (i 4).val = l.val; omega

/-- Slab `d` of the pairwise block, as the body loads it. -/
theorem pwSlab0_0 (c : Dev nD) (t : Fin cfg0.N) (w : Fin 256) (l' l : Fin 32) :
    View.ld (iblk0 V c 3 t : Vec Ideal S4x1x256x32x32 .f32) r0_3 (ix5 0 0 w l' l) = (V c main_v19 : S4x128x256x32x32.Idx → EReal) (ix5 0 (row0 t) w l' l) :=
  iblk0_3_row V c t (r0_3.idx (ix5 0 0 w l' l)) 0 w l' l rfl rfl
    (by show 0 + 1 * w.val = w.val; omega) (by show 0 + 1 * l'.val = l'.val; omega) (by show 0 + 1 * l.val = l.val; omega)
theorem pwSlab0_1 (c : Dev nD) (t : Fin cfg0.N) (w : Fin 256) (l' l : Fin 32) :
    View.ld (iblk0 V c 3 t : Vec Ideal S4x1x256x32x32 .f32) r0_4 (ix5 0 0 w l' l) = (V c main_v19 : S4x128x256x32x32.Idx → EReal) (ix5 1 (row0 t) w l' l) :=
  iblk0_3_row V c t (r0_4.idx (ix5 0 0 w l' l)) 1 w l' l rfl rfl
    (by show 0 + 1 * w.val = w.val; omega) (by show 0 + 1 * l'.val = l'.val; omega) (by show 0 + 1 * l.val = l.val; omega)
theorem pwSlab0_2 (c : Dev nD) (t : Fin cfg0.N) (w : Fin 256) (l' l : Fin 32) :
    View.ld (iblk0 V c 3 t : Vec Ideal S4x1x256x32x32 .f32) r0_5 (ix5 0 0 w l' l) = (V c main_v19 : S4x128x256x32x32.Idx → EReal) (ix5 2 (row0 t) w l' l) :=
  iblk0_3_row V c t (r0_5.idx (ix5 0 0 w l' l)) 2 w l' l rfl rfl
    (by show 0 + 1 * w.val = w.val; omega) (by show 0 + 1 * l'.val = l'.val; omega) (by show 0 + 1 * l.val = l.val; omega)
theorem pwSlab0_3 (c : Dev nD) (t : Fin cfg0.N) (w : Fin 256) (l' l : Fin 32) :
    View.ld (iblk0 V c 3 t : Vec Ideal S4x1x256x32x32 .f32) r0_6 (ix5 0 0 w l' l) = (V c main_v19 : S4x128x256x32x32.Idx → EReal) (ix5 3 (row0 t) w l' l) :=
  iblk0_3_row V c t (r0_6.idx (ix5 0 0 w l' l)) 3 w l' l rfl rfl
    (by show 0 + 1 * w.val = w.val; omega) (by show 0 + 1 * l'.val = l'.val; omega) (by show 0 + 1 * l.val = l.val; omega)

/-- The output block's index `(0, d, 0, w, l)` at point `t` is the array's `(0, d, t, w, l)`. -/
theorem oblk0_emb (t : Fin cfg0.N) (d : Fin 4) (w : Fin 256) (l : Fin 32) :
    ((cfg0.win 4).blk t).view.emb (ix5 0 d 0 w l) = (ix5 0 d (row0 t) w l : S1x4x128x256x32.Idx) := by
  obtain ⟨h0, h1, h2, h3, h4⟩ := idx0_4 t
  funext a; apply Fin.ext
  match a with
  | ⟨0, _⟩ => show win0_4.index t (0 : Fin 5) * 1 + 1 * 0 = 0; omega
  | ⟨1, _⟩ => show win0_4.index t (1 : Fin 5) * 4 + 1 * d.val = d.val; omega
  | ⟨2, _⟩ => show win0_4.index t (2 : Fin 5) * 1 + 1 * 0 = t.val; omega
  | ⟨3, _⟩ => show win0_4.index t (3 : Fin 5) * 256 + 1 * w.val = w.val; omega
  | ⟨4, _⟩ => show win0_4.index t (4 : Fin 5) * 32 + 1 * l.val = l.val; omega

/-- Two functions on the output block agree when they agree on every slab index. -/
theorem ext_slabs0 {α : Type} (f g : S1x4x1x256x32.Idx → α) (h : ∀ (d : Fin 4) (w : Fin 256) (l : Fin 32), f (ix5 0 d 0 w l) = g (ix5 0 d 0 w l)) :
    f = g := by
  funext j
  have j0 : (j 0).val < 1 := (j 0).isLt
  have j2 : (j 2).val < 1 := (j 2).isLt
  have e : j = ix5 (0 : Fin 1) (⟨(j 1).val, (j 1).isLt⟩ : Fin 4) (0 : Fin 1) (⟨(j 3).val, (j 3).isLt⟩ : Fin 256) (⟨(j 4).val, (j 4).isLt⟩ : Fin 32) := by
    funext a; apply Fin.ext
    match a with
    | ⟨0, _⟩ => show (j 0).val = 0; omega
    | ⟨1, _⟩ => rfl
    | ⟨2, _⟩ => show (j 2).val = 0; omega
    | ⟨3, _⟩ => rfl
    | ⟨4, _⟩ => rfl
  rw [e]; exact h _ _ _

/-! ## What a point writes back, the cover, the array after the region -/

/-- What point `t` writes back is block `t` of the step's output over the arrays as the region finds them. -/
theorem flushed0_eq (c : Dev nD) (t : Fin cfg0.N) :
    (dat0 (F := Ideal) V c).flushed 4 t
      = ((cfg0.win 4).blk t).view.read (Elt Ideal) (Cert.Spec.outK (V c main_v0) (V c main_v20) (V c main_arg2) (V c main_v19)) := by
  show (cfg0.win 4).cut (grid0.coords t) ((dat0 V c).after 4 t) = _
  rw [after0_4]
  refine ext_slabs0 _ _ fun d w l => ?_
  show out0_4 (iblk0 V c 0 t) (iblk0 V c 1 t) (iblk0 V c 2 t) (iblk0 V c 3 t) (ix5 0 d 0 w l)
    = Cert.Spec.outK (V c main_v0) (V c main_v20) (V c main_arg2) (V c main_v19) (((cfg0.win 4).blk t).view.emb (ix5 0 d 0 w l))
  rw [oblk0_emb]
  show _ = Cert.Spec.kern (V c main_v0) (Cert.Spec.eOfK (V c main_v20)) (V c main_arg2) (V c main_v19) d (row0 t) w l
  match d with
  | ⟨0, _⟩ =>
    refine (out0_4_slab0 _ _ _ _ w l).trans ?_
    exact kernG_eq_kern (V c main_v0) (V c main_v20) (V c main_arg2) (V c main_v19) _ _ _ _ 0 (row0 t)
      (iblk0_0_row V c t) (iblk0_1_row V c t) (iblk0_2_row V c t) (pwSlab0_0 V c t) w l
  | ⟨1, _⟩ =>
    refine (out0_4_slab1 _ _ _ _ w l).trans ?_
    exact kernG_eq_kern (V c main_v0) (V c main_v20) (V c main_arg2) (V c main_v19) _ _ _ _ 1 (row0 t)
      (iblk0_0_row V c t) (iblk0_1_row V c t) (iblk0_2_row V c t) (pwSlab0_1 V c t) w l
  | ⟨2, _⟩ =>
    refine (out0_4_slab2 _ _ _ _ w l).trans ?_
    exact kernG_eq_kern (V c main_v0) (V c main_v20) (V c main_arg2) (V c main_v19) _ _ _ _ 2 (row0 t)
      (iblk0_0_row V c t) (iblk0_1_row V c t) (iblk0_2_row V c t) (pwSlab0_2 V c t) w l
  | ⟨3, _⟩ =>
    refine (out0_4_slab3 _ _ _ _ w l).trans ?_
    exact kernG_eq_kern (V c main_v0) (V c main_v20) (V c main_arg2) (V c main_v19) _ _ _ _ 3 (row0 t)
      (iblk0_0_row V c t) (iblk0_1_row V c t) (iblk0_2_row V c t) (pwSlab0_3 V c t) w l

/-- An index of the output array is in point `t`'s block iff each coordinate is in the block's range on its axis. -/
theorem mem_oblk0 (t : Fin cfg0.N) (i : S1x4x128x256x32.Idx) :
    i ∈ ((cfg0.win 4).blk t).view.set ↔ ∀ a : Fin 5, win0_4.index t a * S1x4x1x256x32.size a ≤ (i a).val ∧ (i a).val < win0_4.index t a * S1x4x1x256x32.size a + S1x4x1x256x32.size a := by
  show i ∈ ((View.whole main_v21).slice (win0_4.rect t)).set ↔ _
  rw [View.set_slice_whole, Rect.mem_set_unit]
  exact Iff.rfl

/-- Row `h` of the output array is covered by point `h`. -/
theorem cover0_out (i : S1x4x128x256x32.Idx) :
    ∃ t : Fin cfg0.N, (cfg0.win 4).flush t = true ∧ i ∈ ((cfg0.win 4).blk t).view.set := by
  have i0 : (i 0).val < 1 := (i 0).isLt
  have i1 : (i 1).val < 4 := (i 1).isLt
  have i2 : (i 2).val < 128 := (i 2).isLt
  have i3 : (i 3).val < 256 := (i 3).isLt
  have i4 : (i 4).val < 32 := (i 4).isLt
  have hN : cfg0.N = 128 := N_0
  have ht : (i 2).val < cfg0.N := lt_of_lt_of_eq i2 hN.symm
  refine ⟨⟨(i 2).val, ht⟩, flush0_4 _, ?_⟩
  obtain ⟨h0, h1, h2, h3, h4⟩ := idx0_4 ⟨(i 2).val, ht⟩
  rw [mem_oblk0]
  intro a
  match a with
  | ⟨0, _⟩ => show win0_4.index _ (0 : Fin 5) * 1 ≤ (i 0).val ∧ (i 0).val < win0_4.index _ (0 : Fin 5) * 1 + 1; omega
  | ⟨1, _⟩ => show win0_4.index _ (1 : Fin 5) * 4 ≤ (i 1).val ∧ (i 1).val < win0_4.index _ (1 : Fin 5) * 4 + 4; omega
  | ⟨2, _⟩ =>
    show win0_4.index _ (2 : Fin 5) * 1 ≤ (i 2).val ∧ (i 2).val < win0_4.index _ (2 : Fin 5) * 1 + 1
    have h2' : win0_4.index ⟨(i 2).val, ht⟩ (2 : Fin 5) = (i 2).val := h2
    omega
  | ⟨3, _⟩ => show win0_4.index _ (3 : Fin 5) * 256 ≤ (i 3).val ∧ (i 3).val < win0_4.index _ (3 : Fin 5) * 256 + 256; omega
  | ⟨4, _⟩ => show win0_4.index _ (4 : Fin 5) * 32 ≤ (i 4).val ∧ (i 4).val < win0_4.index _ (4 : Fin 5) * 32 + 32; omega

/-- THE OUTPUT ARRAY after region 0: one min-sum step's messages, normalised at the sender, of the four input arrays
    as the region finds them. -/
theorem final0 (c : Dev nD) :
    (dat0 (F := Ideal) V c).arrAt 4 cfg0.N = Cert.Spec.outK (V c main_v0) (V c main_v20) (V c main_arg2) (V c main_v19) :=
  (dat0 (F := Ideal) V c).arrAt_eq_of_cover 4 (Cert.Spec.outK (V c main_v0) (V c main_v20) (V c main_arg2) (V c main_v19))
    (fun t _ => flushed0_eq V c t) (cover0_out)

end Cert.KernelIdeal.Body

end
-- ==== Proof.KI.Value1.lean ====
/- What region 1 leaves in its output array: at direction d, row h, pixel w and label l, direction d's message of
   one min-sum step normalised at the sender, over the four input arrays as the region finds them. The output block's
   slab d is the d-th store's payload, that payload is direction d's message of the loaded blocks, the blocks at grid
   point t are row t of the arrays, and the points' blocks cover the array. -/
import proofs.«134770_j15015205667393_2_alg».proof.Proof.KI.Region1
import proofs.«134770_j15015205667393_2_alg».proof.Proof.KI.Pay
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (min32 inf32 opp)

/-! ## The output block at an index: slab `d` of the second axis holds the `d`-th store's payload -/

theorem slabIdx1_0 (w : Fin 256) (l : Fin 32) : (ix5 0 0 0 w l : S1x4x1x256x32.Idx) = r1_7.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx1_1 (w : Fin 256) (l : Fin 32) : (ix5 0 1 0 w l : S1x4x1x256x32.Idx) = r1_8.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx1_2 (w : Fin 256) (l : Fin 32) : (ix5 0 2 0 w l : S1x4x1x256x32.Idx) = r1_9.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx1_3 (w : Fin 256) (l : Fin 32) : (ix5 0 3 0 w l : S1x4x1x256x32.Idx) = r1_10.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabOff1_2_3 (w : Fin 256) (l : Fin 32) : (ix5 0 2 0 w l : S1x4x1x256x32.Idx) ∉ r1_10.set := fun hm => by
  have h1 := (Rect.mem_set_unit.mp hm) (1 : Fin 5)
  change (3 : ℕ) ≤ 2 ∧ _ at h1
  omega

theorem slabOff1_1_3 (w : Fin 256) (l : Fin 32) : (ix5 0 1 0 w l : S1x4x1x256x32.Idx) ∉ r1_10.set := fun hm => by
  have h1 := (Rect.mem_set_unit.mp hm) (1 : Fin 5)
  change (3 : ℕ) ≤ 1 ∧ _ at h1
  omega

theorem slabOff1_1_2 (w : Fin 256) (l : Fin 32) : (ix5 0 1 0 w l : S1x4x1x256x32.Idx) ∉ r1_9.set := fun hm => by
  have h1 := (Rect.mem_set_unit.mp hm) (1 : Fin 5)
  change (2 : ℕ) ≤ 1 ∧ _ at h1
  omega

theorem slabOff1_0_3 (w : Fin 256) (l : Fin 32) : (ix5 0 0 0 w l : S1x4x1x256x32.Idx) ∉ r1_10.set := fun hm => by
  have h1 := (Rect.mem_set_unit.mp hm) (1 : Fin 5)
  change (3 : ℕ) ≤ 0 ∧ _ at h1
  omega

theorem slabOff1_0_2 (w : Fin 256) (l : Fin 32) : (ix5 0 0 0 w l : S1x4x1x256x32.Idx) ∉ r1_9.set := fun hm => by
  have h1 := (Rect.mem_set_unit.mp hm) (1 : Fin 5)
  change (2 : ℕ) ≤ 0 ∧ _ at h1
  omega

theorem slabOff1_0_1 (w : Fin 256) (l : Fin 32) : (ix5 0 0 0 w l : S1x4x1x256x32.Idx) ∉ r1_8.set := fun hm => by
  have h1 := (Rect.mem_set_unit.mp hm) (1 : Fin 5)
  change (1 : ℕ) ≤ 0 ∧ _ at h1
  omega

section Canon
variable {Val : EltTy → Type} [∀ e, Nonempty (Val e)]

theorem canon1_slab3 (p3 p2 p1 p0 : S1x1x1x256x32.Idx → Val .f32) (w : Fin 256) (l : Fin 32) :
    View.canon ([⟨r1_10, p3⟩, ⟨r1_9, p2⟩, ⟨r1_8, p1⟩, ⟨r1_7, p0⟩] : List (View.Piece Val S1x4x1x256x32 .f32)) (ix5 0 3 0 w l) = p3 (ix5 0 0 0 w l) :=
  ((congrArg (View.canon ([⟨r1_10, p3⟩, ⟨r1_9, p2⟩, ⟨r1_8, p1⟩, ⟨r1_7, p0⟩] : List (View.Piece Val S1x4x1x256x32 .f32))) (slabIdx1_3 w l)).trans
      (View.canon_cons_emb r1_10 p3 [⟨r1_9, p2⟩, ⟨r1_8, p1⟩, ⟨r1_7, p0⟩] (ix5 0 0 0 w l)))

theorem canon1_slab2 (p3 p2 p1 p0 : S1x1x1x256x32.Idx → Val .f32) (w : Fin 256) (l : Fin 32) :
    View.canon ([⟨r1_10, p3⟩, ⟨r1_9, p2⟩, ⟨r1_8, p1⟩, ⟨r1_7, p0⟩] : List (View.Piece Val S1x4x1x256x32 .f32)) (ix5 0 2 0 w l) = p2 (ix5 0 0 0 w l) :=
  ((View.canon_cons_of_not_mem (⟨r1_10, p3⟩ : View.Piece Val S1x4x1x256x32 .f32) [⟨r1_9, p2⟩, ⟨r1_8, p1⟩, ⟨r1_7, p0⟩] (slabOff1_2_3 w l)).trans
    ((congrArg (View.canon ([⟨r1_9, p2⟩, ⟨r1_8, p1⟩, ⟨r1_7, p0⟩] : List (View.Piece Val S1x4x1x256x32 .f32))) (slabIdx1_2 w l)).trans
      (View.canon_cons_emb r1_9 p2 [⟨r1_8, p1⟩, ⟨r1_7, p0⟩] (ix5 0 0 0 w l))))

theorem canon1_slab1 (p3 p2 p1 p0 : S1x1x1x256x32.Idx → Val .f32) (w : Fin 256) (l : Fin 32) :
    View.canon ([⟨r1_10, p3⟩, ⟨r1_9, p2⟩, ⟨r1_8, p1⟩, ⟨r1_7, p0⟩] : List (View.Piece Val S1x4x1x256x32 .f32)) (ix5 0 1 0 w l) = p1 (ix5 0 0 0 w l) :=
  ((View.canon_cons_of_not_mem (⟨r1_10, p3⟩ : View.Piece Val S1x4x1x256x32 .f32) [⟨r1_9, p2⟩, ⟨r1_8, p1⟩, ⟨r1_7, p0⟩] (slabOff1_1_3 w l)).trans
    ((View.canon_cons_of_not_mem (⟨r1_9, p2⟩ : View.Piece Val S1x4x1x256x32 .f32) [⟨r1_8, p1⟩, ⟨r1_7, p0⟩] (slabOff1_1_2 w l)).trans
    ((congrArg (View.canon ([⟨r1_8, p1⟩, ⟨r1_7, p0⟩] : List (View.Piece Val S1x4x1x256x32 .f32))) (slabIdx1_1 w l)).trans
      (View.canon_cons_emb r1_8 p1 [⟨r1_7, p0⟩] (ix5 0 0 0 w l)))))

theorem canon1_slab0 (p3 p2 p1 p0 : S1x1x1x256x32.Idx → Val .f32) (w : Fin 256) (l : Fin 32) :
    View.canon ([⟨r1_10, p3⟩, ⟨r1_9, p2⟩, ⟨r1_8, p1⟩, ⟨r1_7, p0⟩] : List (View.Piece Val S1x4x1x256x32 .f32)) (ix5 0 0 0 w l) = p0 (ix5 0 0 0 w l) :=
  ((View.canon_cons_of_not_mem (⟨r1_10, p3⟩ : View.Piece Val S1x4x1x256x32 .f32) [⟨r1_9, p2⟩, ⟨r1_8, p1⟩, ⟨r1_7, p0⟩] (slabOff1_0_3 w l)).trans
    ((View.canon_cons_of_not_mem (⟨r1_9, p2⟩ : View.Piece Val S1x4x1x256x32 .f32) [⟨r1_8, p1⟩, ⟨r1_7, p0⟩] (slabOff1_0_2 w l)).trans
    ((View.canon_cons_of_not_mem (⟨r1_8, p1⟩ : View.Piece Val S1x4x1x256x32 .f32) [⟨r1_7, p0⟩] (slabOff1_0_1 w l)).trans
    ((congrArg (View.canon ([⟨r1_7, p0⟩] : List (View.Piece Val S1x4x1x256x32 .f32))) (slabIdx1_0 w l)).trans
      (View.canon_cons_emb r1_7 p0 [] (ix5 0 0 0 w l))))))

end Canon

/-! ## Each store's payload is one direction's message of the loaded blocks -/
section Pay
variable {F : FTy → Type} [FloatOps F]

theorem pay1_slab0 (v0 : Vec F S1x1x256x32 .f32) (v2 : Vec F S1x1x4x256 .f32) (v4 : Vec F S1x4x1x256x32 .f32) (pw : Vec F S1x1x256x32x32 .f32) :
    k1_pay6 v0 v2 v4 pw = shapeCast S1x1x1x256x32 (slabOf (shapeCast S1x1x256x32 v0 shapeCasts_S1x1x256x32_S1x1x256x32) (k1_pay3 v2) (k1_pay4 v4) pw 0 slices_S1x4x1x256x32_o0_1_0_0_0_S1x1x1x256x32 slices_S1x1x4x256_o0_0_0_0_S1x1x1x256) shapeCasts_S1x1x256x32_S1x1x1x256x32 := rfl

theorem pay1_slab1 (v0 : Vec F S1x1x256x32 .f32) (v2 : Vec F S1x1x4x256 .f32) (v4 : Vec F S1x4x1x256x32 .f32) (pw : Vec F S1x1x256x32x32 .f32) :
    k1_pay8 (k1_pay3 v2) (k1_pay5 v0 v4) (k1_pay7 v4) pw = shapeCast S1x1x1x256x32 (slabOf (shapeCast S1x1x256x32 v0 shapeCasts_S1x1x256x32_S1x1x256x32) (k1_pay3 v2) (k1_pay4 v4) pw 1 slices_S1x4x1x256x32_o0_0_0_0_0_S1x1x1x256x32 slices_S1x1x4x256_o0_0_1_0_S1x1x1x256) shapeCasts_S1x1x256x32_S1x1x1x256x32 := rfl

theorem pay1_slab2 (v0 : Vec F S1x1x256x32 .f32) (v2 : Vec F S1x1x4x256 .f32) (v4 : Vec F S1x4x1x256x32 .f32) (pw : Vec F S1x1x256x32x32 .f32) :
    k1_pay1 (k1_pay9 (k1_pay3 v2) (k1_pay4 v4) (k1_pay5 v0 v4) pw) = shapeCast S1x1x1x256x32 (slabOf (shapeCast S1x1x256x32 v0 shapeCasts_S1x1x256x32_S1x1x256x32) (k1_pay3 v2) (k1_pay4 v4) pw 2 slices_S1x4x1x256x32_o0_3_0_0_0_S1x1x1x256x32 slices_S1x1x4x256_o0_0_2_0_S1x1x1x256) shapeCasts_S1x1x256x32_S1x1x1x256x32 := rfl

theorem pay1_slab3 (v0 : Vec F S1x1x256x32 .f32) (v2 : Vec F S1x1x4x256 .f32) (v4 : Vec F S1x4x1x256x32 .f32) (pw : Vec F S1x1x256x32x32 .f32) :
    k1_pay2 (k1_pay3 v2) (k1_pay4 v4) (k1_pay5 v0 v4) pw = shapeCast S1x1x1x256x32 (slabOf (shapeCast S1x1x256x32 v0 shapeCasts_S1x1x256x32_S1x1x256x32) (k1_pay3 v2) (k1_pay4 v4) pw 3 slices_S1x4x1x256x32_o0_2_0_0_0_S1x1x1x256x32 slices_S1x1x4x256_o0_0_3_0_S1x1x1x256) shapeCasts_S1x1x256x32_S1x1x1x256x32 := rfl

end Pay

variable (V : (c : Dev nD) → (b : Ref sig .tc) → Buf (Elt Ideal) ((c : Thread nD τ).loc b))

theorem hz4_1 : (![0, 0, 0, 0] : Fin 4 → Nat) = fun _ => 0 := funext fun a => by fin_cases a <;> rfl
theorem hz5_1 : (![0, 0, 0, 0, 0] : Fin 5 → Nat) = fun _ => 0 := funext fun a => by fin_cases a <;> rfl

/-- Slab 0 of the output block: direction 0's normalised message of the input blocks. -/
theorem out1_4_slab0 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out1_4 (F := Ideal) x0 x1 x2 x3 (ix5 0 0 0 w l) = kernG x0 x1 x2 (View.ld x3 r1_3) 0 w l := by
  have e0 : (shapeCast S1x1x256x32 (View.ld x0 r1_0) shapeCasts_S1x1x256x32_S1x1x256x32) = x0 := (shapeCast_self _ _).trans (View.ld_unit_zero hz4_1 _ x0)
  have e1 : (k1_pay3 (View.ld x1 r1_1)) = x1 := (shapeCast_self _ _).trans (View.ld_unit_zero hz4_1 _ x1)
  have e2 : (k1_pay4 (View.ld x2 r1_2)) = x2 := (shapeCast_self _ _).trans (View.ld_unit_zero hz5_1 _ x2)
  unfold out1_4
  refine (canon1_slab0 _ _ _ _ w l).trans ?_
  refine (congrFun (pay1_slab0 (View.ld x0 r1_0) (View.ld x1 r1_1) (View.ld x2 r1_2) (View.ld x3 r1_3)) (ix5 0 0 0 w l)).trans ?_
  refine (slabCast_apply _ w l).trans ?_
  refine (slabOf_apply _ _ _ _ 0 _ _ w l).trans ?_
  rw [e0, e1, e2]

/-- Slab 1 of the output block: direction 1's normalised message of the input blocks. -/
theorem out1_4_slab1 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out1_4 (F := Ideal) x0 x1 x2 x3 (ix5 0 1 0 w l) = kernG x0 x1 x2 (View.ld x3 r1_4) 1 w l := by
  have e0 : (shapeCast S1x1x256x32 (View.ld x0 r1_0) shapeCasts_S1x1x256x32_S1x1x256x32) = x0 := (shapeCast_self _ _).trans (View.ld_unit_zero hz4_1 _ x0)
  have e1 : (k1_pay3 (View.ld x1 r1_1)) = x1 := (shapeCast_self _ _).trans (View.ld_unit_zero hz4_1 _ x1)
  have e2 : (k1_pay4 (View.ld x2 r1_2)) = x2 := (shapeCast_self _ _).trans (View.ld_unit_zero hz5_1 _ x2)
  unfold out1_4
  refine (canon1_slab1 _ _ _ _ w l).trans ?_
  refine (congrFun (pay1_slab1 (View.ld x0 r1_0) (View.ld x1 r1_1) (View.ld x2 r1_2) (View.ld x3 r1_4)) (ix5 0 0 0 w l)).trans ?_
  refine (slabCast_apply _ w l).trans ?_
  refine (slabOf_apply _ _ _ _ 1 _ _ w l).trans ?_
  rw [e0, e1, e2]

/-- Slab 2 of the output block: direction 2's normalised message of the input blocks. -/
theorem out1_4_slab2 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out1_4 (F := Ideal) x0 x1 x2 x3 (ix5 0 2 0 w l) = kernG x0 x1 x2 (View.ld x3 r1_5) 2 w l := by
  have e0 : (shapeCast S1x1x256x32 (View.ld x0 r1_0) shapeCasts_S1x1x256x32_S1x1x256x32) = x0 := (shapeCast_self _ _).trans (View.ld_unit_zero hz4_1 _ x0)
  have e1 : (k1_pay3 (View.ld x1 r1_1)) = x1 := (shapeCast_self _ _).trans (View.ld_unit_zero hz4_1 _ x1)
  have e2 : (k1_pay4 (View.ld x2 r1_2)) = x2 := (shapeCast_self _ _).trans (View.ld_unit_zero hz5_1 _ x2)
  unfold out1_4
  refine (canon1_slab2 _ _ _ _ w l).trans ?_
  refine (congrFun (pay1_slab2 (View.ld x0 r1_0) (View.ld x1 r1_1) (View.ld x2 r1_2) (View.ld x3 r1_5)) (ix5 0 0 0 w l)).trans ?_
  refine (slabCast_apply _ w l).trans ?_
  refine (slabOf_apply _ _ _ _ 2 _ _ w l).trans ?_
  rw [e0, e1, e2]

/-- Slab 3 of the output block: direction 3's normalised message of the input blocks. -/
theorem out1_4_slab3 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out1_4 (F := Ideal) x0 x1 x2 x3 (ix5 0 3 0 w l) = kernG x0 x1 x2 (View.ld x3 r1_6) 3 w l := by
  have e0 : (shapeCast S1x1x256x32 (View.ld x0 r1_0) shapeCasts_S1x1x256x32_S1x1x256x32) = x0 := (shapeCast_self _ _).trans (View.ld_unit_zero hz4_1 _ x0)
  have e1 : (k1_pay3 (View.ld x1 r1_1)) = x1 := (shapeCast_self _ _).trans (View.ld_unit_zero hz4_1 _ x1)
  have e2 : (k1_pay4 (View.ld x2 r1_2)) = x2 := (shapeCast_self _ _).trans (View.ld_unit_zero hz5_1 _ x2)
  unfold out1_4
  refine (canon1_slab3 _ _ _ _ w l).trans ?_
  refine (congrFun (pay1_slab3 (View.ld x0 r1_0) (View.ld x1 r1_1) (View.ld x2 r1_2) (View.ld x3 r1_6)) (ix5 0 0 0 w l)).trans ?_
  refine (slabCast_apply _ w l).trans ?_
  refine (slabOf_apply _ _ _ _ 3 _ _ w l).trans ?_
  rw [e0, e1, e2]

/-! ## The blocks are rows of the arrays -/

/-- The printed index maps, decided over the grid: point `t` takes row `t` of every array. -/
theorem idx1_0 : ∀ t : Fin cfg1.N, win1_0.index t (0 : Fin 4) = 0 ∧ win1_0.index t (1 : Fin 4) = t.val ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = 0 ∧ win1_1.index t (1 : Fin 4) = t.val ∧ win1_1.index t (2 : Fin 4) = 0 ∧ win1_1.index t (3 : Fin 4) = 0 :=
  (by decide +kernel : ∀ t : Fin grid1.N, _)
theorem idx1_2 : ∀ t : Fin cfg1.N, win1_2.index t (0 : Fin 5) = 0 ∧ win1_2.index t (1 : Fin 5) = 0 ∧ win1_2.index t (2 : Fin 5) = t.val ∧ win1_2.index t (3 : Fin 5) = 0 ∧ win1_2.index t (4 : Fin 5) = 0 :=
  (by decide +kernel : ∀ t : Fin grid1.N, _)
theorem idx1_3 : ∀ t : Fin cfg1.N, win1_3.index t (0 : Fin 5) = 0 ∧ win1_3.index t (1 : Fin 5) = t.val ∧ win1_3.index t (2 : Fin 5) = 0 ∧ win1_3.index t (3 : Fin 5) = 0 ∧ win1_3.index t (4 : Fin 5) = 0 :=
  (by decide +kernel : ∀ t : Fin grid1.N, _)
theorem idx1_4 : ∀ t : Fin cfg1.N, win1_4.index t (0 : Fin 5) = 0 ∧ win1_4.index t (1 : Fin 5) = 0 ∧ win1_4.index t (2 : Fin 5) = t.val ∧ win1_4.index t (3 : Fin 5) = 0 ∧ win1_4.index t (4 : Fin 5) = 0 :=
  (by decide +kernel : ∀ t : Fin grid1.N, _)

/-- The row of the arrays that point `t` works on. -/
abbrev row1 (t : Fin cfg1.N) : Fin 128 := ⟨t.val, lt_of_lt_of_eq t.isLt (show cfg1.N = 128 from N_1)⟩

/-- The cost block at point `t` is row `t` of the cost. -/
theorem iblk1_0_row (c : Dev nD) (t : Fin cfg1.N) (w : Fin 256) (l : Fin 32) :
    (iblk1 V c 0 t : Vec Ideal S1x1x256x32 .f32) (ix4 0 0 w l) = (V c main_v0 : S1x128x256x32.Idx → EReal) (ix4 0 (row1 t) w l) := by
  obtain ⟨h0, h1, h2, h3⟩ := idx1_0 t
  unfold iblk1
  rw [View.read_apply]
  show V c main_v0 _ = V c main_v0 _
  refine congrArg (V c main_v0 : S1x128x256x32.Idx → EReal) ?_
  funext a; apply Fin.ext
  match a with
  | ⟨0, _⟩ => show win1_0.index t (0 : Fin 4) * 1 + 1 * 0 = 0; omega
  | ⟨1, _⟩ => show win1_0.index t (1 : Fin 4) * 1 + 1 * 0 = t.val; omega
  | ⟨2, _⟩ => show win1_0.index t (2 : Fin 4) * 256 + 1 * w.val = w.val; omega
  | ⟨3, _⟩ => show win1_0.index t (3 : Fin 4) * 32 + 1 * l.val = l.val; omega

/-- The edge-weight block at point `t` is row `t` of the edge weights. -/
theorem iblk1_1_row (c : Dev nD) (t : Fin cfg1.N) (d : Fin 4) (w : Fin 256) :
    (iblk1 V c 1 t : Vec Ideal S1x1x4x256 .f32) (ix4 0 0 d w) = (V c main_v20 : S1x128x4x256.Idx → EReal) (ix4 0 (row1 t) d w) := by
  obtain ⟨h0, h1, h2, h3⟩ := idx1_1 t
  unfold iblk1
  rw [View.read_apply]
  show V c main_v20 _ = V c main_v20 _
  refine congrArg (V c main_v20 : S1x128x4x256.Idx → EReal) ?_
  funext a; apply Fin.ext
  match a with
  | ⟨0, _⟩ => show win1_1.index t (0 : Fin 4) * 1 + 1 * 0 = 0; omega
  | ⟨1, _⟩ => show win1_1.index t (1 : Fin 4) * 1 + 1 * 0 = t.val; omega
  | ⟨2, _⟩ => show win1_1.index t (2 : Fin 4) * 4 + 1 * d.val = d.val; omega
  | ⟨3, _⟩ => show win1_1.index t (3 : Fin 4) * 256 + 1 * w.val = w.val; omega

/-- The message block at point `t` is row `t` of the messages. -/
theorem iblk1_2_row (c : Dev nD) (t : Fin cfg1.N) (d : Fin 4) (w : Fin 256) (l : Fin 32) :
    (iblk1 V c 2 t : Vec Ideal S1x4x1x256x32 .f32) (ix5 0 d 0 w l) = (V c main_v38 : S1x4x128x256x32.Idx → EReal) (ix5 0 d (row1 t) w l) := by
  obtain ⟨h0, h1, h2, h3, h4⟩ := idx1_2 t
  unfold iblk1
  rw [View.read_apply]
  show V c main_v38 _ = V c main_v38 _
  refine congrArg (V c main_v38 : S1x4x128x256x32.Idx → EReal) ?_
  funext a; apply Fin.ext
  match a with
  | ⟨0, _⟩ => show win1_2.index t (0 : Fin 5) * 1 + 1 * 0 = 0; omega
  | ⟨1, _⟩ => show win1_2.index t (1 : Fin 5) * 4 + 1 * d.val = d.val; omega
  | ⟨2, _⟩ => show win1_2.index t (2 : Fin 5) * 1 + 1 * 0 = t.val; omega
  | ⟨3, _⟩ => show win1_2.index t (3 : Fin 5) * 256 + 1 * w.val = w.val; omega
  | ⟨4, _⟩ => show win1_2.index t (4 : Fin 5) * 32 + 1 * l.val = l.val; omega

/-- The pairwise block at point `t` is row `t` of the pairwise table, at any index given by its coordinates. -/
theorem iblk1_3_row (c : Dev nD) (t : Fin cfg1.N) (i : S4x1x256x32x32.Idx) (d : Fin 4) (w : Fin 256) (l' l : Fin 32)
    (e0 : (i 0).val = d.val) (e1 : (i 1).val = 0) (e2 : (i 2).val = w.val) (e3 : (i 3).val = l'.val) (e4 : (i 4).val = l.val) :
    (iblk1 V c 3 t : Vec Ideal S4x1x256x32x32 .f32) i = (V c main_v19 : S4x128x256x32x32.Idx → EReal) (ix5 d (row1 t) w l' l) := by
  obtain ⟨h0, h1, h2, h3, h4⟩ := idx1_3 t
  unfold iblk1
  rw [View.read_apply]
  show V c main_v19 _ = V c main_v19 _
  refine congrArg (V c main_v19 : S4x128x256x32x32.Idx → EReal) ?_
  funext a; apply Fin.ext
  match a with
  | ⟨0, _⟩ => show win1_3.index t (0 : Fin 5) * 4 + 1 * (i 0).val = d.val; omega
  | ⟨1, _⟩ => show win1_3.index t (1 : Fin 5) * 1 + 1 * (i 1).val = t.val; omega
  | ⟨2, _⟩ => show win1_3.index t (2 : Fin 5) * 256 + 1 * (i 2).val = w.val; omega
  | ⟨3, _⟩ => show win1_3.index t (3 : Fin 5) * 32 + 1 * (i 3).val = l'.val; omega
  | ⟨4, _⟩ => show win1_3.index t (4 : Fin 5) * 32 + 1 * (i 4).val = l.val; omega

/-- Slab `d` of the pairwise block, as the body loads it. -/
theorem pwSlab1_0 (c : Dev nD) (t : Fin cfg1.N) (w : Fin 256) (l' l : Fin 32) :
    View.ld (iblk1 V c 3 t : Vec Ideal S4x1x256x32x32 .f32) r1_3 (ix5 0 0 w l' l) = (V c main_v19 : S4x128x256x32x32.Idx → EReal) (ix5 0 (row1 t) w l' l) :=
  iblk1_3_row V c t (r1_3.idx (ix5 0 0 w l' l)) 0 w l' l rfl rfl
    (by show 0 + 1 * w.val = w.val; omega) (by show 0 + 1 * l'.val = l'.val; omega) (by show 0 + 1 * l.val = l.val; omega)
theorem pwSlab1_1 (c : Dev nD) (t : Fin cfg1.N) (w : Fin 256) (l' l : Fin 32) :
    View.ld (iblk1 V c 3 t : Vec Ideal S4x1x256x32x32 .f32) r1_4 (ix5 0 0 w l' l) = (V c main_v19 : S4x128x256x32x32.Idx → EReal) (ix5 1 (row1 t) w l' l) :=
  iblk1_3_row V c t (r1_4.idx (ix5 0 0 w l' l)) 1 w l' l rfl rfl
    (by show 0 + 1 * w.val = w.val; omega) (by show 0 + 1 * l'.val = l'.val; omega) (by show 0 + 1 * l.val = l.val; omega)
theorem pwSlab1_2 (c : Dev nD) (t : Fin cfg1.N) (w : Fin 256) (l' l : Fin 32) :
    View.ld (iblk1 V c 3 t : Vec Ideal S4x1x256x32x32 .f32) r1_5 (ix5 0 0 w l' l) = (V c main_v19 : S4x128x256x32x32.Idx → EReal) (ix5 2 (row1 t) w l' l) :=
  iblk1_3_row V c t (r1_5.idx (ix5 0 0 w l' l)) 2 w l' l rfl rfl
    (by show 0 + 1 * w.val = w.val; omega) (by show 0 + 1 * l'.val = l'.val; omega) (by show 0 + 1 * l.val = l.val; omega)
theorem pwSlab1_3 (c : Dev nD) (t : Fin cfg1.N) (w : Fin 256) (l' l : Fin 32) :
    View.ld (iblk1 V c 3 t : Vec Ideal S4x1x256x32x32 .f32) r1_6 (ix5 0 0 w l' l) = (V c main_v19 : S4x128x256x32x32.Idx → EReal) (ix5 3 (row1 t) w l' l) :=
  iblk1_3_row V c t (r1_6.idx (ix5 0 0 w l' l)) 3 w l' l rfl rfl
    (by show 0 + 1 * w.val = w.val; omega) (by show 0 + 1 * l'.val = l'.val; omega) (by show 0 + 1 * l.val = l.val; omega)

/-- The output block's index `(0, d, 0, w, l)` at point `t` is the array's `(0, d, t, w, l)`. -/
theorem oblk1_emb (t : Fin cfg1.N) (d : Fin 4) (w : Fin 256) (l : Fin 32) :
    ((cfg1.win 4).blk t).view.emb (ix5 0 d 0 w l) = (ix5 0 d (row1 t) w l : S1x4x128x256x32.Idx) := by
  obtain ⟨h0, h1, h2, h3, h4⟩ := idx1_4 t
  funext a; apply Fin.ext
  match a with
  | ⟨0, _⟩ => show win1_4.index t (0 : Fin 5) * 1 + 1 * 0 = 0; omega
  | ⟨1, _⟩ => show win1_4.index t (1 : Fin 5) * 4 + 1 * d.val = d.val; omega
  | ⟨2, _⟩ => show win1_4.index t (2 : Fin 5) * 1 + 1 * 0 = t.val; omega
  | ⟨3, _⟩ => show win1_4.index t (3 : Fin 5) * 256 + 1 * w.val = w.val; omega
  | ⟨4, _⟩ => show win1_4.index t (4 : Fin 5) * 32 + 1 * l.val = l.val; omega

/-- Two functions on the output block agree when they agree on every slab index. -/
theorem ext_slabs1 {α : Type} (f g : S1x4x1x256x32.Idx → α) (h : ∀ (d : Fin 4) (w : Fin 256) (l : Fin 32), f (ix5 0 d 0 w l) = g (ix5 0 d 0 w l)) :
    f = g := by
  funext j
  have j0 : (j 0).val < 1 := (j 0).isLt
  have j2 : (j 2).val < 1 := (j 2).isLt
  have e : j = ix5 (0 : Fin 1) (⟨(j 1).val, (j 1).isLt⟩ : Fin 4) (0 : Fin 1) (⟨(j 3).val, (j 3).isLt⟩ : Fin 256) (⟨(j 4).val, (j 4).isLt⟩ : Fin 32) := by
    funext a; apply Fin.ext
    match a with
    | ⟨0, _⟩ => show (j 0).val = 0; omega
    | ⟨1, _⟩ => rfl
    | ⟨2, _⟩ => show (j 2).val = 0; omega
    | ⟨3, _⟩ => rfl
    | ⟨4, _⟩ => rfl
  rw [e]; exact h _ _ _

/-! ## What a point writes back, the cover, the array after the region -/

/-- What point `t` writes back is block `t` of the step's output over the arrays as the region finds them. -/
theorem flushed1_eq (c : Dev nD) (t : Fin cfg1.N) :
    (dat1 (F := Ideal) V c).flushed 4 t
      = ((cfg1.win 4).blk t).view.read (Elt Ideal) (Cert.Spec.outK (V c main_v0) (V c main_v20) (V c main_v38) (V c main_v19)) := by
  show (cfg1.win 4).cut (grid1.coords t) ((dat1 V c).after 4 t) = _
  rw [after1_4]
  refine ext_slabs1 _ _ fun d w l => ?_
  show out1_4 (iblk1 V c 0 t) (iblk1 V c 1 t) (iblk1 V c 2 t) (iblk1 V c 3 t) (ix5 0 d 0 w l)
    = Cert.Spec.outK (V c main_v0) (V c main_v20) (V c main_v38) (V c main_v19) (((cfg1.win 4).blk t).view.emb (ix5 0 d 0 w l))
  rw [oblk1_emb]
  show _ = Cert.Spec.kern (V c main_v0) (Cert.Spec.eOfK (V c main_v20)) (V c main_v38) (V c main_v19) d (row1 t) w l
  match d with
  | ⟨0, _⟩ =>
    refine (out1_4_slab0 _ _ _ _ w l).trans ?_
    exact kernG_eq_kern (V c main_v0) (V c main_v20) (V c main_v38) (V c main_v19) _ _ _ _ 0 (row1 t)
      (iblk1_0_row V c t) (iblk1_1_row V c t) (iblk1_2_row V c t) (pwSlab1_0 V c t) w l
  | ⟨1, _⟩ =>
    refine (out1_4_slab1 _ _ _ _ w l).trans ?_
    exact kernG_eq_kern (V c main_v0) (V c main_v20) (V c main_v38) (V c main_v19) _ _ _ _ 1 (row1 t)
      (iblk1_0_row V c t) (iblk1_1_row V c t) (iblk1_2_row V c t) (pwSlab1_1 V c t) w l
  | ⟨2, _⟩ =>
    refine (out1_4_slab2 _ _ _ _ w l).trans ?_
    exact kernG_eq_kern (V c main_v0) (V c main_v20) (V c main_v38) (V c main_v19) _ _ _ _ 2 (row1 t)
      (iblk1_0_row V c t) (iblk1_1_row V c t) (iblk1_2_row V c t) (pwSlab1_2 V c t) w l
  | ⟨3, _⟩ =>
    refine (out1_4_slab3 _ _ _ _ w l).trans ?_
    exact kernG_eq_kern (V c main_v0) (V c main_v20) (V c main_v38) (V c main_v19) _ _ _ _ 3 (row1 t)
      (iblk1_0_row V c t) (iblk1_1_row V c t) (iblk1_2_row V c t) (pwSlab1_3 V c t) w l

/-- An index of the output array is in point `t`'s block iff each coordinate is in the block's range on its axis. -/
theorem mem_oblk1 (t : Fin cfg1.N) (i : S1x4x128x256x32.Idx) :
    i ∈ ((cfg1.win 4).blk t).view.set ↔ ∀ a : Fin 5, win1_4.index t a * S1x4x1x256x32.size a ≤ (i a).val ∧ (i a).val < win1_4.index t a * S1x4x1x256x32.size a + S1x4x1x256x32.size a := by
  show i ∈ ((View.whole main_v39).slice (win1_4.rect t)).set ↔ _
  rw [View.set_slice_whole, Rect.mem_set_unit]
  exact Iff.rfl

/-- Row `h` of the output array is covered by point `h`. -/
theorem cover1_out (i : S1x4x128x256x32.Idx) :
    ∃ t : Fin cfg1.N, (cfg1.win 4).flush t = true ∧ i ∈ ((cfg1.win 4).blk t).view.set := by
  have i0 : (i 0).val < 1 := (i 0).isLt
  have i1 : (i 1).val < 4 := (i 1).isLt
  have i2 : (i 2).val < 128 := (i 2).isLt
  have i3 : (i 3).val < 256 := (i 3).isLt
  have i4 : (i 4).val < 32 := (i 4).isLt
  have hN : cfg1.N = 128 := N_1
  have ht : (i 2).val < cfg1.N := lt_of_lt_of_eq i2 hN.symm
  refine ⟨⟨(i 2).val, ht⟩, flush1_4 _, ?_⟩
  obtain ⟨h0, h1, h2, h3, h4⟩ := idx1_4 ⟨(i 2).val, ht⟩
  rw [mem_oblk1]
  intro a
  match a with
  | ⟨0, _⟩ => show win1_4.index _ (0 : Fin 5) * 1 ≤ (i 0).val ∧ (i 0).val < win1_4.index _ (0 : Fin 5) * 1 + 1; omega
  | ⟨1, _⟩ => show win1_4.index _ (1 : Fin 5) * 4 ≤ (i 1).val ∧ (i 1).val < win1_4.index _ (1 : Fin 5) * 4 + 4; omega
  | ⟨2, _⟩ =>
    show win1_4.index _ (2 : Fin 5) * 1 ≤ (i 2).val ∧ (i 2).val < win1_4.index _ (2 : Fin 5) * 1 + 1
    have h2' : win1_4.index ⟨(i 2).val, ht⟩ (2 : Fin 5) = (i 2).val := h2
    omega
  | ⟨3, _⟩ => show win1_4.index _ (3 : Fin 5) * 256 ≤ (i 3).val ∧ (i 3).val < win1_4.index _ (3 : Fin 5) * 256 + 256; omega
  | ⟨4, _⟩ => show win1_4.index _ (4 : Fin 5) * 32 ≤ (i 4).val ∧ (i 4).val < win1_4.index _ (4 : Fin 5) * 32 + 32; omega

/-- THE OUTPUT ARRAY after region 1: one min-sum step's messages, normalised at the sender, of the four input arrays
    as the region finds them. -/
theorem final1 (c : Dev nD) :
    (dat1 (F := Ideal) V c).arrAt 4 cfg1.N = Cert.Spec.outK (V c main_v0) (V c main_v20) (V c main_v38) (V c main_v19) :=
  (dat1 (F := Ideal) V c).arrAt_eq_of_cover 4 (Cert.Spec.outK (V c main_v0) (V c main_v20) (V c main_v38) (V c main_v19))
    (fun t _ => flushed1_eq V c t) (cover1_out)

end Cert.KernelIdeal.Body

end
-- ==== Proof.KI.Value2.lean ====
/- What region 2 leaves in its output array: at direction d, row h, pixel w and label l, direction d's message of
   one min-sum step normalised at the sender, over the four input arrays as the region finds them. The output block's
   slab d is the d-th store's payload, that payload is direction d's message of the loaded blocks, the blocks at grid
   point t are row t of the arrays, and the points' blocks cover the array. -/
import proofs.«134770_j15015205667393_2_alg».proof.Proof.KI.Region2
import proofs.«134770_j15015205667393_2_alg».proof.Proof.KI.Pay
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (min32 inf32 opp)

/-! ## The output block at an index: slab `d` of the second axis holds the `d`-th store's payload -/

theorem slabIdx2_0 (w : Fin 256) (l : Fin 32) : (ix5 0 0 0 w l : S1x4x1x256x32.Idx) = r2_7.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx2_1 (w : Fin 256) (l : Fin 32) : (ix5 0 1 0 w l : S1x4x1x256x32.Idx) = r2_8.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx2_2 (w : Fin 256) (l : Fin 32) : (ix5 0 2 0 w l : S1x4x1x256x32.Idx) = r2_9.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabIdx2_3 (w : Fin 256) (l : Fin 32) : (ix5 0 3 0 w l : S1x4x1x256x32.Idx) = r2_10.emb (ix5 0 0 0 w l) := by
  funext a; apply Fin.ext
  match a with
  | ⟨0, _⟩ => rfl
  | ⟨1, _⟩ => rfl
  | ⟨2, _⟩ => rfl
  | ⟨3, _⟩ => show w.val = 0 + 1 * w.val; omega
  | ⟨4, _⟩ => show l.val = 0 + 1 * l.val; omega

theorem slabOff2_2_3 (w : Fin 256) (l : Fin 32) : (ix5 0 2 0 w l : S1x4x1x256x32.Idx) ∉ r2_10.set := fun hm => by
  have h1 := (Rect.mem_set_unit.mp hm) (1 : Fin 5)
  change (3 : ℕ) ≤ 2 ∧ _ at h1
  omega

theorem slabOff2_1_3 (w : Fin 256) (l : Fin 32) : (ix5 0 1 0 w l : S1x4x1x256x32.Idx) ∉ r2_10.set := fun hm => by
  have h1 := (Rect.mem_set_unit.mp hm) (1 : Fin 5)
  change (3 : ℕ) ≤ 1 ∧ _ at h1
  omega

theorem slabOff2_1_2 (w : Fin 256) (l : Fin 32) : (ix5 0 1 0 w l : S1x4x1x256x32.Idx) ∉ r2_9.set := fun hm => by
  have h1 := (Rect.mem_set_unit.mp hm) (1 : Fin 5)
  change (2 : ℕ) ≤ 1 ∧ _ at h1
  omega

theorem slabOff2_0_3 (w : Fin 256) (l : Fin 32) : (ix5 0 0 0 w l : S1x4x1x256x32.Idx) ∉ r2_10.set := fun hm => by
  have h1 := (Rect.mem_set_unit.mp hm) (1 : Fin 5)
  change (3 : ℕ) ≤ 0 ∧ _ at h1
  omega

theorem slabOff2_0_2 (w : Fin 256) (l : Fin 32) : (ix5 0 0 0 w l : S1x4x1x256x32.Idx) ∉ r2_9.set := fun hm => by
  have h1 := (Rect.mem_set_unit.mp hm) (1 : Fin 5)
  change (2 : ℕ) ≤ 0 ∧ _ at h1
  omega

theorem slabOff2_0_1 (w : Fin 256) (l : Fin 32) : (ix5 0 0 0 w l : S1x4x1x256x32.Idx) ∉ r2_8.set := fun hm => by
  have h1 := (Rect.mem_set_unit.mp hm) (1 : Fin 5)
  change (1 : ℕ) ≤ 0 ∧ _ at h1
  omega

section Canon
variable {Val : EltTy → Type} [∀ e, Nonempty (Val e)]

theorem canon2_slab3 (p3 p2 p1 p0 : S1x1x1x256x32.Idx → Val .f32) (w : Fin 256) (l : Fin 32) :
    View.canon ([⟨r2_10, p3⟩, ⟨r2_9, p2⟩, ⟨r2_8, p1⟩, ⟨r2_7, p0⟩] : List (View.Piece Val S1x4x1x256x32 .f32)) (ix5 0 3 0 w l) = p3 (ix5 0 0 0 w l) :=
  ((congrArg (View.canon ([⟨r2_10, p3⟩, ⟨r2_9, p2⟩, ⟨r2_8, p1⟩, ⟨r2_7, p0⟩] : List (View.Piece Val S1x4x1x256x32 .f32))) (slabIdx2_3 w l)).trans
      (View.canon_cons_emb r2_10 p3 [⟨r2_9, p2⟩, ⟨r2_8, p1⟩, ⟨r2_7, p0⟩] (ix5 0 0 0 w l)))

theorem canon2_slab2 (p3 p2 p1 p0 : S1x1x1x256x32.Idx → Val .f32) (w : Fin 256) (l : Fin 32) :
    View.canon ([⟨r2_10, p3⟩, ⟨r2_9, p2⟩, ⟨r2_8, p1⟩, ⟨r2_7, p0⟩] : List (View.Piece Val S1x4x1x256x32 .f32)) (ix5 0 2 0 w l) = p2 (ix5 0 0 0 w l) :=
  ((View.canon_cons_of_not_mem (⟨r2_10, p3⟩ : View.Piece Val S1x4x1x256x32 .f32) [⟨r2_9, p2⟩, ⟨r2_8, p1⟩, ⟨r2_7, p0⟩] (slabOff2_2_3 w l)).trans
    ((congrArg (View.canon ([⟨r2_9, p2⟩, ⟨r2_8, p1⟩, ⟨r2_7, p0⟩] : List (View.Piece Val S1x4x1x256x32 .f32))) (slabIdx2_2 w l)).trans
      (View.canon_cons_emb r2_9 p2 [⟨r2_8, p1⟩, ⟨r2_7, p0⟩] (ix5 0 0 0 w l))))

theorem canon2_slab1 (p3 p2 p1 p0 : S1x1x1x256x32.Idx → Val .f32) (w : Fin 256) (l : Fin 32) :
    View.canon ([⟨r2_10, p3⟩, ⟨r2_9, p2⟩, ⟨r2_8, p1⟩, ⟨r2_7, p0⟩] : List (View.Piece Val S1x4x1x256x32 .f32)) (ix5 0 1 0 w l) = p1 (ix5 0 0 0 w l) :=
  ((View.canon_cons_of_not_mem (⟨r2_10, p3⟩ : View.Piece Val S1x4x1x256x32 .f32) [⟨r2_9, p2⟩, ⟨r2_8, p1⟩, ⟨r2_7, p0⟩] (slabOff2_1_3 w l)).trans
    ((View.canon_cons_of_not_mem (⟨r2_9, p2⟩ : View.Piece Val S1x4x1x256x32 .f32) [⟨r2_8, p1⟩, ⟨r2_7, p0⟩] (slabOff2_1_2 w l)).trans
    ((congrArg (View.canon ([⟨r2_8, p1⟩, ⟨r2_7, p0⟩] : List (View.Piece Val S1x4x1x256x32 .f32))) (slabIdx2_1 w l)).trans
      (View.canon_cons_emb r2_8 p1 [⟨r2_7, p0⟩] (ix5 0 0 0 w l)))))

theorem canon2_slab0 (p3 p2 p1 p0 : S1x1x1x256x32.Idx → Val .f32) (w : Fin 256) (l : Fin 32) :
    View.canon ([⟨r2_10, p3⟩, ⟨r2_9, p2⟩, ⟨r2_8, p1⟩, ⟨r2_7, p0⟩] : List (View.Piece Val S1x4x1x256x32 .f32)) (ix5 0 0 0 w l) = p0 (ix5 0 0 0 w l) :=
  ((View.canon_cons_of_not_mem (⟨r2_10, p3⟩ : View.Piece Val S1x4x1x256x32 .f32) [⟨r2_9, p2⟩, ⟨r2_8, p1⟩, ⟨r2_7, p0⟩] (slabOff2_0_3 w l)).trans
    ((View.canon_cons_of_not_mem (⟨r2_9, p2⟩ : View.Piece Val S1x4x1x256x32 .f32) [⟨r2_8, p1⟩, ⟨r2_7, p0⟩] (slabOff2_0_2 w l)).trans
    ((View.canon_cons_of_not_mem (⟨r2_8, p1⟩ : View.Piece Val S1x4x1x256x32 .f32) [⟨r2_7, p0⟩] (slabOff2_0_1 w l)).trans
    ((congrArg (View.canon ([⟨r2_7, p0⟩] : List (View.Piece Val S1x4x1x256x32 .f32))) (slabIdx2_0 w l)).trans
      (View.canon_cons_emb r2_7 p0 [] (ix5 0 0 0 w l))))))

end Canon

/-! ## Each store's payload is one direction's message of the loaded blocks -/
section Pay
variable {F : FTy → Type} [FloatOps F]

theorem pay2_slab0 (v0 : Vec F S1x1x256x32 .f32) (v2 : Vec F S1x1x4x256 .f32) (v4 : Vec F S1x4x1x256x32 .f32) (pw : Vec F S1x1x256x32x32 .f32) :
    k2_pay6 v0 v2 v4 pw = shapeCast S1x1x1x256x32 (slabOf (shapeCast S1x1x256x32 v0 shapeCasts_S1x1x256x32_S1x1x256x32) (k2_pay3 v2) (k2_pay4 v4) pw 0 slices_S1x4x1x256x32_o0_1_0_0_0_S1x1x1x256x32 slices_S1x1x4x256_o0_0_0_0_S1x1x1x256) shapeCasts_S1x1x256x32_S1x1x1x256x32 := rfl

theorem pay2_slab1 (v0 : Vec F S1x1x256x32 .f32) (v2 : Vec F S1x1x4x256 .f32) (v4 : Vec F S1x4x1x256x32 .f32) (pw : Vec F S1x1x256x32x32 .f32) :
    k2_pay8 (k2_pay3 v2) (k2_pay5 v0 v4) (k2_pay7 v4) pw = shapeCast S1x1x1x256x32 (slabOf (shapeCast S1x1x256x32 v0 shapeCasts_S1x1x256x32_S1x1x256x32) (k2_pay3 v2) (k2_pay4 v4) pw 1 slices_S1x4x1x256x32_o0_0_0_0_0_S1x1x1x256x32 slices_S1x1x4x256_o0_0_1_0_S1x1x1x256) shapeCasts_S1x1x256x32_S1x1x1x256x32 := rfl

theorem pay2_slab2 (v0 : Vec F S1x1x256x32 .f32) (v2 : Vec F S1x1x4x256 .f32) (v4 : Vec F S1x4x1x256x32 .f32) (pw : Vec F S1x1x256x32x32 .f32) :
    k2_pay1 (k2_pay9 (k2_pay3 v2) (k2_pay4 v4) (k2_pay5 v0 v4) pw) = shapeCast S1x1x1x256x32 (slabOf (shapeCast S1x1x256x32 v0 shapeCasts_S1x1x256x32_S1x1x256x32) (k2_pay3 v2) (k2_pay4 v4) pw 2 slices_S1x4x1x256x32_o0_3_0_0_0_S1x1x1x256x32 slices_S1x1x4x256_o0_0_2_0_S1x1x1x256) shapeCasts_S1x1x256x32_S1x1x1x256x32 := rfl

theorem pay2_slab3 (v0 : Vec F S1x1x256x32 .f32) (v2 : Vec F S1x1x4x256 .f32) (v4 : Vec F S1x4x1x256x32 .f32) (pw : Vec F S1x1x256x32x32 .f32) :
    k2_pay2 (k2_pay3 v2) (k2_pay4 v4) (k2_pay5 v0 v4) pw = shapeCast S1x1x1x256x32 (slabOf (shapeCast S1x1x256x32 v0 shapeCasts_S1x1x256x32_S1x1x256x32) (k2_pay3 v2) (k2_pay4 v4) pw 3 slices_S1x4x1x256x32_o0_2_0_0_0_S1x1x1x256x32 slices_S1x1x4x256_o0_0_3_0_S1x1x1x256) shapeCasts_S1x1x256x32_S1x1x1x256x32 := rfl

end Pay

variable (V : (c : Dev nD) → (b : Ref sig .tc) → Buf (Elt Ideal) ((c : Thread nD τ).loc b))

theorem hz4_2 : (![0, 0, 0, 0] : Fin 4 → Nat) = fun _ => 0 := funext fun a => by fin_cases a <;> rfl
theorem hz5_2 : (![0, 0, 0, 0, 0] : Fin 5 → Nat) = fun _ => 0 := funext fun a => by fin_cases a <;> rfl

/-- Slab 0 of the output block: direction 0's normalised message of the input blocks. -/
theorem out2_4_slab0 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out2_4 (F := Ideal) x0 x1 x2 x3 (ix5 0 0 0 w l) = kernG x0 x1 x2 (View.ld x3 r2_3) 0 w l := by
  have e0 : (shapeCast S1x1x256x32 (View.ld x0 r2_0) shapeCasts_S1x1x256x32_S1x1x256x32) = x0 := (shapeCast_self _ _).trans (View.ld_unit_zero hz4_2 _ x0)
  have e1 : (k2_pay3 (View.ld x1 r2_1)) = x1 := (shapeCast_self _ _).trans (View.ld_unit_zero hz4_2 _ x1)
  have e2 : (k2_pay4 (View.ld x2 r2_2)) = x2 := (shapeCast_self _ _).trans (View.ld_unit_zero hz5_2 _ x2)
  unfold out2_4
  refine (canon2_slab0 _ _ _ _ w l).trans ?_
  refine (congrFun (pay2_slab0 (View.ld x0 r2_0) (View.ld x1 r2_1) (View.ld x2 r2_2) (View.ld x3 r2_3)) (ix5 0 0 0 w l)).trans ?_
  refine (slabCast_apply _ w l).trans ?_
  refine (slabOf_apply _ _ _ _ 0 _ _ w l).trans ?_
  rw [e0, e1, e2]

/-- Slab 1 of the output block: direction 1's normalised message of the input blocks. -/
theorem out2_4_slab1 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out2_4 (F := Ideal) x0 x1 x2 x3 (ix5 0 1 0 w l) = kernG x0 x1 x2 (View.ld x3 r2_4) 1 w l := by
  have e0 : (shapeCast S1x1x256x32 (View.ld x0 r2_0) shapeCasts_S1x1x256x32_S1x1x256x32) = x0 := (shapeCast_self _ _).trans (View.ld_unit_zero hz4_2 _ x0)
  have e1 : (k2_pay3 (View.ld x1 r2_1)) = x1 := (shapeCast_self _ _).trans (View.ld_unit_zero hz4_2 _ x1)
  have e2 : (k2_pay4 (View.ld x2 r2_2)) = x2 := (shapeCast_self _ _).trans (View.ld_unit_zero hz5_2 _ x2)
  unfold out2_4
  refine (canon2_slab1 _ _ _ _ w l).trans ?_
  refine (congrFun (pay2_slab1 (View.ld x0 r2_0) (View.ld x1 r2_1) (View.ld x2 r2_2) (View.ld x3 r2_4)) (ix5 0 0 0 w l)).trans ?_
  refine (slabCast_apply _ w l).trans ?_
  refine (slabOf_apply _ _ _ _ 1 _ _ w l).trans ?_
  rw [e0, e1, e2]

/-- Slab 2 of the output block: direction 2's normalised message of the input blocks. -/
theorem out2_4_slab2 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out2_4 (F := Ideal) x0 x1 x2 x3 (ix5 0 2 0 w l) = kernG x0 x1 x2 (View.ld x3 r2_5) 2 w l := by
  have e0 : (shapeCast S1x1x256x32 (View.ld x0 r2_0) shapeCasts_S1x1x256x32_S1x1x256x32) = x0 := (shapeCast_self _ _).trans (View.ld_unit_zero hz4_2 _ x0)
  have e1 : (k2_pay3 (View.ld x1 r2_1)) = x1 := (shapeCast_self _ _).trans (View.ld_unit_zero hz4_2 _ x1)
  have e2 : (k2_pay4 (View.ld x2 r2_2)) = x2 := (shapeCast_self _ _).trans (View.ld_unit_zero hz5_2 _ x2)
  unfold out2_4
  refine (canon2_slab2 _ _ _ _ w l).trans ?_
  refine (congrFun (pay2_slab2 (View.ld x0 r2_0) (View.ld x1 r2_1) (View.ld x2 r2_2) (View.ld x3 r2_5)) (ix5 0 0 0 w l)).trans ?_
  refine (slabCast_apply _ w l).trans ?_
  refine (slabOf_apply _ _ _ _ 2 _ _ w l).trans ?_
  rw [e0, e1, e2]

/-- Slab 3 of the output block: direction 3's normalised message of the input blocks. -/
theorem out2_4_slab3 (x0 : Vec Ideal S1x1x256x32 .f32) (x1 : Vec Ideal S1x1x4x256 .f32) (x2 : Vec Ideal S1x4x1x256x32 .f32) (x3 : Vec Ideal S4x1x256x32x32 .f32)
    (w : Fin 256) (l : Fin 32) :
    out2_4 (F := Ideal) x0 x1 x2 x3 (ix5 0 3 0 w l) = kernG x0 x1 x2 (View.ld x3 r2_6) 3 w l := by
  have e0 : (shapeCast S1x1x256x32 (View.ld x0 r2_0) shapeCasts_S1x1x256x32_S1x1x256x32) = x0 := (shapeCast_self _ _).trans (View.ld_unit_zero hz4_2 _ x0)
  have e1 : (k2_pay3 (View.ld x1 r2_1)) = x1 := (shapeCast_self _ _).trans (View.ld_unit_zero hz4_2 _ x1)
  have e2 : (k2_pay4 (View.ld x2 r2_2)) = x2 := (shapeCast_self _ _).trans (View.ld_unit_zero hz5_2 _ x2)
  unfold out2_4
  refine (canon2_slab3 _ _ _ _ w l).trans ?_
  refine (congrFun (pay2_slab3 (View.ld x0 r2_0) (View.ld x1 r2_1) (View.ld x2 r2_2) (View.ld x3 r2_6)) (ix5 0 0 0 w l)).trans ?_
  refine (slabCast_apply _ w l).trans ?_
  refine (slabOf_apply _ _ _ _ 3 _ _ w l).trans ?_
  rw [e0, e1, e2]

/-! ## The blocks are rows of the arrays -/

/-- The printed index maps, decided over the grid: point `t` takes row `t` of every array. -/
theorem idx2_0 : ∀ t : Fin cfg2.N, win2_0.index t (0 : Fin 4) = 0 ∧ win2_0.index t (1 : Fin 4) = t.val ∧ win2_0.index t (2 : Fin 4) = 0 ∧ win2_0.index t (3 : Fin 4) = 0 :=
  (by decide +kernel : ∀ t : Fin grid2.N, _)
theorem idx2_1 : ∀ t : Fin cfg2.N, win2_1.index t (0 : Fin 4) = 0 ∧ win2_1.index t (1 : Fin 4) = t.val ∧ win2_1.index t (2 : Fin 4) = 0 ∧ win2_1.index t (3 : Fin 4) = 0 :=
  (by decide +kernel : ∀ t : Fin grid2.N, _)
theorem idx2_2 : ∀ t : Fin cfg2.N, win2_2.index t (0 : Fin 5) = 0 ∧ win2_2.index t (1 : Fin 5) = 0 ∧ win2_2.index t (2 : Fin 5) = t.val ∧ win2_2.index t (3 : Fin 5) = 0 ∧ win2_2.index t (4 : Fin 5) = 0 :=
  (by decide +kernel : ∀ t : Fin grid2.N, _)
theorem idx2_3 : ∀ t : Fin cfg2.N, win2_3.index t (0 : Fin 5) = 0 ∧ win2_3.index t (1 : Fin 5) = t.val ∧ win2_3.index t (2 : Fin 5) = 0 ∧ win2_3.index t (3 : Fin 5) = 0 ∧ win2_3.index t (4 : Fin 5) = 0 :=
  (by decide +kernel : ∀ t : Fin grid2.N, _)
theorem idx2_4 : ∀ t : Fin cfg2.N, win2_4.index t (0 : Fin 5) = 0 ∧ win2_4.index t (1 : Fin 5) = 0 ∧ win2_4.index t (2 : Fin 5) = t.val ∧ win2_4.index t (3 : Fin 5) = 0 ∧ win2_4.index t (4 : Fin 5) = 0 :=
  (by decide +kernel : ∀ t : Fin grid2.N, _)

/-- The row of the arrays that point `t` works on. -/
abbrev row2 (t : Fin cfg2.N) : Fin 128 := ⟨t.val, lt_of_lt_of_eq t.isLt (show cfg2.N = 128 from N_2)⟩

/-- The cost block at point `t` is row `t` of the cost. -/
theorem iblk2_0_row (c : Dev nD) (t : Fin cfg2.N) (w : Fin 256) (l : Fin 32) :
    (iblk2 V c 0 t : Vec Ideal S1x1x256x32 .f32) (ix4 0 0 w l) = (V c main_v0 : S1x128x256x32.Idx → EReal) (ix4 0 (row2 t) w l) := by
  obtain ⟨h0, h1, h2, h3⟩ := idx2_0 t
  unfold iblk2
  rw [View.read_apply]
  show V c main_v0 _ = V c main_v0 _
  refine congrArg (V c main_v0 : S1x128x256x32.Idx → EReal) ?_
  funext a; apply Fin.ext
  match a with
  | ⟨0, _⟩ => show win2_0.index t (0 : Fin 4) * 1 + 1 * 0 = 0; omega
  | ⟨1, _⟩ => show win2_0.index t (1 : Fin 4) * 1 + 1 * 0 = t.val; omega
  | ⟨2, _⟩ => show win2_0.index t (2 : Fin 4) * 256 + 1 * w.val = w.val; omega
  | ⟨3, _⟩ => show win2_0.index t (3 : Fin 4) * 32 + 1 * l.val = l.val; omega

/-- The edge-weight block at point `t` is row `t` of the edge weights. -/
theorem iblk2_1_row (c : Dev nD) (t : Fin cfg2.N) (d : Fin 4) (w : Fin 256) :
    (iblk2 V c 1 t : Vec Ideal S1x1x4x256 .f32) (ix4 0 0 d w) = (V c main_v20 : S1x128x4x256.Idx → EReal) (ix4 0 (row2 t) d w) := by
  obtain ⟨h0, h1, h2, h3⟩ := idx2_1 t
  unfold iblk2
  rw [View.read_apply]
  show V c main_v20 _ = V c main_v20 _
  refine congrArg (V c main_v20 : S1x128x4x256.Idx → EReal) ?_
  funext a; apply Fin.ext
  match a with
  | ⟨0, _⟩ => show win2_1.index t (0 : Fin 4) * 1 + 1 * 0 = 0; omega
  | ⟨1, _⟩ => show win2_1.index t (1 : Fin 4) * 1 + 1 * 0 = t.val; omega
  | ⟨2, _⟩ => show win2_1.index t (2 : Fin 4) * 4 + 1 * d.val = d.val; omega
  | ⟨3, _⟩ => show win2_1.index t (3 : Fin 4) * 256 + 1 * w.val = w.val; omega

/-- The message block at point `t` is row `t` of the messages. -/
theorem iblk2_2_row (c : Dev nD) (t : Fin cfg2.N) (d : Fin 4) (w : Fin 256) (l : Fin 32) :
    (iblk2 V c 2 t : Vec Ideal S1x4x1x256x32 .f32) (ix5 0 d 0 w l) = (V c main_v56 : S1x4x128x256x32.Idx → EReal) (ix5 0 d (row2 t) w l) := by
  obtain ⟨h0, h1, h2, h3, h4⟩ := idx2_2 t
  unfold iblk2
  rw [View.read_apply]
  show V c main_v56 _ = V c main_v56 _
  refine congrArg (V c main_v56 : S1x4x128x256x32.Idx → EReal) ?_
  funext a; apply Fin.ext
  match a with
  | ⟨0, _⟩ => show win2_2.index t (0 : Fin 5) * 1 + 1 * 0 = 0; omega
  | ⟨1, _⟩ => show win2_2.index t (1 : Fin 5) * 4 + 1 * d.val = d.val; omega
  | ⟨2, _⟩ => show win2_2.index t (2 : Fin 5) * 1 + 1 * 0 = t.val; omega
  | ⟨3, _⟩ => show win2_2.index t (3 : Fin 5) * 256 + 1 * w.val = w.val; omega
  | ⟨4, _⟩ => show win2_2.index t (4 : Fin 5) * 32 + 1 * l.val = l.val; omega

/-- The pairwise block at point `t` is row `t` of the pairwise table, at any index given by its coordinates. -/
theorem iblk2_3_row (c : Dev nD) (t : Fin cfg2.N) (i : S4x1x256x32x32.Idx) (d : Fin 4) (w : Fin 256) (l' l : Fin 32)
    (e0 : (i 0).val = d.val) (e1 : (i 1).val = 0) (e2 : (i 2).val = w.val) (e3 : (i 3).val = l'.val) (e4 : (i 4).val = l.val) :
    (iblk2 V c 3 t : Vec Ideal S4x1x256x32x32 .f32) i = (V c main_v19 : S4x128x256x32x32.Idx → EReal) (ix5 d (row2 t) w l' l) := by
  obtain ⟨h0, h1, h2, h3, h4⟩ := idx2_3 t
  unfold iblk2
  rw [View.read_apply]
  show V c main_v19 _ = V c main_v19 _
  refine congrArg (V c main_v19 : S4x128x256x32x32.Idx → EReal) ?_
  funext a; apply Fin.ext
  match a with
  | ⟨0, _⟩ => show win2_3.index t (0 : Fin 5) * 4 + 1 * (i 0).val = d.val; omega
  | ⟨1, _⟩ => show win2_3.index t (1 : Fin 5) * 1 + 1 * (i 1).val = t.val; omega
  | ⟨2, _⟩ => show win2_3.index t (2 : Fin 5) * 256 + 1 * (i 2).val = w.val; omega
  | ⟨3, _⟩ => show win2_3.index t (3 : Fin 5) * 32 + 1 * (i 3).val = l'.val; omega
  | ⟨4, _⟩ => show win2_3.index t (4 : Fin 5) * 32 + 1 * (i 4).val = l.val; omega

/-- Slab `d` of the pairwise block, as the body loads it. -/
theorem pwSlab2_0 (c : Dev nD) (t : Fin cfg2.N) (w : Fin 256) (l' l : Fin 32) :
    View.ld (iblk2 V c 3 t : Vec Ideal S4x1x256x32x32 .f32) r2_3 (ix5 0 0 w l' l) = (V c main_v19 : S4x128x256x32x32.Idx → EReal) (ix5 0 (row2 t) w l' l) :=
  iblk2_3_row V c t (r2_3.idx (ix5 0 0 w l' l)) 0 w l' l rfl rfl
    (by show 0 + 1 * w.val = w.val; omega) (by show 0 + 1 * l'.val = l'.val; omega) (by show 0 + 1 * l.val = l.val; omega)
theorem pwSlab2_1 (c : Dev nD) (t : Fin cfg2.N) (w : Fin 256) (l' l : Fin 32) :
    View.ld (iblk2 V c 3 t : Vec Ideal S4x1x256x32x32 .f32) r2_4 (ix5 0 0 w l' l) = (V c main_v19 : S4x128x256x32x32.Idx → EReal) (ix5 1 (row2 t) w l' l) :=
  iblk2_3_row V c t (r2_4.idx (ix5 0 0 w l' l)) 1 w l' l rfl rfl
    (by show 0 + 1 * w.val = w.val; omega) (by show 0 + 1 * l'.val = l'.val; omega) (by show 0 + 1 * l.val = l.val; omega)
theorem pwSlab2_2 (c : Dev nD) (t : Fin cfg2.N) (w : Fin 256) (l' l : Fin 32) :
    View.ld (iblk2 V c 3 t : Vec Ideal S4x1x256x32x32 .f32) r2_5 (ix5 0 0 w l' l) = (V c main_v19 : S4x128x256x32x32.Idx → EReal) (ix5 2 (row2 t) w l' l) :=
  iblk2_3_row V c t (r2_5.idx (ix5 0 0 w l' l)) 2 w l' l rfl rfl
    (by show 0 + 1 * w.val = w.val; omega) (by show 0 + 1 * l'.val = l'.val; omega) (by show 0 + 1 * l.val = l.val; omega)
theorem pwSlab2_3 (c : Dev nD) (t : Fin cfg2.N) (w : Fin 256) (l' l : Fin 32) :
    View.ld (iblk2 V c 3 t : Vec Ideal S4x1x256x32x32 .f32) r2_6 (ix5 0 0 w l' l) = (V c main_v19 : S4x128x256x32x32.Idx → EReal) (ix5 3 (row2 t) w l' l) :=
  iblk2_3_row V c t (r2_6.idx (ix5 0 0 w l' l)) 3 w l' l rfl rfl
    (by show 0 + 1 * w.val = w.val; omega) (by show 0 + 1 * l'.val = l'.val; omega) (by show 0 + 1 * l.val = l.val; omega)

/-- The output block's index `(0, d, 0, w, l)` at point `t` is the array's `(0, d, t, w, l)`. -/
theorem oblk2_emb (t : Fin cfg2.N) (d : Fin 4) (w : Fin 256) (l : Fin 32) :
    ((cfg2.win 4).blk t).view.emb (ix5 0 d 0 w l) = (ix5 0 d (row2 t) w l : S1x4x128x256x32.Idx) := by
  obtain ⟨h0, h1, h2, h3, h4⟩ := idx2_4 t
  funext a; apply Fin.ext
  match a with
  | ⟨0, _⟩ => show win2_4.index t (0 : Fin 5) * 1 + 1 * 0 = 0; omega
  | ⟨1, _⟩ => show win2_4.index t (1 : Fin 5) * 4 + 1 * d.val = d.val; omega
  | ⟨2, _⟩ => show win2_4.index t (2 : Fin 5) * 1 + 1 * 0 = t.val; omega
  | ⟨3, _⟩ => show win2_4.index t (3 : Fin 5) * 256 + 1 * w.val = w.val; omega
  | ⟨4, _⟩ => show win2_4.index t (4 : Fin 5) * 32 + 1 * l.val = l.val; omega

/-- Two functions on the output block agree when they agree on every slab index. -/
theorem ext_slabs2 {α : Type} (f g : S1x4x1x256x32.Idx → α) (h : ∀ (d : Fin 4) (w : Fin 256) (l : Fin 32), f (ix5 0 d 0 w l) = g (ix5 0 d 0 w l)) :
    f = g := by
  funext j
  have j0 : (j 0).val < 1 := (j 0).isLt
  have j2 : (j 2).val < 1 := (j 2).isLt
  have e : j = ix5 (0 : Fin 1) (⟨(j 1).val, (j 1).isLt⟩ : Fin 4) (0 : Fin 1) (⟨(j 3).val, (j 3).isLt⟩ : Fin 256) (⟨(j 4).val, (j 4).isLt⟩ : Fin 32) := by
    funext a; apply Fin.ext
    match a with
    | ⟨0, _⟩ => show (j 0).val = 0; omega
    | ⟨1, _⟩ => rfl
    | ⟨2, _⟩ => show (j 2).val = 0; omega
    | ⟨3, _⟩ => rfl
    | ⟨4, _⟩ => rfl
  rw [e]; exact h _ _ _

/-! ## What a point writes back, the cover, the array after the region -/

/-- What point `t` writes back is block `t` of the step's output over the arrays as the region finds them. -/
theorem flushed2_eq (c : Dev nD) (t : Fin cfg2.N) :
    (dat2 (F := Ideal) V c).flushed 4 t
      = ((cfg2.win 4).blk t).view.read (Elt Ideal) (Cert.Spec.outK (V c main_v0) (V c main_v20) (V c main_v56) (V c main_v19)) := by
  show (cfg2.win 4).cut (grid2.coords t) ((dat2 V c).after 4 t) = _
  rw [after2_4]
  refine ext_slabs2 _ _ fun d w l => ?_
  show out2_4 (iblk2 V c 0 t) (iblk2 V c 1 t) (iblk2 V c 2 t) (iblk2 V c 3 t) (ix5 0 d 0 w l)
    = Cert.Spec.outK (V c main_v0) (V c main_v20) (V c main_v56) (V c main_v19) (((cfg2.win 4).blk t).view.emb (ix5 0 d 0 w l))
  rw [oblk2_emb]
  show _ = Cert.Spec.kern (V c main_v0) (Cert.Spec.eOfK (V c main_v20)) (V c main_v56) (V c main_v19) d (row2 t) w l
  match d with
  | ⟨0, _⟩ =>
    refine (out2_4_slab0 _ _ _ _ w l).trans ?_
    exact kernG_eq_kern (V c main_v0) (V c main_v20) (V c main_v56) (V c main_v19) _ _ _ _ 0 (row2 t)
      (iblk2_0_row V c t) (iblk2_1_row V c t) (iblk2_2_row V c t) (pwSlab2_0 V c t) w l
  | ⟨1, _⟩ =>
    refine (out2_4_slab1 _ _ _ _ w l).trans ?_
    exact kernG_eq_kern (V c main_v0) (V c main_v20) (V c main_v56) (V c main_v19) _ _ _ _ 1 (row2 t)
      (iblk2_0_row V c t) (iblk2_1_row V c t) (iblk2_2_row V c t) (pwSlab2_1 V c t) w l
  | ⟨2, _⟩ =>
    refine (out2_4_slab2 _ _ _ _ w l).trans ?_
    exact kernG_eq_kern (V c main_v0) (V c main_v20) (V c main_v56) (V c main_v19) _ _ _ _ 2 (row2 t)
      (iblk2_0_row V c t) (iblk2_1_row V c t) (iblk2_2_row V c t) (pwSlab2_2 V c t) w l
  | ⟨3, _⟩ =>
    refine (out2_4_slab3 _ _ _ _ w l).trans ?_
    exact kernG_eq_kern (V c main_v0) (V c main_v20) (V c main_v56) (V c main_v19) _ _ _ _ 3 (row2 t)
      (iblk2_0_row V c t) (iblk2_1_row V c t) (iblk2_2_row V c t) (pwSlab2_3 V c t) w l

/-- An index of the output array is in point `t`'s block iff each coordinate is in the block's range on its axis. -/
theorem mem_oblk2 (t : Fin cfg2.N) (i : S1x4x128x256x32.Idx) :
    i ∈ ((cfg2.win 4).blk t).view.set ↔ ∀ a : Fin 5, win2_4.index t a * S1x4x1x256x32.size a ≤ (i a).val ∧ (i a).val < win2_4.index t a * S1x4x1x256x32.size a + S1x4x1x256x32.size a := by
  show i ∈ ((View.whole main_v57).slice (win2_4.rect t)).set ↔ _
  rw [View.set_slice_whole, Rect.mem_set_unit]
  exact Iff.rfl

/-- Row `h` of the output array is covered by point `h`. -/
theorem cover2_out (i : S1x4x128x256x32.Idx) :
    ∃ t : Fin cfg2.N, (cfg2.win 4).flush t = true ∧ i ∈ ((cfg2.win 4).blk t).view.set := by
  have i0 : (i 0).val < 1 := (i 0).isLt
  have i1 : (i 1).val < 4 := (i 1).isLt
  have i2 : (i 2).val < 128 := (i 2).isLt
  have i3 : (i 3).val < 256 := (i 3).isLt
  have i4 : (i 4).val < 32 := (i 4).isLt
  have hN : cfg2.N = 128 := N_2
  have ht : (i 2).val < cfg2.N := lt_of_lt_of_eq i2 hN.symm
  refine ⟨⟨(i 2).val, ht⟩, flush2_4 _, ?_⟩
  obtain ⟨h0, h1, h2, h3, h4⟩ := idx2_4 ⟨(i 2).val, ht⟩
  rw [mem_oblk2]
  intro a
  match a with
  | ⟨0, _⟩ => show win2_4.index _ (0 : Fin 5) * 1 ≤ (i 0).val ∧ (i 0).val < win2_4.index _ (0 : Fin 5) * 1 + 1; omega
  | ⟨1, _⟩ => show win2_4.index _ (1 : Fin 5) * 4 ≤ (i 1).val ∧ (i 1).val < win2_4.index _ (1 : Fin 5) * 4 + 4; omega
  | ⟨2, _⟩ =>
    show win2_4.index _ (2 : Fin 5) * 1 ≤ (i 2).val ∧ (i 2).val < win2_4.index _ (2 : Fin 5) * 1 + 1
    have h2' : win2_4.index ⟨(i 2).val, ht⟩ (2 : Fin 5) = (i 2).val := h2
    omega
  | ⟨3, _⟩ => show win2_4.index _ (3 : Fin 5) * 256 ≤ (i 3).val ∧ (i 3).val < win2_4.index _ (3 : Fin 5) * 256 + 256; omega
  | ⟨4, _⟩ => show win2_4.index _ (4 : Fin 5) * 32 ≤ (i 4).val ∧ (i 4).val < win2_4.index _ (4 : Fin 5) * 32 + 32; omega

/-- THE OUTPUT ARRAY after region 2: one min-sum step's messages, normalised at the sender, of the four input arrays
    as the region finds them. -/
theorem final2 (c : Dev nD) :
    (dat2 (F := Ideal) V c).arrAt 4 cfg2.N = Cert.Spec.outK (V c main_v0) (V c main_v20) (V c main_v56) (V c main_v19) :=
  (dat2 (F := Ideal) V c).arrAt_eq_of_cover 4 (Cert.Spec.outK (V c main_v0) (V c main_v20) (V c main_v56) (V c main_v19))
    (fun t _ => flushed2_eq V c t) (cover2_out)

end Cert.KernelIdeal.Body

end
-- ==== Proof.KI.ShiftRead.lean ====
import proofs.«134770_j15015205667393_2_alg».proof.Proof.KI.HostSide
import proofs.«134770_j15015205667393_2_alg».proof.Proof.Spec
import Idealize.ShloMosaic.Lib.KernelVsHost
import Idealize.ShloMosaic.Lib.Pipeline.Value
import Idealize.ShloMosaic.Lib.ValueIdx

/-! The move to the receiver pixels read at an index, at the ideal values: entry (d, h, w, l) of the moved messages is
slab d of the launch's output at the sender pixel, and zero on the border the move leaves empty. -/

set_option maxRecDepth 16384

noncomputable section

namespace Cert.KernelIdeal.HostSide

open Cert.KernelIdeal Cert.KernelIdeal.Gen Cert.KernelIdeal.GenP
open Idealize.ShloMosaic Idealize.ShloMosaic.TcCoe Idealize.ShloMosaic.ValueIdx

/-- The pads' value is the real zero. -/
theorem zeroS_apply (i : S_.Idx) : zeroS (F := Ideal) i = 0 := sitofp_zero (φ := .f32)

/-- Direction 0: off the border the moved plane is slab 0 of the output at the sender pixel. -/
theorem mv0_inside (o : (⟨S1x4x128x256x32, .f32⟩ : BufTy).Contents (Elt Ideal)) (h : Fin 128) (w : Fin 256) (l : Fin 32) (hb : ¬ w.val = 0) :
    mv0 o (ix4 0 h w l) = o (ix5 0 0 h (⟨w.val - 1, by omega⟩ : Fin 256) l) := by
  have hh := h.isLt; have hw := w.isLt
  unfold mv0
  refine (pad_apply_of_inside ![0, 0, 1, 0] ![0, 0, 0, 0] ![0, 0, 0, 0] _ _ pads_S1x128x255x32_S1x128x256x32_000_000_100_000 h_S_ (ix4 0 h w l)
    (ix4 (0 : Fin 1) (h : Fin 128) (⟨w.val - 1, by omega⟩ : Fin 255) l) (fun a => match a with
      | ⟨0, _⟩ => rfl
      | ⟨1, _⟩ => by show h.val = 0 + h.val * (0 + 1); omega
      | ⟨2, _⟩ => by show w.val = 1 + (w.val - 1) * (0 + 1); omega
      | ⟨3, _⟩ => by show l.val = 0 + l.val * (0 + 1); omega)).trans ?_
  refine (shapeCast_apply _ shapeCasts_S1x1x128x255x32_S1x128x255x32 (ix4 (0 : Fin 1) (h : Fin 128) (⟨w.val - 1, by omega⟩ : Fin 255) l)
    (ix5 (0 : Fin 1) (0 : Fin 1) (h : Fin 128) (⟨w.val - 1, by omega⟩ : Fin 255) l) (by
      rewrite [Shape.rowMajor_val_five, Shape.rowMajor_val_four]; rfl)).trans ?_
  exact extractStridedSlice_apply ![0, 0, 0, 0, 0] o slices_S1x4x128x256x32_S1x1x128x255x32_0_0_0_0_0 _
    (ix5 (0 : Fin 1) (0 : Fin 4) (h : Fin 128) (⟨w.val - 1, by omega⟩ : Fin 256) l) (fun a => match a with
      | ⟨0, _⟩ => rfl
      | ⟨1, _⟩ => rfl
      | ⟨2, _⟩ => by show h.val = 0 + h.val; omega
      | ⟨3, _⟩ => by show w.val - 1 = 0 + (w.val - 1); omega
      | ⟨4, _⟩ => by show l.val = 0 + l.val; omega)

/-- On the border it is zero. -/
theorem mv0_border (o : (⟨S1x4x128x256x32, .f32⟩ : BufTy).Contents (Elt Ideal)) (h : Fin 128) (w : Fin 256) (l : Fin 32) (hb : w.val = 0) :
    mv0 o (ix4 0 h w l) = 0 := by
  unfold mv0
  refine (pad_apply_of_not_inside (s := S1x128x255x32) (t := S1x128x256x32) ![0, 0, 1, 0] ![0, 0, 0, 0] ![0, 0, 0, 0] _ _ pads_S1x128x255x32_S1x128x256x32_000_000_100_000 h_S_ (ix4 (0 : Fin 1) h w l) (⟨2, by decide⟩ : Fin 4) ?_).trans (zeroS_apply _)
  intro hin
  have h1 := hin.1; have h3 := hin.2.2
  change _ ≤ w.val at h1; change (w.val - _) / _ < _ at h3
  simp at h1 h3
  omega

/-- Direction 1: off the border the moved plane is slab 1 of the output at the sender pixel. -/
theorem mv1_inside (o : (⟨S1x4x128x256x32, .f32⟩ : BufTy).Contents (Elt Ideal)) (h : Fin 128) (w : Fin 256) (l : Fin 32) (hb : ¬ w.val = 255) :
    mv1 o (ix4 0 h w l) = o (ix5 0 1 h (⟨(w.val + 1) % 256, Nat.mod_lt _ (by norm_num)⟩ : Fin 256) l) := by
  have hh := h.isLt; have hw := w.isLt
  unfold mv1
  refine (pad_apply_of_inside ![0, 0, 0, 0] ![0, 0, 1, 0] ![0, 0, 0, 0] _ _ pads_S1x128x255x32_S1x128x256x32_000_000_010_000 h_S_ (ix4 0 h w l)
    (ix4 (0 : Fin 1) (h : Fin 128) (⟨w.val, by omega⟩ : Fin 255) l) (fun a => match a with
      | ⟨0, _⟩ => rfl
      | ⟨1, _⟩ => by show h.val = 0 + h.val * (0 + 1); omega
      | ⟨2, _⟩ => by show w.val = 0 + w.val * (0 + 1); omega
      | ⟨3, _⟩ => by show l.val = 0 + l.val * (0 + 1); omega)).trans ?_
  refine (shapeCast_apply _ shapeCasts_S1x1x128x255x32_S1x128x255x32 (ix4 (0 : Fin 1) (h : Fin 128) (⟨w.val, by omega⟩ : Fin 255) l)
    (ix5 (0 : Fin 1) (0 : Fin 1) (h : Fin 128) (⟨w.val, by omega⟩ : Fin 255) l) (by
      rewrite [Shape.rowMajor_val_five, Shape.rowMajor_val_four]; rfl)).trans ?_
  exact extractStridedSlice_apply ![0, 1, 0, 1, 0] o slices_S1x4x128x256x32_S1x1x128x255x32_0_1_0_1_0 _
    (ix5 (0 : Fin 1) (1 : Fin 4) (h : Fin 128) (⟨(w.val + 1) % 256, Nat.mod_lt _ (by norm_num)⟩ : Fin 256) l) (fun a => match a with
      | ⟨0, _⟩ => rfl
      | ⟨1, _⟩ => rfl
      | ⟨2, _⟩ => by show h.val = 0 + h.val; omega
      | ⟨3, _⟩ => by show (w.val + 1) % 256 = 1 + w.val; omega
      | ⟨4, _⟩ => by show l.val = 0 + l.val; omega)

/-- On the border it is zero. -/
theorem mv1_border (o : (⟨S1x4x128x256x32, .f32⟩ : BufTy).Contents (Elt Ideal)) (h : Fin 128) (w : Fin 256) (l : Fin 32) (hb : w.val = 255) :
    mv1 o (ix4 0 h w l) = 0 := by
  unfold mv1
  refine (pad_apply_of_not_inside (s := S1x128x255x32) (t := S1x128x256x32) ![0, 0, 0, 0] ![0, 0, 1, 0] ![0, 0, 0, 0] _ _ pads_S1x128x255x32_S1x128x256x32_000_000_010_000 h_S_ (ix4 (0 : Fin 1) h w l) (⟨2, by decide⟩ : Fin 4) ?_).trans (zeroS_apply _)
  intro hin
  have h1 := hin.1; have h3 := hin.2.2
  change _ ≤ w.val at h1; change (w.val - _) / _ < _ at h3
  simp at h1 h3
  omega

/-- Direction 2: off the border the moved plane is slab 2 of the output at the sender pixel. -/
theorem mv2_inside (o : (⟨S1x4x128x256x32, .f32⟩ : BufTy).Contents (Elt Ideal)) (h : Fin 128) (w : Fin 256) (l : Fin 32) (hb : ¬ h.val = 0) :
    mv2 o (ix4 0 h w l) = o (ix5 0 2 (⟨h.val - 1, by omega⟩ : Fin 128) w l) := by
  have hh := h.isLt; have hw := w.isLt
  unfold mv2
  refine (pad_apply_of_inside ![0, 1, 0, 0] ![0, 0, 0, 0] ![0, 0, 0, 0] _ _ pads_S1x127x256x32_S1x128x256x32_000_100_000_000 h_S_ (ix4 0 h w l)
    (ix4 (0 : Fin 1) (⟨h.val - 1, by omega⟩ : Fin 127) (w : Fin 256) l) (fun a => match a with
      | ⟨0, _⟩ => rfl
      | ⟨1, _⟩ => by show h.val = 1 + (h.val - 1) * (0 + 1); omega
      | ⟨2, _⟩ => by show w.val = 0 + w.val * (0 + 1); omega
      | ⟨3, _⟩ => by show l.val = 0 + l.val * (0 + 1); omega)).trans ?_
  refine (shapeCast_apply _ shapeCasts_S1x1x127x256x32_S1x127x256x32 (ix4 (0 : Fin 1) (⟨h.val - 1, by omega⟩ : Fin 127) (w : Fin 256) l)
    (ix5 (0 : Fin 1) (0 : Fin 1) (⟨h.val - 1, by omega⟩ : Fin 127) (w : Fin 256) l) (by
      rewrite [Shape.rowMajor_val_five, Shape.rowMajor_val_four]; rfl)).trans ?_
  exact extractStridedSlice_apply ![0, 2, 0, 0, 0] o slices_S1x4x128x256x32_S1x1x127x256x32_0_2_0_0_0 _
    (ix5 (0 : Fin 1) (2 : Fin 4) (⟨h.val - 1, by omega⟩ : Fin 128) (w : Fin 256) l) (fun a => match a with
      | ⟨0, _⟩ => rfl
      | ⟨1, _⟩ => rfl
      | ⟨2, _⟩ => by show h.val - 1 = 0 + (h.val - 1); omega
      | ⟨3, _⟩ => by show w.val = 0 + w.val; omega
      | ⟨4, _⟩ => by show l.val = 0 + l.val; omega)

/-- On the border it is zero. -/
theorem mv2_border (o : (⟨S1x4x128x256x32, .f32⟩ : BufTy).Contents (Elt Ideal)) (h : Fin 128) (w : Fin 256) (l : Fin 32) (hb : h.val = 0) :
    mv2 o (ix4 0 h w l) = 0 := by
  unfold mv2
  refine (pad_apply_of_not_inside (s := S1x127x256x32) (t := S1x128x256x32) ![0, 1, 0, 0] ![0, 0, 0, 0] ![0, 0, 0, 0] _ _ pads_S1x127x256x32_S1x128x256x32_000_100_000_000 h_S_ (ix4 (0 : Fin 1) h w l) (⟨1, by decide⟩ : Fin 4) ?_).trans (zeroS_apply _)
  intro hin
  have h1 := hin.1; have h3 := hin.2.2
  change _ ≤ h.val at h1; change (h.val - _) / _ < _ at h3
  simp at h1 h3
  omega

/-- Direction 3: off the border the moved plane is slab 3 of the output at the sender pixel. -/
theorem mv3_inside (o : (⟨S1x4x128x256x32, .f32⟩ : BufTy).Contents (Elt Ideal)) (h : Fin 128) (w : Fin 256) (l : Fin 32) (hb : ¬ h.val = 127) :
    mv3 o (ix4 0 h w l) = o (ix5 0 3 (⟨(h.val + 1) % 128, Nat.mod_lt _ (by norm_num)⟩ : Fin 128) w l) := by
  have hh := h.isLt; have hw := w.isLt
  unfold mv3
  refine (pad_apply_of_inside ![0, 0, 0, 0] ![0, 1, 0, 0] ![0, 0, 0, 0] _ _ pads_S1x127x256x32_S1x128x256x32_000_010_000_000 h_S_ (ix4 0 h w l)
    (ix4 (0 : Fin 1) (⟨h.val, by omega⟩ : Fin 127) (w : Fin 256) l) (fun a => match a with
      | ⟨0, _⟩ => rfl
      | ⟨1, _⟩ => by show h.val = 0 + h.val * (0 + 1); omega
      | ⟨2, _⟩ => by show w.val = 0 + w.val * (0 + 1); omega
      | ⟨3, _⟩ => by show l.val = 0 + l.val * (0 + 1); omega)).trans ?_
  refine (shapeCast_apply _ shapeCasts_S1x1x127x256x32_S1x127x256x32 (ix4 (0 : Fin 1) (⟨h.val, by omega⟩ : Fin 127) (w : Fin 256) l)
    (ix5 (0 : Fin 1) (0 : Fin 1) (⟨h.val, by omega⟩ : Fin 127) (w : Fin 256) l) (by
      rewrite [Shape.rowMajor_val_five, Shape.rowMajor_val_four]; rfl)).trans ?_
  exact extractStridedSlice_apply ![0, 3, 1, 0, 0] o slices_S1x4x128x256x32_S1x1x127x256x32_0_3_1_0_0 _
    (ix5 (0 : Fin 1) (3 : Fin 4) (⟨(h.val + 1) % 128, Nat.mod_lt _ (by norm_num)⟩ : Fin 128) (w : Fin 256) l) (fun a => match a with
      | ⟨0, _⟩ => rfl
      | ⟨1, _⟩ => rfl
      | ⟨2, _⟩ => by show (h.val + 1) % 128 = 1 + h.val; omega
      | ⟨3, _⟩ => by show w.val = 0 + w.val; omega
      | ⟨4, _⟩ => by show l.val = 0 + l.val; omega)

/-- On the border it is zero. -/
theorem mv3_border (o : (⟨S1x4x128x256x32, .f32⟩ : BufTy).Contents (Elt Ideal)) (h : Fin 128) (w : Fin 256) (l : Fin 32) (hb : h.val = 127) :
    mv3 o (ix4 0 h w l) = 0 := by
  unfold mv3
  refine (pad_apply_of_not_inside (s := S1x127x256x32) (t := S1x128x256x32) ![0, 0, 0, 0] ![0, 1, 0, 0] ![0, 0, 0, 0] _ _ pads_S1x127x256x32_S1x128x256x32_000_010_000_000 h_S_ (ix4 (0 : Fin 1) h w l) (⟨1, by decide⟩ : Fin 4) ?_).trans (zeroS_apply _)
  intro hin
  have h1 := hin.1; have h3 := hin.2.2
  change _ ≤ h.val at h1; change (h.val - _) / _ < _ at h3
  simp at h1 h3
  omega

/-- Entry (0, h, w, l) of the moved messages. -/
theorem shiftT_apply0 (o : (⟨S1x4x128x256x32, .f32⟩ : BufTy).Contents (Elt Ideal)) (h : Fin 128) (w : Fin 256) (l : Fin 32) :
    shiftT o (ix5 0 0 h w l) = Spec.moved (fun d h w l => o (ix5 0 d h w l)) 0 h w l := by
  unfold shiftT join4
  refine (concatenate_apply_piece (t := S1x4x128x256x32) 1 _ _ (ix5 (0 : Fin 1) (0 : Fin 4) h w l) 0 (by simp) S1x1x128x256x32 (bc (mv0 o)) rfl rfl 0 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 (mv0 o) _ (ix4 (0 : Fin 1) h w l) (fun a => match a with
      | ⟨0, _⟩ => rfl
      | ⟨1, _⟩ => rfl
      | ⟨2, _⟩ => rfl
      | ⟨3, _⟩ => rfl)).trans ?_
  unfold Spec.moved
  by_cases hb : w.val = 0
  · rw [if_pos (show Spec.onBorder 0 h w from hb)]; exact mv0_border o h w l hb
  · rw [if_neg (show ¬ Spec.onBorder 0 h w from hb)]; exact mv0_inside o h w l hb

/-- Entry (1, h, w, l) of the moved messages. -/
theorem shiftT_apply1 (o : (⟨S1x4x128x256x32, .f32⟩ : BufTy).Contents (Elt Ideal)) (h : Fin 128) (w : Fin 256) (l : Fin 32) :
    shiftT o (ix5 0 1 h w l) = Spec.moved (fun d h w l => o (ix5 0 d h w l)) 1 h w l := by
  unfold shiftT join4
  refine (concatenate_apply_piece (t := S1x4x128x256x32) 1 _ _ (ix5 (0 : Fin 1) (1 : Fin 4) h w l) 1 (by simp) S1x1x128x256x32 (bc (mv1 o)) rfl rfl 1 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 (mv1 o) _ (ix4 (0 : Fin 1) h w l) (fun a => match a with
      | ⟨0, _⟩ => rfl
      | ⟨1, _⟩ => rfl
      | ⟨2, _⟩ => rfl
      | ⟨3, _⟩ => rfl)).trans ?_
  unfold Spec.moved
  by_cases hb : w.val = 255
  · rw [if_pos (show Spec.onBorder 1 h w from hb)]; exact mv1_border o h w l hb
  · rw [if_neg (show ¬ Spec.onBorder 1 h w from hb)]; exact mv1_inside o h w l hb

/-- Entry (2, h, w, l) of the moved messages. -/
theorem shiftT_apply2 (o : (⟨S1x4x128x256x32, .f32⟩ : BufTy).Contents (Elt Ideal)) (h : Fin 128) (w : Fin 256) (l : Fin 32) :
    shiftT o (ix5 0 2 h w l) = Spec.moved (fun d h w l => o (ix5 0 d h w l)) 2 h w l := by
  unfold shiftT join4
  refine (concatenate_apply_piece (t := S1x4x128x256x32) 1 _ _ (ix5 (0 : Fin 1) (2 : Fin 4) h w l) 2 (by simp) S1x1x128x256x32 (bc (mv2 o)) rfl rfl 2 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 (mv2 o) _ (ix4 (0 : Fin 1) h w l) (fun a => match a with
      | ⟨0, _⟩ => rfl
      | ⟨1, _⟩ => rfl
      | ⟨2, _⟩ => rfl
      | ⟨3, _⟩ => rfl)).trans ?_
  unfold Spec.moved
  by_cases hb : h.val = 0
  · rw [if_pos (show Spec.onBorder 2 h w from hb)]; exact mv2_border o h w l hb
  · rw [if_neg (show ¬ Spec.onBorder 2 h w from hb)]; exact mv2_inside o h w l hb

/-- Entry (3, h, w, l) of the moved messages. -/
theorem shiftT_apply3 (o : (⟨S1x4x128x256x32, .f32⟩ : BufTy).Contents (Elt Ideal)) (h : Fin 128) (w : Fin 256) (l : Fin 32) :
    shiftT o (ix5 0 3 h w l) = Spec.moved (fun d h w l => o (ix5 0 d h w l)) 3 h w l := by
  unfold shiftT join4
  refine (concatenate_apply_piece (t := S1x4x128x256x32) 1 _ _ (ix5 (0 : Fin 1) (3 : Fin 4) h w l) 3 (by simp) S1x1x128x256x32 (bc (mv3 o)) rfl rfl 3 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 (mv3 o) _ (ix4 (0 : Fin 1) h w l) (fun a => match a with
      | ⟨0, _⟩ => rfl
      | ⟨1, _⟩ => rfl
      | ⟨2, _⟩ => rfl
      | ⟨3, _⟩ => rfl)).trans ?_
  unfold Spec.moved
  by_cases hb : h.val = 127
  · rw [if_pos (show Spec.onBorder 3 h w from hb)]; exact mv3_border o h w l hb
  · rw [if_neg (show ¬ Spec.onBorder 3 h w from hb)]; exact mv3_inside o h w l hb

/-- The move read at an index: entry (d, h, w, l) of the moved messages is the launch's output at the sender pixel,
    zero on the border. -/
theorem shiftT_apply (o : (⟨S1x4x128x256x32, .f32⟩ : BufTy).Contents (Elt Ideal)) (d : Fin 4) (h : Fin 128) (w : Fin 256) (l : Fin 32) :
    shiftT o (ix5 0 d h w l) = Spec.moved (fun d h w l => o (ix5 0 d h w l)) d h w l := by
  fin_cases d
  · exact shiftT_apply0 o h w l
  · exact shiftT_apply1 o h w l
  · exact shiftT_apply2 o h w l
  · exact shiftT_apply3 o h w l

/-- One launch followed by the move is the specification's step. -/
theorem shift_outK (cost : Spec.SC.Idx → EReal) (et : Spec.SEk.Idx → EReal) (msgs : Spec.SM.Idx → EReal) (pw : Spec.SP.Idx → EReal) :
    shiftT (F := Ideal) (Spec.outK cost et msgs pw) = Spec.stepK cost (Spec.eOfK et) msgs pw := by
  funext i
  obtain ⟨z, d, h, w, l, rfl⟩ : ∃ (z : Fin 1) (d : Fin 4) (h : Fin 128) (w : Fin 256) (l : Fin 32), i = ix5 z d h w l :=
    ⟨i 0, i 1, i 2, i 3, i 4, eq_ix5 i⟩
  obtain rfl : z = 0 := Subsingleton.elim _ _
  exact shiftT_apply _ d h w l

end Cert.KernelIdeal.HostSide

end
-- ==== Proof.KI.Result.lean ====
import proofs.«134770_j15015205667393_2_alg».proof.Proof.KI.Value
import proofs.«134770_j15015205667393_2_alg».proof.Proof.KI.Value0
import proofs.«134770_j15015205667393_2_alg».proof.Proof.KI.Value1
import proofs.«134770_j15015205667393_2_alg».proof.Proof.KI.Value2
import proofs.«134770_j15015205667393_2_alg».proof.Proof.KI.ShiftRead

/-! The kernel program's result: the softmax tail of the cost and three steps — a launch, then the move — applied to
the argument messages; and each step is the specification's normalise-then-move step. -/

set_option maxRecDepth 16384

noncomputable section

namespace Cert.KernelIdeal.HostSide

open Cert.KernelIdeal Cert.KernelIdeal.Gen Cert.KernelIdeal.GenP Cert.KernelIdeal.Body
open Idealize.ShloMosaic Idealize.ShloMosaic.TcCoe Idealize.SL.Sem Idealize.ShloMosaic.StableHlo

variable (m : (ℓ : Loc nD τ sig) → Buf (Elt Ideal) ℓ) (c : Dev nD)

/-- The first launch's output. -/
theorem out0_eq : W6 m c (Proc.devRef .tc main_v21) = Spec.outK (costA m c) (etA m c) (m ((c.tc : Thread nD τ).loc main_arg2)) (pwA m c) := by
  rw [show W6 m c (Proc.devRef .tc main_v21) = (dat0 (En0 m) c).arrAt 4 cfg0.N from W6_arr m c 4, final0 (En0 m) c,
    en0_cost, en0_et, en0_pw, en0_msgs]

/-- The second launch's. -/
theorem out1_eq : W16 m c (Proc.devRef .tc main_v39) = Spec.outK (costA m c) (etA m c) (stepA m c (m ((c.tc : Thread nD τ).loc main_arg2))) (pwA m c) := by
  rw [show W16 m c (Proc.devRef .tc main_v39) = (dat1 (En1 m) c).arrAt 4 cfg1.N from W16_arr m c 4, final1 (En1 m) c,
    en1_cost, en1_et, en1_pw, en1_msgs, out0_eq]
  rfl

/-- The third launch's. -/
theorem out2_eq : W26 m c (Proc.devRef .tc main_v57)
    = Spec.outK (costA m c) (etA m c) (stepA m c (stepA m c (m ((c.tc : Thread nD τ).loc main_arg2)))) (pwA m c) := by
  rw [show W26 m c (Proc.devRef .tc main_v57) = (dat2 (En2 m) c).arrAt 4 cfg2.N from W26_arr m c 4, final2 (En2 m) c,
    en2_cost, en2_et, en2_pw, en2_msgs, out1_eq]
  rfl

/-- The result buffer after the whole program. -/
theorem result_eq : V35 m (outs m) c main_v88
    = tailT (costA m c) (stepA m c (stepA m c (stepA m c (m ((c.tc : Thread nD τ).loc main_arg2))))) := by
  rw [result_raw, out2_eq]
  rfl

/-- A step is the specification's: normalise at the sender, then move. -/
theorem stepA_eq (msgs : (⟨S1x4x128x256x32, .f32⟩ : BufTy).Contents (Elt Ideal)) :
    stepA m c msgs = Spec.stepK (costA m c) (Spec.eOfK (etA m c)) msgs (pwA m c) :=
  shift_outK _ _ _ _

end Cert.KernelIdeal.HostSide

end
-- ==== Proof.Ref.IterDefs.lean ====
import proofs.«134770_j15015205667393_2_alg».proof.Proof.RefOps
import Idealize.ShloMosaic.Lib.StableHlo.Run

/-! One iteration of the reference read as pure array terms, in small pieces: the belief `tot`; per direction the
message before the move `mpR`, the moved message `mvR` and the normalised one `nrR`; and their join. -/

set_option maxRecDepth 16384

noncomputable section

namespace Cert.ReferenceIdeal.RefIter

open Cert.ReferenceIdeal Cert.ReferenceIdeal.Gen
open Idealize.ShloMosaic Idealize.ShloMosaic.TcCoe Idealize.SL.Sem Idealize.ShloMosaic.StableHlo

variable {F : FTy → Type} [FloatOps F]

/-- The float zero the pads write: the integer zero converted. -/
def zeroR : (⟨S_, .f32⟩ : BufTy).Contents (Elt F) := sitofp .f32 (constantI S_ 32 0#32)

/-- The belief: the cost plus the sum of the four incoming messages. -/
def totR (c : (⟨S1x128x256x32, .f32⟩ : BufTy).Contents (Elt F)) (x : (⟨S1x4x128x256x32, .f32⟩ : BufTy).Contents (Elt F)) : (⟨S1x128x256x32, .f32⟩ : BufTy).Contents (Elt F) :=
  addf c (Host.reduceAdd x (constant S_ .f32 0x00000000#32) reducesTo_S1x4x128x256x32_S1x128x256x32_d1 h_S_)

/-- The message a sender computes, from the belief `tot`, the messages sliced at `ox` (the opposite direction), the
    edge weights sliced at `oe` and the pairwise table sliced at `op` (the direction): the minimum over the sender's
    label of (belief − incoming) + weight · pairwise cost. -/
def mpRg (ox : Fin 5 → ℕ) (hx : S1x4x128x256x32.Slices ox S1x1x128x256x32) (oe : Fin 4 → ℕ) (he : S1x4x128x256.Slices oe S1x1x128x256)
    (op : Fin 5 → ℕ) (hp : S4x128x256x32x32.Slices op S1x128x256x32x32)
    (tot : (⟨S1x128x256x32, .f32⟩ : BufTy).Contents (Elt F)) (x : (⟨S1x4x128x256x32, .f32⟩ : BufTy).Contents (Elt F)) (e : (⟨S1x4x128x256, .f32⟩ : BufTy).Contents (Elt F)) (p : (⟨S4x128x256x32x32, .f32⟩ : BufTy).Contents (Elt F)) : (⟨S1x128x256x32, .f32⟩ : BufTy).Contents (Elt F) :=
  Host.reduce FloatOps.minimumf
    (addf
      (broadcastInDim S1x128x256x32x32 ![0, 1, 2, 3, 4] bcast_S1x128x256x32x1_S1x128x256x32x32_0_1_2_3_4
        (broadcastInDim S1x128x256x32x1 ![0, 1, 2, 3] bcast_S1x128x256x32_S1x128x256x32x1_0_1_2_3
          (subf tot (shapeCast S1x128x256x32 (extractStridedSlice S1x1x128x256x32 ox x hx) shapeCasts_S1x1x128x256x32_S1x128x256x32))))
      (mulf
        (broadcastInDim S1x128x256x32x32 ![0, 1, 2, 3, 4] bcast_S1x128x256x1x1_S1x128x256x32x32_0_1_2_3_4
          (broadcastInDim S1x128x256x1x1 ![0, 1, 2] bcast_S1x128x256_S1x128x256x1x1_0_1_2
            (shapeCast S1x128x256 (extractStridedSlice S1x1x128x256 oe e he) shapeCasts_S1x1x128x256_S1x128x256)))
        (broadcastInDim S1x128x256x32x32 ![1, 2, 3, 4] bcast_S128x256x32x32_S1x128x256x32x32_1_2_3_4
          (shapeCast S128x256x32x32 (extractStridedSlice S1x128x256x32x32 op p hp) shapeCasts_S1x128x256x32x32_S128x256x32x32))))
    (constant S_ .f32 0x7F800000#32) reducesTo_S1x128x256x32x32_S1x128x256x32_d3 h_S_

/-- Direction 0. -/
def mpR0 (tot : (⟨S1x128x256x32, .f32⟩ : BufTy).Contents (Elt F)) (x : (⟨S1x4x128x256x32, .f32⟩ : BufTy).Contents (Elt F)) (e : (⟨S1x4x128x256, .f32⟩ : BufTy).Contents (Elt F)) (p : (⟨S4x128x256x32x32, .f32⟩ : BufTy).Contents (Elt F)) : (⟨S1x128x256x32, .f32⟩ : BufTy).Contents (Elt F) :=
  mpRg ![0, 1, 0, 0, 0] slices_S1x4x128x256x32_S1x1x128x256x32_0_1_0_0_0 ![0, 0, 0, 0] slices_S1x4x128x256_S1x1x128x256_0_0_0_0
    ![0, 0, 0, 0, 0] slices_S4x128x256x32x32_S1x128x256x32x32_0_0_0_0_0 tot x e p
/-- Direction 1. -/
def mpR1 (tot : (⟨S1x128x256x32, .f32⟩ : BufTy).Contents (Elt F)) (x : (⟨S1x4x128x256x32, .f32⟩ : BufTy).Contents (Elt F)) (e : (⟨S1x4x128x256, .f32⟩ : BufTy).Contents (Elt F)) (p : (⟨S4x128x256x32x32, .f32⟩ : BufTy).Contents (Elt F)) : (⟨S1x128x256x32, .f32⟩ : BufTy).Contents (Elt F) :=
  mpRg ![0, 0, 0, 0, 0] slices_S1x4x128x256x32_S1x1x128x256x32_0_0_0_0_0 ![0, 1, 0, 0] slices_S1x4x128x256_S1x1x128x256_0_1_0_0
    ![1, 0, 0, 0, 0] slices_S4x128x256x32x32_S1x128x256x32x32_1_0_0_0_0 tot x e p
/-- Direction 2. -/
def mpR2 (tot : (⟨S1x128x256x32, .f32⟩ : BufTy).Contents (Elt F)) (x : (⟨S1x4x128x256x32, .f32⟩ : BufTy).Contents (Elt F)) (e : (⟨S1x4x128x256, .f32⟩ : BufTy).Contents (Elt F)) (p : (⟨S4x128x256x32x32, .f32⟩ : BufTy).Contents (Elt F)) : (⟨S1x128x256x32, .f32⟩ : BufTy).Contents (Elt F) :=
  mpRg ![0, 3, 0, 0, 0] slices_S1x4x128x256x32_S1x1x128x256x32_0_3_0_0_0 ![0, 2, 0, 0] slices_S1x4x128x256_S1x1x128x256_0_2_0_0
    ![2, 0, 0, 0, 0] slices_S4x128x256x32x32_S1x128x256x32x32_2_0_0_0_0 tot x e p
/-- Direction 3. -/
def mpR3 (tot : (⟨S1x128x256x32, .f32⟩ : BufTy).Contents (Elt F)) (x : (⟨S1x4x128x256x32, .f32⟩ : BufTy).Contents (Elt F)) (e : (⟨S1x4x128x256, .f32⟩ : BufTy).Contents (Elt F)) (p : (⟨S4x128x256x32x32, .f32⟩ : BufTy).Contents (Elt F)) : (⟨S1x128x256x32, .f32⟩ : BufTy).Contents (Elt F) :=
  mpRg ![0, 2, 0, 0, 0] slices_S1x4x128x256x32_S1x1x128x256x32_0_2_0_0_0 ![0, 3, 0, 0] slices_S1x4x128x256_S1x1x128x256_0_3_0_0
    ![3, 0, 0, 0, 0] slices_S4x128x256x32x32_S1x128x256x32x32_3_0_0_0_0 tot x e p

/-- The message of direction 0 moved to the receiver pixels, zero on the border. -/
def mvR0 (y : (⟨S1x128x256x32, .f32⟩ : BufTy).Contents (Elt F)) : (⟨S1x128x256x32, .f32⟩ : BufTy).Contents (Elt F) :=
  pad S1x128x256x32 ![0, 0, 1, 0] ![0, 0, 0, 0] ![0, 0, 0, 0] (extractStridedSlice S1x128x255x32 ![0, 0, 0, 0] y slices_S1x128x256x32_S1x128x255x32_0_0_0_0) zeroR pads_S1x128x255x32_S1x128x256x32_000_000_100_000 h_S_
/-- The message of direction 1 moved to the receiver pixels, zero on the border. -/
def mvR1 (y : (⟨S1x128x256x32, .f32⟩ : BufTy).Contents (Elt F)) : (⟨S1x128x256x32, .f32⟩ : BufTy).Contents (Elt F) :=
  pad S1x128x256x32 ![0, 0, 0, 0] ![0, 0, 1, 0] ![0, 0, 0, 0] (extractStridedSlice S1x128x255x32 ![0, 0, 1, 0] y slices_S1x128x256x32_S1x128x255x32_0_0_1_0) zeroR pads_S1x128x255x32_S1x128x256x32_000_000_010_000 h_S_
/-- The message of direction 2 moved to the receiver pixels, zero on the border. -/
def mvR2 (y : (⟨S1x128x256x32, .f32⟩ : BufTy).Contents (Elt F)) : (⟨S1x128x256x32, .f32⟩ : BufTy).Contents (Elt F) :=
  pad S1x128x256x32 ![0, 1, 0, 0] ![0, 0, 0, 0] ![0, 0, 0, 0] (extractStridedSlice S1x127x256x32 ![0, 0, 0, 0] y slices_S1x128x256x32_S1x127x256x32_0_0_0_0) zeroR pads_S1x127x256x32_S1x128x256x32_000_100_000_000 h_S_
/-- The message of direction 3 moved to the receiver pixels, zero on the border. -/
def mvR3 (y : (⟨S1x128x256x32, .f32⟩ : BufTy).Contents (Elt F)) : (⟨S1x128x256x32, .f32⟩ : BufTy).Contents (Elt F) :=
  pad S1x128x256x32 ![0, 0, 0, 0] ![0, 1, 0, 0] ![0, 0, 0, 0] (extractStridedSlice S1x127x256x32 ![0, 1, 0, 0] y slices_S1x128x256x32_S1x127x256x32_0_1_0_0) zeroR pads_S1x127x256x32_S1x128x256x32_000_010_000_000 h_S_

/-- A plane normalised: its minimum over the labels subtracted. -/
def nrR (y : (⟨S1x128x256x32, .f32⟩ : BufTy).Contents (Elt F)) : (⟨S1x128x256x32, .f32⟩ : BufTy).Contents (Elt F) :=
  subf y (broadcastInDim S1x128x256x32 ![0, 1, 2, 3] bcast_S1x128x256x1_S1x128x256x32_0_1_2_3
    (broadcastInDim S1x128x256x1 ![0, 1, 2] bcast_S1x128x256_S1x128x256x1_0_1_2
      (Host.reduce FloatOps.minimumf y (constant S_ .f32 0x7F800000#32) reducesTo_S1x128x256x32_S1x128x256_d3 h_S_)))

/-- A plane laid as the one slab of a direction. -/
abbrev bcR (y : (⟨S1x128x256x32, .f32⟩ : BufTy).Contents (Elt F)) : (⟨S1x1x128x256x32, .f32⟩ : BufTy).Contents (Elt F) :=
  broadcastInDim S1x1x128x256x32 ![0, 2, 3, 4] bcast_S1x128x256x32_S1x1x128x256x32_0_2_3_4 y

/-- Four planes joined along the direction axis. -/
def joinR (a b c d : (⟨S1x128x256x32, .f32⟩ : BufTy).Contents (Elt F)) : (⟨S1x4x128x256x32, .f32⟩ : BufTy).Contents (Elt F) :=
  concatenate S1x4x128x256x32 1 [⟨S1x1x128x256x32, bcR a⟩, ⟨S1x1x128x256x32, bcR b⟩, ⟨S1x1x128x256x32, bcR c⟩, ⟨S1x1x128x256x32, bcR d⟩]
    concatenates_S1x1x128x256x32_S1x1x128x256x32_S1x1x128x256x32_S1x1x128x256x32_S1x4x128x256x32_d1

/-- One iteration: the new messages from the cost, the pairwise table, the edge weights and the messages. -/
def refIter (c : (⟨S1x128x256x32, .f32⟩ : BufTy).Contents (Elt F)) (p : (⟨S4x128x256x32x32, .f32⟩ : BufTy).Contents (Elt F)) (e : (⟨S1x4x128x256, .f32⟩ : BufTy).Contents (Elt F)) (x : (⟨S1x4x128x256x32, .f32⟩ : BufTy).Contents (Elt F)) : (⟨S1x4x128x256x32, .f32⟩ : BufTy).Contents (Elt F) :=
  joinR (nrR (mvR0 (mpR0 (totR c x) x e p))) (nrR (mvR1 (mpR1 (totR c x) x e p)))
    (nrR (mvR2 (mpR2 (totR c x) x e p))) (nrR (mvR3 (mpR3 (totR c x) x e p)))

end Cert.ReferenceIdeal.RefIter

end
-- ==== Proof.Ref.IterRead.lean ====
import proofs.«134770_j15015205667393_2_alg».proof.Proof.Ref.IterDefs
import proofs.«134770_j15015205667393_2_alg».proof.Proof.Spec
import Idealize.ShloMosaic.Lib.KernelVsHost
import Idealize.ShloMosaic.Lib.Pipeline.Value
import Idealize.ShloMosaic.Lib.ValueIdx
import Idealize.ShloMosaic.PureOps.Ideal.Laws
import Idealize.ShloMosaic.PureOps.Reduce

/-! The reference's iteration read at an index, at the ideal values: it is the specification's step that moves the
messages first and normalises them at the receiver. -/

set_option maxRecDepth 16384

noncomputable section

namespace Cert.ReferenceIdeal.RefIter

open Cert.ReferenceIdeal Cert.ReferenceIdeal.Gen
open Idealize.ShloMosaic Idealize.ShloMosaic.TcCoe Idealize.ShloMosaic.ValueIdx

/-- The pads' value is the real zero. -/
theorem zeroR_apply (i : S_.Idx) : zeroR (F := Ideal) i = 0 := sitofp_zero (φ := .f32)

/-- The source index of a minimum over the sender's label: the label inserted on axis 3. -/
theorem lift_label (hr : S1x128x256x32x32.Reduces [3] S1x128x256x32) (h : Fin 128) (w : Fin 256) (l l' : Fin 32) :
    hr.lift (ix4 (0 : Fin 1) h w l) l' = ix5 (0 : Fin 1) h w l' l := by
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The source index of a minimum over the labels of a plane: the label on axis 3. -/
theorem lift_last (hr : S1x128x256x32.Reduces [3] S1x128x256) (h : Fin 128) (w : Fin 256) (l' : Fin 32) :
    hr.lift (ix3 (0 : Fin 1) h w) l' = ix4 (0 : Fin 1) h w l' := by
  funext a
  match a with
  | ⟨0, _⟩ => exact Fin.ext rfl
  | ⟨1, _⟩ => exact Fin.ext rfl
  | ⟨2, _⟩ => exact Fin.ext rfl
  | ⟨3, _⟩ => exact Fin.ext rfl

/-- The belief at a pixel and label. -/
theorem totR_apply (c : (⟨S1x128x256x32, .f32⟩ : BufTy).Contents (Elt Ideal)) (x : (⟨S1x4x128x256x32, .f32⟩ : BufTy).Contents (Elt Ideal)) (h : Fin 128) (w : Fin 256) (l : Fin 32) :
    totR (F := Ideal) c x (ix4 0 h w l) = Spec.total c x h w l := by
  have hr : S1x4x128x256x32.Reduces [1] S1x128x256x32 := by decide
  unfold totR Spec.total
  refine congrArg (fun b : EReal => c (ix4 0 h w l) + b) ?_
  simp only [Host.reduceAdd, Ideal.hostReduceAdd_def]
  rw [Ideal.hostReduceAdd_single reducesTo_S1x4x128x256x32_S1x128x256x32_d1 hr]
  rw [show (constant (F := Ideal) S_ .f32 0x00000000#32) (Shape.Idx.first h_S_) = 0 from Ideal.ofBits_zero_f32, zero_add]
  refine Finset.sum_congr rfl fun k _ => congrArg x (funext fun a => Fin.ext ?_)
  match a with
  | ⟨0, _⟩ => rfl
  | ⟨1, _⟩ => rfl
  | ⟨2, _⟩ => rfl
  | ⟨3, _⟩ => rfl
  | ⟨4, _⟩ => rfl

/-- The message before the move, at a sender pixel and receiver label: the minimum over the sender's label. -/
theorem mpRg_apply (dx de dp : ℕ) (hdx : dx < 4) (hde : de < 4) (hdp : dp < 4)
    (hx : S1x4x128x256x32.Slices ![0, dx, 0, 0, 0] S1x1x128x256x32) (he : S1x4x128x256.Slices ![0, de, 0, 0] S1x1x128x256)
    (hp : S4x128x256x32x32.Slices ![dp, 0, 0, 0, 0] S1x128x256x32x32)
    (tot : (⟨S1x128x256x32, .f32⟩ : BufTy).Contents (Elt Ideal)) (x : (⟨S1x4x128x256x32, .f32⟩ : BufTy).Contents (Elt Ideal)) (e : (⟨S1x4x128x256, .f32⟩ : BufTy).Contents (Elt Ideal)) (p : (⟨S4x128x256x32x32, .f32⟩ : BufTy).Contents (Elt Ideal)) (h : Fin 128) (w : Fin 256) (l : Fin 32) :
    mpRg ![0, dx, 0, 0, 0] hx ![0, de, 0, 0] he ![dp, 0, 0, 0, 0] hp tot x e p (ix4 0 h w l)
      = Spec.min32 fun l' => (tot (ix4 0 h w l') - x (ix5 0 (⟨dx, hdx⟩ : Fin 4) h w l')) + e (ix4 0 (⟨de, hde⟩ : Fin 4) h w) * p (ix5 (⟨dp, hdp⟩ : Fin 4) h w l' l) := by
  have hr : S1x128x256x32x32.Reduces [3] S1x128x256x32 := by decide
  unfold mpRg Spec.min32
  rw [Host.reduce_eq_fold_single _ _ _ reducesTo_S1x128x256x32x32_S1x128x256x32_d3 hr h_S_]
  show (Finset.univ : Finset (Fin 32)).fold min Spec.inf32 _ = _
  refine Finset.fold_congr (fun l' _ => ?_)
  show _ = (tot (ix4 0 h w l') - x (ix5 0 (⟨dx, hdx⟩ : Fin 4) h w l')) + e (ix4 0 (⟨de, hde⟩ : Fin 4) h w) * p (ix5 (⟨dp, hdp⟩ : Fin 4) h w l' l)
  refine congrArg₂ (fun a b : EReal => a + b) ?_ (congrArg₂ (fun a b : EReal => a * b) ?_ ?_)
  · -- the belief less the incoming message, laid along the receiver's label
    refine (broadcastInDim_apply ![0, 1, 2, 3, 4] bcast_S1x128x256x32x1_S1x128x256x32x32_0_1_2_3_4 _ _ (ix5 (0 : Fin 1) h w l' (0 : Fin 1)) (fun a => match a with
      | ⟨0, _⟩ => rfl | ⟨1, _⟩ => rfl | ⟨2, _⟩ => rfl | ⟨3, _⟩ => rfl | ⟨4, _⟩ => rfl)).trans ?_
    refine (broadcastInDim_apply ![0, 1, 2, 3] bcast_S1x128x256x32_S1x128x256x32x1_0_1_2_3 _ _ (ix4 (0 : Fin 1) h w l') (fun a => match a with
      | ⟨0, _⟩ => rfl | ⟨1, _⟩ => rfl | ⟨2, _⟩ => rfl | ⟨3, _⟩ => rfl)).trans ?_
    refine congrArg (fun b : EReal => tot (ix4 0 h w l') - b) ?_
    refine (shapeCast_apply _ shapeCasts_S1x1x128x256x32_S1x128x256x32 (ix4 (0 : Fin 1) h w l') (ix5 (0 : Fin 1) (0 : Fin 1) h w l') (by
      rewrite [Shape.rowMajor_val_five, Shape.rowMajor_val_four]; rfl)).trans ?_
    exact extractStridedSlice_apply ![0, dx, 0, 0, 0] x hx _ (ix5 (0 : Fin 1) (⟨dx, hdx⟩ : Fin 4) h w l') (fun a => match a with
      | ⟨0, _⟩ => rfl
      | ⟨1, _⟩ => by show dx = dx + 0; omega
      | ⟨2, _⟩ => by show h.val = 0 + h.val; omega
      | ⟨3, _⟩ => by show w.val = 0 + w.val; omega
      | ⟨4, _⟩ => by show l'.val = 0 + l'.val; omega)
  · -- the edge weight of the pixel, laid along both labels
    refine (broadcastInDim_apply ![0, 1, 2, 3, 4] bcast_S1x128x256x1x1_S1x128x256x32x32_0_1_2_3_4 _ _ (ix5 (0 : Fin 1) h w (0 : Fin 1) (0 : Fin 1)) (fun a => match a with
      | ⟨0, _⟩ => rfl | ⟨1, _⟩ => rfl | ⟨2, _⟩ => rfl | ⟨3, _⟩ => rfl | ⟨4, _⟩ => rfl)).trans ?_
    refine (broadcastInDim_apply ![0, 1, 2] bcast_S1x128x256_S1x128x256x1x1_0_1_2 _ _ (ix3 (0 : Fin 1) h w) (fun a => match a with
      | ⟨0, _⟩ => rfl | ⟨1, _⟩ => rfl | ⟨2, _⟩ => rfl)).trans ?_
    refine (shapeCast_apply _ shapeCasts_S1x1x128x256_S1x128x256 (ix3 (0 : Fin 1) h w) (ix4 (0 : Fin 1) (0 : Fin 1) h w) (by
      rewrite [Shape.rowMajor_val_four, Shape.rowMajor_val_three]; rfl)).trans ?_
    exact extractStridedSlice_apply ![0, de, 0, 0] e he _ (ix4 (0 : Fin 1) (⟨de, hde⟩ : Fin 4) h w) (fun a => match a with
      | ⟨0, _⟩ => rfl
      | ⟨1, _⟩ => by show de = de + 0; omega
      | ⟨2, _⟩ => by show h.val = 0 + h.val; omega
      | ⟨3, _⟩ => by show w.val = 0 + w.val; omega)
  · -- the pairwise cost of the direction
    refine (broadcastInDim_apply ![1, 2, 3, 4] bcast_S128x256x32x32_S1x128x256x32x32_1_2_3_4 _ _ (ix4 h w l' l) (fun a => match a with
      | ⟨0, _⟩ => rfl | ⟨1, _⟩ => rfl | ⟨2, _⟩ => rfl | ⟨3, _⟩ => rfl)).trans ?_
    refine (shapeCast_apply _ shapeCasts_S1x128x256x32x32_S128x256x32x32 (ix4 h w l' l) (ix5 (0 : Fin 1) h w l' l) (by
      rewrite [Shape.rowMajor_val_five, Shape.rowMajor_val_four]
      show ((((0 * 128 + h.val) * 256 + w.val) * 32 + l'.val) * 32 + l.val) = ((h.val * 256 + w.val) * 32 + l'.val) * 32 + l.val
      omega)).trans ?_
    exact extractStridedSlice_apply ![dp, 0, 0, 0, 0] p hp _ (ix5 (⟨dp, hdp⟩ : Fin 4) h w l' l) (fun a => match a with
      | ⟨0, _⟩ => by show dp = dp + 0; omega
      | ⟨1, _⟩ => by show h.val = 0 + h.val; omega
      | ⟨2, _⟩ => by show w.val = 0 + w.val; omega
      | ⟨3, _⟩ => by show l'.val = 0 + l'.val; omega
      | ⟨4, _⟩ => by show l.val = 0 + l.val; omega)

/-- A plane normalised, at an index: its value less its minimum over the labels. -/
theorem nrR_apply (y : (⟨S1x128x256x32, .f32⟩ : BufTy).Contents (Elt Ideal)) (h : Fin 128) (w : Fin 256) (l : Fin 32) :
    nrR (F := Ideal) y (ix4 0 h w l) = y (ix4 0 h w l) - Spec.min32 fun l' => y (ix4 0 h w l') := by
  unfold nrR Spec.min32
  refine congrArg (fun b : EReal => y (ix4 0 h w l) - b) ?_
  refine (broadcastInDim_apply ![0, 1, 2, 3] bcast_S1x128x256x1_S1x128x256x32_0_1_2_3 _ _ (ix4 (0 : Fin 1) h w (0 : Fin 1)) (fun a => match a with
    | ⟨0, _⟩ => rfl | ⟨1, _⟩ => rfl | ⟨2, _⟩ => rfl | ⟨3, _⟩ => rfl)).trans ?_
  refine (broadcastInDim_apply ![0, 1, 2] bcast_S1x128x256_S1x128x256x1_0_1_2 _ _ (ix3 (0 : Fin 1) h w) (fun a => match a with
    | ⟨0, _⟩ => rfl | ⟨1, _⟩ => rfl | ⟨2, _⟩ => rfl)).trans ?_
  have hr : S1x128x256x32.Reduces [3] S1x128x256 := by decide
  rw [Host.reduce_eq_fold_single _ _ _ reducesTo_S1x128x256x32_S1x128x256_d3 hr h_S_]
  show (Finset.univ : Finset (Fin 32)).fold min Spec.inf32 _ = _
  refine Finset.fold_congr (fun l' _ => ?_)
  exact congrArg y (lift_last hr h w l')

theorem mpR0_apply (tot : (⟨S1x128x256x32, .f32⟩ : BufTy).Contents (Elt Ideal)) (x : (⟨S1x4x128x256x32, .f32⟩ : BufTy).Contents (Elt Ideal)) (e : (⟨S1x4x128x256, .f32⟩ : BufTy).Contents (Elt Ideal)) (p : (⟨S4x128x256x32x32, .f32⟩ : BufTy).Contents (Elt Ideal)) (h : Fin 128) (w : Fin 256) (l : Fin 32) :
    mpR0 (F := Ideal) tot x e p (ix4 0 h w l)
      = Spec.min32 fun l' => (tot (ix4 0 h w l') - x (ix5 0 (Spec.opp 0) h w l')) + e (ix4 0 (0 : Fin 4) h w) * p (ix5 (0 : Fin 4) h w l' l) :=
  mpRg_apply 1 0 0 (by decide) (by decide) (by decide) _ _ _ tot x e p h w l

theorem mpR1_apply (tot : (⟨S1x128x256x32, .f32⟩ : BufTy).Contents (Elt Ideal)) (x : (⟨S1x4x128x256x32, .f32⟩ : BufTy).Contents (Elt Ideal)) (e : (⟨S1x4x128x256, .f32⟩ : BufTy).Contents (Elt Ideal)) (p : (⟨S4x128x256x32x32, .f32⟩ : BufTy).Contents (Elt Ideal)) (h : Fin 128) (w : Fin 256) (l : Fin 32) :
    mpR1 (F := Ideal) tot x e p (ix4 0 h w l)
      = Spec.min32 fun l' => (tot (ix4 0 h w l') - x (ix5 0 (Spec.opp 1) h w l')) + e (ix4 0 (1 : Fin 4) h w) * p (ix5 (1 : Fin 4) h w l' l) :=
  mpRg_apply 0 1 1 (by decide) (by decide) (by decide) _ _ _ tot x e p h w l

theorem mpR2_apply (tot : (⟨S1x128x256x32, .f32⟩ : BufTy).Contents (Elt Ideal)) (x : (⟨S1x4x128x256x32, .f32⟩ : BufTy).Contents (Elt Ideal)) (e : (⟨S1x4x128x256, .f32⟩ : BufTy).Contents (Elt Ideal)) (p : (⟨S4x128x256x32x32, .f32⟩ : BufTy).Contents (Elt Ideal)) (h : Fin 128) (w : Fin 256) (l : Fin 32) :
    mpR2 (F := Ideal) tot x e p (ix4 0 h w l)
      = Spec.min32 fun l' => (tot (ix4 0 h w l') - x (ix5 0 (Spec.opp 2) h w l')) + e (ix4 0 (2 : Fin 4) h w) * p (ix5 (2 : Fin 4) h w l' l) :=
  mpRg_apply 3 2 2 (by decide) (by decide) (by decide) _ _ _ tot x e p h w l

theorem mpR3_apply (tot : (⟨S1x128x256x32, .f32⟩ : BufTy).Contents (Elt Ideal)) (x : (⟨S1x4x128x256x32, .f32⟩ : BufTy).Contents (Elt Ideal)) (e : (⟨S1x4x128x256, .f32⟩ : BufTy).Contents (Elt Ideal)) (p : (⟨S4x128x256x32x32, .f32⟩ : BufTy).Contents (Elt Ideal)) (h : Fin 128) (w : Fin 256) (l : Fin 32) :
    mpR3 (F := Ideal) tot x e p (ix4 0 h w l)
      = Spec.min32 fun l' => (tot (ix4 0 h w l') - x (ix5 0 (Spec.opp 3) h w l')) + e (ix4 0 (3 : Fin 4) h w) * p (ix5 (3 : Fin 4) h w l' l) :=
  mpRg_apply 2 3 3 (by decide) (by decide) (by decide) _ _ _ tot x e p h w l

/-- Direction 0: the moved plane at a receiver pixel — the plane at the sender pixel, zero on the border. -/
theorem mvR0_apply (y : (⟨S1x128x256x32, .f32⟩ : BufTy).Contents (Elt Ideal)) (h : Fin 128) (w : Fin 256) (l : Fin 32) :
    mvR0 (F := Ideal) y (ix4 0 h w l) = Spec.moved (fun _ h w l => y (ix4 0 h w l)) 0 h w l := by
  have hh := h.isLt; have hw := w.isLt
  unfold mvR0 Spec.moved
  by_cases hb : w.val = 0
  · rw [if_pos (show Spec.onBorder 0 h w from hb)]
    refine (pad_apply_of_not_inside (s := S1x128x255x32) (t := S1x128x256x32) ![0, 0, 1, 0] ![0, 0, 0, 0] ![0, 0, 0, 0] _ _ pads_S1x128x255x32_S1x128x256x32_000_000_100_000 h_S_ (ix4 (0 : Fin 1) h w l) (⟨2, by decide⟩ : Fin 4) ?_).trans (zeroR_apply _)
    intro hin
    have h1 := hin.1; have h3 := hin.2.2
    change _ ≤ w.val at h1; change (w.val - _) / _ < _ at h3
    simp at h1 h3
    omega
  · rw [if_neg (show ¬ Spec.onBorder 0 h w from hb)]
    refine (pad_apply_of_inside ![0, 0, 1, 0] ![0, 0, 0, 0] ![0, 0, 0, 0] _ _ pads_S1x128x255x32_S1x128x256x32_000_000_100_000 h_S_ (ix4 0 h w l)
      (ix4 (0 : Fin 1) (h : Fin 128) (⟨w.val - 1, by omega⟩ : Fin 255) l) (fun a => match a with
        | ⟨0, _⟩ => rfl
        | ⟨1, _⟩ => by show h.val = 0 + h.val * (0 + 1); omega
        | ⟨2, _⟩ => by show w.val = 1 + (w.val - 1) * (0 + 1); omega
        | ⟨3, _⟩ => by show l.val = 0 + l.val * (0 + 1); omega)).trans ?_
    exact extractStridedSlice_apply ![0, 0, 0, 0] y slices_S1x128x256x32_S1x128x255x32_0_0_0_0 _
      (ix4 (0 : Fin 1) (h : Fin 128) (⟨w.val - 1, by omega⟩ : Fin 256) l) (fun a => match a with
        | ⟨0, _⟩ => rfl
        | ⟨1, _⟩ => by show h.val = 0 + h.val; omega
        | ⟨2, _⟩ => by show w.val - 1 = 0 + (w.val - 1); omega
        | ⟨3, _⟩ => by show l.val = 0 + l.val; omega)

/-- Direction 1: the moved plane at a receiver pixel — the plane at the sender pixel, zero on the border. -/
theorem mvR1_apply (y : (⟨S1x128x256x32, .f32⟩ : BufTy).Contents (Elt Ideal)) (h : Fin 128) (w : Fin 256) (l : Fin 32) :
    mvR1 (F := Ideal) y (ix4 0 h w l) = Spec.moved (fun _ h w l => y (ix4 0 h w l)) 1 h w l := by
  have hh := h.isLt; have hw := w.isLt
  unfold mvR1 Spec.moved
  by_cases hb : w.val = 255
  · rw [if_pos (show Spec.onBorder 1 h w from hb)]
    refine (pad_apply_of_not_inside (s := S1x128x255x32) (t := S1x128x256x32) ![0, 0, 0, 0] ![0, 0, 1, 0] ![0, 0, 0, 0] _ _ pads_S1x128x255x32_S1x128x256x32_000_000_010_000 h_S_ (ix4 (0 : Fin 1) h w l) (⟨2, by decide⟩ : Fin 4) ?_).trans (zeroR_apply _)
    intro hin
    have h1 := hin.1; have h3 := hin.2.2
    change _ ≤ w.val at h1; change (w.val - _) / _ < _ at h3
    simp at h1 h3
    omega
  · rw [if_neg (show ¬ Spec.onBorder 1 h w from hb)]
    refine (pad_apply_of_inside ![0, 0, 0, 0] ![0, 0, 1, 0] ![0, 0, 0, 0] _ _ pads_S1x128x255x32_S1x128x256x32_000_000_010_000 h_S_ (ix4 0 h w l)
      (ix4 (0 : Fin 1) (h : Fin 128) (⟨w.val, by omega⟩ : Fin 255) l) (fun a => match a with
        | ⟨0, _⟩ => rfl
        | ⟨1, _⟩ => by show h.val = 0 + h.val * (0 + 1); omega
        | ⟨2, _⟩ => by show w.val = 0 + w.val * (0 + 1); omega
        | ⟨3, _⟩ => by show l.val = 0 + l.val * (0 + 1); omega)).trans ?_
    exact extractStridedSlice_apply ![0, 0, 1, 0] y slices_S1x128x256x32_S1x128x255x32_0_0_1_0 _
      (ix4 (0 : Fin 1) (h : Fin 128) (⟨(w.val + 1) % 256, Nat.mod_lt _ (by norm_num)⟩ : Fin 256) l) (fun a => match a with
        | ⟨0, _⟩ => rfl
        | ⟨1, _⟩ => by show h.val = 0 + h.val; omega
        | ⟨2, _⟩ => by show (w.val + 1) % 256 = 1 + w.val; omega
        | ⟨3, _⟩ => by show l.val = 0 + l.val; omega)

/-- Direction 2: the moved plane at a receiver pixel — the plane at the sender pixel, zero on the border. -/
theorem mvR2_apply (y : (⟨S1x128x256x32, .f32⟩ : BufTy).Contents (Elt Ideal)) (h : Fin 128) (w : Fin 256) (l : Fin 32) :
    mvR2 (F := Ideal) y (ix4 0 h w l) = Spec.moved (fun _ h w l => y (ix4 0 h w l)) 2 h w l := by
  have hh := h.isLt; have hw := w.isLt
  unfold mvR2 Spec.moved
  by_cases hb : h.val = 0
  · rw [if_pos (show Spec.onBorder 2 h w from hb)]
    refine (pad_apply_of_not_inside (s := S1x127x256x32) (t := S1x128x256x32) ![0, 1, 0, 0] ![0, 0, 0, 0] ![0, 0, 0, 0] _ _ pads_S1x127x256x32_S1x128x256x32_000_100_000_000 h_S_ (ix4 (0 : Fin 1) h w l) (⟨1, by decide⟩ : Fin 4) ?_).trans (zeroR_apply _)
    intro hin
    have h1 := hin.1; have h3 := hin.2.2
    change _ ≤ h.val at h1; change (h.val - _) / _ < _ at h3
    simp at h1 h3
    omega
  · rw [if_neg (show ¬ Spec.onBorder 2 h w from hb)]
    refine (pad_apply_of_inside ![0, 1, 0, 0] ![0, 0, 0, 0] ![0, 0, 0, 0] _ _ pads_S1x127x256x32_S1x128x256x32_000_100_000_000 h_S_ (ix4 0 h w l)
      (ix4 (0 : Fin 1) (⟨h.val - 1, by omega⟩ : Fin 127) (w : Fin 256) l) (fun a => match a with
        | ⟨0, _⟩ => rfl
        | ⟨1, _⟩ => by show h.val = 1 + (h.val - 1) * (0 + 1); omega
        | ⟨2, _⟩ => by show w.val = 0 + w.val * (0 + 1); omega
        | ⟨3, _⟩ => by show l.val = 0 + l.val * (0 + 1); omega)).trans ?_
    exact extractStridedSlice_apply ![0, 0, 0, 0] y slices_S1x128x256x32_S1x127x256x32_0_0_0_0 _
      (ix4 (0 : Fin 1) (⟨h.val - 1, by omega⟩ : Fin 128) (w : Fin 256) l) (fun a => match a with
        | ⟨0, _⟩ => rfl
        | ⟨1, _⟩ => by show h.val - 1 = 0 + (h.val - 1); omega
        | ⟨2, _⟩ => by show w.val = 0 + w.val; omega
        | ⟨3, _⟩ => by show l.val = 0 + l.val; omega)

/-- Direction 3: the moved plane at a receiver pixel — the plane at the sender pixel, zero on the border. -/
theorem mvR3_apply (y : (⟨S1x128x256x32, .f32⟩ : BufTy).Contents (Elt Ideal)) (h : Fin 128) (w : Fin 256) (l : Fin 32) :
    mvR3 (F := Ideal) y (ix4 0 h w l) = Spec.moved (fun _ h w l => y (ix4 0 h w l)) 3 h w l := by
  have hh := h.isLt; have hw := w.isLt
  unfold mvR3 Spec.moved
  by_cases hb : h.val = 127
  · rw [if_pos (show Spec.onBorder 3 h w from hb)]
    refine (pad_apply_of_not_inside (s := S1x127x256x32) (t := S1x128x256x32) ![0, 0, 0, 0] ![0, 1, 0, 0] ![0, 0, 0, 0] _ _ pads_S1x127x256x32_S1x128x256x32_000_010_000_000 h_S_ (ix4 (0 : Fin 1) h w l) (⟨1, by decide⟩ : Fin 4) ?_).trans (zeroR_apply _)
    intro hin
    have h1 := hin.1; have h3 := hin.2.2
    change _ ≤ h.val at h1; change (h.val - _) / _ < _ at h3
    simp at h1 h3
    omega
  · rw [if_neg (show ¬ Spec.onBorder 3 h w from hb)]
    refine (pad_apply_of_inside ![0, 0, 0, 0] ![0, 1, 0, 0] ![0, 0, 0, 0] _ _ pads_S1x127x256x32_S1x128x256x32_000_010_000_000 h_S_ (ix4 0 h w l)
      (ix4 (0 : Fin 1) (⟨h.val, by omega⟩ : Fin 127) (w : Fin 256) l) (fun a => match a with
        | ⟨0, _⟩ => rfl
        | ⟨1, _⟩ => by show h.val = 0 + h.val * (0 + 1); omega
        | ⟨2, _⟩ => by show w.val = 0 + w.val * (0 + 1); omega
        | ⟨3, _⟩ => by show l.val = 0 + l.val * (0 + 1); omega)).trans ?_
    exact extractStridedSlice_apply ![0, 1, 0, 0] y slices_S1x128x256x32_S1x127x256x32_0_1_0_0 _
      (ix4 (0 : Fin 1) (⟨(h.val + 1) % 128, Nat.mod_lt _ (by norm_num)⟩ : Fin 128) (w : Fin 256) l) (fun a => match a with
        | ⟨0, _⟩ => rfl
        | ⟨1, _⟩ => by show (h.val + 1) % 128 = 1 + h.val; omega
        | ⟨2, _⟩ => by show w.val = 0 + w.val; omega
        | ⟨3, _⟩ => by show l.val = 0 + l.val; omega)

theorem refIter_apply0 (c : (⟨S1x128x256x32, .f32⟩ : BufTy).Contents (Elt Ideal)) (p : (⟨S4x128x256x32x32, .f32⟩ : BufTy).Contents (Elt Ideal)) (e : (⟨S1x4x128x256, .f32⟩ : BufTy).Contents (Elt Ideal)) (x : (⟨S1x4x128x256x32, .f32⟩ : BufTy).Contents (Elt Ideal)) (h : Fin 128) (w : Fin 256) (l : Fin 32) :
    refIter (F := Ideal) c p e x (ix5 0 0 h w l) = Spec.stepR c (Spec.eOfR e) x p (ix5 0 0 h w l) := by
  unfold refIter joinR
  refine (concatenate_apply_piece (t := S1x4x128x256x32) 1 _ _ (ix5 (0 : Fin 1) (0 : Fin 4) h w l) 0 (by simp) S1x1x128x256x32 (bcR (nrR (mvR0 (mpR0 (totR c x) x e p)))) rfl rfl 0 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 _ _ (ix4 (0 : Fin 1) h w l) (fun a => match a with
      | ⟨0, _⟩ => rfl
      | ⟨1, _⟩ => rfl
      | ⟨2, _⟩ => rfl
      | ⟨3, _⟩ => rfl)).trans ?_
  rw [nrR_apply]
  unfold Spec.stepR
  have hm : ∀ l₁ : Fin 32, mvR0 (F := Ideal) (mpR0 (totR c x) x e p) (ix4 0 h w l₁) = Spec.moved (Spec.mp c (Spec.eOfR e) x p) 0 h w l₁ := by
    intro l₁
    rw [mvR0_apply]
    unfold Spec.moved
    by_cases hb : Spec.onBorder 0 h w
    · rw [if_pos hb, if_pos hb]
    · rw [if_neg hb, if_neg hb]
      beta_reduce
      rw [mpR0_apply]
      unfold Spec.mp Spec.eOfR
      refine congrArg Spec.min32 (funext fun l' => ?_)
      rw [totR_apply]
  show _ - _ = Spec.moved (Spec.mp c (Spec.eOfR e) x p) 0 h w l - Spec.min32 fun l' => Spec.moved (Spec.mp c (Spec.eOfR e) x p) 0 h w l'
  rw [hm l]
  refine congrArg (fun b : EReal => _ - b) (congrArg Spec.min32 (funext fun l' => hm l'))

theorem refIter_apply1 (c : (⟨S1x128x256x32, .f32⟩ : BufTy).Contents (Elt Ideal)) (p : (⟨S4x128x256x32x32, .f32⟩ : BufTy).Contents (Elt Ideal)) (e : (⟨S1x4x128x256, .f32⟩ : BufTy).Contents (Elt Ideal)) (x : (⟨S1x4x128x256x32, .f32⟩ : BufTy).Contents (Elt Ideal)) (h : Fin 128) (w : Fin 256) (l : Fin 32) :
    refIter (F := Ideal) c p e x (ix5 0 1 h w l) = Spec.stepR c (Spec.eOfR e) x p (ix5 0 1 h w l) := by
  unfold refIter joinR
  refine (concatenate_apply_piece (t := S1x4x128x256x32) 1 _ _ (ix5 (0 : Fin 1) (1 : Fin 4) h w l) 1 (by simp) S1x1x128x256x32 (bcR (nrR (mvR1 (mpR1 (totR c x) x e p)))) rfl rfl 1 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 _ _ (ix4 (0 : Fin 1) h w l) (fun a => match a with
      | ⟨0, _⟩ => rfl
      | ⟨1, _⟩ => rfl
      | ⟨2, _⟩ => rfl
      | ⟨3, _⟩ => rfl)).trans ?_
  rw [nrR_apply]
  unfold Spec.stepR
  have hm : ∀ l₁ : Fin 32, mvR1 (F := Ideal) (mpR1 (totR c x) x e p) (ix4 0 h w l₁) = Spec.moved (Spec.mp c (Spec.eOfR e) x p) 1 h w l₁ := by
    intro l₁
    rw [mvR1_apply]
    unfold Spec.moved
    by_cases hb : Spec.onBorder 1 h w
    · rw [if_pos hb, if_pos hb]
    · rw [if_neg hb, if_neg hb]
      beta_reduce
      rw [mpR1_apply]
      unfold Spec.mp Spec.eOfR
      refine congrArg Spec.min32 (funext fun l' => ?_)
      rw [totR_apply]
  show _ - _ = Spec.moved (Spec.mp c (Spec.eOfR e) x p) 1 h w l - Spec.min32 fun l' => Spec.moved (Spec.mp c (Spec.eOfR e) x p) 1 h w l'
  rw [hm l]
  refine congrArg (fun b : EReal => _ - b) (congrArg Spec.min32 (funext fun l' => hm l'))

theorem refIter_apply2 (c : (⟨S1x128x256x32, .f32⟩ : BufTy).Contents (Elt Ideal)) (p : (⟨S4x128x256x32x32, .f32⟩ : BufTy).Contents (Elt Ideal)) (e : (⟨S1x4x128x256, .f32⟩ : BufTy).Contents (Elt Ideal)) (x : (⟨S1x4x128x256x32, .f32⟩ : BufTy).Contents (Elt Ideal)) (h : Fin 128) (w : Fin 256) (l : Fin 32) :
    refIter (F := Ideal) c p e x (ix5 0 2 h w l) = Spec.stepR c (Spec.eOfR e) x p (ix5 0 2 h w l) := by
  unfold refIter joinR
  refine (concatenate_apply_piece (t := S1x4x128x256x32) 1 _ _ (ix5 (0 : Fin 1) (2 : Fin 4) h w l) 2 (by simp) S1x1x128x256x32 (bcR (nrR (mvR2 (mpR2 (totR c x) x e p)))) rfl rfl 2 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 _ _ (ix4 (0 : Fin 1) h w l) (fun a => match a with
      | ⟨0, _⟩ => rfl
      | ⟨1, _⟩ => rfl
      | ⟨2, _⟩ => rfl
      | ⟨3, _⟩ => rfl)).trans ?_
  rw [nrR_apply]
  unfold Spec.stepR
  have hm : ∀ l₁ : Fin 32, mvR2 (F := Ideal) (mpR2 (totR c x) x e p) (ix4 0 h w l₁) = Spec.moved (Spec.mp c (Spec.eOfR e) x p) 2 h w l₁ := by
    intro l₁
    rw [mvR2_apply]
    unfold Spec.moved
    by_cases hb : Spec.onBorder 2 h w
    · rw [if_pos hb, if_pos hb]
    · rw [if_neg hb, if_neg hb]
      beta_reduce
      rw [mpR2_apply]
      unfold Spec.mp Spec.eOfR
      refine congrArg Spec.min32 (funext fun l' => ?_)
      rw [totR_apply]
  show _ - _ = Spec.moved (Spec.mp c (Spec.eOfR e) x p) 2 h w l - Spec.min32 fun l' => Spec.moved (Spec.mp c (Spec.eOfR e) x p) 2 h w l'
  rw [hm l]
  refine congrArg (fun b : EReal => _ - b) (congrArg Spec.min32 (funext fun l' => hm l'))

theorem refIter_apply3 (c : (⟨S1x128x256x32, .f32⟩ : BufTy).Contents (Elt Ideal)) (p : (⟨S4x128x256x32x32, .f32⟩ : BufTy).Contents (Elt Ideal)) (e : (⟨S1x4x128x256, .f32⟩ : BufTy).Contents (Elt Ideal)) (x : (⟨S1x4x128x256x32, .f32⟩ : BufTy).Contents (Elt Ideal)) (h : Fin 128) (w : Fin 256) (l : Fin 32) :
    refIter (F := Ideal) c p e x (ix5 0 3 h w l) = Spec.stepR c (Spec.eOfR e) x p (ix5 0 3 h w l) := by
  unfold refIter joinR
  refine (concatenate_apply_piece (t := S1x4x128x256x32) 1 _ _ (ix5 (0 : Fin 1) (3 : Fin 4) h w l) 3 (by simp) S1x1x128x256x32 (bcR (nrR (mvR3 (mpR3 (totR c x) x e p)))) rfl rfl 3 (by rfl)
    (ix5 (0 : Fin 1) (0 : Fin 1) h w l) (fun b hb => match b, hb with
      | ⟨0, _⟩, _ => rfl
      | ⟨1, _⟩, hb => absurd rfl hb
      | ⟨2, _⟩, _ => rfl
      | ⟨3, _⟩, _ => rfl
      | ⟨4, _⟩, _ => rfl) rfl).trans ?_
  refine (broadcastInDim_apply ![0, 2, 3, 4] bcast_S1x128x256x32_S1x1x128x256x32_0_2_3_4 _ _ (ix4 (0 : Fin 1) h w l) (fun a => match a with
      | ⟨0, _⟩ => rfl
      | ⟨1, _⟩ => rfl
      | ⟨2, _⟩ => rfl
      | ⟨3, _⟩ => rfl)).trans ?_
  rw [nrR_apply]
  unfold Spec.stepR
  have hm : ∀ l₁ : Fin 32, mvR3 (F := Ideal) (mpR3 (totR c x) x e p) (ix4 0 h w l₁) = Spec.moved (Spec.mp c (Spec.eOfR e) x p) 3 h w l₁ := by
    intro l₁
    rw [mvR3_apply]
    unfold Spec.moved
    by_cases hb : Spec.onBorder 3 h w
    · rw [if_pos hb, if_pos hb]
    · rw [if_neg hb, if_neg hb]
      beta_reduce
      rw [mpR3_apply]
      unfold Spec.mp Spec.eOfR
      refine congrArg Spec.min32 (funext fun l' => ?_)
      rw [totR_apply]
  show _ - _ = Spec.moved (Spec.mp c (Spec.eOfR e) x p) 3 h w l - Spec.min32 fun l' => Spec.moved (Spec.mp c (Spec.eOfR e) x p) 3 h w l'
  rw [hm l]
  refine congrArg (fun b : EReal => _ - b) (congrArg Spec.min32 (funext fun l' => hm l'))

/-- The reference's iteration is the specification's move-then-normalise step. -/
theorem refIter_eq_stepR (c : (⟨S1x128x256x32, .f32⟩ : BufTy).Contents (Elt Ideal)) (p : (⟨S4x128x256x32x32, .f32⟩ : BufTy).Contents (Elt Ideal)) (e : (⟨S1x4x128x256, .f32⟩ : BufTy).Contents (Elt Ideal)) (x : (⟨S1x4x128x256x32, .f32⟩ : BufTy).Contents (Elt Ideal)) :
    refIter (F := Ideal) c p e x = Spec.stepR c (Spec.eOfR e) x p := by
  funext i
  obtain ⟨z, d, h, w, l, rfl⟩ : ∃ (z : Fin 1) (d : Fin 4) (h : Fin 128) (w : Fin 256) (l : Fin 32), i = ix5 z d h w l :=
    ⟨i 0, i 1, i 2, i 3, i 4, eq_ix5 i⟩
  obtain rfl : z = 0 := Subsingleton.elim _ _
  fin_cases d
  · exact refIter_apply0 c p e x h w l
  · exact refIter_apply1 c p e x h w l
  · exact refIter_apply2 c p e x h w l
  · exact refIter_apply3 c p e x h w l

end Cert.ReferenceIdeal.RefIter

end
-- ==== Proof.Ref.Run.lean ====
import proofs.«134770_j15015205667393_2_alg».proof.Proof.RefOps

/-! The reference program's run with its result kept FOLDED: every weakly fair execution of @main terminates with
    the result buffer at the fold of the 366 operations' results over the launch contents (`StableHlo.after`), and the
    four argument buffers unchanged. Nothing here spells the result's composed term. The program's list of operations
    is the concatenation of five literal lists; the fold over a concatenation is the composition of the folds. -/

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold of a concatenation is the fold of the second list from the fold of the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

variable {F : FTy → Type} [FloatOps F]

/-- The whole program's fold, by its five lists. -/
theorem after_ops (V : Valuation τ sig (Elt F)) :
    after ValueP.ops V = after ValueP.tl (after ValueP.it3 (after ValueP.it2 (after ValueP.it1 (after ValueP.pre V)))) := by
  simp only [ValueP.ops, after_append]

/-! No operation writes an argument buffer: from any contents, each of the five lists leaves each argument its own. -/

set_option maxRecDepth 8192 in
set_option maxHeartbeats 4000000 in
theorem pre_arg0 (V : Valuation τ sig (Elt F)) :
    after ValueP.pre V (Proc.devRef .tc main_arg0) = V (Proc.devRef .tc main_arg0) := by
  after_results_simp <;> rfl

set_option maxRecDepth 8192 in
set_option maxHeartbeats 4000000 in
theorem pre_arg1 (V : Valuation τ sig (Elt F)) :
    after ValueP.pre V (Proc.devRef .tc main_arg1) = V (Proc.devRef .tc main_arg1) := by
  after_results_simp <;> rfl

set_option maxRecDepth 8192 in
set_option maxHeartbeats 4000000 in
theorem pre_arg2 (V : Valuation τ sig (Elt F)) :
    after ValueP.pre V (Proc.devRef .tc main_arg2) = V (Proc.devRef .tc main_arg2) := by
  after_results_simp <;> rfl

set_option maxRecDepth 8192 in
set_option maxHeartbeats 4000000 in
theorem pre_arg3 (V : Valuation τ sig (Elt F)) :
    after ValueP.pre V (Proc.devRef .tc main_arg3) = V (Proc.devRef .tc main_arg3) := by
  after_results_simp <;> rfl

set_option maxRecDepth 8192 in
set_option maxHeartbeats 4000000 in
theorem it1_arg0 (V : Valuation τ sig (Elt F)) :
    after ValueP.it1 V (Proc.devRef .tc main_arg0) = V (Proc.devRef .tc main_arg0) := by
  after_results_simp <;> rfl

set_option maxRecDepth 8192 in
set_option maxHeartbeats 4000000 in
theorem it1_arg1 (V : Valuation τ sig (Elt F)) :
    after ValueP.it1 V (Proc.devRef .tc main_arg1) = V (Proc.devRef .tc main_arg1) := by
  after_results_simp <;> rfl

set_option maxRecDepth 8192 in
set_option maxHeartbeats 4000000 in
theorem it1_arg2 (V : Valuation τ sig (Elt F)) :
    after ValueP.it1 V (Proc.devRef .tc main_arg2) = V (Proc.devRef .tc main_arg2) := by
  after_results_simp <;> rfl

set_option maxRecDepth 8192 in
set_option maxHeartbeats 4000000 in
theorem it1_arg3 (V : Valuation τ sig (Elt F)) :
    after ValueP.it1 V (Proc.devRef .tc main_arg3) = V (Proc.devRef .tc main_arg3) := by
  after_results_simp <;> rfl

set_option maxRecDepth 8192 in
set_option maxHeartbeats 4000000 in
theorem it2_arg0 (V : Valuation τ sig (Elt F)) :
    after ValueP.it2 V (Proc.devRef .tc main_arg0) = V (Proc.devRef .tc main_arg0) := by
  after_results_simp <;> rfl

set_option maxRecDepth 8192 in
set_option maxHeartbeats 4000000 in
theorem it2_arg1 (V : Valuation τ sig (Elt F)) :
    after ValueP.it2 V (Proc.devRef .tc main_arg1) = V (Proc.devRef .tc main_arg1) := by
  after_results_simp <;> rfl

set_option maxRecDepth 8192 in
set_option maxHeartbeats 4000000 in
theorem it2_arg2 (V : Valuation τ sig (Elt F)) :
    after ValueP.it2 V (Proc.devRef .tc main_arg2) = V (Proc.devRef .tc main_arg2) := by
  after_results_simp <;> rfl

set_option maxRecDepth 8192 in
set_option maxHeartbeats 4000000 in
theorem it2_arg3 (V : Valuation τ sig (Elt F)) :
    after ValueP.it2 V (Proc.devRef .tc main_arg3) = V (Proc.devRef .tc main_arg3) := by
  after_results_simp <;> rfl

set_option maxRecDepth 8192 in
set_option maxHeartbeats 4000000 in
theorem it3_arg0 (V : Valuation τ sig (Elt F)) :
    after ValueP.it3 V (Proc.devRef .tc main_arg0) = V (Proc.devRef .tc main_arg0) := by
  after_results_simp <;> rfl

set_option maxRecDepth 8192 in
set_option maxHeartbeats 4000000 in
theorem it3_arg1 (V : Valuation τ sig (Elt F)) :
    after ValueP.it3 V (Proc.devRef .tc main_arg1) = V (Proc.devRef .tc main_arg1) := by
  after_results_simp <;> rfl

set_option maxRecDepth 8192 in
set_option maxHeartbeats 4000000 in
theorem it3_arg2 (V : Valuation τ sig (Elt F)) :
    after ValueP.it3 V (Proc.devRef .tc main_arg2) = V (Proc.devRef .tc main_arg2) := by
  after_results_simp <;> rfl

set_option maxRecDepth 8192 in
set_option maxHeartbeats 4000000 in
theorem it3_arg3 (V : Valuation τ sig (Elt F)) :
    after ValueP.it3 V (Proc.devRef .tc main_arg3) = V (Proc.devRef .tc main_arg3) := by
  after_results_simp <;> rfl

set_option maxRecDepth 8192 in
set_option maxHeartbeats 4000000 in
theorem tl_arg0 (V : Valuation τ sig (Elt F)) :
    after ValueP.tl V (Proc.devRef .tc main_arg0) = V (Proc.devRef .tc main_arg0) := by
  after_results_simp <;> rfl

set_option maxRecDepth 8192 in
set_option maxHeartbeats 4000000 in
theorem tl_arg1 (V : Valuation τ sig (Elt F)) :
    after ValueP.tl V (Proc.devRef .tc main_arg1) = V (Proc.devRef .tc main_arg1) := by
  after_results_simp <;> rfl

set_option maxRecDepth 8192 in
set_option maxHeartbeats 4000000 in
theorem tl_arg2 (V : Valuation τ sig (Elt F)) :
    after ValueP.tl V (Proc.devRef .tc main_arg2) = V (Proc.devRef .tc main_arg2) := by
  after_results_simp <;> rfl

set_option maxRecDepth 8192 in
set_option maxHeartbeats 4000000 in
theorem tl_arg3 (V : Valuation τ sig (Elt F)) :
    after ValueP.tl V (Proc.devRef .tc main_arg3) = V (Proc.devRef .tc main_arg3) := by
  after_results_simp <;> rfl

theorem after_ops_arg0 (V : Valuation τ sig (Elt F)) :
    after ValueP.ops V (Proc.devRef .tc main_arg0) = V (Proc.devRef .tc main_arg0) := by
  rw [after_ops, tl_arg0, it3_arg0, it2_arg0, it1_arg0, pre_arg0]

theorem after_ops_arg1 (V : Valuation τ sig (Elt F)) :
    after ValueP.ops V (Proc.devRef .tc main_arg1) = V (Proc.devRef .tc main_arg1) := by
  rw [after_ops, tl_arg1, it3_arg1, it2_arg1, it1_arg1, pre_arg1]

theorem after_ops_arg2 (V : Valuation τ sig (Elt F)) :
    after ValueP.ops V (Proc.devRef .tc main_arg2) = V (Proc.devRef .tc main_arg2) := by
  rw [after_ops, tl_arg2, it3_arg2, it2_arg2, it1_arg2, pre_arg2]

theorem after_ops_arg3 (V : Valuation τ sig (Elt F)) :
    after ValueP.ops V (Proc.devRef .tc main_arg3) = V (Proc.devRef .tc main_arg3) := by
  rw [after_ops, tl_arg3, it3_arg3, it2_arg3, it1_arg3, pre_arg3]

/-! Every operation determines its results (none allocates a buffer). -/

set_option maxRecDepth 8192 in
set_option maxHeartbeats 4000000 in
theorem pre_fresh : ∀ op ∈ (ValueP.pre : List (HloOp τ sig (Elt F))), op.fresh = ∅ := by
  intro _ h; (repeat (cases h with | head => rfl | tail _ h => ?_)); exact nomatch h

set_option maxRecDepth 8192 in
set_option maxHeartbeats 4000000 in
theorem it1_fresh : ∀ op ∈ (ValueP.it1 : List (HloOp τ sig (Elt F))), op.fresh = ∅ := by
  intro _ h; (repeat (cases h with | head => rfl | tail _ h => ?_)); exact nomatch h

set_option maxRecDepth 8192 in
set_option maxHeartbeats 4000000 in
theorem it2_fresh : ∀ op ∈ (ValueP.it2 : List (HloOp τ sig (Elt F))), op.fresh = ∅ := by
  intro _ h; (repeat (cases h with | head => rfl | tail _ h => ?_)); exact nomatch h

set_option maxRecDepth 8192 in
set_option maxHeartbeats 4000000 in
theorem it3_fresh : ∀ op ∈ (ValueP.it3 : List (HloOp τ sig (Elt F))), op.fresh = ∅ := by
  intro _ h; (repeat (cases h with | head => rfl | tail _ h => ?_)); exact nomatch h

set_option maxRecDepth 8192 in
set_option maxHeartbeats 4000000 in
theorem tl_fresh : ∀ op ∈ (ValueP.tl : List (HloOp τ sig (Elt F))), op.fresh = ∅ := by
  intro _ h; (repeat (cases h with | head => rfl | tail _ h => ?_)); exact nomatch h

theorem ops_fresh : ∀ op ∈ (ValueP.ops : List (HloOp τ sig (Elt F))), op.fresh = ∅ := by
  intro op h
  rcases List.mem_append.1 h with h | h
  · rcases List.mem_append.1 h with h | h
    · rcases List.mem_append.1 h with h | h
      · rcases List.mem_append.1 h with h | h
        · exact pre_fresh op h
        · exact it1_fresh op h
      · exact it2_fresh op h
    · exact it3_fresh op h
  · exact tl_fresh op h

/-- On every device, for any float values, from any memory with zero counters: every weakly fair execution of
    @main terminates with the result buffer at the fold of the operations over the launch contents and the
    arguments unchanged. -/
theorem run_folded (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v306)
          = after ValueP.ops (launchContents m c) (Proc.devRef .tc main_v306)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v306,
      (h c main_arg0).trans (after_ops_arg0 _),
      (h c main_arg1).trans (after_ops_arg1 _),
      (h c main_arg2).trans (after_ops_arg2 _),
      (h c main_arg3).trans (after_ops_arg3 _)⟩)
    (run_seq ValueP.scopedRefs_eq ValueP.scopedSems_eq defs main (fun _ => ValueP.ops) ValueP.main_eq
      (fun _ => ValueP.ops_sub) m ρ (fun _ => ops_fresh))

/-- The run's frame: every weakly fair execution of @main terminates with the four arguments unchanged. -/
theorem frame_ri_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (run_folded m ρ)

end Cert.ReferenceIdeal.RefRun

end
-- ==== Proof.Ref.PreTail.lean ====
import proofs.«134770_j15015205667393_2_alg».proof.Proof.RefOps
import proofs.«134770_j15015205667393_2_alg».proof.Proof.Ref.Run
import proofs.«134770_j15015205667393_2_alg».proof.Proof.KI.HostSide

/-! The reference's first and last stretches of host operations read as pure array terms: before the first
iteration, the cost is the first argument negated and the pairwise table is the four tables (right, left, down, up)
built from the jump costs and joined along the direction axis, the edge weights and the starting messages
untouched; after the last iteration, the result is the softmax over the labels of minus (the four messages' sum plus
the cost). The terms are the ones the kernel program's host side is read as. -/

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- A list of operations run as its first `n` and then the rest. -/
theorem after_take_drop {τ : Topo} {sig : RefSig} {Val : EltTy → Type} (n : Nat) (l : List (HloOp τ sig Val))
    (V : Valuation τ sig Val) : after l V = after (l.drop n) (after (l.take n) V) := by
  rw [← after_append, List.take_append_drop]

variable {F : FTy → Type} [FloatOps F]

set_option maxHeartbeats 4000000 in
/-- The cost: the first argument negated. -/
theorem ref_pre_cost (W : Valuation τ sig (Elt F)) :
    after ValueP.pre W (Proc.devRef .tc main_v0) = Cert.KernelIdeal.HostSide.costT (W (Proc.devRef .tc main_arg0)) := by
  after_results_simp; rfl

/-- The first stretch leaves the edge weights and the starting messages as they were. -/
theorem ref_pre_arg1 (W : Valuation τ sig (Elt F)) :
    after ValueP.pre W (Proc.devRef .tc main_arg1) = W (Proc.devRef .tc main_arg1) := pre_arg1 W
theorem ref_pre_arg2 (W : Valuation τ sig (Elt F)) :
    after ValueP.pre W (Proc.devRef .tc main_arg2) = W (Proc.devRef .tc main_arg2) := pre_arg2 W

set_option maxHeartbeats 4000000 in
/-- The pairwise table: the four directions' tables joined along the direction axis. -/
theorem ref_pre_pw (W : Valuation τ sig (Elt F)) :
    after ValueP.pre W (Proc.devRef .tc main_v19) = Cert.KernelIdeal.HostSide.pwT (W (Proc.devRef .tc main_arg3)) := by
  rw [after_take_drop 19 ValueP.pre W]
  generalize hU : after ((ValueP.pre (F := F)).take 19) W = U
  have e0 : U (Proc.devRef .tc main_v2) = Cert.KernelIdeal.HostSide.jump0 (W (Proc.devRef .tc main_arg3)) := by
    subst hU; simp only [List.take_succ_cons, List.take_zero]; after_results_simp; rfl
  have e1 : U (Proc.devRef .tc main_v7) = Cert.KernelIdeal.HostSide.pwLeft (W (Proc.devRef .tc main_arg3)) := by
    subst hU; simp only [List.take_succ_cons, List.take_zero]; after_results_simp; rfl
  have e2 : U (Proc.devRef .tc main_v9) = Cert.KernelIdeal.HostSide.jump1 (W (Proc.devRef .tc main_arg3)) := by
    subst hU; simp only [List.take_succ_cons, List.take_zero]; after_results_simp; rfl
  have e3 : U (Proc.devRef .tc main_v14) = Cert.KernelIdeal.HostSide.pwUp (W (Proc.devRef .tc main_arg3)) := by
    subst hU; simp only [List.take_succ_cons, List.take_zero]; after_results_simp; rfl
  rw [after_take_drop 4 ((ValueP.pre (F := F)).drop 19) U]
  generalize hY : after (((ValueP.pre (F := F)).drop 19).take 4) U = Y
  have b0 : Y (Proc.devRef .tc main_v15) = Cert.KernelIdeal.HostSide.bc5 (U (Proc.devRef .tc main_v2)) := by
    subst hY; simp only [List.drop_succ_cons, List.drop_zero, List.take_succ_cons, List.take_zero]; after_results_simp
  have b1 : Y (Proc.devRef .tc main_v16) = Cert.KernelIdeal.HostSide.bc5 (U (Proc.devRef .tc main_v7)) := by
    subst hY; simp only [List.drop_succ_cons, List.drop_zero, List.take_succ_cons, List.take_zero]; after_results_simp
  have b2 : Y (Proc.devRef .tc main_v17) = Cert.KernelIdeal.HostSide.bc5 (U (Proc.devRef .tc main_v9)) := by
    subst hY; simp only [List.drop_succ_cons, List.drop_zero, List.take_succ_cons, List.take_zero]; after_results_simp
  have b3 : Y (Proc.devRef .tc main_v18) = Cert.KernelIdeal.HostSide.bc5 (U (Proc.devRef .tc main_v14)) := by
    subst hY; simp only [List.drop_succ_cons, List.drop_zero, List.take_succ_cons, List.take_zero]; after_results_simp
  simp only [List.drop_succ_cons, List.drop_zero, after_cons, after_nil]
  rw [nary_result]
  show concatenate S4x128x256x32x32 0
      [⟨S1x128x256x32x32, Y (Proc.devRef .tc main_v15)⟩, ⟨S1x128x256x32x32, Y (Proc.devRef .tc main_v16)⟩,
       ⟨S1x128x256x32x32, Y (Proc.devRef .tc main_v17)⟩, ⟨S1x128x256x32x32, Y (Proc.devRef .tc main_v18)⟩] _ = _
  rw [b0, b1, b2, b3, e0, e1, e2, e3]
  rfl

set_option maxHeartbeats 4000000 in
/-- The last stretch: the result from the cost and the last iteration's messages. -/
theorem ref_tl (W : Valuation τ sig (Elt F)) :
    after ValueP.tl W (Proc.devRef .tc main_v306)
      = Cert.KernelIdeal.HostSide.tailT (W (Proc.devRef .tc main_v0)) (W (Proc.devRef .tc main_v292)) := by
  after_results_simp
  rfl

end Cert.ReferenceIdeal.RefRun

end
-- ==== Proof.Ref.Iter.lean ====
import proofs.«134770_j15015205667393_2_alg».proof.Proof.Ref.Run
import proofs.«134770_j15015205667393_2_alg».proof.Proof.Ref.IterDefs

/-! The three iterations of the reference program: each of the three lists of 108 operations computes ONE function
    (`RefIter.refIter`) of the negated cost, the pairwise table, the edge weights and the previous messages, from any
    contents, and leaves the first three as they were. Each list is read buffer by buffer — the belief, then per
    direction the minimized candidates, the moved plane, the normalized plane laid as a slab —, each from the one
    before it, and the four slabs are joined. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefIter

variable {F : FTy → Type} [FloatOps F]

/-- A list of operations run as its first `n` and then the rest. -/
theorem after_split (n : Nat) (l : List (HloOp τ sig (Elt F))) (V : Valuation τ sig (Elt F)) :
    after l V = after (l.drop n) (after (l.take n) V) := by
  rw [← after_append, List.take_append_drop]

/-! ### The list `it1`: its buffers, each from the one before it -/

set_option maxRecDepth 16384 in
set_option maxHeartbeats 4000000 in
theorem it1_tot (W : Valuation τ sig (Elt F)) :
    after ValueP.it1 W (Proc.devRef .tc main_v21) = totR (W (Proc.devRef .tc main_v0)) (W (Proc.devRef .tc main_arg2)) := by
  unfold totR
  after_results_simp <;> rfl

set_option maxRecDepth 16384 in
set_option maxHeartbeats 4000000 in
theorem it1_mp0 (W : Valuation τ sig (Elt F)) :
    after ValueP.it1 W (Proc.devRef .tc main_v36) = mpR0 (after ValueP.it1 W (Proc.devRef .tc main_v21)) (W (Proc.devRef .tc main_arg2)) (W (Proc.devRef .tc main_arg1)) (W (Proc.devRef .tc main_v19)) := by
  unfold mpR0 mpRg
  after_results_simp <;> rfl

set_option maxRecDepth 16384 in
set_option maxHeartbeats 4000000 in
/-- The moved plane: the operations carry their operands through the transports between a buffer's type and its
    value's type; each transport is the identity, and is removed where it stands. -/
theorem it1_mv0 (W : Valuation τ sig (Elt F)) :
    after ValueP.it1 W (Proc.devRef .tc main_v38) = mvR0 (after ValueP.it1 W (Proc.devRef .tc main_v36)) := by
  unfold mvR0 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 1, 0] ![0, 0, 0, 0] ![0, 0, 0, 0] a b pads_S1x128x255x32_S1x128x256x32_000_000_100_000 h_S_) (cast_eq _ _) ?_
  exact (cast_eq _ _).trans ((cast_eq _ _).trans (congrArg (sitofp .f32) (cast_eq _ _)))

set_option maxRecDepth 16384 in
set_option maxHeartbeats 4000000 in
theorem it1_bc0 (W : Valuation τ sig (Elt F)) :
    after ValueP.it1 W (Proc.devRef .tc main_v106) = bcR (nrR (after ValueP.it1 W (Proc.devRef .tc main_v38))) := by
  unfold nrR
  after_results_simp <;> rfl

set_option maxRecDepth 16384 in
set_option maxHeartbeats 4000000 in
theorem it1_mp1 (W : Valuation τ sig (Elt F)) :
    after ValueP.it1 W (Proc.devRef .tc main_v57) = mpR1 (after ValueP.it1 W (Proc.devRef .tc main_v21)) (W (Proc.devRef .tc main_arg2)) (W (Proc.devRef .tc main_arg1)) (W (Proc.devRef .tc main_v19)) := by
  unfold mpR1 mpRg
  after_results_simp <;> rfl

set_option maxRecDepth 16384 in
set_option maxHeartbeats 4000000 in
/-- The moved plane: the operations carry their operands through the transports between a buffer's type and its
    value's type; each transport is the identity, and is removed where it stands. -/
theorem it1_mv1 (W : Valuation τ sig (Elt F)) :
    after ValueP.it1 W (Proc.devRef .tc main_v59) = mvR1 (after ValueP.it1 W (Proc.devRef .tc main_v57)) := by
  unfold mvR1 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 0, 0] ![0, 0, 1, 0] ![0, 0, 0, 0] a b pads_S1x128x255x32_S1x128x256x32_000_000_010_000 h_S_) (cast_eq _ _) ?_
  exact (cast_eq _ _).trans ((cast_eq _ _).trans (congrArg (sitofp .f32) (cast_eq _ _)))

set_option maxRecDepth 16384 in
set_option maxHeartbeats 4000000 in
theorem it1_bc1 (W : Valuation τ sig (Elt F)) :
    after ValueP.it1 W (Proc.devRef .tc main_v107) = bcR (nrR (after ValueP.it1 W (Proc.devRef .tc main_v59))) := by
  unfold nrR
  after_results_simp <;> rfl

set_option maxRecDepth 16384 in
set_option maxHeartbeats 4000000 in
theorem it1_mp2 (W : Valuation τ sig (Elt F)) :
    after ValueP.it1 W (Proc.devRef .tc main_v78) = mpR2 (after ValueP.it1 W (Proc.devRef .tc main_v21)) (W (Proc.devRef .tc main_arg2)) (W (Proc.devRef .tc main_arg1)) (W (Proc.devRef .tc main_v19)) := by
  unfold mpR2 mpRg
  after_results_simp <;> rfl

set_option maxRecDepth 16384 in
set_option maxHeartbeats 4000000 in
/-- The moved plane: the operations carry their operands through the transports between a buffer's type and its
    value's type; each transport is the identity, and is removed where it stands. -/
theorem it1_mv2 (W : Valuation τ sig (Elt F)) :
    after ValueP.it1 W (Proc.devRef .tc main_v80) = mvR2 (after ValueP.it1 W (Proc.devRef .tc main_v78)) := by
  unfold mvR2 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 1, 0, 0] ![0, 0, 0, 0] ![0, 0, 0, 0] a b pads_S1x127x256x32_S1x128x256x32_000_100_000_000 h_S_) (cast_eq _ _) ?_
  exact (cast_eq _ _).trans ((cast_eq _ _).trans (congrArg (sitofp .f32) (cast_eq _ _)))

set_option maxRecDepth 16384 in
set_option maxHeartbeats 4000000 in
theorem it1_bc2 (W : Valuation τ sig (Elt F)) :
    after ValueP.it1 W (Proc.devRef .tc main_v108) = bcR (nrR (after ValueP.it1 W (Proc.devRef .tc main_v80))) := by
  unfold nrR
  after_results_simp <;> rfl

set_option maxRecDepth 16384 in
set_option maxHeartbeats 4000000 in
theorem it1_mp3 (W : Valuation τ sig (Elt F)) :
    after ValueP.it1 W (Proc.devRef .tc main_v99) = mpR3 (after ValueP.it1 W (Proc.devRef .tc main_v21)) (W (Proc.devRef .tc main_arg2)) (W (Proc.devRef .tc main_arg1)) (W (Proc.devRef .tc main_v19)) := by
  unfold mpR3 mpRg
  after_results_simp <;> rfl

set_option maxRecDepth 16384 in
set_option maxHeartbeats 4000000 in
/-- The moved plane: the operations carry their operands through the transports between a buffer's type and its
    value's type; each transport is the identity, and is removed where it stands. -/
theorem it1_mv3 (W : Valuation τ sig (Elt F)) :
    after ValueP.it1 W (Proc.devRef .tc main_v101) = mvR3 (after ValueP.it1 W (Proc.devRef .tc main_v99)) := by
  unfold mvR3 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 0, 0, 0] ![0, 1, 0, 0] ![0, 0, 0, 0] a b pads_S1x127x256x32_S1x128x256x32_000_010_000_000 h_S_) (cast_eq _ _) ?_
  exact (cast_eq _ _).trans ((cast_eq _ _).trans (congrArg (sitofp .f32) (cast_eq _ _)))

set_option maxRecDepth 16384 in
set_option maxHeartbeats 4000000 in
theorem it1_bc3 (W : Valuation τ sig (Elt F)) :
    after ValueP.it1 W (Proc.devRef .tc main_v109) = bcR (nrR (after ValueP.it1 W (Proc.devRef .tc main_v101))) := by
  unfold nrR
  after_results_simp <;> rfl

set_option maxRecDepth 16384 in
set_option maxHeartbeats 4000000 in
/-- The list `it1` computes one iteration, from any contents. -/
theorem it1_out (W : Valuation τ sig (Elt F)) :
    after ValueP.it1 W (Proc.devRef .tc main_v110) = refIter (W (Proc.devRef .tc main_v0)) (W (Proc.devRef .tc main_v19)) (W (Proc.devRef .tc main_arg1)) (W (Proc.devRef .tc main_arg2)) := by
  have B0 : after ValueP.it1 W (Proc.devRef .tc main_v106) = bcR (nrR (mvR0 (mpR0 (totR (W (Proc.devRef .tc main_v0)) (W (Proc.devRef .tc main_arg2))) (W (Proc.devRef .tc main_arg2)) (W (Proc.devRef .tc main_arg1)) (W (Proc.devRef .tc main_v19))))) := by
    rw [it1_bc0, it1_mv0, it1_mp0, it1_tot]
  have B1 : after ValueP.it1 W (Proc.devRef .tc main_v107) = bcR (nrR (mvR1 (mpR1 (totR (W (Proc.devRef .tc main_v0)) (W (Proc.devRef .tc main_arg2))) (W (Proc.devRef .tc main_arg2)) (W (Proc.devRef .tc main_arg1)) (W (Proc.devRef .tc main_v19))))) := by
    rw [it1_bc1, it1_mv1, it1_mp1, it1_tot]
  have B2 : after ValueP.it1 W (Proc.devRef .tc main_v108) = bcR (nrR (mvR2 (mpR2 (totR (W (Proc.devRef .tc main_v0)) (W (Proc.devRef .tc main_arg2))) (W (Proc.devRef .tc main_arg2)) (W (Proc.devRef .tc main_arg1)) (W (Proc.devRef .tc main_v19))))) := by
    rw [it1_bc2, it1_mv2, it1_mp2, it1_tot]
  have B3 : after ValueP.it1 W (Proc.devRef .tc main_v109) = bcR (nrR (mvR3 (mpR3 (totR (W (Proc.devRef .tc main_v0)) (W (Proc.devRef .tc main_arg2))) (W (Proc.devRef .tc main_arg2)) (W (Proc.devRef .tc main_arg1)) (W (Proc.devRef .tc main_v19))))) := by
    rw [it1_bc3, it1_mv3, it1_mp3, it1_tot]
  rw [after_split 107 ValueP.it1 W] at B0 B1 B2 B3 ⊢
  generalize after (List.take 107 ValueP.it1) W = U at B0 B1 B2 B3 ⊢
  simp only [List.drop_succ_cons, List.drop_zero, after_cons, after_nil] at B0 B1 B2 B3 ⊢
  simp (disch := decide) only [nary_result_ne'] at B0 B1 B2 B3
  rw [nary_result]
  show concatenate S1x4x128x256x32 1 [⟨S1x1x128x256x32, U (Proc.devRef .tc main_v106)⟩, ⟨S1x1x128x256x32, U (Proc.devRef .tc main_v107)⟩,
    ⟨S1x1x128x256x32, U (Proc.devRef .tc main_v108)⟩, ⟨S1x1x128x256x32, U (Proc.devRef .tc main_v109)⟩] _ = _
  rw [B0, B1, B2, B3]
  rfl

set_option maxRecDepth 16384 in
set_option maxHeartbeats 4000000 in
/-- The list `it1` leaves the negated cost as it was. -/
theorem it1_v0 (W : Valuation τ sig (Elt F)) :
    after ValueP.it1 W (Proc.devRef .tc main_v0) = W (Proc.devRef .tc main_v0) := by
  after_results_simp <;> rfl

set_option maxRecDepth 16384 in
set_option maxHeartbeats 4000000 in
/-- The list `it1` leaves the pairwise table as it was. -/
theorem it1_v19 (W : Valuation τ sig (Elt F)) :
    after ValueP.it1 W (Proc.devRef .tc main_v19) = W (Proc.devRef .tc main_v19) := by
  after_results_simp <;> rfl

/-! ### The list `it2`: its buffers, each from the one before it -/

set_option maxRecDepth 16384 in
set_option maxHeartbeats 4000000 in
theorem it2_tot (W : Valuation τ sig (Elt F)) :
    after ValueP.it2 W (Proc.devRef .tc main_v112) = totR (W (Proc.devRef .tc main_v0)) (W (Proc.devRef .tc main_v110)) := by
  unfold totR
  after_results_simp <;> rfl

set_option maxRecDepth 16384 in
set_option maxHeartbeats 4000000 in
theorem it2_mp0 (W : Valuation τ sig (Elt F)) :
    after ValueP.it2 W (Proc.devRef .tc main_v127) = mpR0 (after ValueP.it2 W (Proc.devRef .tc main_v112)) (W (Proc.devRef .tc main_v110)) (W (Proc.devRef .tc main_arg1)) (W (Proc.devRef .tc main_v19)) := by
  unfold mpR0 mpRg
  after_results_simp <;> rfl

set_option maxRecDepth 16384 in
set_option maxHeartbeats 4000000 in
/-- The moved plane: the operations carry their operands through the transports between a buffer's type and its
    value's type; each transport is the identity, and is removed where it stands. -/
theorem it2_mv0 (W : Valuation τ sig (Elt F)) :
    after ValueP.it2 W (Proc.devRef .tc main_v129) = mvR0 (after ValueP.it2 W (Proc.devRef .tc main_v127)) := by
  unfold mvR0 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 1, 0] ![0, 0, 0, 0] ![0, 0, 0, 0] a b pads_S1x128x255x32_S1x128x256x32_000_000_100_000 h_S_) (cast_eq _ _) ?_
  exact (cast_eq _ _).trans ((cast_eq _ _).trans (congrArg (sitofp .f32) (cast_eq _ _)))

set_option maxRecDepth 16384 in
set_option maxHeartbeats 4000000 in
theorem it2_bc0 (W : Valuation τ sig (Elt F)) :
    after ValueP.it2 W (Proc.devRef .tc main_v197) = bcR (nrR (after ValueP.it2 W (Proc.devRef .tc main_v129))) := by
  unfold nrR
  after_results_simp <;> rfl

set_option maxRecDepth 16384 in
set_option maxHeartbeats 4000000 in
theorem it2_mp1 (W : Valuation τ sig (Elt F)) :
    after ValueP.it2 W (Proc.devRef .tc main_v148) = mpR1 (after ValueP.it2 W (Proc.devRef .tc main_v112)) (W (Proc.devRef .tc main_v110)) (W (Proc.devRef .tc main_arg1)) (W (Proc.devRef .tc main_v19)) := by
  unfold mpR1 mpRg
  after_results_simp <;> rfl

set_option maxRecDepth 16384 in
set_option maxHeartbeats 4000000 in
/-- The moved plane: the operations carry their operands through the transports between a buffer's type and its
    value's type; each transport is the identity, and is removed where it stands. -/
theorem it2_mv1 (W : Valuation τ sig (Elt F)) :
    after ValueP.it2 W (Proc.devRef .tc main_v150) = mvR1 (after ValueP.it2 W (Proc.devRef .tc main_v148)) := by
  unfold mvR1 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 0, 0] ![0, 0, 1, 0] ![0, 0, 0, 0] a b pads_S1x128x255x32_S1x128x256x32_000_000_010_000 h_S_) (cast_eq _ _) ?_
  exact (cast_eq _ _).trans ((cast_eq _ _).trans (congrArg (sitofp .f32) (cast_eq _ _)))

set_option maxRecDepth 16384 in
set_option maxHeartbeats 4000000 in
theorem it2_bc1 (W : Valuation τ sig (Elt F)) :
    after ValueP.it2 W (Proc.devRef .tc main_v198) = bcR (nrR (after ValueP.it2 W (Proc.devRef .tc main_v150))) := by
  unfold nrR
  after_results_simp <;> rfl

set_option maxRecDepth 16384 in
set_option maxHeartbeats 4000000 in
theorem it2_mp2 (W : Valuation τ sig (Elt F)) :
    after ValueP.it2 W (Proc.devRef .tc main_v169) = mpR2 (after ValueP.it2 W (Proc.devRef .tc main_v112)) (W (Proc.devRef .tc main_v110)) (W (Proc.devRef .tc main_arg1)) (W (Proc.devRef .tc main_v19)) := by
  unfold mpR2 mpRg
  after_results_simp <;> rfl

set_option maxRecDepth 16384 in
set_option maxHeartbeats 4000000 in
/-- The moved plane: the operations carry their operands through the transports between a buffer's type and its
    value's type; each transport is the identity, and is removed where it stands. -/
theorem it2_mv2 (W : Valuation τ sig (Elt F)) :
    after ValueP.it2 W (Proc.devRef .tc main_v171) = mvR2 (after ValueP.it2 W (Proc.devRef .tc main_v169)) := by
  unfold mvR2 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 1, 0, 0] ![0, 0, 0, 0] ![0, 0, 0, 0] a b pads_S1x127x256x32_S1x128x256x32_000_100_000_000 h_S_) (cast_eq _ _) ?_
  exact (cast_eq _ _).trans ((cast_eq _ _).trans (congrArg (sitofp .f32) (cast_eq _ _)))

set_option maxRecDepth 16384 in
set_option maxHeartbeats 4000000 in
theorem it2_bc2 (W : Valuation τ sig (Elt F)) :
    after ValueP.it2 W (Proc.devRef .tc main_v199) = bcR (nrR (after ValueP.it2 W (Proc.devRef .tc main_v171))) := by
  unfold nrR
  after_results_simp <;> rfl

set_option maxRecDepth 16384 in
set_option maxHeartbeats 4000000 in
theorem it2_mp3 (W : Valuation τ sig (Elt F)) :
    after ValueP.it2 W (Proc.devRef .tc main_v190) = mpR3 (after ValueP.it2 W (Proc.devRef .tc main_v112)) (W (Proc.devRef .tc main_v110)) (W (Proc.devRef .tc main_arg1)) (W (Proc.devRef .tc main_v19)) := by
  unfold mpR3 mpRg
  after_results_simp <;> rfl

set_option maxRecDepth 16384 in
set_option maxHeartbeats 4000000 in
/-- The moved plane: the operations carry their operands through the transports between a buffer's type and its
    value's type; each transport is the identity, and is removed where it stands. -/
theorem it2_mv3 (W : Valuation τ sig (Elt F)) :
    after ValueP.it2 W (Proc.devRef .tc main_v192) = mvR3 (after ValueP.it2 W (Proc.devRef .tc main_v190)) := by
  unfold mvR3 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 0, 0, 0] ![0, 1, 0, 0] ![0, 0, 0, 0] a b pads_S1x127x256x32_S1x128x256x32_000_010_000_000 h_S_) (cast_eq _ _) ?_
  exact (cast_eq _ _).trans ((cast_eq _ _).trans (congrArg (sitofp .f32) (cast_eq _ _)))

set_option maxRecDepth 16384 in
set_option maxHeartbeats 4000000 in
theorem it2_bc3 (W : Valuation τ sig (Elt F)) :
    after ValueP.it2 W (Proc.devRef .tc main_v200) = bcR (nrR (after ValueP.it2 W (Proc.devRef .tc main_v192))) := by
  unfold nrR
  after_results_simp <;> rfl

set_option maxRecDepth 16384 in
set_option maxHeartbeats 4000000 in
/-- The list `it2` computes one iteration, from any contents. -/
theorem it2_out (W : Valuation τ sig (Elt F)) :
    after ValueP.it2 W (Proc.devRef .tc main_v201) = refIter (W (Proc.devRef .tc main_v0)) (W (Proc.devRef .tc main_v19)) (W (Proc.devRef .tc main_arg1)) (W (Proc.devRef .tc main_v110)) := by
  have B0 : after ValueP.it2 W (Proc.devRef .tc main_v197) = bcR (nrR (mvR0 (mpR0 (totR (W (Proc.devRef .tc main_v0)) (W (Proc.devRef .tc main_v110))) (W (Proc.devRef .tc main_v110)) (W (Proc.devRef .tc main_arg1)) (W (Proc.devRef .tc main_v19))))) := by
    rw [it2_bc0, it2_mv0, it2_mp0, it2_tot]
  have B1 : after ValueP.it2 W (Proc.devRef .tc main_v198) = bcR (nrR (mvR1 (mpR1 (totR (W (Proc.devRef .tc main_v0)) (W (Proc.devRef .tc main_v110))) (W (Proc.devRef .tc main_v110)) (W (Proc.devRef .tc main_arg1)) (W (Proc.devRef .tc main_v19))))) := by
    rw [it2_bc1, it2_mv1, it2_mp1, it2_tot]
  have B2 : after ValueP.it2 W (Proc.devRef .tc main_v199) = bcR (nrR (mvR2 (mpR2 (totR (W (Proc.devRef .tc main_v0)) (W (Proc.devRef .tc main_v110))) (W (Proc.devRef .tc main_v110)) (W (Proc.devRef .tc main_arg1)) (W (Proc.devRef .tc main_v19))))) := by
    rw [it2_bc2, it2_mv2, it2_mp2, it2_tot]
  have B3 : after ValueP.it2 W (Proc.devRef .tc main_v200) = bcR (nrR (mvR3 (mpR3 (totR (W (Proc.devRef .tc main_v0)) (W (Proc.devRef .tc main_v110))) (W (Proc.devRef .tc main_v110)) (W (Proc.devRef .tc main_arg1)) (W (Proc.devRef .tc main_v19))))) := by
    rw [it2_bc3, it2_mv3, it2_mp3, it2_tot]
  rw [after_split 107 ValueP.it2 W] at B0 B1 B2 B3 ⊢
  generalize after (List.take 107 ValueP.it2) W = U at B0 B1 B2 B3 ⊢
  simp only [List.drop_succ_cons, List.drop_zero, after_cons, after_nil] at B0 B1 B2 B3 ⊢
  simp (disch := decide) only [nary_result_ne'] at B0 B1 B2 B3
  rw [nary_result]
  show concatenate S1x4x128x256x32 1 [⟨S1x1x128x256x32, U (Proc.devRef .tc main_v197)⟩, ⟨S1x1x128x256x32, U (Proc.devRef .tc main_v198)⟩,
    ⟨S1x1x128x256x32, U (Proc.devRef .tc main_v199)⟩, ⟨S1x1x128x256x32, U (Proc.devRef .tc main_v200)⟩] _ = _
  rw [B0, B1, B2, B3]
  rfl

set_option maxRecDepth 16384 in
set_option maxHeartbeats 4000000 in
/-- The list `it2` leaves the negated cost as it was. -/
theorem it2_v0 (W : Valuation τ sig (Elt F)) :
    after ValueP.it2 W (Proc.devRef .tc main_v0) = W (Proc.devRef .tc main_v0) := by
  after_results_simp <;> rfl

set_option maxRecDepth 16384 in
set_option maxHeartbeats 4000000 in
/-- The list `it2` leaves the pairwise table as it was. -/
theorem it2_v19 (W : Valuation τ sig (Elt F)) :
    after ValueP.it2 W (Proc.devRef .tc main_v19) = W (Proc.devRef .tc main_v19) := by
  after_results_simp <;> rfl

/-! ### The list `it3`: its buffers, each from the one before it -/

set_option maxRecDepth 16384 in
set_option maxHeartbeats 4000000 in
theorem it3_tot (W : Valuation τ sig (Elt F)) :
    after ValueP.it3 W (Proc.devRef .tc main_v203) = totR (W (Proc.devRef .tc main_v0)) (W (Proc.devRef .tc main_v201)) := by
  unfold totR
  after_results_simp <;> rfl

set_option maxRecDepth 16384 in
set_option maxHeartbeats 4000000 in
theorem it3_mp0 (W : Valuation τ sig (Elt F)) :
    after ValueP.it3 W (Proc.devRef .tc main_v218) = mpR0 (after ValueP.it3 W (Proc.devRef .tc main_v203)) (W (Proc.devRef .tc main_v201)) (W (Proc.devRef .tc main_arg1)) (W (Proc.devRef .tc main_v19)) := by
  unfold mpR0 mpRg
  after_results_simp <;> rfl

set_option maxRecDepth 16384 in
set_option maxHeartbeats 4000000 in
/-- The moved plane: the operations carry their operands through the transports between a buffer's type and its
    value's type; each transport is the identity, and is removed where it stands. -/
theorem it3_mv0 (W : Valuation τ sig (Elt F)) :
    after ValueP.it3 W (Proc.devRef .tc main_v220) = mvR0 (after ValueP.it3 W (Proc.devRef .tc main_v218)) := by
  unfold mvR0 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 1, 0] ![0, 0, 0, 0] ![0, 0, 0, 0] a b pads_S1x128x255x32_S1x128x256x32_000_000_100_000 h_S_) (cast_eq _ _) ?_
  exact (cast_eq _ _).trans ((cast_eq _ _).trans (congrArg (sitofp .f32) (cast_eq _ _)))

set_option maxRecDepth 16384 in
set_option maxHeartbeats 4000000 in
theorem it3_bc0 (W : Valuation τ sig (Elt F)) :
    after ValueP.it3 W (Proc.devRef .tc main_v288) = bcR (nrR (after ValueP.it3 W (Proc.devRef .tc main_v220))) := by
  unfold nrR
  after_results_simp <;> rfl

set_option maxRecDepth 16384 in
set_option maxHeartbeats 4000000 in
theorem it3_mp1 (W : Valuation τ sig (Elt F)) :
    after ValueP.it3 W (Proc.devRef .tc main_v239) = mpR1 (after ValueP.it3 W (Proc.devRef .tc main_v203)) (W (Proc.devRef .tc main_v201)) (W (Proc.devRef .tc main_arg1)) (W (Proc.devRef .tc main_v19)) := by
  unfold mpR1 mpRg
  after_results_simp <;> rfl

set_option maxRecDepth 16384 in
set_option maxHeartbeats 4000000 in
/-- The moved plane: the operations carry their operands through the transports between a buffer's type and its
    value's type; each transport is the identity, and is removed where it stands. -/
theorem it3_mv1 (W : Valuation τ sig (Elt F)) :
    after ValueP.it3 W (Proc.devRef .tc main_v241) = mvR1 (after ValueP.it3 W (Proc.devRef .tc main_v239)) := by
  unfold mvR1 zeroR
  after_results_simp
  refine (cast_eq _ _).trans ?_
  refine congrArg₂ (fun (a : (⟨S1x128x255x32, .f32⟩ : BufTy).Contents (Elt F)) (b : (⟨S_, .f32⟩ : BufTy).Contents (Elt F)) =>
    pad S1x128x256x32 ![0, 0, 0, 0] ![0, 0, 1, 0] ![0, 0, 0, 0] a b pads_S1x128x255x32_S1x128x256x32_000_000_010_000 h_S_) (cast_eq _ _) ?_
  exact (cast_eq _ _).trans ((cast_eq _ _).trans (congrArg (sitofp .f32) (cast_eq _ _)))

set_option maxRecDepth 16384 in
set_option maxHeartbeats 4000000 in
theorem it3_bc1 (W : Valuation τ sig (Elt F)) :
    after ValueP.it3 W (Proc.devRef .tc main_v289) = bcR (nrR (after ValueP.it3 W (Proc.devRef .tc main_v241))) := by
  unfold nrR
  after_results_simp <;> rfl

set_option maxRecDepth 16384 in
set_option maxHeartbeats 4000000 in
theorem it3_mp2 (W : Valuation τ sig (Elt F)) :
    after ValueP.it3 W (Proc.devRef .tc main_v260) = mpR2 (after ValueP.it3 W (Proc.devRef .tc main_v203)) (W (Proc.devRef .tc main_v201)) (W (Proc.devRef .tc main_arg1)) (W (Proc.devRef .tc main_v19)) := by
  unfold mpR2 mpRg
  after_results_simp <;> rfl

set_option maxRecDepth 16384 in
set_option maxHeartbeats 4000000 in
/-- The moved plane: the operations carry their operands through the transports between a buffer's type and its
    value's type; each transport is the identity, and is removed where it stands. -/
theorem it3_mv2 (W : Valuation τ sig (Elt F)) :
    after ValueP.it3 W (Proc.devRef .tc main_v262) = mvR2 (after ValueP.it3 W (Proc.devRef .tc main_v260)) := by
  unfold mvR2 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 1, 0, 0] ![0, 0, 0, 0] ![0, 0, 0, 0] a b pads_S1x127x256x32_S1x128x256x32_000_100_000_000 h_S_) (cast_eq _ _) ?_
  exact (cast_eq _ _).trans ((cast_eq _ _).trans (congrArg (sitofp .f32) (cast_eq _ _)))

set_option maxRecDepth 16384 in
set_option maxHeartbeats 4000000 in
theorem it3_bc2 (W : Valuation τ sig (Elt F)) :
    after ValueP.it3 W (Proc.devRef .tc main_v290) = bcR (nrR (after ValueP.it3 W (Proc.devRef .tc main_v262))) := by
  unfold nrR
  after_results_simp <;> rfl

set_option maxRecDepth 16384 in
set_option maxHeartbeats 4000000 in
theorem it3_mp3 (W : Valuation τ sig (Elt F)) :
    after ValueP.it3 W (Proc.devRef .tc main_v281) = mpR3 (after ValueP.it3 W (Proc.devRef .tc main_v203)) (W (Proc.devRef .tc main_v201)) (W (Proc.devRef .tc main_arg1)) (W (Proc.devRef .tc main_v19)) := by
  unfold mpR3 mpRg
  after_results_simp <;> rfl

set_option maxRecDepth 16384 in
set_option maxHeartbeats 4000000 in
/-- The moved plane: the operations carry their operands through the transports between a buffer's type and its
    value's type; each transport is the identity, and is removed where it stands. -/
theorem it3_mv3 (W : Valuation τ sig (Elt F)) :
    after ValueP.it3 W (Proc.devRef .tc main_v283) = mvR3 (after ValueP.it3 W (Proc.devRef .tc main_v281)) := by
  unfold mvR3 zeroR
  after_results_simp
  refine (cast_eq _ _).trans ?_
  refine congrArg₂ (fun (a : (⟨S1x127x256x32, .f32⟩ : BufTy).Contents (Elt F)) (b : (⟨S_, .f32⟩ : BufTy).Contents (Elt F)) =>
    pad S1x128x256x32 ![0, 0, 0, 0] ![0, 1, 0, 0] ![0, 0, 0, 0] a b pads_S1x127x256x32_S1x128x256x32_000_010_000_000 h_S_) (cast_eq _ _) ?_
  exact (cast_eq _ _).trans ((cast_eq _ _).trans (congrArg (sitofp .f32) (cast_eq _ _)))

set_option maxRecDepth 16384 in
set_option maxHeartbeats 4000000 in
theorem it3_bc3 (W : Valuation τ sig (Elt F)) :
    after ValueP.it3 W (Proc.devRef .tc main_v291) = bcR (nrR (after ValueP.it3 W (Proc.devRef .tc main_v283))) := by
  unfold nrR
  after_results_simp <;> rfl

set_option maxRecDepth 16384 in
set_option maxHeartbeats 4000000 in
/-- The list `it3` computes one iteration, from any contents. -/
theorem it3_out (W : Valuation τ sig (Elt F)) :
    after ValueP.it3 W (Proc.devRef .tc main_v292) = refIter (W (Proc.devRef .tc main_v0)) (W (Proc.devRef .tc main_v19)) (W (Proc.devRef .tc main_arg1)) (W (Proc.devRef .tc main_v201)) := by
  have B0 : after ValueP.it3 W (Proc.devRef .tc main_v288) = bcR (nrR (mvR0 (mpR0 (totR (W (Proc.devRef .tc main_v0)) (W (Proc.devRef .tc main_v201))) (W (Proc.devRef .tc main_v201)) (W (Proc.devRef .tc main_arg1)) (W (Proc.devRef .tc main_v19))))) := by
    rw [it3_bc0, it3_mv0, it3_mp0, it3_tot]
  have B1 : after ValueP.it3 W (Proc.devRef .tc main_v289) = bcR (nrR (mvR1 (mpR1 (totR (W (Proc.devRef .tc main_v0)) (W (Proc.devRef .tc main_v201))) (W (Proc.devRef .tc main_v201)) (W (Proc.devRef .tc main_arg1)) (W (Proc.devRef .tc main_v19))))) := by
    rw [it3_bc1, it3_mv1, it3_mp1, it3_tot]
  have B2 : after ValueP.it3 W (Proc.devRef .tc main_v290) = bcR (nrR (mvR2 (mpR2 (totR (W (Proc.devRef .tc main_v0)) (W (Proc.devRef .tc main_v201))) (W (Proc.devRef .tc main_v201)) (W (Proc.devRef .tc main_arg1)) (W (Proc.devRef .tc main_v19))))) := by
    rw [it3_bc2, it3_mv2, it3_mp2, it3_tot]
  have B3 : after ValueP.it3 W (Proc.devRef .tc main_v291) = bcR (nrR (mvR3 (mpR3 (totR (W (Proc.devRef .tc main_v0)) (W (Proc.devRef .tc main_v201))) (W (Proc.devRef .tc main_v201)) (W (Proc.devRef .tc main_arg1)) (W (Proc.devRef .tc main_v19))))) := by
    rw [it3_bc3, it3_mv3, it3_mp3, it3_tot]
  rw [after_split 107 ValueP.it3 W] at B0 B1 B2 B3 ⊢
  generalize after (List.take 107 ValueP.it3) W = U at B0 B1 B2 B3 ⊢
  simp only [List.drop_succ_cons, List.drop_zero, after_cons, after_nil] at B0 B1 B2 B3 ⊢
  simp (disch := decide) only [nary_result_ne'] at B0 B1 B2 B3
  rw [nary_result]
  show concatenate S1x4x128x256x32 1 [⟨S1x1x128x256x32, U (Proc.devRef .tc main_v288)⟩, ⟨S1x1x128x256x32, U (Proc.devRef .tc main_v289)⟩,
    ⟨S1x1x128x256x32, U (Proc.devRef .tc main_v290)⟩, ⟨S1x1x128x256x32, U (Proc.devRef .tc main_v291)⟩] _ = _
  rw [B0, B1, B2, B3]
  rfl

set_option maxRecDepth 16384 in
set_option maxHeartbeats 4000000 in
/-- The list `it3` leaves the negated cost as it was. -/
theorem it3_v0 (W : Valuation τ sig (Elt F)) :
    after ValueP.it3 W (Proc.devRef .tc main_v0) = W (Proc.devRef .tc main_v0) := by
  after_results_simp <;> rfl

set_option maxRecDepth 16384 in
set_option maxHeartbeats 4000000 in
/-- The list `it3` leaves the pairwise table as it was. -/
theorem it3_v19 (W : Valuation τ sig (Elt F)) :
    after ValueP.it3 W (Proc.devRef .tc main_v19) = W (Proc.devRef .tc main_v19) := by
  after_results_simp <;> rfl

end Cert.ReferenceIdeal.RefRun

end
-- ==== Proof.Ref.Result.lean ====
import proofs.«134770_j15015205667393_2_alg».proof.Proof.Ref.PreTail
import proofs.«134770_j15015205667393_2_alg».proof.Proof.Ref.Iter

/-! The reference's result as one term of its four arguments: the softmax tail of three iterations of one step, from
the negated first argument as the cost, the pairwise table built from the fourth, the edge weights (the second) and
the starting messages (the third). -/

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of the reference's operations over any valuation, at the result buffer. -/
theorem ref_result_of (V : Valuation τ sig (Elt F)) :
    after ValueP.ops V (Proc.devRef .tc main_v306)
      = Cert.KernelIdeal.HostSide.tailT (Cert.KernelIdeal.HostSide.costT (V (Proc.devRef .tc main_arg0)))
          (RefIter.refIter (Cert.KernelIdeal.HostSide.costT (V (Proc.devRef .tc main_arg0))) (Cert.KernelIdeal.HostSide.pwT (V (Proc.devRef .tc main_arg3))) (V (Proc.devRef .tc main_arg1))
            (RefIter.refIter (Cert.KernelIdeal.HostSide.costT (V (Proc.devRef .tc main_arg0))) (Cert.KernelIdeal.HostSide.pwT (V (Proc.devRef .tc main_arg3))) (V (Proc.devRef .tc main_arg1))
              (RefIter.refIter (Cert.KernelIdeal.HostSide.costT (V (Proc.devRef .tc main_arg0))) (Cert.KernelIdeal.HostSide.pwT (V (Proc.devRef .tc main_arg3))) (V (Proc.devRef .tc main_arg1))
                (V (Proc.devRef .tc main_arg2))))) := by
  rw [after_ops, ref_tl, it3_out, it3_v0, it2_out, it2_v0, it2_v19, it2_arg1,
    it1_out, it1_v0, it1_v19, it1_arg1, ref_pre_cost, ref_pre_pw, pre_arg1, pre_arg2]

/-- On device `c`, from launch memory `m'`: the result buffer after the reference's operations. -/
theorem ref_result (m' : (ℓ : Loc nD τ sig) → Buf (Elt F) ℓ) (c : Dev nD) :
    after ValueP.ops (fun b => m' (c, b)) (Proc.devRef .tc main_v306)
      = Cert.KernelIdeal.HostSide.tailT (Cert.KernelIdeal.HostSide.costT (m' ((c.tc : Thread nD τ).loc main_arg0)))
          (RefIter.refIter (Cert.KernelIdeal.HostSide.costT (m' ((c.tc : Thread nD τ).loc main_arg0))) (Cert.KernelIdeal.HostSide.pwT (m' ((c.tc : Thread nD τ).loc main_arg3))) (m' ((c.tc : Thread nD τ).loc main_arg1))
            (RefIter.refIter (Cert.KernelIdeal.HostSide.costT (m' ((c.tc : Thread nD τ).loc main_arg0))) (Cert.KernelIdeal.HostSide.pwT (m' ((c.tc : Thread nD τ).loc main_arg3))) (m' ((c.tc : Thread nD τ).loc main_arg1))
              (RefIter.refIter (Cert.KernelIdeal.HostSide.costT (m' ((c.tc : Thread nD τ).loc main_arg0))) (Cert.KernelIdeal.HostSide.pwT (m' ((c.tc : Thread nD τ).loc main_arg3))) (m' ((c.tc : Thread nD τ).loc main_arg1))
                (m' ((c.tc : Thread nD τ).loc main_arg2))))) :=
  ref_result_of (fun b => m' (c, b))

end Cert.ReferenceIdeal.RefRun

end
-- ==== Proof.Bridge.lean ====
import proofs.«134770_j15015205667393_2_alg».proof.Defs
import proofs.«134770_j15015205667393_2_alg».proof.Proof.Gen.Pre_finite_inputs
import proofs.«134770_j15015205667393_2_alg».proof.Proof.KI.Result
import proofs.«134770_j15015205667393_2_alg».proof.Proof.Ref.IterRead
import proofs.«134770_j15015205667393_2_alg».proof.Proof.Ref.Result

/-! The two idealized programs end with the same result: a step of the kernel program (a launch, then the move to the
receiver pixels) is an iteration of the reference, as functions of the cost, the pairwise table, the edge weights and
the messages; the cost, the table and the softmax tail are the same host operations. -/

set_option maxRecDepth 16384

noncomputable section

namespace Cert.Bridge

open Idealize.ShloMosaic Idealize.ShloMosaic.TcCoe Idealize.SL.Sem Idealize.ShloMosaic.ValueIdx
open Cert.KernelIdeal.HostSide

/-- The kernel's edge weights — the reference's with the direction axis moved behind the row axis — index as the
    reference's do. -/
theorem eOfK_etT (x1 : (⟨Cert.KernelIdeal.S1x4x128x256, .f32⟩ : BufTy).Contents (Elt Ideal)) :
    Cert.Spec.eOfK (etT x1) = Cert.Spec.eOfR x1 := by
  funext d h w
  unfold Cert.Spec.eOfK Cert.Spec.eOfR etT
  exact transpose_apply [0, 2, 1, 3] x1 Cert.KernelIdeal.Gen.transposes_S1x4x128x256_S1x128x4x256_0_2_1_3 (ix4 (0 : Fin 1) h d w) (ix4 (0 : Fin 1) d h w)
    (fun b => match b with
      | ⟨0, _⟩ => rfl
      | ⟨1, _⟩ => rfl
      | ⟨2, _⟩ => rfl
      | ⟨3, _⟩ => rfl)

/-- A launch followed by the move is one iteration of the reference. -/
theorem step_eq (cost : (⟨Cert.KernelIdeal.S1x128x256x32, .f32⟩ : BufTy).Contents (Elt Ideal))
    (pw : (⟨Cert.KernelIdeal.S4x128x256x32x32, .f32⟩ : BufTy).Contents (Elt Ideal))
    (x1 : (⟨Cert.KernelIdeal.S1x4x128x256, .f32⟩ : BufTy).Contents (Elt Ideal))
    (msgs : (⟨Cert.KernelIdeal.S1x4x128x256x32, .f32⟩ : BufTy).Contents (Elt Ideal)) :
    shiftT (F := Ideal) (Cert.Spec.outK cost (etT x1) msgs pw) = Cert.ReferenceIdeal.RefIter.refIter (F := Ideal) cost pw x1 msgs := by
  rw [shift_outK, Cert.ReferenceIdeal.RefIter.refIter_eq_stepR, Cert.Spec.stepK_eq_stepR, eOfK_etT]

/-- From memories agreeing on the arguments both idealized programs run, leave the arguments unchanged, and end with
    the same result: the softmax tail of the cost and three steps applied to the argument messages. -/
theorem algebraic : Cert.algebraic_KernelIdeal_ReferenceIdeal := by
  intro m ρ m' ρ' _ hagree
  refine ⟨fun c => tailT (costA m c) (stepA m c (stepA m c (stepA m c (m ((c.tc : Thread Cert.KernelIdeal.nD Cert.KernelIdeal.τ).loc Cert.KernelIdeal.main_arg2))))), ?_, ?_⟩
  · refine (θ_run Cert.KernelIdeal.defs _ _).mono (fun r h c => ⟨?_, ?_, ?_, ?_, ?_⟩) (Cert.KernelIdeal.GenP.run_all m ρ)
    · exact (h c (Proc.devRef .tc Cert.KernelIdeal.main_v88) (Finset.mem_filter.mpr ⟨StableHlo.devRef_mem_tcRefs Cert.KernelIdeal.main_v88, by decide⟩)).trans (result_eq m c)
    · exact (h c (Proc.devRef .tc Cert.KernelIdeal.main_arg0) (Finset.mem_filter.mpr ⟨StableHlo.devRef_mem_tcRefs Cert.KernelIdeal.main_arg0, by decide⟩)).trans (Cert.KernelIdeal.GenP.V35_main_arg0 m (Cert.KernelIdeal.GenP.outs m) c)
    · exact (h c (Proc.devRef .tc Cert.KernelIdeal.main_arg1) (Finset.mem_filter.mpr ⟨StableHlo.devRef_mem_tcRefs Cert.KernelIdeal.main_arg1, by decide⟩)).trans (Cert.KernelIdeal.GenP.V35_main_arg1 m (Cert.KernelIdeal.GenP.outs m) c)
    · exact (h c (Proc.devRef .tc Cert.KernelIdeal.main_arg2) (Finset.mem_filter.mpr ⟨StableHlo.devRef_mem_tcRefs Cert.KernelIdeal.main_arg2, by decide⟩)).trans (Cert.KernelIdeal.GenP.V35_main_arg2 m (Cert.KernelIdeal.GenP.outs m) c)
    · exact (h c (Proc.devRef .tc Cert.KernelIdeal.main_arg3) (Finset.mem_filter.mpr ⟨StableHlo.devRef_mem_tcRefs Cert.KernelIdeal.main_arg3, by decide⟩)).trans (Cert.KernelIdeal.GenP.V35_main_arg3 m (Cert.KernelIdeal.GenP.outs m) c)
  · refine (θ_run Cert.ReferenceIdeal.defs _ _).mono (fun r h c => ⟨(h c).1.trans ?_, (h c).2⟩) (Cert.ReferenceIdeal.RefRun.run_folded m' ρ')
    rw [Cert.ReferenceIdeal.RefRun.ref_result m' c]
    show tailT _ _ = tailT _ _
    unfold stepA costA etA pwA
    rw [(hagree c).1, (hagree c).2.1, (hagree c).2.2.1, (hagree c).2.2.2]
    rw [step_eq, step_eq, step_eq]

end Cert.Bridge

end
-- ==== Proof.lean ====
/- The proof of `Cert.Claim`: the three programs' frames, the idealization's one trivial conjunct, and the equality of
   the idealized kernel program's and the idealized reference's results.

   The kernel program is three launches of one min-sum message-passing kernel among host stretches. Its frame (at the
   word level and at the ideal values alike) is the several-regions launch over the three regions' records: each
   region's body stores its output block as four slabs, one per direction. At the ideal values a launch leaves, at
   direction d, pixel (h, w) and label l, the message `min over l' of ((cost + Σ msgs) − msgs (opp d) + e · pw)`
   normalised by its minimum over l; the host then moves each direction's plane one pixel towards the receiver,
   writing zero on the border. The reference moves first and normalises at the receiver. The two steps are one
   function of the arrays with no hypothesis on their entries (`Cert.Spec.stepK_eq_stepR`): off the border they are the
   same expression, on it the reference's 0 − min (0, …, 0) is 0. The cost, the pairwise table and the softmax tail are
   the same host operations in both programs. -/
import proofs.«134770_j15015205667393_2_alg».proof.Defs
import proofs.«134770_j15015205667393_2_alg».proof.Proof.K.Frame
import proofs.«134770_j15015205667393_2_alg».proof.Proof.KI.Frame
import proofs.«134770_j15015205667393_2_alg».proof.Proof.KI.Result
import proofs.«134770_j15015205667393_2_alg».proof.Proof.Bridge
import proofs.«134770_j15015205667393_2_alg».proof.Proof.Gen.Kernel
import proofs.«134770_j15015205667393_2_alg».proof.Proof.Gen.KernelIdeal
import proofs.«134770_j15015205667393_2_alg».proof.Proof.Gen.ReferenceIdeal
import proofs.«134770_j15015205667393_2_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel := fun m ρ _ => Cert.Kernel.GenP.frame m ρ

/-- So does the idealized kernel program. -/
theorem frame_pi : Cert.frame_KernelIdeal := fun m ρ _ => Cert.KernelIdeal.GenP.frame m ρ

/-- So does the idealized reference: a host program with no kernel. -/
theorem frame_ri : Cert.frame_ReferenceIdeal := fun m ρ _ => Cert.ReferenceIdeal.RefRun.frame_ri_run m ρ

/-- The ideal pass rewrote nothing. -/
theorem preserves : Cert.preserves_Kernel_KernelIdeal := trivial

/-- From memories agreeing on the arguments both idealized programs run, and end with the same result. -/
theorem algebraic : Cert.algebraic_KernelIdeal_ReferenceIdeal := Cert.Bridge.algebraic

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
